-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2601) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S128x64 : Shape := ⟨2, ![128, 64]⟩
abbrev S16x128 : Shape := ⟨2, ![16, 128]⟩
abbrev S128 : Shape := ⟨1, ![128]⟩
abbrev S16 : Shape := ⟨1, ![16]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S16 .f32) (main_arg5 : FVec F S128 .f32) (main_arg6 : FVec F S16 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S16384x64 .f32) (main_arg1 : FVec F S128x64 .f32) (main_arg2 : FVec F S16x128 .f32) (main_arg3 : FVec F S128 .f32) (main_arg4 : FVec F S16 .f32) (main_arg5 : FVec F S128 .f32) (main_arg6 : FVec F S16 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S16x128 .f32 := Host.absf main_arg2
  let main_cst_2 : FVec F S_ .f32 := constant S_ .f32 0x7F800000#32
  let main_v10 : FVec F S16x128 .f32 := broadcastInDim S16x128 ![] bcast_S_S16x128 main_cst_2
  let main_v11 : IVec S16x128 1 := cmpf .olt main_v9 main_v10
  let main_c_3 : IVec S_ 1 := constantI S_ 1 1#1
  let main_v12 : IVec S_ 1 := (fun x v => Host.reduce IntOp.andi x v reducesTo_S16x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_v13 main_v16
-- ==== Kernel.lean ====
abbrev S16384x64 : Shape := ⟨2, ![16384, 64]⟩
abbrev S128x64 : Shape := ⟨2, ![128, 64]⟩
abbrev S16x128 : Shape := ⟨2, ![16, 128]⟩
abbrev S128 : Shape := ⟨1, ![128]⟩
abbrev S16 : Shape := ⟨1, ![16]⟩
abbrev S64x16384 : Shape := ⟨2, ![64, 16384]⟩
abbrev S128x1 : Shape := ⟨2, ![128, 1]⟩
abbrev S16x1 : Shape := ⟨2, ![16, 1]⟩
abbrev S_ : Shape := ⟨0, ![]⟩
abbrev S128x63 : Shape := ⟨2, ![128, 63]⟩
abbrev S128x128 : Shape := ⟨2, ![128, 128]⟩
abbrev S16x127 : Shape := ⟨2, ![16, 127]⟩
abbrev S160x128 : Shape := ⟨2, ![160, 128]⟩
abbrev S16x16384 : Shape := ⟨2, ![16, 16384]⟩
abbrev S64x8192 : Shape := ⟨2, ![64, 8192]⟩
abbrev S16x8192 : Shape := ⟨2, ![16, 8192]⟩
abbrev S128x8192 : Shape := ⟨2, ![128, 8192]⟩
abbrev S16384x16 : Shape := ⟨2, ![16384, 16]⟩

abbrev nBuf : Space → Nat
  | .hbm => 25
  | .vmem => 5
  | .smem => 0
  | _ => 0

abbrev bufTy : (tb : Table) → Fin (tcTables nBuf tb) → BufTy
  | .hbm, ⟨0, _⟩ => ⟨S16384x64, .f32⟩
  | .hbm, ⟨1, _⟩ => ⟨S128x64, .f32⟩
  | .hbm, ⟨2, _⟩ => ⟨S16x128, .f32⟩
  | .hbm, ⟨3, _⟩ => ⟨S128, .f32⟩
  | .hbm, ⟨4, _⟩ => ⟨S16, .f32⟩
  | .hbm, ⟨5, _⟩ => ⟨S128, .f32⟩
  | .hbm, ⟨6, _⟩ => ⟨S16, .f32⟩
  | .hbm, ⟨7, _⟩ => ⟨S64x16384, .f32⟩
  | .hbm, ⟨8, _⟩ => ⟨S128x1, .f32⟩
  | .hbm, ⟨9, _⟩ => ⟨S128x64, .f32⟩
  | .hbm, ⟨10, _⟩ => ⟨S128x64, .f32⟩
  | .hbm, ⟨11, _⟩ => ⟨S16x1, .f32⟩
  | .hbm, ⟨12, _⟩ => ⟨S16x128, .f32⟩
  | .hbm, ⟨13, _⟩ => ⟨S16x128, .f32⟩
  | .hbm, ⟨14, _⟩ => ⟨S128x1, .f32⟩
  | .hbm, ⟨15, _⟩ => ⟨S_, .f32⟩
  | .hbm, ⟨16, _⟩ => ⟨S128x63, .f32⟩
  | .hbm, ⟨17, _⟩ => ⟨S128x128, .f32⟩
  | .hbm, ⟨18, _⟩ => ⟨S16x1, .f32⟩
  | .hbm, ⟨19, _⟩ => ⟨S_, .f32⟩
  | .hbm, ⟨20, _⟩ => ⟨S16x127, .f32⟩
  | .hbm, ⟨21, _⟩ => ⟨S16x128, .f32⟩
  | .hbm, ⟨22, _⟩ => ⟨S160x128, .f32⟩
  | .hbm, ⟨23, _⟩ => ⟨S16x16384, .f32⟩
  | .hbm, ⟨24, _⟩ => ⟨S16384x16, .f32⟩
  | .local _ .vmem, ⟨0, _⟩ => ⟨S64x8192, .f32⟩
  | .local _ .vmem, ⟨1, _⟩ => ⟨S64x8192, .f32⟩
  | .local _ .vmem, ⟨2, _⟩ => ⟨S160x128, .f32⟩
  | .local _ .vmem, ⟨3, _⟩ => ⟨S16x8192, .f32⟩
  | .local _ .vmem, ⟨4, _⟩ => ⟨S16x8192, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S64x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S160x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S16384x64_S64x16384_1_0 : S16384x64.Transposes [1, 0] S64x16384
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  bcast_S16_S16x1_0 : S16.BroadcastsInDim S16x1 (![0] : Fin 1 → Fin S16x1.rank)
  bcast_S16x1_S16x128_0_1 : S16x1.BroadcastsInDim S16x128 (![0, 1] : Fin 2 → Fin S16x128.rank)
  bcast_S_S128x63 : S_.BroadcastsInDim S128x63 (![] : Fin 0 → Fin S128x63.rank)
  concatenates_S128x64_S128x1_S128x63_S128x128_d1 : Shape.Concatenates [S128x64, S128x1, S128x63] S128x128 1
  bcast_S_S16x127 : S_.BroadcastsInDim S16x127 (![] : Fin 0 → Fin S16x127.rank)
  concatenates_S16x1_S16x127_S16x128_d1 : Shape.Concatenates [S16x1, S16x127] S16x128 1
  concatenates_S128x128_S16x128_S16x128_S160x128_d0 : Shape.Concatenates [S128x128, S16x128, S16x128] S160x128 0
  inb_S160x128_S128x64_0_0 : ∀ a, (![0, 0] : Fin 2 → Nat) a + S128x64.size a ≤ S160x128.size a
  h_S128x64 : 0 < S128x64.numel
  shapeCasts_S128x64_S128x64 : S128x64.ShapeCasts S128x64
  inb_S160x128_S128x1_0_64 : ∀ a, (![0, 64] : Fin 2 → Nat) a + S128x1.size a ≤ S160x128.size a
  h_S128x1 : 0 < S128x1.numel
  shapeCasts_S128x1_S128x1 : S128x1.ShapeCasts S128x1
  inb_S160x128_S16x128_128_0 : ∀ a, (![128, 0] : Fin 2 → Nat) a + S16x128.size a ≤ S160x128.size a
  h_S16x128 : 0 < S16x128.numel
  shapeCasts_S16x128_S16x128 : S16x128.ShapeCasts S16x128
  inb_S160x128_S16x1_144_0 : ∀ a, (![144, 0] : Fin 2 → Nat) a + S16x1.size a ≤ S160x128.size a
  h_S16x1 : 0 < S16x1.numel
  shapeCasts_S16x1_S16x1 : S16x1.ShapeCasts S16x1
  inb_S64x8192_S64x8192_0_0 : ∀ a, (![0, 0] : Fin 2 → Nat) a + S64x8192.size a ≤ S64x8192.size a
  h_S64x8192 : 0 < S64x8192.numel
  shapeCasts_S64x8192_S64x8192 : S64x8192.ShapeCasts S64x8192
  broadcasts_S128x1_S128x8192 : S128x1.Broadcasts S128x8192
  broadcasts_S16x1_S16x8192 : S16x1.Broadcasts S16x8192
  inb_S16x8192_S16x8192_0_0 : ∀ a, (![0, 0] : Fin 2 → Nat) a + S16x8192.size a ≤ S16x8192.size a
  h_S16x8192 : 0 < S16x8192.numel
  transposes_S16x16384_S16384x16_1_0 : S16x16384.Transposes [1, 0] S16384x16
  dot_S128x64_S64x8192_S128x8192_1_0_0_1_n_n_wf : DotDims.WF S128x64 S64x8192 S128x8192 [1] [0] [0] [1] [] []
  dot_S16x128_S128x8192_S16x8192_1_0_0_1_n_n_wf : DotDims.WF S16x128 S128x8192 S16x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x8192.size a ≤ S64x16384.size a
  hwx0_0 : ∀ i : grid0.Coords, EltTy.bits .f32 = 32 ∨ (Rect.block (s := S64x16384) S64x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S160x128.size a ≤ S160x128.size a
  hwx0_1 : ∀ i : grid0.Coords, EltTy.bits .f32 = 32 ∨ (Rect.block (s := S160x128) S160x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x8192.size a ≤ S16x16384.size a
  hwx0_2 : ∀ i : grid0.Coords, EltTy.bits .f32 = 32 ∨ (Rect.block (s := S16x16384) S16x8192.size (cc0_transform_2 i) (hinb0_2 i)).WholeWords (EltTy.packing .f32)

variable [Facts₀]

def dot_S128x64_S64x8192_S128x8192_1_0_0_1_n_n : DotDims S128x64 S64x8192 S128x8192 where
  lhsContracting := [1]
  rhsContracting := [0]
  lhsNonContracting := [0]
  rhsNonContracting := [1]
  lhsBatch := []
  rhsBatch := []
  wf := dot_S128x64_S64x8192_S128x8192_1_0_0_1_n_n_wf
def dot_S16x128_S128x8192_S16x8192_1_0_0_1_n_n : DotDims S16x128 S128x8192 S16x8192 where
  lhsContracting := [1]
  rhsContracting := [0]
  lhsNonContracting := [0]
  rhsNonContracting := [1]
  lhsBatch := []
  rhsBatch := []
  wf := dot_S16x128_S128x8192_S16x8192_1_0_0_1_n_n_wf

abbrev win0_0 : Pipeline.Window sig grid0 :=
  Pipeline.Window.ofSpec (Memref.whole main_v0) S64x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S160x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S16x8192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x64 : Shape := ⟨2, ![16384, 64]⟩
abbrev S128x64 : Shape := ⟨2, ![128, 64]⟩
abbrev S16x128 : Shape := ⟨2, ![16, 128]⟩
abbrev S128 : Shape := ⟨1, ![128]⟩
abbrev S16 : Shape := ⟨1, ![16]⟩
abbrev S_ : Shape := ⟨0, ![]⟩
abbrev S16384x208 : Shape := ⟨2, ![16384, 208]⟩
abbrev S64 : Shape := ⟨1, ![64]⟩
abbrev S64x1 : Shape := ⟨2, ![64, 1]⟩
abbrev S1x64 : Shape := ⟨2, ![1, 64]⟩
abbrev S16384 : Shape := ⟨1, ![16384]⟩
abbrev S1 : Shape := ⟨1, ![1]⟩
abbrev S16384x128 : Shape := ⟨2, ![16384, 128]⟩
abbrev S1x128 : Shape := ⟨2, ![1, 128]⟩
abbrev S16384x16 : Shape := ⟨2, ![16384, 16]⟩

abbrev nBuf : Space → Nat
  | .hbm => 2900
  | .vmem => 0
  | .smem => 0
  | _ => 0

abbrev hbmTy0_0 (i : Nat) : BufTy := match i % 128 with
  | 0 => ⟨S16384x64, .f32⟩
  | 1 => ⟨S128x64, .f32⟩
  | 2 => ⟨S16x128, .f32⟩
  | 3 => ⟨S128, .f32⟩
  | 4 => ⟨S16, .f32⟩
  | 5 => ⟨S128, .f32⟩
  | 6 => ⟨S16, .f32⟩
  | 7 => ⟨S_, .f32⟩
  | 8 => ⟨S16384x208, .f32⟩
  | 9 => ⟨S64, .i32⟩
  | 10 => ⟨S_, .i32⟩
  | 11 => ⟨S64, .i32⟩
  | 12 => ⟨S64, .i1⟩
  | 13 => ⟨S_, .i32⟩
  | 14 => ⟨S64, .i32⟩
  | 15 => ⟨S64, .i32⟩
  | 16 => ⟨S64, .i32⟩
  | 17 => ⟨S64x1, .i32⟩
  | 18 => ⟨S16384x208, .f32⟩
  | 19 => ⟨S16384x64, .f32⟩
  | 20 => ⟨S1x64, .f32⟩
  | 21 => ⟨S64, .f32⟩
  | 22 => ⟨S1x64, .f32⟩
  | 23 => ⟨S16384x64, .f32⟩
  | 24 => ⟨S16384x64, .f32⟩
  | 25 => ⟨S_, .f32⟩
  | 26 => ⟨S16384, .f32⟩
  | 27 => ⟨S1, .f32⟩
  | 28 => ⟨S_, .f32⟩
  | 29 => ⟨S1, .f32⟩
  | 30 => ⟨S_, .f32⟩
  | 31 => ⟨S16384, .f32⟩
  | 32 => ⟨S16384, .f32⟩
  | 33 => ⟨S16384, .f32⟩
  | 34 => ⟨S16384, .f32⟩
  | 35 => ⟨S16384, .f32⟩
  | 36 => ⟨S_, .i32⟩
  | 37 => ⟨S1, .i32⟩
  | 38 => ⟨S16384x208, .f32⟩
  | 39 => ⟨S16384x64, .f32⟩
  | 40 => ⟨S1x64, .f32⟩
  | 41 => ⟨S64, .f32⟩
  | 42 => ⟨S1x64, .f32⟩
  | 43 => ⟨S16384x64, .f32⟩
  | 44 => ⟨S16384x64, .f32⟩
  | 45 => ⟨S_, .f32⟩
  | 46 => ⟨S16384, .f32⟩
  | 47 => ⟨S1, .f32⟩
  | 48 => ⟨S_, .f32⟩
  | 49 => ⟨S1, .f32⟩
  | 50 => ⟨S_, .f32⟩
  | 51 => ⟨S16384, .f32⟩
  | 52 => ⟨S16384, .f32⟩
  | 53 => ⟨S16384, .f32⟩
  | 54 => ⟨S16384, .f32⟩
  | 55 => ⟨S16384, .f32⟩
  | 56 => ⟨S_, .i32⟩
  | 57 => ⟨S1, .i32⟩
  | 58 => ⟨S16384x208, .f32⟩
  | 59 => ⟨S16384x64, .f32⟩
  | 60 => ⟨S1x64, .f32⟩
  | 61 => ⟨S64, .f32⟩
  | 62 => ⟨S1x64, .f32⟩
  | 63 => ⟨S16384x64, .f32⟩
  | 64 => ⟨S16384x64, .f32⟩
  | 65 => ⟨S_, .f32⟩
  | 66 => ⟨S16384, .f32⟩
  | 67 => ⟨S1, .f32⟩
  | 68 => ⟨S_, .f32⟩
  | 69 => ⟨S1, .f32⟩
  | 70 => ⟨S_, .f32⟩
  | 71 => ⟨S16384, .f32⟩
  | 72 => ⟨S16384, .f32⟩
  | 73 => ⟨S16384, .f32⟩
  | 74 => ⟨S16384, .f32⟩
  | 75 => ⟨S16384, .f32⟩
  | 76 => ⟨S_, .i32⟩
  | 77 => ⟨S1, .i32⟩
  | 78 => ⟨S16384x208, .f32⟩
  | 79 => ⟨S16384x64, .f32⟩
  | 80 => ⟨S1x64, .f32⟩
  | 81 => ⟨S64, .f32⟩
  | 82 => ⟨S1x64, .f32⟩
  | 83 => ⟨S16384x64, .f32⟩
  | 84 => ⟨S16384x64, .f32⟩
  | 85 => ⟨S_, .f32⟩
  | 86 => ⟨S16384, .f32⟩
  | 87 => ⟨S1, .f32⟩
  | 88 => ⟨S_, .f32⟩
  | 89 => ⟨S1, .f32⟩
  | 90 => ⟨S_, .f32⟩
  | 91 => ⟨S16384, .f32⟩
  | 92 => ⟨S16384, .f32⟩
  | 93 => ⟨S16384, .f32⟩
  | 94 => ⟨S16384, .f32⟩
  | 95 => ⟨S16384, .f32⟩
  | 96 => ⟨S_, .i32⟩
  | 97 => ⟨S1, .i32⟩
  | 98 => ⟨S16384x208, .f32⟩
  | 99 => ⟨S16384x64, .f32⟩
  | 100 => ⟨S1x64, .f32⟩
  | 101 => ⟨S64, .f32⟩
  | 102 => ⟨S1x64, .f32⟩
  | 103 => ⟨S16384x64, .f32⟩
  | 104 => ⟨S16384x64, .f32⟩
  | 105 => ⟨S_, .f32⟩
  | 106 => ⟨S16384, .f32⟩
  | 107 => ⟨S1, .f32⟩
  | 108 => ⟨S_, .f32⟩
  | 109 => ⟨S1, .f32⟩
  | 110 => ⟨S_, .f32⟩
  | 111 => ⟨S16384, .f32⟩
  | 112 => ⟨S16384, .f32⟩
  | 113 => ⟨S16384, .f32⟩
  | 114 => ⟨S16384, .f32⟩
  | 115 => ⟨S16384, .f32⟩
  | 116 => ⟨S_, .i32⟩
  | 117 => ⟨S1, .i32⟩
  | 118 => ⟨S16384x208, .f32⟩
  | 119 => ⟨S16384x64, .f32⟩
  | 120 => ⟨S1x64, .f32⟩
  | 121 => ⟨S64, .f32⟩
  | 122 => ⟨S1x64, .f32⟩
  | 123 => ⟨S16384x64, .f32⟩
  | 124 => ⟨S16384x64, .f32⟩
  | 125 => ⟨S_, .f32⟩
  | 126 => ⟨S16384, .f32⟩
  | 127 => ⟨S1, .f32⟩
  | _ => ⟨S16384x64, .f32⟩

abbrev hbmTy0_1 (i : Nat) : BufTy := match i % 128 with
  | 0 => ⟨S_, .f32⟩
  | 1 => ⟨S1, .f32⟩
  | 2 => ⟨S_, .f32⟩
  | 3 => ⟨S16384, .f32⟩
  | 4 => ⟨S16384, .f32⟩
  | 5 => ⟨S16384, .f32⟩
  | 6 => ⟨S16384, .f32⟩
  | 7 => ⟨S16384, .f32⟩
  | 8 => ⟨S_, .i32⟩
  | 9 => ⟨S1, .i32⟩
  | 10 => ⟨S16384x208, .f32⟩
  | 11 => ⟨S16384x64, .f32⟩
  | 12 => ⟨S1x64, .f32⟩
  | 13 => ⟨S64, .f32⟩
  | 14 => ⟨S1x64, .f32⟩
  | 15 => ⟨S16384x64, .f32⟩
  | 16 => ⟨S16384x64, .f32⟩
  | 17 => ⟨S_, .f32⟩
  | 18 => ⟨S16384, .f32⟩
  | 19 => ⟨S1, .f32⟩
  | 20 => ⟨S_, .f32⟩
  | 21 => ⟨S1, .f32⟩
  | 22 => ⟨S_, .f32⟩
  | 23 => ⟨S16384, .f32⟩
  | 24 => ⟨S16384, .f32⟩
  | 25 => ⟨S16384, .f32⟩
  | 26 => ⟨S16384, .f32⟩
  | 27 => ⟨S16384, .f32⟩
  | 28 => ⟨S_, .i32⟩
  | 29 => ⟨S1, .i32⟩
  | 30 => ⟨S16384x208, .f32⟩
  | 31 => ⟨S16384x64, .f32⟩
  | 32 => ⟨S1x64, .f32⟩
  | 33 => ⟨S64, .f32⟩
  | 34 => ⟨S1x64, .f32⟩
  | 35 => ⟨S16384x64, .f32⟩
  | 36 => ⟨S16384x64, .f32⟩
  | 37 => ⟨S_, .f32⟩
  | 38 => ⟨S16384, .f32⟩
  | 39 => ⟨S1, .f32⟩
  | 40 => ⟨S_, .f32⟩
  | 41 => ⟨S1, .f32⟩
  | 42 => ⟨S_, .f32⟩
  | 43 => ⟨S16384, .f32⟩
  | 44 => ⟨S16384, .f32⟩
  | 45 => ⟨S16384, .f32⟩
  | 46 => ⟨S16384, .f32⟩
  | 47 => ⟨S16384, .f32⟩
  | 48 => ⟨S_, .i32⟩
  | 49 => ⟨S1, .i32⟩
  | 50 => ⟨S16384x208, .f32⟩
  | 51 => ⟨S16384x64, .f32⟩
  | 52 => ⟨S1x64, .f32⟩
  | 53 => ⟨S64, .f32⟩
  | 54 => ⟨S1x64, .f32⟩
  | 55 => ⟨S16384x64, .f32⟩
  | 56 => ⟨S16384x64, .f32⟩
  | 57 => ⟨S_, .f32⟩
  | 58 => ⟨S16384, .f32⟩
  | 59 => ⟨S1, .f32⟩
  | 60 => ⟨S_, .f32⟩
  | 61 => ⟨S1, .f32⟩
  | 62 => ⟨S_, .f32⟩
  | 63 => ⟨S16384, .f32⟩
  | 64 => ⟨S16384, .f32⟩
  | 65 => ⟨S16384, .f32⟩
  | 66 => ⟨S16384, .f32⟩
  | 67 => ⟨S16384, .f32⟩
  | 68 => ⟨S_, .i32⟩
  | 69 => ⟨S1, .i32⟩
  | 70 => ⟨S16384x208, .f32⟩
  | 71 => ⟨S16384x64, .f32⟩
  | 72 => ⟨S1x64, .f32⟩
  | 73 => ⟨S64, .f32⟩
  | 74 => ⟨S1x64, .f32⟩
  | 75 => ⟨S16384x64, .f32⟩
  | 76 => ⟨S16384x64, .f32⟩
  | 77 => ⟨S_, .f32⟩
  | 78 => ⟨S16384, .f32⟩
  | 79 => ⟨S1, .f32⟩
  | 80 => ⟨S_, .f32⟩
  | 81 => ⟨S1, .f32⟩
  | 82 => ⟨S_, .f32⟩
  | 83 => ⟨S16384, .f32⟩
  | 84 => ⟨S16384, .f32⟩
  | 85 => ⟨S16384, .f32⟩
  | 86 => ⟨S16384, .f32⟩
  | 87 => ⟨S16384, .f32⟩
  | 88 => ⟨S_, .i32⟩
  | 89 => ⟨S1, .i32⟩
  | 90 => ⟨S16384x208, .f32⟩
  | 91 => ⟨S16384x64, .f32⟩
  | 92 => ⟨S1x64, .f32⟩
  | 93 => ⟨S64, .f32⟩
  | 94 => ⟨S1x64, .f32⟩
  | 95 => ⟨S16384x64, .f32⟩
  | 96 => ⟨S16384x64, .f32⟩
  | 97 => ⟨S_, .f32⟩
  | 98 => ⟨S16384, .f32⟩
  | 99 => ⟨S1, .f32⟩
  | 100 => ⟨S_, .f32⟩
  | 101 => ⟨S1, .f32⟩
  | 102 => ⟨S_, .f32⟩
  | 103 => ⟨S16384, .f32⟩
  | 104 => ⟨S16384, .f32⟩
  | 105 => ⟨S16384, .f32⟩
  | 106 => ⟨S16384, .f32⟩
  | 107 => ⟨S16384, .f32⟩
  | 108 => ⟨S_, .i32⟩
  | 109 => ⟨S1, .i32⟩
  | 110 => ⟨S16384x208, .f32⟩
  | 111 => ⟨S16384x64, .f32⟩
  | 112 => ⟨S1x64, .f32⟩
  | 113 => ⟨S64, .f32⟩
  | 114 => ⟨S1x64, .f32⟩
  | 115 => ⟨S16384x64, .f32⟩
  | 116 => ⟨S16384x64, .f32⟩
  | 117 => ⟨S_, .f32⟩
  | 118 => ⟨S16384, .f32⟩
  | 119 => ⟨S1, .f32⟩
  | 120 => ⟨S_, .f32⟩
  | 121 => ⟨S1, .f32⟩
  | 122 => ⟨S_, .f32⟩
  | 123 => ⟨S16384, .f32⟩
  | 124 => ⟨S16384, .f32⟩
  | 125 => ⟨S16384, .f32⟩
  | 126 => ⟨S16384, .f32⟩
  | 127 => ⟨S16384, .f32⟩
  | _ => ⟨S16384x64, .f32⟩

abbrev hbmTy0_2 (i : Nat) : BufTy := match i % 128 with
  | 0 => ⟨S_, .i32⟩
  | 1 => ⟨S1, .i32⟩
  | 2 => ⟨S16384x208, .f32⟩
  | 3 => ⟨S16384x64, .f32⟩
  | 4 => ⟨S1x64, .f32⟩
  | 5 => ⟨S64, .f32⟩
  | 6 => ⟨S1x64, .f32⟩
  | 7 => ⟨S16384x64, .f32⟩
  | 8 => ⟨S16384x64, .f32⟩
  | 9 => ⟨S_, .f32⟩
  | 10 => ⟨S16384, .f32⟩
  | 11 => ⟨S1, .f32⟩
  | 12 => ⟨S_, .f32⟩
  | 13 => ⟨S1, .f32⟩
  | 14 => ⟨S_, .f32⟩
  | 15 => ⟨S16384, .f32⟩
  | 16 => ⟨S16384, .f32⟩
  | 17 => ⟨S16384, .f32⟩
  | 18 => ⟨S16384, .f32⟩
  | 19 => ⟨S16384, .f32⟩
  | 20 => ⟨S_, .i32⟩
  | 21 => ⟨S1, .i32⟩
  | 22 => ⟨S16384x208, .f32⟩
  | 23 => ⟨S16384x64, .f32⟩
  | 24 => ⟨S1x64, .f32⟩
  | 25 => ⟨S64, .f32⟩
  | 26 => ⟨S1x64, .f32⟩
  | 27 => ⟨S16384x64, .f32⟩
  | 28 => ⟨S16384x64, .f32⟩
  | 29 => ⟨S_, .f32⟩
  | 30 => ⟨S16384, .f32⟩
  | 31 => ⟨S1, .f32⟩
  | 32 => ⟨S_, .f32⟩
  | 33 => ⟨S1, .f32⟩
  | 34 => ⟨S_, .f32⟩
  | 35 => ⟨S16384, .f32⟩
  | 36 => ⟨S16384, .f32⟩
  | 37 => ⟨S16384, .f32⟩
  | 38 => ⟨S16384, .f32⟩
  | 39 => ⟨S16384, .f32⟩
  | 40 => ⟨S_, .i32⟩
  | 41 => ⟨S1, .i32⟩
  | 42 => ⟨S16384x208, .f32⟩
  | 43 => ⟨S16384x64, .f32⟩
  | 44 => ⟨S1x64, .f32⟩
  | 45 => ⟨S64, .f32⟩
  | 46 => ⟨S1x64, .f32⟩
  | 47 => ⟨S16384x64, .f32⟩
  | 48 => ⟨S16384x64, .f32⟩
  | 49 => ⟨S_, .f32⟩
  | 50 => ⟨S16384, .f32⟩
  | 51 => ⟨S1, .f32⟩
  | 52 => ⟨S_, .f32⟩
  | 53 => ⟨S1, .f32⟩
  | 54 => ⟨S_, .f32⟩
  | 55 => ⟨S16384, .f32⟩
  | 56 => ⟨S16384, .f32⟩
  | 57 => ⟨S16384, .f32⟩
  | 58 => ⟨S16384, .f32⟩
  | 59 => ⟨S16384, .f32⟩
  | 60 => ⟨S_, .i32⟩
  | 61 => ⟨S1, .i32⟩
  | 62 => ⟨S16384x208, .f32⟩
  | 63 => ⟨S16384x64, .f32⟩
  | 64 => ⟨S1x64, .f32⟩
  | 65 => ⟨S64, .f32⟩
  | 66 => ⟨S1x64, .f32⟩
  | 67 => ⟨S16384x64, .f32⟩
  | 68 => ⟨S16384x64, .f32⟩
  | 69 => ⟨S_, .f32⟩
  | 70 => ⟨S16384, .f32⟩
  | 71 => ⟨S1, .f32⟩
  | 72 => ⟨S_, .f32⟩
  | 73 => ⟨S1, .f32⟩
  | 74 => ⟨S_, .f32⟩
  | 75 => ⟨S16384, .f32⟩
  | 76 => ⟨S16384, .f32⟩
  | 77 => ⟨S16384, .f32⟩
  | 78 => ⟨S16384, .f32⟩
  | 79 => ⟨S16384, .f32⟩
  | 80 => ⟨S_, .i32⟩
  | 81 => ⟨S1, .i32⟩
  | 82 => ⟨S16384x208, .f32⟩
  | 83 => ⟨S16384x64, .f32⟩
  | 84 => ⟨S1x64, .f32⟩
  | 85 => ⟨S64, .f32⟩
  | 86 => ⟨S1x64, .f32⟩
  | 87 => ⟨S16384x64, .f32⟩
  | 88 => ⟨S16384x64, .f32⟩
  | 89 => ⟨S_, .f32⟩
  | 90 => ⟨S16384, .f32⟩
  | 91 => ⟨S1, .f32⟩
  | 92 => ⟨S_, .f32⟩
  | 93 => ⟨S1, .f32⟩
  | 94 => ⟨S_, .f32⟩
  | 95 => ⟨S16384, .f32⟩
  | 96 => ⟨S16384, .f32⟩
  | 97 => ⟨S16384, .f32⟩
  | 98 => ⟨S16384, .f32⟩
  | 99 => ⟨S16384, .f32⟩
  | 100 => ⟨S_, .i32⟩
  | 101 => ⟨S1, .i32⟩
  | 102 => ⟨S16384x208, .f32⟩
  | 103 => ⟨S16384x64, .f32⟩
  | 104 => ⟨S1x64, .f32⟩
  | 105 => ⟨S64, .f32⟩
  | 106 => ⟨S1x64, .f32⟩
  | 107 => ⟨S16384x64, .f32⟩
  | 108 => ⟨S16384x64, .f32⟩
  | 109 => ⟨S_, .f32⟩
  | 110 => ⟨S16384, .f32⟩
  | 111 => ⟨S1, .f32⟩
  | 112 => ⟨S_, .f32⟩
  | 113 => ⟨S1, .f32⟩
  | 114 => ⟨S_, .f32⟩
  | 115 => ⟨S16384, .f32⟩
  | 116 => ⟨S16384, .f32⟩
  | 117 => ⟨S16384, .f32⟩
  | 118 => ⟨S16384, .f32⟩
  | 119 => ⟨S16384, .f32⟩
  | 120 => ⟨S_, .i32⟩
  | 121 => ⟨S1, .i32⟩
  | 122 => ⟨S16384x208, .f32⟩
  | 123 => ⟨S16384x64, .f32⟩
  | 124 => ⟨S1x64, .f32⟩
  | 125 => ⟨S64, .f32⟩
  | 126 => ⟨S1x64, .f32⟩
  | 127 => ⟨S16384x64, .f32⟩
  | _ => ⟨S16384x64, .f32⟩

abbrev hbmTy0_3 (i : Nat) : BufTy := match i % 128 with
  | 0 => ⟨S16384x64, .f32⟩
  | 1 => ⟨S_, .f32⟩
  | 2 => ⟨S16384, .f32⟩
  | 3 => ⟨S1, .f32⟩
  | 4 => ⟨S_, .f32⟩
  | 5 => ⟨S1, .f32⟩
  | 6 => ⟨S_, .f32⟩
  | 7 => ⟨S16384, .f32⟩
  | 8 => ⟨S16384, .f32⟩
  | 9 => ⟨S16384, .f32⟩
  | 10 => ⟨S16384, .f32⟩
  | 11 => ⟨S16384, .f32⟩
  | 12 => ⟨S_, .i32⟩
  | 13 => ⟨S1, .i32⟩
  | 14 => ⟨S16384x208, .f32⟩
  | 15 => ⟨S16384x64, .f32⟩
  | 16 => ⟨S1x64, .f32⟩
  | 17 => ⟨S64, .f32⟩
  | 18 => ⟨S1x64, .f32⟩
  | 19 => ⟨S16384x64, .f32⟩
  | 20 => ⟨S16384x64, .f32⟩
  | 21 => ⟨S_, .f32⟩
  | 22 => ⟨S16384, .f32⟩
  | 23 => ⟨S1, .f32⟩
  | 24 => ⟨S_, .f32⟩
  | 25 => ⟨S1, .f32⟩
  | 26 => ⟨S_, .f32⟩
  | 27 => ⟨S16384, .f32⟩
  | 28 => ⟨S16384, .f32⟩
  | 29 => ⟨S16384, .f32⟩
  | 30 => ⟨S16384, .f32⟩
  | 31 => ⟨S16384, .f32⟩
  | 32 => ⟨S_, .i32⟩
  | 33 => ⟨S1, .i32⟩
  | 34 => ⟨S16384x208, .f32⟩
  | 35 => ⟨S16384x64, .f32⟩
  | 36 => ⟨S1x64, .f32⟩
  | 37 => ⟨S64, .f32⟩
  | 38 => ⟨S1x64, .f32⟩
  | 39 => ⟨S16384x64, .f32⟩
  | 40 => ⟨S16384x64, .f32⟩
  | 41 => ⟨S_, .f32⟩
  | 42 => ⟨S16384, .f32⟩
  | 43 => ⟨S1, .f32⟩
  | 44 => ⟨S_, .f32⟩
  | 45 => ⟨S1, .f32⟩
  | 46 => ⟨S_, .f32⟩
  | 47 => ⟨S16384, .f32⟩
  | 48 => ⟨S16384, .f32⟩
  | 49 => ⟨S16384, .f32⟩
  | 50 => ⟨S16384, .f32⟩
  | 51 => ⟨S16384, .f32⟩
  | 52 => ⟨S_, .i32⟩
  | 53 => ⟨S1, .i32⟩
  | 54 => ⟨S16384x208, .f32⟩
  | 55 => ⟨S16384x64, .f32⟩
  | 56 => ⟨S1x64, .f32⟩
  | 57 => ⟨S64, .f32⟩
  | 58 => ⟨S1x64, .f32⟩
  | 59 => ⟨S16384x64, .f32⟩
  | 60 => ⟨S16384x64, .f32⟩
  | 61 => ⟨S_, .f32⟩
  | 62 => ⟨S16384, .f32⟩
  | 63 => ⟨S1, .f32⟩
  | 64 => ⟨S_, .f32⟩
  | 65 => ⟨S1, .f32⟩
  | 66 => ⟨S_, .f32⟩
  | 67 => ⟨S16384, .f32⟩
  | 68 => ⟨S16384, .f32⟩
  | 69 => ⟨S16384, .f32⟩
  | 70 => ⟨S16384, .f32⟩
  | 71 => ⟨S16384, .f32⟩
  | 72 => ⟨S_, .i32⟩
  | 73 => ⟨S1, .i32⟩
  | 74 => ⟨S16384x208, .f32⟩
  | 75 => ⟨S16384x64, .f32⟩
  | 76 => ⟨S1x64, .f32⟩
  | 77 => ⟨S64, .f32⟩
  | 78 => ⟨S1x64, .f32⟩
  | 79 => ⟨S16384x64, .f32⟩
  | 80 => ⟨S16384x64, .f32⟩
  | 81 => ⟨S_, .f32⟩
  | 82 => ⟨S16384, .f32⟩
  | 83 => ⟨S1, .f32⟩
  | 84 => ⟨S_, .f32⟩
  | 85 => ⟨S1, .f32⟩
  | 86 => ⟨S_, .f32⟩
  | 87 => ⟨S16384, .f32⟩
  | 88 => ⟨S16384, .f32⟩
  | 89 => ⟨S16384, .f32⟩
  | 90 => ⟨S16384, .f32⟩
  | 91 => ⟨S16384, .f32⟩
  | 92 => ⟨S_, .i32⟩
  | 93 => ⟨S1, .i32⟩
  | 94 => ⟨S16384x208, .f32⟩
  | 95 => ⟨S16384x64, .f32⟩
  | 96 => ⟨S1x64, .f32⟩
  | 97 => ⟨S64, .f32⟩
  | 98 => ⟨S1x64, .f32⟩
  | 99 => ⟨S16384x64, .f32⟩
  | 100 => ⟨S16384x64, .f32⟩
  | 101 => ⟨S_, .f32⟩
  | 102 => ⟨S16384, .f32⟩
  | 103 => ⟨S1, .f32⟩
  | 104 => ⟨S_, .f32⟩
  | 105 => ⟨S1, .f32⟩
  | 106 => ⟨S_, .f32⟩
  | 107 => ⟨S16384, .f32⟩
  | 108 => ⟨S16384, .f32⟩
  | 109 => ⟨S16384, .f32⟩
  | 110 => ⟨S16384, .f32⟩
  | 111 => ⟨S16384, .f32⟩
  | 112 => ⟨S_, .i32⟩
  | 113 => ⟨S1, .i32⟩
  | 114 => ⟨S16384x208, .f32⟩
  | 115 => ⟨S16384x64, .f32⟩
  | 116 => ⟨S1x64, .f32⟩
  | 117 => ⟨S64, .f32⟩
  | 118 => ⟨S1x64, .f32⟩
  | 119 => ⟨S16384x64, .f32⟩
  | 120 => ⟨S16384x64, .f32⟩
  | 121 => ⟨S_, .f32⟩
  | 122 => ⟨S16384, .f32⟩
  | 123 => ⟨S1, .f32⟩
  | 124 => ⟨S_, .f32⟩
  | 125 => ⟨S1, .f32⟩
  | 126 => ⟨S_, .f32⟩
  | 127 => ⟨S16384, .f32⟩
  | _ => ⟨S16384x64, .f32⟩

abbrev hbmTy0_4 (i : Nat) : BufTy := match i % 128 with
  | 0 => ⟨S16384, .f32⟩
  | 1 => ⟨S16384, .f32⟩
  | 2 => ⟨S16384, .f32⟩
  | 3 => ⟨S16384, .f32⟩
  | 4 => ⟨S_, .i32⟩
  | 5 => ⟨S1, .i32⟩
  | 6 => ⟨S16384x208, .f32⟩
  | 7 => ⟨S16384x64, .f32⟩
  | 8 => ⟨S1x64, .f32⟩
  | 9 => ⟨S64, .f32⟩
  | 10 => ⟨S1x64, .f32⟩
  | 11 => ⟨S16384x64, .f32⟩
  | 12 => ⟨S16384x64, .f32⟩
  | 13 => ⟨S_, .f32⟩
  | 14 => ⟨S16384, .f32⟩
  | 15 => ⟨S1, .f32⟩
  | 16 => ⟨S_, .f32⟩
  | 17 => ⟨S1, .f32⟩
  | 18 => ⟨S_, .f32⟩
  | 19 => ⟨S16384, .f32⟩
  | 20 => ⟨S16384, .f32⟩
  | 21 => ⟨S16384, .f32⟩
  | 22 => ⟨S16384, .f32⟩
  | 23 => ⟨S16384, .f32⟩
  | 24 => ⟨S_, .i32⟩
  | 25 => ⟨S1, .i32⟩
  | 26 => ⟨S16384x208, .f32⟩
  | 27 => ⟨S16384x64, .f32⟩
  | 28 => ⟨S1x64, .f32⟩
  | 29 => ⟨S64, .f32⟩
  | 30 => ⟨S1x64, .f32⟩
  | 31 => ⟨S16384x64, .f32⟩
  | 32 => ⟨S16384x64, .f32⟩
  | 33 => ⟨S_, .f32⟩
  | 34 => ⟨S16384, .f32⟩
  | 35 => ⟨S1, .f32⟩
  | 36 => ⟨S_, .f32⟩
  | 37 => ⟨S1, .f32⟩
  | 38 => ⟨S_, .f32⟩
  | 39 => ⟨S16384, .f32⟩
  | 40 => ⟨S16384, .f32⟩
  | 41 => ⟨S16384, .f32⟩
  | 42 => ⟨S16384, .f32⟩
  | 43 => ⟨S16384, .f32⟩
  | 44 => ⟨S_, .i32⟩
  | 45 => ⟨S1, .i32⟩
  | 46 => ⟨S16384x208, .f32⟩
  | 47 => ⟨S16384x64, .f32⟩
  | 48 => ⟨S1x64, .f32⟩
  | 49 => ⟨S64, .f32⟩
  | 50 => ⟨S1x64, .f32⟩
  | 51 => ⟨S16384x64, .f32⟩
  | 52 => ⟨S16384x64, .f32⟩
  | 53 => ⟨S_, .f32⟩
  | 54 => ⟨S16384, .f32⟩
  | 55 => ⟨S1, .f32⟩
  | 56 => ⟨S_, .f32⟩
  | 57 => ⟨S1, .f32⟩
  | 58 => ⟨S_, .f32⟩
  | 59 => ⟨S16384, .f32⟩
  | 60 => ⟨S16384, .f32⟩
  | 61 => ⟨S16384, .f32⟩
  | 62 => ⟨S16384, .f32⟩
  | 63 => ⟨S16384, .f32⟩
  | 64 => ⟨S_, .i32⟩
  | 65 => ⟨S1, .i32⟩
  | 66 => ⟨S16384x208, .f32⟩
  | 67 => ⟨S16384x64, .f32⟩
  | 68 => ⟨S1x64, .f32⟩
  | 69 => ⟨S64, .f32⟩
  | 70 => ⟨S1x64, .f32⟩
  | 71 => ⟨S16384x64, .f32⟩
  | 72 => ⟨S16384x64, .f32⟩
  | 73 => ⟨S_, .f32⟩
  | 74 => ⟨S16384, .f32⟩
  | 75 => ⟨S1, .f32⟩
  | 76 => ⟨S_, .f32⟩
  | 77 => ⟨S1, .f32⟩
  | 78 => ⟨S_, .f32⟩
  | 79 => ⟨S16384, .f32⟩
  | 80 => ⟨S16384, .f32⟩
  | 81 => ⟨S16384, .f32⟩
  | 82 => ⟨S16384, .f32⟩
  | 83 => ⟨S16384, .f32⟩
  | 84 => ⟨S_, .i32⟩
  | 85 => ⟨S1, .i32⟩
  | 86 => ⟨S16384x208, .f32⟩
  | 87 => ⟨S16384x64, .f32⟩
  | 88 => ⟨S1x64, .f32⟩
  | 89 => ⟨S64, .f32⟩
  | 90 => ⟨S1x64, .f32⟩
  | 91 => ⟨S16384x64, .f32⟩
  | 92 => ⟨S16384x64, .f32⟩
  | 93 => ⟨S_, .f32⟩
  | 94 => ⟨S16384, .f32⟩
  | 95 => ⟨S1, .f32⟩
  | 96 => ⟨S_, .f32⟩
  | 97 => ⟨S1, .f32⟩
  | 98 => ⟨S_, .f32⟩
  | 99 => ⟨S16384, .f32⟩
  | 100 => ⟨S16384, .f32⟩
  | 101 => ⟨S16384, .f32⟩
  | 102 => ⟨S16384, .f32⟩
  | 103 => ⟨S16384, .f32⟩
  | 104 => ⟨S_, .i32⟩
  | 105 => ⟨S1, .i32⟩
  | 106 => ⟨S16384x208, .f32⟩
  | 107 => ⟨S16384x64, .f32⟩
  | 108 => ⟨S1x64, .f32⟩
  | 109 => ⟨S64, .f32⟩
  | 110 => ⟨S1x64, .f32⟩
  | 111 => ⟨S16384x64, .f32⟩
  | 112 => ⟨S16384x64, .f32⟩
  | 113 => ⟨S_, .f32⟩
  | 114 => ⟨S16384, .f32⟩
  | 115 => ⟨S1, .f32⟩
  | 116 => ⟨S_, .f32⟩
  | 117 => ⟨S1, .f32⟩
  | 118 => ⟨S_, .f32⟩
  | 119 => ⟨S16384, .f32⟩
  | 120 => ⟨S16384, .f32⟩
  | 121 => ⟨S16384, .f32⟩
  | 122 => ⟨S16384, .f32⟩
  | 123 => ⟨S16384, .f32⟩
  | 124 => ⟨S_, .i32⟩
  | 125 => ⟨S1, .i32⟩
  | 126 => ⟨S16384x208, .f32⟩
  | 127 => ⟨S16384x64, .f32⟩
  | _ => ⟨S16384x64, .f32⟩

abbrev hbmTy0_5 (i : Nat) : BufTy := match i % 128 with
  | 0 => ⟨S1x64, .f32⟩
  | 1 => ⟨S64, .f32⟩
  | 2 => ⟨S1x64, .f32⟩
  | 3 => ⟨S16384x64, .f32⟩
  | 4 => ⟨S16384x64, .f32⟩
  | 5 => ⟨S_, .f32⟩
  | 6 => ⟨S16384, .f32⟩
  | 7 => ⟨S1, .f32⟩
  | 8 => ⟨S_, .f32⟩
  | 9 => ⟨S1, .f32⟩
  | 10 => ⟨S_, .f32⟩
  | 11 => ⟨S16384, .f32⟩
  | 12 => ⟨S16384, .f32⟩
  | 13 => ⟨S16384, .f32⟩
  | 14 => ⟨S16384, .f32⟩
  | 15 => ⟨S16384, .f32⟩
  | 16 => ⟨S_, .i32⟩
  | 17 => ⟨S1, .i32⟩
  | 18 => ⟨S16384x208, .f32⟩
  | 19 => ⟨S16384x64, .f32⟩
  | 20 => ⟨S1x64, .f32⟩
  | 21 => ⟨S64, .f32⟩
  | 22 => ⟨S1x64, .f32⟩
  | 23 => ⟨S16384x64, .f32⟩
  | 24 => ⟨S16384x64, .f32⟩
  | 25 => ⟨S_, .f32⟩
  | 26 => ⟨S16384, .f32⟩
  | 27 => ⟨S1, .f32⟩
  | 28 => ⟨S_, .f32⟩
  | 29 => ⟨S1, .f32⟩
  | 30 => ⟨S_, .f32⟩
  | 31 => ⟨S16384, .f32⟩
  | 32 => ⟨S16384, .f32⟩
  | 33 => ⟨S16384, .f32⟩
  | 34 => ⟨S16384, .f32⟩
  | 35 => ⟨S16384, .f32⟩
  | 36 => ⟨S_, .i32⟩
  | 37 => ⟨S1, .i32⟩
  | 38 => ⟨S16384x208, .f32⟩
  | 39 => ⟨S16384x64, .f32⟩
  | 40 => ⟨S1x64, .f32⟩
  | 41 => ⟨S64, .f32⟩
  | 42 => ⟨S1x64, .f32⟩
  | 43 => ⟨S16384x64, .f32⟩
  | 44 => ⟨S16384x64, .f32⟩
  | 45 => ⟨S_, .f32⟩
  | 46 => ⟨S16384, .f32⟩
  | 47 => ⟨S1, .f32⟩
  | 48 => ⟨S_, .f32⟩
  | 49 => ⟨S1, .f32⟩
  | 50 => ⟨S_, .f32⟩
  | 51 => ⟨S16384, .f32⟩
  | 52 => ⟨S16384, .f32⟩
  | 53 => ⟨S16384, .f32⟩
  | 54 => ⟨S16384, .f32⟩
  | 55 => ⟨S16384, .f32⟩
  | 56 => ⟨S_, .i32⟩
  | 57 => ⟨S1, .i32⟩
  | 58 => ⟨S16384x208, .f32⟩
  | 59 => ⟨S16384x64, .f32⟩
  | 60 => ⟨S1x64, .f32⟩
  | 61 => ⟨S64, .f32⟩
  | 62 => ⟨S1x64, .f32⟩
  | 63 => ⟨S16384x64, .f32⟩
  | 64 => ⟨S16384x64, .f32⟩
  | 65 => ⟨S_, .f32⟩
  | 66 => ⟨S16384, .f32⟩
  | 67 => ⟨S1, .f32⟩
  | 68 => ⟨S_, .f32⟩
  | 69 => ⟨S1, .f32⟩
  | 70 => ⟨S_, .f32⟩
  | 71 => ⟨S16384, .f32⟩
  | 72 => ⟨S16384, .f32⟩
  | 73 => ⟨S16384, .f32⟩
  | 74 => ⟨S16384, .f32⟩
  | 75 => ⟨S16384, .f32⟩
  | 76 => ⟨S_, .i32⟩
  | 77 => ⟨S1, .i32⟩
  | 78 => ⟨S16384x208, .f32⟩
  | 79 => ⟨S16384x64, .f32⟩
  | 80 => ⟨S1x64, .f32⟩
  | 81 => ⟨S64, .f32⟩
  | 82 => ⟨S1x64, .f32⟩
  | 83 => ⟨S16384x64, .f32⟩
  | 84 => ⟨S16384x64, .f32⟩
  | 85 => ⟨S_, .f32⟩
  | 86 => ⟨S16384, .f32⟩
  | 87 => ⟨S1, .f32⟩
  | 88 => ⟨S_, .f32⟩
  | 89 => ⟨S1, .f32⟩
  | 90 => ⟨S_, .f32⟩
  | 91 => ⟨S16384, .f32⟩
  | 92 => ⟨S16384, .f32⟩
  | 93 => ⟨S16384, .f32⟩
  | 94 => ⟨S16384, .f32⟩
  | 95 => ⟨S16384, .f32⟩
  | 96 => ⟨S_, .i32⟩
  | 97 => ⟨S1, .i32⟩
  | 98 => ⟨S16384x208, .f32⟩
  | 99 => ⟨S16384x64, .f32⟩
  | 100 => ⟨S1x64, .f32⟩
  | 101 => ⟨S64, .f32⟩
  | 102 => ⟨S1x64, .f32⟩
  | 103 => ⟨S16384x64, .f32⟩
  | 104 => ⟨S16384x64, .f32⟩
  | 105 => ⟨S_, .f32⟩
  | 106 => ⟨S16384, .f32⟩
  | 107 => ⟨S1, .f32⟩
  | 108 => ⟨S_, .f32⟩
  | 109 => ⟨S1, .f32⟩
  | 110 => ⟨S_, .f32⟩
  | 111 => ⟨S16384, .f32⟩
  | 112 => ⟨S16384, .f32⟩
  | 113 => ⟨S16384, .f32⟩
  | 114 => ⟨S16384, .f32⟩
  | 115 => ⟨S16384, .f32⟩
  | 116 => ⟨S_, .i32⟩
  | 117 => ⟨S1, .i32⟩
  | 118 => ⟨S16384x208, .f32⟩
  | 119 => ⟨S16384x64, .f32⟩
  | 120 => ⟨S1x64, .f32⟩
  | 121 => ⟨S64, .f32⟩
  | 122 => ⟨S1x64, .f32⟩
  | 123 => ⟨S16384x64, .f32⟩
  | 124 => ⟨S16384x64, .f32⟩
  | 125 => ⟨S_, .f32⟩
  | 126 => ⟨S16384, .f32⟩
  | 127 => ⟨S1, .f32⟩
  | _ => ⟨S16384x64, .f32⟩

abbrev hbmTy0_6 (i : Nat) : BufTy := match i % 128 with
  | 0 => ⟨S_, .f32⟩
  | 1 => ⟨S1, .f32⟩
  | 2 => ⟨S_, .f32⟩
  | 3 => ⟨S16384, .f32⟩
  | 4 => ⟨S16384, .f32⟩
  | 5 => ⟨S16384, .f32⟩
  | 6 => ⟨S16384, .f32⟩
  | 7 => ⟨S16384, .f32⟩
  | 8 => ⟨S_, .i32⟩
  | 9 => ⟨S1, .i32⟩
  | 10 => ⟨S16384x208, .f32⟩
  | 11 => ⟨S16384x64, .f32⟩
  | 12 => ⟨S1x64, .f32⟩
  | 13 => ⟨S64, .f32⟩
  | 14 => ⟨S1x64, .f32⟩
  | 15 => ⟨S16384x64, .f32⟩
  | 16 => ⟨S16384x64, .f32⟩
  | 17 => ⟨S_, .f32⟩
  | 18 => ⟨S16384, .f32⟩
  | 19 => ⟨S1, .f32⟩
  | 20 => ⟨S_, .f32⟩
  | 21 => ⟨S1, .f32⟩
  | 22 => ⟨S_, .f32⟩
  | 23 => ⟨S16384, .f32⟩
  | 24 => ⟨S16384, .f32⟩
  | 25 => ⟨S16384, .f32⟩
  | 26 => ⟨S16384, .f32⟩
  | 27 => ⟨S16384, .f32⟩
  | 28 => ⟨S_, .i32⟩
  | 29 => ⟨S1, .i32⟩
  | 30 => ⟨S16384x208, .f32⟩
  | 31 => ⟨S16384x64, .f32⟩
  | 32 => ⟨S1x64, .f32⟩
  | 33 => ⟨S64, .f32⟩
  | 34 => ⟨S1x64, .f32⟩
  | 35 => ⟨S16384x64, .f32⟩
  | 36 => ⟨S16384x64, .f32⟩
  | 37 => ⟨S_, .f32⟩
  | 38 => ⟨S16384, .f32⟩
  | 39 => ⟨S1, .f32⟩
  | 40 => ⟨S_, .f32⟩
  | 41 => ⟨S1, .f32⟩
  | 42 => ⟨S_, .f32⟩
  | 43 => ⟨S16384, .f32⟩
  | 44 => ⟨S16384, .f32⟩
  | 45 => ⟨S16384, .f32⟩
  | 46 => ⟨S16384, .f32⟩
  | 47 => ⟨S16384, .f32⟩
  | 48 => ⟨S_, .i32⟩
  | 49 => ⟨S1, .i32⟩
  | 50 => ⟨S16384x208, .f32⟩
  | 51 => ⟨S16384x64, .f32⟩
  | 52 => ⟨S1x64, .f32⟩
  | 53 => ⟨S64, .f32⟩
  | 54 => ⟨S1x64, .f32⟩
  | 55 => ⟨S16384x64, .f32⟩
  | 56 => ⟨S16384x64, .f32⟩
  | 57 => ⟨S_, .f32⟩
  | 58 => ⟨S16384, .f32⟩
  | 59 => ⟨S1, .f32⟩
  | 60 => ⟨S_, .f32⟩
  | 61 => ⟨S1, .f32⟩
  | 62 => ⟨S_, .f32⟩
  | 63 => ⟨S16384, .f32⟩
  | 64 => ⟨S16384, .f32⟩
  | 65 => ⟨S16384, .f32⟩
  | 66 => ⟨S16384, .f32⟩
  | 67 => ⟨S16384, .f32⟩
  | 68 => ⟨S_, .i32⟩
  | 69 => ⟨S1, .i32⟩
  | 70 => ⟨S16384x208, .f32⟩
  | 71 => ⟨S16384x64, .f32⟩
  | 72 => ⟨S1x64, .f32⟩
  | 73 => ⟨S64, .f32⟩
  | 74 => ⟨S1x64, .f32⟩
  | 75 => ⟨S16384x64, .f32⟩
  | 76 => ⟨S16384x64, .f32⟩
  | 77 => ⟨S_, .f32⟩
  | 78 => ⟨S16384, .f32⟩
  | 79 => ⟨S1, .f32⟩
  | 80 => ⟨S_, .f32⟩
  | 81 => ⟨S1, .f32⟩
  | 82 => ⟨S_, .f32⟩
  | 83 => ⟨S16384, .f32⟩
  | 84 => ⟨S16384, .f32⟩
  | 85 => ⟨S16384, .f32⟩
  | 86 => ⟨S16384, .f32⟩
  | 87 => ⟨S16384, .f32⟩
  | 88 => ⟨S_, .i32⟩
  | 89 => ⟨S1, .i32⟩
  | 90 => ⟨S16384x208, .f32⟩
  | 91 => ⟨S16384x64, .f32⟩
  | 92 => ⟨S1x64, .f32⟩
  | 93 => ⟨S64, .f32⟩
  | 94 => ⟨S1x64, .f32⟩
  | 95 => ⟨S16384x64, .f32⟩
  | 96 => ⟨S16384x64, .f32⟩
  | 97 => ⟨S_, .f32⟩
  | 98 => ⟨S16384, .f32⟩
  | 99 => ⟨S1, .f32⟩
  | 100 => ⟨S_, .f32⟩
  | 101 => ⟨S1, .f32⟩
  | 102 => ⟨S_, .f32⟩
  | 103 => ⟨S16384, .f32⟩
  | 104 => ⟨S16384, .f32⟩
  | 105 => ⟨S16384, .f32⟩
  | 106 => ⟨S16384, .f32⟩
  | 107 => ⟨S16384, .f32⟩
  | 108 => ⟨S_, .i32⟩
  | 109 => ⟨S1, .i32⟩
  | 110 => ⟨S16384x208, .f32⟩
  | 111 => ⟨S16384x64, .f32⟩
  | 112 => ⟨S1x64, .f32⟩
  | 113 => ⟨S64, .f32⟩
  | 114 => ⟨S1x64, .f32⟩
  | 115 => ⟨S16384x64, .f32⟩
  | 116 => ⟨S16384x64, .f32⟩
  | 117 => ⟨S_, .f32⟩
  | 118 => ⟨S16384, .f32⟩
  | 119 => ⟨S1, .f32⟩
  | 120 => ⟨S_, .f32⟩
  | 121 => ⟨S1, .f32⟩
  | 122 => ⟨S_, .f32⟩
  | 123 => ⟨S16384, .f32⟩
  | 124 => ⟨S16384, .f32⟩
  | 125 => ⟨S16384, .f32⟩
  | 126 => ⟨S16384, .f32⟩
  | 127 => ⟨S16384, .f32⟩
  | _ => ⟨S16384x64, .f32⟩

abbrev hbmTy0_7 (i : Nat) : BufTy := match i % 128 with
  | 0 => ⟨S_, .i32⟩
  | 1 => ⟨S1, .i32⟩
  | 2 => ⟨S16384x208, .f32⟩
  | 3 => ⟨S16384x64, .f32⟩
  | 4 => ⟨S1x64, .f32⟩
  | 5 => ⟨S64, .f32⟩
  | 6 => ⟨S1x64, .f32⟩
  | 7 => ⟨S16384x64, .f32⟩
  | 8 => ⟨S16384x64, .f32⟩
  | 9 => ⟨S_, .f32⟩
  | 10 => ⟨S16384, .f32⟩
  | 11 => ⟨S1, .f32⟩
  | 12 => ⟨S_, .f32⟩
  | 13 => ⟨S1, .f32⟩
  | 14 => ⟨S_, .f32⟩
  | 15 => ⟨S16384, .f32⟩
  | 16 => ⟨S16384, .f32⟩
  | 17 => ⟨S16384, .f32⟩
  | 18 => ⟨S16384, .f32⟩
  | 19 => ⟨S16384, .f32⟩
  | 20 => ⟨S_, .i32⟩
  | 21 => ⟨S1, .i32⟩
  | 22 => ⟨S16384x208, .f32⟩
  | 23 => ⟨S16384x64, .f32⟩
  | 24 => ⟨S1x64, .f32⟩
  | 25 => ⟨S64, .f32⟩
  | 26 => ⟨S1x64, .f32⟩
  | 27 => ⟨S16384x64, .f32⟩
  | 28 => ⟨S16384x64, .f32⟩
  | 29 => ⟨S_, .f32⟩
  | 30 => ⟨S16384, .f32⟩
  | 31 => ⟨S1, .f32⟩
  | 32 => ⟨S_, .f32⟩
  | 33 => ⟨S1, .f32⟩
  | 34 => ⟨S_, .f32⟩
  | 35 => ⟨S16384, .f32⟩
  | 36 => ⟨S16384, .f32⟩
  | 37 => ⟨S16384, .f32⟩
  | 38 => ⟨S16384, .f32⟩
  | 39 => ⟨S16384, .f32⟩
  | 40 => ⟨S_, .i32⟩
  | 41 => ⟨S1, .i32⟩
  | 42 => ⟨S16384x208, .f32⟩
  | 43 => ⟨S16384x64, .f32⟩
  | 44 => ⟨S1x64, .f32⟩
  | 45 => ⟨S64, .f32⟩
  | 46 => ⟨S1x64, .f32⟩
  | 47 => ⟨S16384x64, .f32⟩
  | 48 => ⟨S16384x64, .f32⟩
  | 49 => ⟨S_, .f32⟩
  | 50 => ⟨S16384, .f32⟩
  | 51 => ⟨S1, .f32⟩
  | 52 => ⟨S_, .f32⟩
  | 53 => ⟨S1, .f32⟩
  | 54 => ⟨S_, .f32⟩
  | 55 => ⟨S16384, .f32⟩
  | 56 => ⟨S16384, .f32⟩
  | 57 => ⟨S16384, .f32⟩
  | 58 => ⟨S16384, .f32⟩
  | 59 => ⟨S16384, .f32⟩
  | 60 => ⟨S_, .i32⟩
  | 61 => ⟨S1, .i32⟩
  | 62 => ⟨S16384x208, .f32⟩
  | 63 => ⟨S16384x64, .f32⟩
  | 64 => ⟨S1x64, .f32⟩
  | 65 => ⟨S64, .f32⟩
  | 66 => ⟨S1x64, .f32⟩
  | 67 => ⟨S16384x64, .f32⟩
  | 68 => ⟨S16384x64, .f32⟩
  | 69 => ⟨S_, .f32⟩
  | 70 => ⟨S16384, .f32⟩
  | 71 => ⟨S1, .f32⟩
  | 72 => ⟨S_, .f32⟩
  | 73 => ⟨S1, .f32⟩
  | 74 => ⟨S_, .f32⟩
  | 75 => ⟨S16384, .f32⟩
  | 76 => ⟨S16384, .f32⟩
  | 77 => ⟨S16384, .f32⟩
  | 78 => ⟨S16384, .f32⟩
  | 79 => ⟨S16384, .f32⟩
  | 80 => ⟨S_, .i32⟩
  | 81 => ⟨S1, .i32⟩
  | 82 => ⟨S16384x208, .f32⟩
  | 83 => ⟨S16384x64, .f32⟩
  | 84 => ⟨S1x64, .f32⟩
  | 85 => ⟨S64, .f32⟩
  | 86 => ⟨S1x64, .f32⟩
  | 87 => ⟨S16384x64, .f32⟩
  | 88 => ⟨S16384x64, .f32⟩
  | 89 => ⟨S_, .f32⟩
  | 90 => ⟨S16384, .f32⟩
  | 91 => ⟨S1, .f32⟩
  | 92 => ⟨S_, .f32⟩
  | 93 => ⟨S1, .f32⟩
  | 94 => ⟨S_, .f32⟩
  | 95 => ⟨S16384, .f32⟩
  | 96 => ⟨S16384, .f32⟩
  | 97 => ⟨S16384, .f32⟩
  | 98 => ⟨S16384, .f32⟩
  | 99 => ⟨S16384, .f32⟩
  | 100 => ⟨S_, .i32⟩
  | 101 => ⟨S1, .i32⟩
  | 102 => ⟨S16384x208, .f32⟩
  | 103 => ⟨S16384x64, .f32⟩
  | 104 => ⟨S1x64, .f32⟩
  | 105 => ⟨S64, .f32⟩
  | 106 => ⟨S1x64, .f32⟩
  | 107 => ⟨S16384x64, .f32⟩
  | 108 => ⟨S16384x64, .f32⟩
  | 109 => ⟨S_, .f32⟩
  | 110 => ⟨S16384, .f32⟩
  | 111 => ⟨S1, .f32⟩
  | 112 => ⟨S_, .f32⟩
  | 113 => ⟨S1, .f32⟩
  | 114 => ⟨S_, .f32⟩
  | 115 => ⟨S16384, .f32⟩
  | 116 => ⟨S16384, .f32⟩
  | 117 => ⟨S16384, .f32⟩
  | 118 => ⟨S16384, .f32⟩
  | 119 => ⟨S16384, .f32⟩
  | 120 => ⟨S_, .i32⟩
  | 121 => ⟨S1, .i32⟩
  | 122 => ⟨S16384x208, .f32⟩
  | 123 => ⟨S16384x64, .f32⟩
  | 124 => ⟨S1x64, .f32⟩
  | 125 => ⟨S64, .f32⟩
  | 126 => ⟨S1x64, .f32⟩
  | 127 => ⟨S16384x64, .f32⟩
  | _ => ⟨S16384x64, .f32⟩

abbrev hbmTy0_8 (i : Nat) : BufTy := match i % 128 with
  | 0 => ⟨S16384x64, .f32⟩
  | 1 => ⟨S_, .f32⟩
  | 2 => ⟨S16384, .f32⟩
  | 3 => ⟨S1, .f32⟩
  | 4 => ⟨S_, .f32⟩
  | 5 => ⟨S1, .f32⟩
  | 6 => ⟨S_, .f32⟩
  | 7 => ⟨S16384, .f32⟩
  | 8 => ⟨S16384, .f32⟩
  | 9 => ⟨S16384, .f32⟩
  | 10 => ⟨S16384, .f32⟩
  | 11 => ⟨S16384, .f32⟩
  | 12 => ⟨S_, .i32⟩
  | 13 => ⟨S1, .i32⟩
  | 14 => ⟨S16384x208, .f32⟩
  | 15 => ⟨S16384x64, .f32⟩
  | 16 => ⟨S1x64, .f32⟩
  | 17 => ⟨S64, .f32⟩
  | 18 => ⟨S1x64, .f32⟩
  | 19 => ⟨S16384x64, .f32⟩
  | 20 => ⟨S16384x64, .f32⟩
  | 21 => ⟨S_, .f32⟩
  | 22 => ⟨S16384, .f32⟩
  | 23 => ⟨S1, .f32⟩
  | 24 => ⟨S_, .f32⟩
  | 25 => ⟨S1, .f32⟩
  | 26 => ⟨S_, .f32⟩
  | 27 => ⟨S16384, .f32⟩
  | 28 => ⟨S16384, .f32⟩
  | 29 => ⟨S16384, .f32⟩
  | 30 => ⟨S16384, .f32⟩
  | 31 => ⟨S16384, .f32⟩
  | 32 => ⟨S_, .i32⟩
  | 33 => ⟨S1, .i32⟩
  | 34 => ⟨S16384x208, .f32⟩
  | 35 => ⟨S16384x64, .f32⟩
  | 36 => ⟨S1x64, .f32⟩
  | 37 => ⟨S64, .f32⟩
  | 38 => ⟨S1x64, .f32⟩
  | 39 => ⟨S16384x64, .f32⟩
  | 40 => ⟨S16384x64, .f32⟩
  | 41 => ⟨S_, .f32⟩
  | 42 => ⟨S16384, .f32⟩
  | 43 => ⟨S1, .f32⟩
  | 44 => ⟨S_, .f32⟩
  | 45 => ⟨S1, .f32⟩
  | 46 => ⟨S_, .f32⟩
  | 47 => ⟨S16384, .f32⟩
  | 48 => ⟨S16384, .f32⟩
  | 49 => ⟨S16384, .f32⟩
  | 50 => ⟨S16384, .f32⟩
  | 51 => ⟨S16384, .f32⟩
  | 52 => ⟨S_, .i32⟩
  | 53 => ⟨S1, .i32⟩
  | 54 => ⟨S16384x208, .f32⟩
  | 55 => ⟨S16384x64, .f32⟩
  | 56 => ⟨S1x64, .f32⟩
  | 57 => ⟨S64, .f32⟩
  | 58 => ⟨S1x64, .f32⟩
  | 59 => ⟨S16384x64, .f32⟩
  | 60 => ⟨S16384x64, .f32⟩
  | 61 => ⟨S_, .f32⟩
  | 62 => ⟨S16384, .f32⟩
  | 63 => ⟨S1, .f32⟩
  | 64 => ⟨S_, .f32⟩
  | 65 => ⟨S1, .f32⟩
  | 66 => ⟨S_, .f32⟩
  | 67 => ⟨S16384, .f32⟩
  | 68 => ⟨S16384, .f32⟩
  | 69 => ⟨S16384, .f32⟩
  | 70 => ⟨S16384, .f32⟩
  | 71 => ⟨S16384, .f32⟩
  | 72 => ⟨S_, .i32⟩
  | 73 => ⟨S1, .i32⟩
  | 74 => ⟨S16384x208, .f32⟩
  | 75 => ⟨S16384x64, .f32⟩
  | 76 => ⟨S1x64, .f32⟩
  | 77 => ⟨S64, .f32⟩
  | 78 => ⟨S1x64, .f32⟩
  | 79 => ⟨S16384x64, .f32⟩
  | 80 => ⟨S16384x64, .f32⟩
  | 81 => ⟨S_, .f32⟩
  | 82 => ⟨S16384, .f32⟩
  | 83 => ⟨S1, .f32⟩
  | 84 => ⟨S_, .f32⟩
  | 85 => ⟨S1, .f32⟩
  | 86 => ⟨S_, .f32⟩
  | 87 => ⟨S16384, .f32⟩
  | 88 => ⟨S16384, .f32⟩
  | 89 => ⟨S16384, .f32⟩
  | 90 => ⟨S16384, .f32⟩
  | 91 => ⟨S16384, .f32⟩
  | 92 => ⟨S_, .i32⟩
  | 93 => ⟨S1, .i32⟩
  | 94 => ⟨S16384x208, .f32⟩
  | 95 => ⟨S16384x64, .f32⟩
  | 96 => ⟨S1x64, .f32⟩
  | 97 => ⟨S64, .f32⟩
  | 98 => ⟨S1x64, .f32⟩
  | 99 => ⟨S16384x64, .f32⟩
  | 100 => ⟨S16384x64, .f32⟩
  | 101 => ⟨S_, .f32⟩
  | 102 => ⟨S16384, .f32⟩
  | 103 => ⟨S1, .f32⟩
  | 104 => ⟨S_, .f32⟩
  | 105 => ⟨S1, .f32⟩
  | 106 => ⟨S_, .f32⟩
  | 107 => ⟨S16384, .f32⟩
  | 108 => ⟨S16384, .f32⟩
  | 109 => ⟨S16384, .f32⟩
  | 110 => ⟨S16384, .f32⟩
  | 111 => ⟨S16384, .f32⟩
  | 112 => ⟨S_, .i32⟩
  | 113 => ⟨S1, .i32⟩
  | 114 => ⟨S16384x208, .f32⟩
  | 115 => ⟨S16384x64, .f32⟩
  | 116 => ⟨S1x64, .f32⟩
  | 117 => ⟨S64, .f32⟩
  | 118 => ⟨S1x64, .f32⟩
  | 119 => ⟨S16384x64, .f32⟩
  | 120 => ⟨S16384x64, .f32⟩
  | 121 => ⟨S_, .f32⟩
  | 122 => ⟨S16384, .f32⟩
  | 123 => ⟨S1, .f32⟩
  | 124 => ⟨S_, .f32⟩
  | 125 => ⟨S1, .f32⟩
  | 126 => ⟨S_, .f32⟩
  | 127 => ⟨S16384, .f32⟩
  | _ => ⟨S16384x64, .f32⟩

abbrev hbmTy0_9 (i : Nat) : BufTy := match i % 128 with
  | 0 => ⟨S16384, .f32⟩
  | 1 => ⟨S16384, .f32⟩
  | 2 => ⟨S16384, .f32⟩
  | 3 => ⟨S16384, .f32⟩
  | 4 => ⟨S_, .i32⟩
  | 5 => ⟨S1, .i32⟩
  | 6 => ⟨S16384x208, .f32⟩
  | 7 => ⟨S16384x64, .f32⟩
  | 8 => ⟨S1x64, .f32⟩
  | 9 => ⟨S64, .f32⟩
  | 10 => ⟨S1x64, .f32⟩
  | 11 => ⟨S16384x64, .f32⟩
  | 12 => ⟨S16384x64, .f32⟩
  | 13 => ⟨S_, .f32⟩
  | 14 => ⟨S16384, .f32⟩
  | 15 => ⟨S1, .f32⟩
  | 16 => ⟨S_, .f32⟩
  | 17 => ⟨S1, .f32⟩
  | 18 => ⟨S_, .f32⟩
  | 19 => ⟨S16384, .f32⟩
  | 20 => ⟨S16384, .f32⟩
  | 21 => ⟨S16384, .f32⟩
  | 22 => ⟨S16384, .f32⟩
  | 23 => ⟨S16384, .f32⟩
  | 24 => ⟨S_, .i32⟩
  | 25 => ⟨S1, .i32⟩
  | 26 => ⟨S16384x208, .f32⟩
  | 27 => ⟨S16384x64, .f32⟩
  | 28 => ⟨S1x64, .f32⟩
  | 29 => ⟨S64, .f32⟩
  | 30 => ⟨S1x64, .f32⟩
  | 31 => ⟨S16384x64, .f32⟩
  | 32 => ⟨S16384x64, .f32⟩
  | 33 => ⟨S_, .f32⟩
  | 34 => ⟨S16384, .f32⟩
  | 35 => ⟨S1, .f32⟩
  | 36 => ⟨S_, .f32⟩
  | 37 => ⟨S1, .f32⟩
  | 38 => ⟨S_, .f32⟩
  | 39 => ⟨S16384, .f32⟩
  | 40 => ⟨S16384, .f32⟩
  | 41 => ⟨S16384, .f32⟩
  | 42 => ⟨S16384, .f32⟩
  | 43 => ⟨S16384, .f32⟩
  | 44 => ⟨S_, .i32⟩
  | 45 => ⟨S1, .i32⟩
  | 46 => ⟨S16384x208, .f32⟩
  | 47 => ⟨S16384x64, .f32⟩
  | 48 => ⟨S1x64, .f32⟩
  | 49 => ⟨S64, .f32⟩
  | 50 => ⟨S1x64, .f32⟩
  | 51 => ⟨S16384x64, .f32⟩
  | 52 => ⟨S16384x64, .f32⟩
  | 53 => ⟨S_, .f32⟩
  | 54 => ⟨S16384, .f32⟩
  | 55 => ⟨S1, .f32⟩
  | 56 => ⟨S_, .f32⟩
  | 57 => ⟨S1, .f32⟩
  | 58 => ⟨S_, .f32⟩
  | 59 => ⟨S16384, .f32⟩
  | 60 => ⟨S16384, .f32⟩
  | 61 => ⟨S16384, .f32⟩
  | 62 => ⟨S16384, .f32⟩
  | 63 => ⟨S16384, .f32⟩
  | 64 => ⟨S_, .i32⟩
  | 65 => ⟨S1, .i32⟩
  | 66 => ⟨S16384x208, .f32⟩
  | 67 => ⟨S16384x64, .f32⟩
  | 68 => ⟨S1x64, .f32⟩
  | 69 => ⟨S64, .f32⟩
  | 70 => ⟨S1x64, .f32⟩
  | 71 => ⟨S16384x64, .f32⟩
  | 72 => ⟨S16384x64, .f32⟩
  | 73 => ⟨S_, .f32⟩
  | 74 => ⟨S16384, .f32⟩
  | 75 => ⟨S1, .f32⟩
  | 76 => ⟨S_, .f32⟩
  | 77 => ⟨S1, .f32⟩
  | 78 => ⟨S_, .f32⟩
  | 79 => ⟨S16384, .f32⟩
  | 80 => ⟨S16384, .f32⟩
  | 81 => ⟨S16384, .f32⟩
  | 82 => ⟨S16384, .f32⟩
  | 83 => ⟨S16384, .f32⟩
  | 84 => ⟨S_, .i32⟩
  | 85 => ⟨S1, .i32⟩
  | 86 => ⟨S16384x208, .f32⟩
  | 87 => ⟨S16384x64, .f32⟩
  | 88 => ⟨S1x64, .f32⟩
  | 89 => ⟨S64, .f32⟩
  | 90 => ⟨S1x64, .f32⟩
  | 91 => ⟨S16384x64, .f32⟩
  | 92 => ⟨S16384x64, .f32⟩
  | 93 => ⟨S_, .f32⟩
  | 94 => ⟨S16384, .f32⟩
  | 95 => ⟨S1, .f32⟩
  | 96 => ⟨S_, .f32⟩
  | 97 => ⟨S1, .f32⟩
  | 98 => ⟨S_, .f32⟩
  | 99 => ⟨S16384, .f32⟩
  | 100 => ⟨S16384, .f32⟩
  | 101 => ⟨S16384, .f32⟩
  | 102 => ⟨S16384, .f32⟩
  | 103 => ⟨S16384, .f32⟩
  | 104 => ⟨S_, .i32⟩
  | 105 => ⟨S1, .i32⟩
  | 106 => ⟨S16384x208, .f32⟩
  | 107 => ⟨S16384x64, .f32⟩
  | 108 => ⟨S1x64, .f32⟩
  | 109 => ⟨S64, .f32⟩
  | 110 => ⟨S1x64, .f32⟩
  | 111 => ⟨S16384x64, .f32⟩
  | 112 => ⟨S16384x64, .f32⟩
  | 113 => ⟨S_, .f32⟩
  | 114 => ⟨S16384, .f32⟩
  | 115 => ⟨S1, .f32⟩
  | 116 => ⟨S_, .f32⟩
  | 117 => ⟨S1, .f32⟩
  | 118 => ⟨S_, .f32⟩
  | 119 => ⟨S16384, .f32⟩
  | 120 => ⟨S16384, .f32⟩
  | 121 => ⟨S16384, .f32⟩
  | 122 => ⟨S16384, .f32⟩
  | 123 => ⟨S16384, .f32⟩
  | 124 => ⟨S_, .i32⟩
  | 125 => ⟨S1, .i32⟩
  | 126 => ⟨S16384x208, .f32⟩
  | 127 => ⟨S16384x64, .f32⟩
  | _ => ⟨S16384x64, .f32⟩

abbrev hbmTy0_10 (i : Nat) : BufTy := match i % 128 with
  | 0 => ⟨S1x64, .f32⟩
  | 1 => ⟨S64, .f32⟩
  | 2 => ⟨S1x64, .f32⟩
  | 3 => ⟨S16384x64, .f32⟩
  | 4 => ⟨S16384x64, .f32⟩
  | 5 => ⟨S_, .f32⟩
  | 6 => ⟨S16384, .f32⟩
  | 7 => ⟨S1, .f32⟩
  | 8 => ⟨S_, .f32⟩
  | 9 => ⟨S1, .f32⟩
  | 10 => ⟨S_, .f32⟩
  | 11 => ⟨S16384, .f32⟩
  | 12 => ⟨S16384, .f32⟩
  | 13 => ⟨S16384, .f32⟩
  | 14 => ⟨S16384, .f32⟩
  | 15 => ⟨S16384, .f32⟩
  | 16 => ⟨S_, .i32⟩
  | 17 => ⟨S1, .i32⟩
  | 18 => ⟨S16384x208, .f32⟩
  | 19 => ⟨S16384x64, .f32⟩
  | 20 => ⟨S1x64, .f32⟩
  | 21 => ⟨S64, .f32⟩
  | 22 => ⟨S1x64, .f32⟩
  | 23 => ⟨S16384x64, .f32⟩
  | 24 => ⟨S16384x64, .f32⟩
  | 25 => ⟨S_, .f32⟩
  | 26 => ⟨S16384, .f32⟩
  | 27 => ⟨S1, .f32⟩
  | 28 => ⟨S_, .f32⟩
  | 29 => ⟨S1, .f32⟩
  | 30 => ⟨S_, .f32⟩
  | 31 => ⟨S16384, .f32⟩
  | 32 => ⟨S16384, .f32⟩
  | 33 => ⟨S16384, .f32⟩
  | 34 => ⟨S16384, .f32⟩
  | 35 => ⟨S16384, .f32⟩
  | 36 => ⟨S_, .i32⟩
  | 37 => ⟨S1, .i32⟩
  | 38 => ⟨S16384x208, .f32⟩
  | 39 => ⟨S16384x64, .f32⟩
  | 40 => ⟨S1x64, .f32⟩
  | 41 => ⟨S64, .f32⟩
  | 42 => ⟨S1x64, .f32⟩
  | 43 => ⟨S16384x64, .f32⟩
  | 44 => ⟨S16384x64, .f32⟩
  | 45 => ⟨S_, .f32⟩
  | 46 => ⟨S16384, .f32⟩
  | 47 => ⟨S1, .f32⟩
  | 48 => ⟨S_, .f32⟩
  | 49 => ⟨S1, .f32⟩
  | 50 => ⟨S_, .f32⟩
  | 51 => ⟨S16384, .f32⟩
  | 52 => ⟨S16384, .f32⟩
  | 53 => ⟨S16384, .f32⟩
  | 54 => ⟨S16384, .f32⟩
  | 55 => ⟨S16384, .f32⟩
  | 56 => ⟨S_, .i32⟩
  | 57 => ⟨S1, .i32⟩
  | 58 => ⟨S16384x208, .f32⟩
  | 59 => ⟨S16384x64, .f32⟩
  | 60 => ⟨S1x64, .f32⟩
  | 61 => ⟨S64, .f32⟩
  | 62 => ⟨S1x64, .f32⟩
  | 63 => ⟨S16384x64, .f32⟩
  | 64 => ⟨S16384x64, .f32⟩
  | 65 => ⟨S_, .f32⟩
  | 66 => ⟨S16384, .f32⟩
  | 67 => ⟨S1, .f32⟩
  | 68 => ⟨S_, .f32⟩
  | 69 => ⟨S1, .f32⟩
  | 70 => ⟨S_, .f32⟩
  | 71 => ⟨S16384, .f32⟩
  | 72 => ⟨S16384, .f32⟩
  | 73 => ⟨S16384, .f32⟩
  | 74 => ⟨S16384, .f32⟩
  | 75 => ⟨S16384, .f32⟩
  | 76 => ⟨S_, .i32⟩
  | 77 => ⟨S1, .i32⟩
  | 78 => ⟨S16384x208, .f32⟩
  | 79 => ⟨S16384x64, .f32⟩
  | 80 => ⟨S1x64, .f32⟩
  | 81 => ⟨S64, .f32⟩
  | 82 => ⟨S1x64, .f32⟩
  | 83 => ⟨S16384x64, .f32⟩
  | 84 => ⟨S16384x64, .f32⟩
  | 85 => ⟨S_, .f32⟩
  | 86 => ⟨S16384, .f32⟩
  | 87 => ⟨S1, .f32⟩
  | 88 => ⟨S_, .f32⟩
  | 89 => ⟨S1, .f32⟩
  | 90 => ⟨S_, .f32⟩
  | 91 => ⟨S16384, .f32⟩
  | 92 => ⟨S16384, .f32⟩
  | 93 => ⟨S16384, .f32⟩
  | 94 => ⟨S16384, .f32⟩
  | 95 => ⟨S16384, .f32⟩
  | 96 => ⟨S_, .i32⟩
  | 97 => ⟨S1, .i32⟩
  | 98 => ⟨S16384x208, .f32⟩
  | 99 => ⟨S16384x64, .f32⟩
  | 100 => ⟨S1x64, .f32⟩
  | 101 => ⟨S64, .f32⟩
  | 102 => ⟨S1x64, .f32⟩
  | 103 => ⟨S16384x64, .f32⟩
  | 104 => ⟨S16384x64, .f32⟩
  | 105 => ⟨S_, .f32⟩
  | 106 => ⟨S16384, .f32⟩
  | 107 => ⟨S1, .f32⟩
  | 108 => ⟨S_, .f32⟩
  | 109 => ⟨S1, .f32⟩
  | 110 => ⟨S_, .f32⟩
  | 111 => ⟨S16384, .f32⟩
  | 112 => ⟨S16384, .f32⟩
  | 113 => ⟨S16384, .f32⟩
  | 114 => ⟨S16384, .f32⟩
  | 115 => ⟨S16384, .f32⟩
  | 116 => ⟨S_, .i32⟩
  | 117 => ⟨S1, .i32⟩
  | 118 => ⟨S16384x208, .f32⟩
  | 119 => ⟨S16384x64, .f32⟩
  | 120 => ⟨S1x64, .f32⟩
  | 121 => ⟨S64, .f32⟩
  | 122 => ⟨S1x64, .f32⟩
  | 123 => ⟨S16384x64, .f32⟩
  | 124 => ⟨S16384x64, .f32⟩
  | 125 => ⟨S_, .f32⟩
  | 126 => ⟨S16384, .f32⟩
  | 127 => ⟨S1, .f32⟩
  | _ => ⟨S16384x64, .f32⟩

abbrev hbmTy0_11 (i : Nat) : BufTy := match i % 128 with
  | 0 => ⟨S_, .f32⟩
  | 1 => ⟨S1, .f32⟩
  | 2 => ⟨S_, .f32⟩
  | 3 => ⟨S16384, .f32⟩
  | 4 => ⟨S16384, .f32⟩
  | 5 => ⟨S16384, .f32⟩
  | 6 => ⟨S16384, .f32⟩
  | 7 => ⟨S16384, .f32⟩
  | 8 => ⟨S_, .i32⟩
  | 9 => ⟨S1, .i32⟩
  | 10 => ⟨S16384x208, .f32⟩
  | 11 => ⟨S16384x64, .f32⟩
  | 12 => ⟨S1x64, .f32⟩
  | 13 => ⟨S64, .f32⟩
  | 14 => ⟨S1x64, .f32⟩
  | 15 => ⟨S16384x64, .f32⟩
  | 16 => ⟨S16384x64, .f32⟩
  | 17 => ⟨S_, .f32⟩
  | 18 => ⟨S16384, .f32⟩
  | 19 => ⟨S1, .f32⟩
  | 20 => ⟨S_, .f32⟩
  | 21 => ⟨S1, .f32⟩
  | 22 => ⟨S_, .f32⟩
  | 23 => ⟨S16384, .f32⟩
  | 24 => ⟨S16384, .f32⟩
  | 25 => ⟨S16384, .f32⟩
  | 26 => ⟨S16384, .f32⟩
  | 27 => ⟨S16384, .f32⟩
  | 28 => ⟨S_, .i32⟩
  | 29 => ⟨S1, .i32⟩
  | 30 => ⟨S16384x208, .f32⟩
  | 31 => ⟨S16384x64, .f32⟩
  | 32 => ⟨S1x64, .f32⟩
  | 33 => ⟨S64, .f32⟩
  | 34 => ⟨S1x64, .f32⟩
  | 35 => ⟨S16384x64, .f32⟩
  | 36 => ⟨S16384x64, .f32⟩
  | 37 => ⟨S_, .f32⟩
  | 38 => ⟨S16384, .f32⟩
  | 39 => ⟨S1, .f32⟩
  | 40 => ⟨S_, .f32⟩
  | 41 => ⟨S1, .f32⟩
  | 42 => ⟨S_, .f32⟩
  | 43 => ⟨S16384, .f32⟩
  | 44 => ⟨S16384, .f32⟩
  | 45 => ⟨S16384, .f32⟩
  | 46 => ⟨S16384, .f32⟩
  | 47 => ⟨S16384, .f32⟩
  | 48 => ⟨S_, .i32⟩
  | 49 => ⟨S1, .i32⟩
  | 50 => ⟨S16384x208, .f32⟩
  | 51 => ⟨S16384x64, .f32⟩
  | 52 => ⟨S1x64, .f32⟩
  | 53 => ⟨S64, .f32⟩
  | 54 => ⟨S1x64, .f32⟩
  | 55 => ⟨S16384x64, .f32⟩
  | 56 => ⟨S16384x64, .f32⟩
  | 57 => ⟨S_, .f32⟩
  | 58 => ⟨S16384, .f32⟩
  | 59 => ⟨S1, .f32⟩
  | 60 => ⟨S_, .f32⟩
  | 61 => ⟨S1, .f32⟩
  | 62 => ⟨S_, .f32⟩
  | 63 => ⟨S16384, .f32⟩
  | 64 => ⟨S16384, .f32⟩
  | 65 => ⟨S16384, .f32⟩
  | 66 => ⟨S16384, .f32⟩
  | 67 => ⟨S16384, .f32⟩
  | 68 => ⟨S_, .i32⟩
  | 69 => ⟨S1, .i32⟩
  | 70 => ⟨S16384x208, .f32⟩
  | 71 => ⟨S16384x64, .f32⟩
  | 72 => ⟨S1x64, .f32⟩
  | 73 => ⟨S64, .f32⟩
  | 74 => ⟨S1x64, .f32⟩
  | 75 => ⟨S16384x64, .f32⟩
  | 76 => ⟨S16384x64, .f32⟩
  | 77 => ⟨S_, .f32⟩
  | 78 => ⟨S16384, .f32⟩
  | 79 => ⟨S1, .f32⟩
  | 80 => ⟨S_, .f32⟩
  | 81 => ⟨S1, .f32⟩
  | 82 => ⟨S_, .f32⟩
  | 83 => ⟨S16384, .f32⟩
  | 84 => ⟨S16384, .f32⟩
  | 85 => ⟨S16384, .f32⟩
  | 86 => ⟨S16384, .f32⟩
  | 87 => ⟨S16384, .f32⟩
  | 88 => ⟨S_, .i32⟩
  | 89 => ⟨S1, .i32⟩
  | 90 => ⟨S16384x208, .f32⟩
  | 91 => ⟨S16384x64, .f32⟩
  | 92 => ⟨S1x64, .f32⟩
  | 93 => ⟨S64, .f32⟩
  | 94 => ⟨S1x64, .f32⟩
  | 95 => ⟨S16384x64, .f32⟩
  | 96 => ⟨S16384x64, .f32⟩
  | 97 => ⟨S_, .f32⟩
  | 98 => ⟨S16384, .f32⟩
  | 99 => ⟨S1, .f32⟩
  | 100 => ⟨S_, .f32⟩
  | 101 => ⟨S1, .f32⟩
  | 102 => ⟨S_, .f32⟩
  | 103 => ⟨S16384, .f32⟩
  | 104 => ⟨S16384, .f32⟩
  | 105 => ⟨S16384, .f32⟩
  | 106 => ⟨S16384, .f32⟩
  | 107 => ⟨S16384, .f32⟩
  | 108 => ⟨S_, .i32⟩
  | 109 => ⟨S1, .i32⟩
  | 110 => ⟨S16384x208, .f32⟩
  | 111 => ⟨S16384x64, .f32⟩
  | 112 => ⟨S1x64, .f32⟩
  | 113 => ⟨S64, .f32⟩
  | 114 => ⟨S1x64, .f32⟩
  | 115 => ⟨S16384x64, .f32⟩
  | 116 => ⟨S16384x64, .f32⟩
  | 117 => ⟨S_, .f32⟩
  | 118 => ⟨S16384, .f32⟩
  | 119 => ⟨S1, .f32⟩
  | 120 => ⟨S_, .f32⟩
  | 121 => ⟨S1, .f32⟩
  | 122 => ⟨S_, .f32⟩
  | 123 => ⟨S16384, .f32⟩
  | 124 => ⟨S16384, .f32⟩
  | 125 => ⟨S16384, .f32⟩
  | 126 => ⟨S16384, .f32⟩
  | 127 => ⟨S16384, .f32⟩
  | _ => ⟨S16384x64, .f32⟩

abbrev hbmTy0_12 (i : Nat) : BufTy := match i % 128 with
  | 0 => ⟨S_, .i32⟩
  | 1 => ⟨S1, .i32⟩
  | 2 => ⟨S16384x208, .f32⟩
  | 3 => ⟨S16384x64, .f32⟩
  | 4 => ⟨S1x64, .f32⟩
  | 5 => ⟨S64, .f32⟩
  | 6 => ⟨S1x64, .f32⟩
  | 7 => ⟨S16384x64, .f32⟩
  | 8 => ⟨S16384x64, .f32⟩
  | 9 => ⟨S_, .f32⟩
  | 10 => ⟨S16384, .f32⟩
  | 11 => ⟨S1, .f32⟩
  | 12 => ⟨S_, .f32⟩
  | 13 => ⟨S1, .f32⟩
  | 14 => ⟨S_, .f32⟩
  | 15 => ⟨S16384, .f32⟩
  | 16 => ⟨S16384, .f32⟩
  | 17 => ⟨S16384, .f32⟩
  | 18 => ⟨S16384, .f32⟩
  | 19 => ⟨S16384, .f32⟩
  | 20 => ⟨S_, .i32⟩
  | 21 => ⟨S1, .i32⟩
  | 22 => ⟨S16384x208, .f32⟩
  | 23 => ⟨S16384x64, .f32⟩
  | 24 => ⟨S1x64, .f32⟩
  | 25 => ⟨S64, .f32⟩
  | 26 => ⟨S1x64, .f32⟩
  | 27 => ⟨S16384x64, .f32⟩
  | 28 => ⟨S16384x64, .f32⟩
  | 29 => ⟨S_, .f32⟩
  | 30 => ⟨S16384, .f32⟩
  | 31 => ⟨S1, .f32⟩
  | 32 => ⟨S_, .f32⟩
  | 33 => ⟨S1, .f32⟩
  | 34 => ⟨S_, .f32⟩
  | 35 => ⟨S16384, .f32⟩
  | 36 => ⟨S16384, .f32⟩
  | 37 => ⟨S16384, .f32⟩
  | 38 => ⟨S16384, .f32⟩
  | 39 => ⟨S16384, .f32⟩
  | 40 => ⟨S_, .i32⟩
  | 41 => ⟨S1, .i32⟩
  | 42 => ⟨S16384x208, .f32⟩
  | 43 => ⟨S16384x64, .f32⟩
  | 44 => ⟨S1x64, .f32⟩
  | 45 => ⟨S64, .f32⟩
  | 46 => ⟨S1x64, .f32⟩
  | 47 => ⟨S16384x64, .f32⟩
  | 48 => ⟨S16384x64, .f32⟩
  | 49 => ⟨S_, .f32⟩
  | 50 => ⟨S16384, .f32⟩
  | 51 => ⟨S1, .f32⟩
  | 52 => ⟨S_, .f32⟩
  | 53 => ⟨S1, .f32⟩
  | 54 => ⟨S_, .f32⟩
  | 55 => ⟨S16384, .f32⟩
  | 56 => ⟨S16384, .f32⟩
  | 57 => ⟨S16384, .f32⟩
  | 58 => ⟨S16384, .f32⟩
  | 59 => ⟨S16384, .f32⟩
  | 60 => ⟨S_, .i32⟩
  | 61 => ⟨S1, .i32⟩
  | 62 => ⟨S16384x208, .f32⟩
  | 63 => ⟨S16384x64, .f32⟩
  | 64 => ⟨S1x64, .f32⟩
  | 65 => ⟨S64, .f32⟩
  | 66 => ⟨S1x64, .f32⟩
  | 67 => ⟨S16384x64, .f32⟩
  | 68 => ⟨S16384x64, .f32⟩
  | 69 => ⟨S_, .f32⟩
  | 70 => ⟨S16384, .f32⟩
  | 71 => ⟨S1, .f32⟩
  | 72 => ⟨S_, .f32⟩
  | 73 => ⟨S1, .f32⟩
  | 74 => ⟨S_, .f32⟩
  | 75 => ⟨S16384, .f32⟩
  | 76 => ⟨S16384, .f32⟩
  | 77 => ⟨S16384, .f32⟩
  | 78 => ⟨S16384, .f32⟩
  | 79 => ⟨S16384, .f32⟩
  | 80 => ⟨S_, .i32⟩
  | 81 => ⟨S1, .i32⟩
  | 82 => ⟨S16384x208, .f32⟩
  | 83 => ⟨S16384x64, .f32⟩
  | 84 => ⟨S1x64, .f32⟩
  | 85 => ⟨S64, .f32⟩
  | 86 => ⟨S1x64, .f32⟩
  | 87 => ⟨S16384x64, .f32⟩
  | 88 => ⟨S16384x64, .f32⟩
  | 89 => ⟨S_, .f32⟩
  | 90 => ⟨S16384, .f32⟩
  | 91 => ⟨S1, .f32⟩
  | 92 => ⟨S_, .f32⟩
  | 93 => ⟨S1, .f32⟩
  | 94 => ⟨S_, .f32⟩
  | 95 => ⟨S16384, .f32⟩
  | 96 => ⟨S16384, .f32⟩
  | 97 => ⟨S16384, .f32⟩
  | 98 => ⟨S16384, .f32⟩
  | 99 => ⟨S16384, .f32⟩
  | 100 => ⟨S_, .i32⟩
  | 101 => ⟨S1, .i32⟩
  | 102 => ⟨S16384x208, .f32⟩
  | 103 => ⟨S16384x64, .f32⟩
  | 104 => ⟨S1x64, .f32⟩
  | 105 => ⟨S64, .f32⟩
  | 106 => ⟨S1x64, .f32⟩
  | 107 => ⟨S16384x64, .f32⟩
  | 108 => ⟨S16384x64, .f32⟩
  | 109 => ⟨S_, .f32⟩
  | 110 => ⟨S16384, .f32⟩
  | 111 => ⟨S1, .f32⟩
  | 112 => ⟨S_, .f32⟩
  | 113 => ⟨S1, .f32⟩
  | 114 => ⟨S_, .f32⟩
  | 115 => ⟨S16384, .f32⟩
  | 116 => ⟨S16384, .f32⟩
  | 117 => ⟨S16384, .f32⟩
  | 118 => ⟨S16384, .f32⟩
  | 119 => ⟨S16384, .f32⟩
  | 120 => ⟨S_, .i32⟩
  | 121 => ⟨S1, .i32⟩
  | 122 => ⟨S16384x208, .f32⟩
  | 123 => ⟨S16384x64, .f32⟩
  | 124 => ⟨S1x64, .f32⟩
  | 125 => ⟨S64, .f32⟩
  | 126 => ⟨S1x64, .f32⟩
  | 127 => ⟨S16384x64, .f32⟩
  | _ => ⟨S16384x64, .f32⟩

abbrev hbmTy0_13 (i : Nat) : BufTy := match i % 128 with
  | 0 => ⟨S16384x64, .f32⟩
  | 1 => ⟨S_, .f32⟩
  | 2 => ⟨S16384, .f32⟩
  | 3 => ⟨S1, .f32⟩
  | 4 => ⟨S_, .f32⟩
  | 5 => ⟨S1, .f32⟩
  | 6 => ⟨S_, .f32⟩
  | 7 => ⟨S16384, .f32⟩
  | 8 => ⟨S16384, .f32⟩
  | 9 => ⟨S16384, .f32⟩
  | 10 => ⟨S16384, .f32⟩
  | 11 => ⟨S16384, .f32⟩
  | 12 => ⟨S_, .i32⟩
  | 13 => ⟨S1, .i32⟩
  | 14 => ⟨S16384x208, .f32⟩
  | 15 => ⟨S16384x64, .f32⟩
  | 16 => ⟨S1x64, .f32⟩
  | 17 => ⟨S64, .f32⟩
  | 18 => ⟨S1x64, .f32⟩
  | 19 => ⟨S16384x64, .f32⟩
  | 20 => ⟨S16384x64, .f32⟩
  | 21 => ⟨S_, .f32⟩
  | 22 => ⟨S16384, .f32⟩
  | 23 => ⟨S1, .f32⟩
  | 24 => ⟨S_, .f32⟩
  | 25 => ⟨S1, .f32⟩
  | 26 => ⟨S_, .f32⟩
  | 27 => ⟨S16384, .f32⟩
  | 28 => ⟨S16384, .f32⟩
  | 29 => ⟨S16384, .f32⟩
  | 30 => ⟨S16384, .f32⟩
  | 31 => ⟨S16384, .f32⟩
  | 32 => ⟨S_, .i32⟩
  | 33 => ⟨S1, .i32⟩
  | 34 => ⟨S16384x208, .f32⟩
  | 35 => ⟨S16384x64, .f32⟩
  | 36 => ⟨S1x64, .f32⟩
  | 37 => ⟨S64, .f32⟩
  | 38 => ⟨S1x64, .f32⟩
  | 39 => ⟨S16384x64, .f32⟩
  | 40 => ⟨S16384x64, .f32⟩
  | 41 => ⟨S_, .f32⟩
  | 42 => ⟨S16384, .f32⟩
  | 43 => ⟨S1, .f32⟩
  | 44 => ⟨S_, .f32⟩
  | 45 => ⟨S1, .f32⟩
  | 46 => ⟨S_, .f32⟩
  | 47 => ⟨S16384, .f32⟩
  | 48 => ⟨S16384, .f32⟩
  | 49 => ⟨S16384, .f32⟩
  | 50 => ⟨S16384, .f32⟩
  | 51 => ⟨S16384, .f32⟩
  | 52 => ⟨S_, .i32⟩
  | 53 => ⟨S1, .i32⟩
  | 54 => ⟨S16384x208, .f32⟩
  | 55 => ⟨S16384x64, .f32⟩
  | 56 => ⟨S1x64, .f32⟩
  | 57 => ⟨S64, .f32⟩
  | 58 => ⟨S1x64, .f32⟩
  | 59 => ⟨S16384x64, .f32⟩
  | 60 => ⟨S16384x64, .f32⟩
  | 61 => ⟨S_, .f32⟩
  | 62 => ⟨S16384, .f32⟩
  | 63 => ⟨S1, .f32⟩
  | 64 => ⟨S_, .f32⟩
  | 65 => ⟨S1, .f32⟩
  | 66 => ⟨S_, .f32⟩
  | 67 => ⟨S16384, .f32⟩
  | 68 => ⟨S16384, .f32⟩
  | 69 => ⟨S16384, .f32⟩
  | 70 => ⟨S16384, .f32⟩
  | 71 => ⟨S16384, .f32⟩
  | 72 => ⟨S_, .i32⟩
  | 73 => ⟨S1, .i32⟩
  | 74 => ⟨S16384x208, .f32⟩
  | 75 => ⟨S16384x64, .f32⟩
  | 76 => ⟨S1x64, .f32⟩
  | 77 => ⟨S64, .f32⟩
  | 78 => ⟨S1x64, .f32⟩
  | 79 => ⟨S16384x64, .f32⟩
  | 80 => ⟨S16384x64, .f32⟩
  | 81 => ⟨S_, .f32⟩
  | 82 => ⟨S16384, .f32⟩
  | 83 => ⟨S1, .f32⟩
  | 84 => ⟨S_, .f32⟩
  | 85 => ⟨S1, .f32⟩
  | 86 => ⟨S_, .f32⟩
  | 87 => ⟨S16384, .f32⟩
  | 88 => ⟨S16384, .f32⟩
  | 89 => ⟨S16384, .f32⟩
  | 90 => ⟨S16384, .f32⟩
  | 91 => ⟨S16384, .f32⟩
  | 92 => ⟨S_, .i32⟩
  | 93 => ⟨S1, .i32⟩
  | 94 => ⟨S16384x208, .f32⟩
  | 95 => ⟨S16384x64, .f32⟩
  | 96 => ⟨S1x64, .f32⟩
  | 97 => ⟨S64, .f32⟩
  | 98 => ⟨S1x64, .f32⟩
  | 99 => ⟨S16384x64, .f32⟩
  | 100 => ⟨S16384x64, .f32⟩
  | 101 => ⟨S_, .f32⟩
  | 102 => ⟨S16384, .f32⟩
  | 103 => ⟨S1, .f32⟩
  | 104 => ⟨S_, .f32⟩
  | 105 => ⟨S1, .f32⟩
  | 106 => ⟨S_, .f32⟩
  | 107 => ⟨S16384, .f32⟩
  | 108 => ⟨S16384, .f32⟩
  | 109 => ⟨S16384, .f32⟩
  | 110 => ⟨S16384, .f32⟩
  | 111 => ⟨S16384, .f32⟩
  | 112 => ⟨S_, .i32⟩
  | 113 => ⟨S1, .i32⟩
  | 114 => ⟨S16384x208, .f32⟩
  | 115 => ⟨S16384x64, .f32⟩
  | 116 => ⟨S1x64, .f32⟩
  | 117 => ⟨S64, .f32⟩
  | 118 => ⟨S1x64, .f32⟩
  | 119 => ⟨S16384x64, .f32⟩
  | 120 => ⟨S16384x64, .f32⟩
  | 121 => ⟨S_, .f32⟩
  | 122 => ⟨S16384, .f32⟩
  | 123 => ⟨S1, .f32⟩
  | 124 => ⟨S_, .f32⟩
  | 125 => ⟨S1, .f32⟩
  | 126 => ⟨S_, .f32⟩
  | 127 => ⟨S16384, .f32⟩
  | _ => ⟨S16384x64, .f32⟩

abbrev hbmTy0_14 (i : Nat) : BufTy := match i % 128 with
  | 0 => ⟨S16384, .f32⟩
  | 1 => ⟨S16384, .f32⟩
  | 2 => ⟨S16384, .f32⟩
  | 3 => ⟨S16384, .f32⟩
  | 4 => ⟨S_, .i32⟩
  | 5 => ⟨S1, .i32⟩
  | 6 => ⟨S16384x208, .f32⟩
  | 7 => ⟨S16384x64, .f32⟩
  | 8 => ⟨S1x64, .f32⟩
  | 9 => ⟨S64, .f32⟩
  | 10 => ⟨S1x64, .f32⟩
  | 11 => ⟨S16384x64, .f32⟩
  | 12 => ⟨S16384x64, .f32⟩
  | 13 => ⟨S_, .f32⟩
  | 14 => ⟨S16384, .f32⟩
  | 15 => ⟨S1, .f32⟩
  | 16 => ⟨S_, .f32⟩
  | 17 => ⟨S1, .f32⟩
  | 18 => ⟨S_, .f32⟩
  | 19 => ⟨S16384, .f32⟩
  | 20 => ⟨S16384, .f32⟩
  | 21 => ⟨S16384, .f32⟩
  | 22 => ⟨S16384, .f32⟩
  | 23 => ⟨S16384, .f32⟩
  | 24 => ⟨S_, .i32⟩
  | 25 => ⟨S1, .i32⟩
  | 26 => ⟨S16384x208, .f32⟩
  | 27 => ⟨S16384x64, .f32⟩
  | 28 => ⟨S1x64, .f32⟩
  | 29 => ⟨S64, .f32⟩
  | 30 => ⟨S1x64, .f32⟩
  | 31 => ⟨S16384x64, .f32⟩
  | 32 => ⟨S16384x64, .f32⟩
  | 33 => ⟨S_, .f32⟩
  | 34 => ⟨S16384, .f32⟩
  | 35 => ⟨S1, .f32⟩
  | 36 => ⟨S_, .f32⟩
  | 37 => ⟨S1, .f32⟩
  | 38 => ⟨S_, .f32⟩
  | 39 => ⟨S16384, .f32⟩
  | 40 => ⟨S16384, .f32⟩
  | 41 => ⟨S16384, .f32⟩
  | 42 => ⟨S16384, .f32⟩
  | 43 => ⟨S16384, .f32⟩
  | 44 => ⟨S_, .i32⟩
  | 45 => ⟨S1, .i32⟩
  | 46 => ⟨S16384x208, .f32⟩
  | 47 => ⟨S16384x64, .f32⟩
  | 48 => ⟨S1x64, .f32⟩
  | 49 => ⟨S64, .f32⟩
  | 50 => ⟨S1x64, .f32⟩
  | 51 => ⟨S16384x64, .f32⟩
  | 52 => ⟨S16384x64, .f32⟩
  | 53 => ⟨S_, .f32⟩
  | 54 => ⟨S16384, .f32⟩
  | 55 => ⟨S1, .f32⟩
  | 56 => ⟨S_, .f32⟩
  | 57 => ⟨S1, .f32⟩
  | 58 => ⟨S_, .f32⟩
  | 59 => ⟨S16384, .f32⟩
  | 60 => ⟨S16384, .f32⟩
  | 61 => ⟨S16384, .f32⟩
  | 62 => ⟨S16384, .f32⟩
  | 63 => ⟨S16384, .f32⟩
  | 64 => ⟨S_, .i32⟩
  | 65 => ⟨S1, .i32⟩
  | 66 => ⟨S16384x208, .f32⟩
  | 67 => ⟨S16384x64, .f32⟩
  | 68 => ⟨S1x64, .f32⟩
  | 69 => ⟨S64, .f32⟩
  | 70 => ⟨S1x64, .f32⟩
  | 71 => ⟨S16384x64, .f32⟩
  | 72 => ⟨S16384x64, .f32⟩
  | 73 => ⟨S_, .f32⟩
  | 74 => ⟨S16384, .f32⟩
  | 75 => ⟨S1, .f32⟩
  | 76 => ⟨S_, .f32⟩
  | 77 => ⟨S1, .f32⟩
  | 78 => ⟨S_, .f32⟩
  | 79 => ⟨S16384, .f32⟩
  | 80 => ⟨S16384, .f32⟩
  | 81 => ⟨S16384, .f32⟩
  | 82 => ⟨S16384, .f32⟩
  | 83 => ⟨S16384, .f32⟩
  | 84 => ⟨S_, .i32⟩
  | 85 => ⟨S1, .i32⟩
  | 86 => ⟨S16384x208, .f32⟩
  | 87 => ⟨S16384x64, .f32⟩
  | 88 => ⟨S1x64, .f32⟩
  | 89 => ⟨S64, .f32⟩
  | 90 => ⟨S1x64, .f32⟩
  | 91 => ⟨S16384x64, .f32⟩
  | 92 => ⟨S16384x64, .f32⟩
  | 93 => ⟨S_, .f32⟩
  | 94 => ⟨S16384, .f32⟩
  | 95 => ⟨S1, .f32⟩
  | 96 => ⟨S_, .f32⟩
  | 97 => ⟨S1, .f32⟩
  | 98 => ⟨S_, .f32⟩
  | 99 => ⟨S16384, .f32⟩
  | 100 => ⟨S16384, .f32⟩
  | 101 => ⟨S16384, .f32⟩
  | 102 => ⟨S16384, .f32⟩
  | 103 => ⟨S16384, .f32⟩
  | 104 => ⟨S_, .i32⟩
  | 105 => ⟨S1, .i32⟩
  | 106 => ⟨S16384x208, .f32⟩
  | 107 => ⟨S16384x64, .f32⟩
  | 108 => ⟨S1x64, .f32⟩
  | 109 => ⟨S64, .f32⟩
  | 110 => ⟨S1x64, .f32⟩
  | 111 => ⟨S16384x64, .f32⟩
  | 112 => ⟨S16384x64, .f32⟩
  | 113 => ⟨S_, .f32⟩
  | 114 => ⟨S16384, .f32⟩
  | 115 => ⟨S1, .f32⟩
  | 116 => ⟨S_, .f32⟩
  | 117 => ⟨S1, .f32⟩
  | 118 => ⟨S_, .f32⟩
  | 119 => ⟨S16384, .f32⟩
  | 120 => ⟨S16384, .f32⟩
  | 121 => ⟨S16384, .f32⟩
  | 122 => ⟨S16384, .f32⟩
  | 123 => ⟨S16384, .f32⟩
  | 124 => ⟨S_, .i32⟩
  | 125 => ⟨S1, .i32⟩
  | 126 => ⟨S16384x208, .f32⟩
  | 127 => ⟨S16384x64, .f32⟩
  | _ => ⟨S16384x64, .f32⟩

abbrev hbmTy0_15 (i : Nat) : BufTy := match i % 128 with
  | 0 => ⟨S1x64, .f32⟩
  | 1 => ⟨S64, .f32⟩
  | 2 => ⟨S1x64, .f32⟩
  | 3 => ⟨S16384x64, .f32⟩
  | 4 => ⟨S16384x64, .f32⟩
  | 5 => ⟨S_, .f32⟩
  | 6 => ⟨S16384, .f32⟩
  | 7 => ⟨S1, .f32⟩
  | 8 => ⟨S_, .f32⟩
  | 9 => ⟨S1, .f32⟩
  | 10 => ⟨S_, .f32⟩
  | 11 => ⟨S16384, .f32⟩
  | 12 => ⟨S16384, .f32⟩
  | 13 => ⟨S16384, .f32⟩
  | 14 => ⟨S16384, .f32⟩
  | 15 => ⟨S16384, .f32⟩
  | 16 => ⟨S_, .i32⟩
  | 17 => ⟨S1, .i32⟩
  | 18 => ⟨S16384x208, .f32⟩
  | 19 => ⟨S16384x64, .f32⟩
  | 20 => ⟨S1x64, .f32⟩
  | 21 => ⟨S64, .f32⟩
  | 22 => ⟨S1x64, .f32⟩
  | 23 => ⟨S16384x64, .f32⟩
  | 24 => ⟨S16384x64, .f32⟩
  | 25 => ⟨S_, .f32⟩
  | 26 => ⟨S16384, .f32⟩
  | 27 => ⟨S1, .f32⟩
  | 28 => ⟨S_, .f32⟩
  | 29 => ⟨S1, .f32⟩
  | 30 => ⟨S_, .f32⟩
  | 31 => ⟨S16384, .f32⟩
  | 32 => ⟨S16384, .f32⟩
  | 33 => ⟨S16384, .f32⟩
  | 34 => ⟨S16384, .f32⟩
  | 35 => ⟨S16384, .f32⟩
  | 36 => ⟨S_, .i32⟩
  | 37 => ⟨S1, .i32⟩
  | 38 => ⟨S16384x208, .f32⟩
  | 39 => ⟨S16384x64, .f32⟩
  | 40 => ⟨S1x64, .f32⟩
  | 41 => ⟨S64, .f32⟩
  | 42 => ⟨S1x64, .f32⟩
  | 43 => ⟨S16384x64, .f32⟩
  | 44 => ⟨S16384x64, .f32⟩
  | 45 => ⟨S_, .f32⟩
  | 46 => ⟨S16384, .f32⟩
  | 47 => ⟨S1, .f32⟩
  | 48 => ⟨S_, .f32⟩
  | 49 => ⟨S1, .f32⟩
  | 50 => ⟨S_, .f32⟩
  | 51 => ⟨S16384, .f32⟩
  | 52 => ⟨S16384, .f32⟩
  | 53 => ⟨S16384, .f32⟩
  | 54 => ⟨S16384, .f32⟩
  | 55 => ⟨S16384, .f32⟩
  | 56 => ⟨S_, .i32⟩
  | 57 => ⟨S1, .i32⟩
  | 58 => ⟨S16384x208, .f32⟩
  | 59 => ⟨S16384x64, .f32⟩
  | 60 => ⟨S1x64, .f32⟩
  | 61 => ⟨S64, .f32⟩
  | 62 => ⟨S1x64, .f32⟩
  | 63 => ⟨S16384x64, .f32⟩
  | 64 => ⟨S16384x64, .f32⟩
  | 65 => ⟨S_, .f32⟩
  | 66 => ⟨S16384, .f32⟩
  | 67 => ⟨S1, .f32⟩
  | 68 => ⟨S_, .f32⟩
  | 69 => ⟨S1, .f32⟩
  | 70 => ⟨S_, .f32⟩
  | 71 => ⟨S16384, .f32⟩
  | 72 => ⟨S16384, .f32⟩
  | 73 => ⟨S16384, .f32⟩
  | 74 => ⟨S16384, .f32⟩
  | 75 => ⟨S16384, .f32⟩
  | 76 => ⟨S_, .i32⟩
  | 77 => ⟨S1, .i32⟩
  | 78 => ⟨S16384x208, .f32⟩
  | 79 => ⟨S16384x64, .f32⟩
  | 80 => ⟨S1x64, .f32⟩
  | 81 => ⟨S64, .f32⟩
  | 82 => ⟨S1x64, .f32⟩
  | 83 => ⟨S16384x64, .f32⟩
  | 84 => ⟨S16384x64, .f32⟩
  | 85 => ⟨S_, .f32⟩
  | 86 => ⟨S16384, .f32⟩
  | 87 => ⟨S1, .f32⟩
  | 88 => ⟨S_, .f32⟩
  | 89 => ⟨S1, .f32⟩
  | 90 => ⟨S_, .f32⟩
  | 91 => ⟨S16384, .f32⟩
  | 92 => ⟨S16384, .f32⟩
  | 93 => ⟨S16384, .f32⟩
  | 94 => ⟨S16384, .f32⟩
  | 95 => ⟨S16384, .f32⟩
  | 96 => ⟨S_, .i32⟩
  | 97 => ⟨S1, .i32⟩
  | 98 => ⟨S16384x208, .f32⟩
  | 99 => ⟨S16384x64, .f32⟩
  | 100 => ⟨S1x64, .f32⟩
  | 101 => ⟨S64, .f32⟩
  | 102 => ⟨S1x64, .f32⟩
  | 103 => ⟨S16384x64, .f32⟩
  | 104 => ⟨S16384x64, .f32⟩
  | 105 => ⟨S_, .f32⟩
  | 106 => ⟨S16384, .f32⟩
  | 107 => ⟨S1, .f32⟩
  | 108 => ⟨S_, .f32⟩
  | 109 => ⟨S1, .f32⟩
  | 110 => ⟨S_, .f32⟩
  | 111 => ⟨S16384, .f32⟩
  | 112 => ⟨S16384, .f32⟩
  | 113 => ⟨S16384, .f32⟩
  | 114 => ⟨S16384, .f32⟩
  | 115 => ⟨S16384, .f32⟩
  | 116 => ⟨S_, .i32⟩
  | 117 => ⟨S1, .i32⟩
  | 118 => ⟨S16384x208, .f32⟩
  | 119 => ⟨S16384x64, .f32⟩
  | 120 => ⟨S1x64, .f32⟩
  | 121 => ⟨S64, .f32⟩
  | 122 => ⟨S1x64, .f32⟩
  | 123 => ⟨S16384x64, .f32⟩
  | 124 => ⟨S16384x64, .f32⟩
  | 125 => ⟨S_, .f32⟩
  | 126 => ⟨S16384, .f32⟩
  | 127 => ⟨S1, .f32⟩
  | _ => ⟨S16384x64, .f32⟩

abbrev hbmTy0_16 (i : Nat) : BufTy := match i % 128 with
  | 0 => ⟨S_, .f32⟩
  | 1 => ⟨S1, .f32⟩
  | 2 => ⟨S_, .f32⟩
  | 3 => ⟨S16384, .f32⟩
  | 4 => ⟨S16384, .f32⟩
  | 5 => ⟨S16384, .f32⟩
  | 6 => ⟨S16384, .f32⟩
  | 7 => ⟨S16384, .f32⟩
  | 8 => ⟨S_, .i32⟩
  | 9 => ⟨S1, .i32⟩
  | 10 => ⟨S16384x208, .f32⟩
  | 11 => ⟨S16384x64, .f32⟩
  | 12 => ⟨S1x64, .f32⟩
  | 13 => ⟨S64, .f32⟩
  | 14 => ⟨S1x64, .f32⟩
  | 15 => ⟨S16384x64, .f32⟩
  | 16 => ⟨S16384x64, .f32⟩
  | 17 => ⟨S_, .f32⟩
  | 18 => ⟨S16384, .f32⟩
  | 19 => ⟨S1, .f32⟩
  | 20 => ⟨S_, .f32⟩
  | 21 => ⟨S1, .f32⟩
  | 22 => ⟨S_, .f32⟩
  | 23 => ⟨S16384, .f32⟩
  | 24 => ⟨S16384, .f32⟩
  | 25 => ⟨S16384, .f32⟩
  | 26 => ⟨S16384, .f32⟩
  | 27 => ⟨S16384, .f32⟩
  | 28 => ⟨S_, .i32⟩
  | 29 => ⟨S1, .i32⟩
  | 30 => ⟨S16384x208, .f32⟩
  | 31 => ⟨S16384x64, .f32⟩
  | 32 => ⟨S1x64, .f32⟩
  | 33 => ⟨S64, .f32⟩
  | 34 => ⟨S1x64, .f32⟩
  | 35 => ⟨S16384x64, .f32⟩
  | 36 => ⟨S16384x64, .f32⟩
  | 37 => ⟨S_, .f32⟩
  | 38 => ⟨S16384, .f32⟩
  | 39 => ⟨S1, .f32⟩
  | 40 => ⟨S_, .f32⟩
  | 41 => ⟨S1, .f32⟩
  | 42 => ⟨S_, .f32⟩
  | 43 => ⟨S16384, .f32⟩
  | 44 => ⟨S16384, .f32⟩
  | 45 => ⟨S16384, .f32⟩
  | 46 => ⟨S16384, .f32⟩
  | 47 => ⟨S16384, .f32⟩
  | 48 => ⟨S_, .i32⟩
  | 49 => ⟨S1, .i32⟩
  | 50 => ⟨S16384x208, .f32⟩
  | 51 => ⟨S16384x64, .f32⟩
  | 52 => ⟨S1x64, .f32⟩
  | 53 => ⟨S64, .f32⟩
  | 54 => ⟨S1x64, .f32⟩
  | 55 => ⟨S16384x64, .f32⟩
  | 56 => ⟨S16384x64, .f32⟩
  | 57 => ⟨S_, .f32⟩
  | 58 => ⟨S16384, .f32⟩
  | 59 => ⟨S1, .f32⟩
  | 60 => ⟨S_, .f32⟩
  | 61 => ⟨S1, .f32⟩
  | 62 => ⟨S_, .f32⟩
  | 63 => ⟨S16384, .f32⟩
  | 64 => ⟨S16384, .f32⟩
  | 65 => ⟨S16384, .f32⟩
  | 66 => ⟨S16384, .f32⟩
  | 67 => ⟨S16384, .f32⟩
  | 68 => ⟨S_, .i32⟩
  | 69 => ⟨S1, .i32⟩
  | 70 => ⟨S16384x208, .f32⟩
  | 71 => ⟨S16384x64, .f32⟩
  | 72 => ⟨S1x64, .f32⟩
  | 73 => ⟨S64, .f32⟩
  | 74 => ⟨S1x64, .f32⟩
  | 75 => ⟨S16384x64, .f32⟩
  | 76 => ⟨S16384x64, .f32⟩
  | 77 => ⟨S_, .f32⟩
  | 78 => ⟨S16384, .f32⟩
  | 79 => ⟨S1, .f32⟩
  | 80 => ⟨S_, .f32⟩
  | 81 => ⟨S1, .f32⟩
  | 82 => ⟨S_, .f32⟩
  | 83 => ⟨S16384, .f32⟩
  | 84 => ⟨S16384, .f32⟩
  | 85 => ⟨S16384, .f32⟩
  | 86 => ⟨S16384, .f32⟩
  | 87 => ⟨S16384, .f32⟩
  | 88 => ⟨S_, .i32⟩
  | 89 => ⟨S1, .i32⟩
  | 90 => ⟨S16384x208, .f32⟩
  | 91 => ⟨S16384x64, .f32⟩
  | 92 => ⟨S1x64, .f32⟩
  | 93 => ⟨S64, .f32⟩
  | 94 => ⟨S1x64, .f32⟩
  | 95 => ⟨S16384x64, .f32⟩
  | 96 => ⟨S16384x64, .f32⟩
  | 97 => ⟨S_, .f32⟩
  | 98 => ⟨S16384, .f32⟩
  | 99 => ⟨S1, .f32⟩
  | 100 => ⟨S_, .f32⟩
  | 101 => ⟨S1, .f32⟩
  | 102 => ⟨S_, .f32⟩
  | 103 => ⟨S16384, .f32⟩
  | 104 => ⟨S16384, .f32⟩
  | 105 => ⟨S16384, .f32⟩
  | 106 => ⟨S16384, .f32⟩
  | 107 => ⟨S16384, .f32⟩
  | 108 => ⟨S_, .i32⟩
  | 109 => ⟨S1, .i32⟩
  | 110 => ⟨S16384x208, .f32⟩
  | 111 => ⟨S16384x64, .f32⟩
  | 112 => ⟨S1x64, .f32⟩
  | 113 => ⟨S64, .f32⟩
  | 114 => ⟨S1x64, .f32⟩
  | 115 => ⟨S16384x64, .f32⟩
  | 116 => ⟨S16384x64, .f32⟩
  | 117 => ⟨S_, .f32⟩
  | 118 => ⟨S16384, .f32⟩
  | 119 => ⟨S1, .f32⟩
  | 120 => ⟨S_, .f32⟩
  | 121 => ⟨S1, .f32⟩
  | 122 => ⟨S_, .f32⟩
  | 123 => ⟨S16384, .f32⟩
  | 124 => ⟨S16384, .f32⟩
  | 125 => ⟨S16384, .f32⟩
  | 126 => ⟨S16384, .f32⟩
  | 127 => ⟨S16384, .f32⟩
  | _ => ⟨S16384x64, .f32⟩

abbrev hbmTy0_17 (i : Nat) : BufTy := match i % 128 with
  | 0 => ⟨S_, .i32⟩
  | 1 => ⟨S1, .i32⟩
  | 2 => ⟨S16384x208, .f32⟩
  | 3 => ⟨S16384x64, .f32⟩
  | 4 => ⟨S1x64, .f32⟩
  | 5 => ⟨S64, .f32⟩
  | 6 => ⟨S1x64, .f32⟩
  | 7 => ⟨S16384x64, .f32⟩
  | 8 => ⟨S16384x64, .f32⟩
  | 9 => ⟨S_, .f32⟩
  | 10 => ⟨S16384, .f32⟩
  | 11 => ⟨S1, .f32⟩
  | 12 => ⟨S_, .f32⟩
  | 13 => ⟨S1, .f32⟩
  | 14 => ⟨S_, .f32⟩
  | 15 => ⟨S16384, .f32⟩
  | 16 => ⟨S16384, .f32⟩
  | 17 => ⟨S16384, .f32⟩
  | 18 => ⟨S16384, .f32⟩
  | 19 => ⟨S16384, .f32⟩
  | 20 => ⟨S_, .i32⟩
  | 21 => ⟨S1, .i32⟩
  | 22 => ⟨S16384x208, .f32⟩
  | 23 => ⟨S16384x64, .f32⟩
  | 24 => ⟨S1x64, .f32⟩
  | 25 => ⟨S64, .f32⟩
  | 26 => ⟨S1x64, .f32⟩
  | 27 => ⟨S16384x64, .f32⟩
  | 28 => ⟨S16384x64, .f32⟩
  | 29 => ⟨S_, .f32⟩
  | 30 => ⟨S16384, .f32⟩
  | 31 => ⟨S1, .f32⟩
  | 32 => ⟨S_, .f32⟩
  | 33 => ⟨S1, .f32⟩
  | 34 => ⟨S_, .f32⟩
  | 35 => ⟨S16384, .f32⟩
  | 36 => ⟨S16384, .f32⟩
  | 37 => ⟨S16384, .f32⟩
  | 38 => ⟨S16384, .f32⟩
  | 39 => ⟨S16384, .f32⟩
  | 40 => ⟨S_, .i32⟩
  | 41 => ⟨S1, .i32⟩
  | 42 => ⟨S16384x208, .f32⟩
  | 43 => ⟨S16384x64, .f32⟩
  | 44 => ⟨S1x64, .f32⟩
  | 45 => ⟨S64, .f32⟩
  | 46 => ⟨S1x64, .f32⟩
  | 47 => ⟨S16384x64, .f32⟩
  | 48 => ⟨S16384x64, .f32⟩
  | 49 => ⟨S_, .f32⟩
  | 50 => ⟨S16384, .f32⟩
  | 51 => ⟨S1, .f32⟩
  | 52 => ⟨S_, .f32⟩
  | 53 => ⟨S1, .f32⟩
  | 54 => ⟨S_, .f32⟩
  | 55 => ⟨S16384, .f32⟩
  | 56 => ⟨S16384, .f32⟩
  | 57 => ⟨S16384, .f32⟩
  | 58 => ⟨S16384, .f32⟩
  | 59 => ⟨S16384, .f32⟩
  | 60 => ⟨S_, .i32⟩
  | 61 => ⟨S1, .i32⟩
  | 62 => ⟨S16384x208, .f32⟩
  | 63 => ⟨S16384x64, .f32⟩
  | 64 => ⟨S1x64, .f32⟩
  | 65 => ⟨S64, .f32⟩
  | 66 => ⟨S1x64, .f32⟩
  | 67 => ⟨S16384x64, .f32⟩
  | 68 => ⟨S16384x64, .f32⟩
  | 69 => ⟨S_, .f32⟩
  | 70 => ⟨S16384, .f32⟩
  | 71 => ⟨S1, .f32⟩
  | 72 => ⟨S_, .f32⟩
  | 73 => ⟨S1, .f32⟩
  | 74 => ⟨S_, .f32⟩
  | 75 => ⟨S16384, .f32⟩
  | 76 => ⟨S16384, .f32⟩
  | 77 => ⟨S16384, .f32⟩
  | 78 => ⟨S16384, .f32⟩
  | 79 => ⟨S16384, .f32⟩
  | 80 => ⟨S_, .i32⟩
  | 81 => ⟨S1, .i32⟩
  | 82 => ⟨S16384x208, .f32⟩
  | 83 => ⟨S16384x64, .f32⟩
  | 84 => ⟨S1x64, .f32⟩
  | 85 => ⟨S64, .f32⟩
  | 86 => ⟨S1x64, .f32⟩
  | 87 => ⟨S16384x64, .f32⟩
  | 88 => ⟨S16384x64, .f32⟩
  | 89 => ⟨S_, .f32⟩
  | 90 => ⟨S16384, .f32⟩
  | 91 => ⟨S1, .f32⟩
  | 92 => ⟨S_, .f32⟩
  | 93 => ⟨S1, .f32⟩
  | 94 => ⟨S_, .f32⟩
  | 95 => ⟨S16384, .f32⟩
  | 96 => ⟨S16384, .f32⟩
  | 97 => ⟨S16384, .f32⟩
  | 98 => ⟨S16384, .f32⟩
  | 99 => ⟨S16384, .f32⟩
  | 100 => ⟨S_, .i32⟩
  | 101 => ⟨S1, .i32⟩
  | 102 => ⟨S16384x208, .f32⟩
  | 103 => ⟨S16384x64, .f32⟩
  | 104 => ⟨S1x64, .f32⟩
  | 105 => ⟨S64, .f32⟩
  | 106 => ⟨S1x64, .f32⟩
  | 107 => ⟨S16384x64, .f32⟩
  | 108 => ⟨S16384x64, .f32⟩
  | 109 => ⟨S_, .f32⟩
  | 110 => ⟨S16384, .f32⟩
  | 111 => ⟨S1, .f32⟩
  | 112 => ⟨S_, .f32⟩
  | 113 => ⟨S1, .f32⟩
  | 114 => ⟨S_, .f32⟩
  | 115 => ⟨S16384, .f32⟩
  | 116 => ⟨S16384, .f32⟩
  | 117 => ⟨S16384, .f32⟩
  | 118 => ⟨S16384, .f32⟩
  | 119 => ⟨S16384, .f32⟩
  | 120 => ⟨S_, .i32⟩
  | 121 => ⟨S1, .i32⟩
  | 122 => ⟨S16384x208, .f32⟩
  | 123 => ⟨S16384x64, .f32⟩
  | 124 => ⟨S1x64, .f32⟩
  | 125 => ⟨S64, .f32⟩
  | 126 => ⟨S1x64, .f32⟩
  | 127 => ⟨S16384x64, .f32⟩
  | _ => ⟨S16384x64, .f32⟩

abbrev hbmTy0_18 (i : Nat) : BufTy := match i % 128 with
  | 0 => ⟨S16384x64, .f32⟩
  | 1 => ⟨S_, .f32⟩
  | 2 => ⟨S16384, .f32⟩
  | 3 => ⟨S1, .f32⟩
  | 4 => ⟨S_, .f32⟩
  | 5 => ⟨S1, .f32⟩
  | 6 => ⟨S_, .f32⟩
  | 7 => ⟨S16384, .f32⟩
  | 8 => ⟨S16384, .f32⟩
  | 9 => ⟨S16384, .f32⟩
  | 10 => ⟨S16384, .f32⟩
  | 11 => ⟨S16384, .f32⟩
  | 12 => ⟨S_, .i32⟩
  | 13 => ⟨S1, .i32⟩
  | 14 => ⟨S16384x208, .f32⟩
  | 15 => ⟨S16384x64, .f32⟩
  | 16 => ⟨S1x64, .f32⟩
  | 17 => ⟨S64, .f32⟩
  | 18 => ⟨S1x64, .f32⟩
  | 19 => ⟨S16384x64, .f32⟩
  | 20 => ⟨S16384x64, .f32⟩
  | 21 => ⟨S_, .f32⟩
  | 22 => ⟨S16384, .f32⟩
  | 23 => ⟨S1, .f32⟩
  | 24 => ⟨S_, .f32⟩
  | 25 => ⟨S1, .f32⟩
  | 26 => ⟨S_, .f32⟩
  | 27 => ⟨S16384, .f32⟩
  | 28 => ⟨S16384, .f32⟩
  | 29 => ⟨S16384, .f32⟩
  | 30 => ⟨S16384, .f32⟩
  | 31 => ⟨S16384, .f32⟩
  | 32 => ⟨S_, .i32⟩
  | 33 => ⟨S1, .i32⟩
  | 34 => ⟨S16384x208, .f32⟩
  | 35 => ⟨S16384x64, .f32⟩
  | 36 => ⟨S1x64, .f32⟩
  | 37 => ⟨S64, .f32⟩
  | 38 => ⟨S1x64, .f32⟩
  | 39 => ⟨S16384x64, .f32⟩
  | 40 => ⟨S16384x64, .f32⟩
  | 41 => ⟨S_, .f32⟩
  | 42 => ⟨S16384, .f32⟩
  | 43 => ⟨S1, .f32⟩
  | 44 => ⟨S_, .f32⟩
  | 45 => ⟨S1, .f32⟩
  | 46 => ⟨S_, .f32⟩
  | 47 => ⟨S16384, .f32⟩
  | 48 => ⟨S16384, .f32⟩
  | 49 => ⟨S16384, .f32⟩
  | 50 => ⟨S16384, .f32⟩
  | 51 => ⟨S16384, .f32⟩
  | 52 => ⟨S_, .i32⟩
  | 53 => ⟨S1, .i32⟩
  | 54 => ⟨S16384x208, .f32⟩
  | 55 => ⟨S16384x64, .f32⟩
  | 56 => ⟨S1x64, .f32⟩
  | 57 => ⟨S64, .f32⟩
  | 58 => ⟨S1x64, .f32⟩
  | 59 => ⟨S16384x64, .f32⟩
  | 60 => ⟨S16384x64, .f32⟩
  | 61 => ⟨S_, .f32⟩
  | 62 => ⟨S16384, .f32⟩
  | 63 => ⟨S1, .f32⟩
  | 64 => ⟨S_, .f32⟩
  | 65 => ⟨S1, .f32⟩
  | 66 => ⟨S_, .f32⟩
  | 67 => ⟨S16384, .f32⟩
  | 68 => ⟨S16384, .f32⟩
  | 69 => ⟨S16384, .f32⟩
  | 70 => ⟨S16384, .f32⟩
  | 71 => ⟨S16384, .f32⟩
  | 72 => ⟨S_, .i32⟩
  | 73 => ⟨S1, .i32⟩
  | 74 => ⟨S16384x208, .f32⟩
  | 75 => ⟨S16384x64, .f32⟩
  | 76 => ⟨S1x64, .f32⟩
  | 77 => ⟨S64, .f32⟩
  | 78 => ⟨S1x64, .f32⟩
  | 79 => ⟨S16384x64, .f32⟩
  | 80 => ⟨S16384x64, .f32⟩
  | 81 => ⟨S_, .f32⟩
  | 82 => ⟨S16384, .f32⟩
  | 83 => ⟨S1, .f32⟩
  | 84 => ⟨S_, .f32⟩
  | 85 => ⟨S1, .f32⟩
  | 86 => ⟨S_, .f32⟩
  | 87 => ⟨S16384, .f32⟩
  | 88 => ⟨S16384, .f32⟩
  | 89 => ⟨S16384, .f32⟩
  | 90 => ⟨S16384, .f32⟩
  | 91 => ⟨S16384, .f32⟩
  | 92 => ⟨S_, .i32⟩
  | 93 => ⟨S1, .i32⟩
  | 94 => ⟨S16384x208, .f32⟩
  | 95 => ⟨S16384x64, .f32⟩
  | 96 => ⟨S1x64, .f32⟩
  | 97 => ⟨S64, .f32⟩
  | 98 => ⟨S1x64, .f32⟩
  | 99 => ⟨S16384x64, .f32⟩
  | 100 => ⟨S16384x64, .f32⟩
  | 101 => ⟨S_, .f32⟩
  | 102 => ⟨S16384, .f32⟩
  | 103 => ⟨S1, .f32⟩
  | 104 => ⟨S_, .f32⟩
  | 105 => ⟨S1, .f32⟩
  | 106 => ⟨S_, .f32⟩
  | 107 => ⟨S16384, .f32⟩
  | 108 => ⟨S16384, .f32⟩
  | 109 => ⟨S16384, .f32⟩
  | 110 => ⟨S16384, .f32⟩
  | 111 => ⟨S16384, .f32⟩
  | 112 => ⟨S_, .i32⟩
  | 113 => ⟨S1, .i32⟩
  | 114 => ⟨S16384x208, .f32⟩
  | 115 => ⟨S16384x64, .f32⟩
  | 116 => ⟨S1x64, .f32⟩
  | 117 => ⟨S64, .f32⟩
  | 118 => ⟨S1x64, .f32⟩
  | 119 => ⟨S16384x64, .f32⟩
  | 120 => ⟨S16384x64, .f32⟩
  | 121 => ⟨S_, .f32⟩
  | 122 => ⟨S16384, .f32⟩
  | 123 => ⟨S1, .f32⟩
  | 124 => ⟨S_, .f32⟩
  | 125 => ⟨S1, .f32⟩
  | 126 => ⟨S_, .f32⟩
  | 127 => ⟨S16384, .f32⟩
  | _ => ⟨S16384x64, .f32⟩

abbrev hbmTy0_19 (i : Nat) : BufTy := match i % 128 with
  | 0 => ⟨S16384, .f32⟩
  | 1 => ⟨S16384, .f32⟩
  | 2 => ⟨S16384, .f32⟩
  | 3 => ⟨S16384, .f32⟩
  | 4 => ⟨S_, .i32⟩
  | 5 => ⟨S1, .i32⟩
  | 6 => ⟨S16384x208, .f32⟩
  | 7 => ⟨S16384x64, .f32⟩
  | 8 => ⟨S1x64, .f32⟩
  | 9 => ⟨S64, .f32⟩
  | 10 => ⟨S1x64, .f32⟩
  | 11 => ⟨S16384x64, .f32⟩
  | 12 => ⟨S16384x64, .f32⟩
  | 13 => ⟨S_, .f32⟩
  | 14 => ⟨S16384, .f32⟩
  | 15 => ⟨S1, .f32⟩
  | 16 => ⟨S_, .f32⟩
  | 17 => ⟨S1, .f32⟩
  | 18 => ⟨S_, .f32⟩
  | 19 => ⟨S16384, .f32⟩
  | 20 => ⟨S16384, .f32⟩
  | 21 => ⟨S16384, .f32⟩
  | 22 => ⟨S16384, .f32⟩
  | 23 => ⟨S16384, .f32⟩
  | 24 => ⟨S_, .i32⟩
  | 25 => ⟨S1, .i32⟩
  | 26 => ⟨S16384x208, .f32⟩
  | 27 => ⟨S16384x64, .f32⟩
  | 28 => ⟨S1x64, .f32⟩
  | 29 => ⟨S64, .f32⟩
  | 30 => ⟨S1x64, .f32⟩
  | 31 => ⟨S16384x64, .f32⟩
  | 32 => ⟨S16384x64, .f32⟩
  | 33 => ⟨S_, .f32⟩
  | 34 => ⟨S16384, .f32⟩
  | 35 => ⟨S1, .f32⟩
  | 36 => ⟨S_, .f32⟩
  | 37 => ⟨S1, .f32⟩
  | 38 => ⟨S_, .f32⟩
  | 39 => ⟨S16384, .f32⟩
  | 40 => ⟨S16384, .f32⟩
  | 41 => ⟨S16384, .f32⟩
  | 42 => ⟨S16384, .f32⟩
  | 43 => ⟨S16384, .f32⟩
  | 44 => ⟨S_, .i32⟩
  | 45 => ⟨S1, .i32⟩
  | 46 => ⟨S16384x208, .f32⟩
  | 47 => ⟨S16384x64, .f32⟩
  | 48 => ⟨S1x64, .f32⟩
  | 49 => ⟨S64, .f32⟩
  | 50 => ⟨S1x64, .f32⟩
  | 51 => ⟨S16384x64, .f32⟩
  | 52 => ⟨S16384x64, .f32⟩
  | 53 => ⟨S_, .f32⟩
  | 54 => ⟨S16384, .f32⟩
  | 55 => ⟨S1, .f32⟩
  | 56 => ⟨S_, .f32⟩
  | 57 => ⟨S1, .f32⟩
  | 58 => ⟨S_, .f32⟩
  | 59 => ⟨S16384, .f32⟩
  | 60 => ⟨S16384, .f32⟩
  | 61 => ⟨S16384, .f32⟩
  | 62 => ⟨S16384, .f32⟩
  | 63 => ⟨S16384, .f32⟩
  | 64 => ⟨S_, .i32⟩
  | 65 => ⟨S1, .i32⟩
  | 66 => ⟨S16384x208, .f32⟩
  | 67 => ⟨S16384x64, .f32⟩
  | 68 => ⟨S1x64, .f32⟩
  | 69 => ⟨S64, .f32⟩
  | 70 => ⟨S1x64, .f32⟩
  | 71 => ⟨S16384x64, .f32⟩
  | 72 => ⟨S16384x64, .f32⟩
  | 73 => ⟨S_, .f32⟩
  | 74 => ⟨S16384, .f32⟩
  | 75 => ⟨S1, .f32⟩
  | 76 => ⟨S_, .f32⟩
  | 77 => ⟨S1, .f32⟩
  | 78 => ⟨S_, .f32⟩
  | 79 => ⟨S16384, .f32⟩
  | 80 => ⟨S16384, .f32⟩
  | 81 => ⟨S16384, .f32⟩
  | 82 => ⟨S16384, .f32⟩
  | 83 => ⟨S16384, .f32⟩
  | 84 => ⟨S_, .i32⟩
  | 85 => ⟨S1, .i32⟩
  | 86 => ⟨S16384x208, .f32⟩
  | 87 => ⟨S16384x64, .f32⟩
  | 88 => ⟨S1x64, .f32⟩
  | 89 => ⟨S64, .f32⟩
  | 90 => ⟨S1x64, .f32⟩
  | 91 => ⟨S16384x64, .f32⟩
  | 92 => ⟨S16384x64, .f32⟩
  | 93 => ⟨S_, .f32⟩
  | 94 => ⟨S16384, .f32⟩
  | 95 => ⟨S1, .f32⟩
  | 96 => ⟨S_, .f32⟩
  | 97 => ⟨S1, .f32⟩
  | 98 => ⟨S_, .f32⟩
  | 99 => ⟨S16384, .f32⟩
  | 100 => ⟨S16384, .f32⟩
  | 101 => ⟨S16384, .f32⟩
  | 102 => ⟨S16384, .f32⟩
  | 103 => ⟨S16384, .f32⟩
  | 104 => ⟨S_, .i32⟩
  | 105 => ⟨S1, .i32⟩
  | 106 => ⟨S16384x208, .f32⟩
  | 107 => ⟨S16384x64, .f32⟩
  | 108 => ⟨S1x64, .f32⟩
  | 109 => ⟨S64, .f32⟩
  | 110 => ⟨S1x64, .f32⟩
  | 111 => ⟨S16384x64, .f32⟩
  | 112 => ⟨S16384x64, .f32⟩
  | 113 => ⟨S_, .f32⟩
  | 114 => ⟨S16384, .f32⟩
  | 115 => ⟨S1, .f32⟩
  | 116 => ⟨S_, .f32⟩
  | 117 => ⟨S1, .f32⟩
  | 118 => ⟨S_, .f32⟩
  | 119 => ⟨S16384, .f32⟩
  | 120 => ⟨S16384, .f32⟩
  | 121 => ⟨S16384, .f32⟩
  | 122 => ⟨S16384, .f32⟩
  | 123 => ⟨S16384, .f32⟩
  | 124 => ⟨S_, .i32⟩
  | 125 => ⟨S1, .i32⟩
  | 126 => ⟨S16384x208, .f32⟩
  | 127 => ⟨S16384x64, .f32⟩
  | _ => ⟨S16384x64, .f32⟩

abbrev hbmTy0_20 (i : Nat) : BufTy := match i % 128 with
  | 0 => ⟨S1x64, .f32⟩
  | 1 => ⟨S64, .f32⟩
  | 2 => ⟨S1x64, .f32⟩
  | 3 => ⟨S16384x64, .f32⟩
  | 4 => ⟨S16384x64, .f32⟩
  | 5 => ⟨S_, .f32⟩
  | 6 => ⟨S16384, .f32⟩
  | 7 => ⟨S1, .f32⟩
  | 8 => ⟨S_, .f32⟩
  | 9 => ⟨S1, .f32⟩
  | 10 => ⟨S_, .f32⟩
  | 11 => ⟨S16384, .f32⟩
  | 12 => ⟨S16384, .f32⟩
  | 13 => ⟨S16384, .f32⟩
  | 14 => ⟨S16384, .f32⟩
  | 15 => ⟨S16384, .f32⟩
  | 16 => ⟨S_, .i32⟩
  | 17 => ⟨S1, .i32⟩
  | 18 => ⟨S16384x208, .f32⟩
  | 19 => ⟨S16384x128, .f32⟩
  | 20 => ⟨S1x128, .f32⟩
  | 21 => ⟨S128, .f32⟩
  | 22 => ⟨S1x128, .f32⟩
  | 23 => ⟨S16384x128, .f32⟩
  | 24 => ⟨S16384x128, .f32⟩
  | 25 => ⟨S_, .f32⟩
  | 26 => ⟨S16384, .f32⟩
  | 27 => ⟨S1, .f32⟩
  | 28 => ⟨S_, .f32⟩
  | 29 => ⟨S1, .f32⟩
  | 30 => ⟨S_, .f32⟩
  | 31 => ⟨S16384, .f32⟩
  | 32 => ⟨S16384, .f32⟩
  | 33 => ⟨S16384, .f32⟩
  | 34 => ⟨S16384, .f32⟩
  | 35 => ⟨S16384, .f32⟩
  | 36 => ⟨S_, .i32⟩
  | 37 => ⟨S1, .i32⟩
  | 38 => ⟨S16384x208, .f32⟩
  | 39 => ⟨S16384x128, .f32⟩
  | 40 => ⟨S1x128, .f32⟩
  | 41 => ⟨S128, .f32⟩
  | 42 => ⟨S1x128, .f32⟩
  | 43 => ⟨S16384x128, .f32⟩
  | 44 => ⟨S16384x128, .f32⟩
  | 45 => ⟨S_, .f32⟩
  | 46 => ⟨S16384, .f32⟩
  | 47 => ⟨S1, .f32⟩
  | 48 => ⟨S_, .f32⟩
  | 49 => ⟨S1, .f32⟩
  | 50 => ⟨S_, .f32⟩
  | 51 => ⟨S16384, .f32⟩
  | 52 => ⟨S16384, .f32⟩
  | 53 => ⟨S16384, .f32⟩
  | 54 => ⟨S16384, .f32⟩
  | 55 => ⟨S16384, .f32⟩
  | 56 => ⟨S_, .i32⟩
  | 57 => ⟨S1, .i32⟩
  | 58 => ⟨S16384x208, .f32⟩
  | 59 => ⟨S16384x128, .f32⟩
  | 60 => ⟨S1x128, .f32⟩
  | 61 => ⟨S128, .f32⟩
  | 62 => ⟨S1x128, .f32⟩
  | 63 => ⟨S16384x128, .f32⟩
  | 64 => ⟨S16384x128, .f32⟩
  | 65 => ⟨S_, .f32⟩
  | 66 => ⟨S16384, .f32⟩
  | 67 => ⟨S1, .f32⟩
  | 68 => ⟨S_, .f32⟩
  | 69 => ⟨S1, .f32⟩
  | 70 => ⟨S_, .f32⟩
  | 71 => ⟨S16384, .f32⟩
  | 72 => ⟨S16384, .f32⟩
  | 73 => ⟨S16384, .f32⟩
  | 74 => ⟨S16384, .f32⟩
  | 75 => ⟨S16384, .f32⟩
  | 76 => ⟨S_, .i32⟩
  | 77 => ⟨S1, .i32⟩
  | 78 => ⟨S16384x208, .f32⟩
  | 79 => ⟨S16384x128, .f32⟩
  | 80 => ⟨S1x128, .f32⟩
  | 81 => ⟨S128, .f32⟩
  | 82 => ⟨S1x128, .f32⟩
  | 83 => ⟨S16384x128, .f32⟩
  | 84 => ⟨S16384x128, .f32⟩
  | 85 => ⟨S_, .f32⟩
  | 86 => ⟨S16384, .f32⟩
  | 87 => ⟨S1, .f32⟩
  | 88 => ⟨S_, .f32⟩
  | 89 => ⟨S1, .f32⟩
  | 90 => ⟨S_, .f32⟩
  | 91 => ⟨S16384, .f32⟩
  | 92 => ⟨S16384, .f32⟩
  | 93 => ⟨S16384, .f32⟩
  | 94 => ⟨S16384, .f32⟩
  | 95 => ⟨S16384, .f32⟩
  | 96 => ⟨S_, .i32⟩
  | 97 => ⟨S1, .i32⟩
  | 98 => ⟨S16384x208, .f32⟩
  | 99 => ⟨S16384x128, .f32⟩
  | 100 => ⟨S1x128, .f32⟩
  | 101 => ⟨S128, .f32⟩
  | 102 => ⟨S1x128, .f32⟩
  | 103 => ⟨S16384x128, .f32⟩
  | 104 => ⟨S16384x128, .f32⟩
  | 105 => ⟨S_, .f32⟩
  | 106 => ⟨S16384, .f32⟩
  | 107 => ⟨S1, .f32⟩
  | 108 => ⟨S_, .f32⟩
  | 109 => ⟨S1, .f32⟩
  | 110 => ⟨S_, .f32⟩
  | 111 => ⟨S16384, .f32⟩
  | 112 => ⟨S16384, .f32⟩
  | 113 => ⟨S16384, .f32⟩
  | 114 => ⟨S16384, .f32⟩
  | 115 => ⟨S16384, .f32⟩
  | 116 => ⟨S_, .i32⟩
  | 117 => ⟨S1, .i32⟩
  | 118 => ⟨S16384x208, .f32⟩
  | 119 => ⟨S16384x128, .f32⟩
  | 120 => ⟨S1x128, .f32⟩
  | 121 => ⟨S128, .f32⟩
  | 122 => ⟨S1x128, .f32⟩
  | 123 => ⟨S16384x128, .f32⟩
  | 124 => ⟨S16384x128, .f32⟩
  | 125 => ⟨S_, .f32⟩
  | 126 => ⟨S16384, .f32⟩
  | 127 => ⟨S1, .f32⟩
  | _ => ⟨S16384x64, .f32⟩

abbrev hbmTy0_21 (i : Nat) : BufTy := match i % 128 with
  | 0 => ⟨S_, .f32⟩
  | 1 => ⟨S1, .f32⟩
  | 2 => ⟨S_, .f32⟩
  | 3 => ⟨S16384, .f32⟩
  | 4 => ⟨S16384, .f32⟩
  | 5 => ⟨S16384, .f32⟩
  | 6 => ⟨S16384, .f32⟩
  | 7 => ⟨S16384, .f32⟩
  | 8 => ⟨S_, .i32⟩
  | 9 => ⟨S1, .i32⟩
  | 10 => ⟨S16384x208, .f32⟩
  | 11 => ⟨S16384x128, .f32⟩
  | 12 => ⟨S1x128, .f32⟩
  | 13 => ⟨S128, .f32⟩
  | 14 => ⟨S1x128, .f32⟩
  | 15 => ⟨S16384x128, .f32⟩
  | 16 => ⟨S16384x128, .f32⟩
  | 17 => ⟨S_, .f32⟩
  | 18 => ⟨S16384, .f32⟩
  | 19 => ⟨S1, .f32⟩
  | 20 => ⟨S_, .f32⟩
  | 21 => ⟨S1, .f32⟩
  | 22 => ⟨S_, .f32⟩
  | 23 => ⟨S16384, .f32⟩
  | 24 => ⟨S16384, .f32⟩
  | 25 => ⟨S16384, .f32⟩
  | 26 => ⟨S16384, .f32⟩
  | 27 => ⟨S16384, .f32⟩
  | 28 => ⟨S_, .i32⟩
  | 29 => ⟨S1, .i32⟩
  | 30 => ⟨S16384x208, .f32⟩
  | 31 => ⟨S16384x128, .f32⟩
  | 32 => ⟨S1x128, .f32⟩
  | 33 => ⟨S128, .f32⟩
  | 34 => ⟨S1x128, .f32⟩
  | 35 => ⟨S16384x128, .f32⟩
  | 36 => ⟨S16384x128, .f32⟩
  | 37 => ⟨S_, .f32⟩
  | 38 => ⟨S16384, .f32⟩
  | 39 => ⟨S1, .f32⟩
  | 40 => ⟨S_, .f32⟩
  | 41 => ⟨S1, .f32⟩
  | 42 => ⟨S_, .f32⟩
  | 43 => ⟨S16384, .f32⟩
  | 44 => ⟨S16384, .f32⟩
  | 45 => ⟨S16384, .f32⟩
  | 46 => ⟨S16384, .f32⟩
  | 47 => ⟨S16384, .f32⟩
  | 48 => ⟨S_, .i32⟩
  | 49 => ⟨S1, .i32⟩
  | 50 => ⟨S16384x208, .f32⟩
  | 51 => ⟨S16384x128, .f32⟩
  | 52 => ⟨S1x128, .f32⟩
  | 53 => ⟨S128, .f32⟩
  | 54 => ⟨S1x128, .f32⟩
  | 55 => ⟨S16384x128, .f32⟩
  | 56 => ⟨S16384x128, .f32⟩
  | 57 => ⟨S_, .f32⟩
  | 58 => ⟨S16384, .f32⟩
  | 59 => ⟨S1, .f32⟩
  | 60 => ⟨S_, .f32⟩
  | 61 => ⟨S1, .f32⟩
  | 62 => ⟨S_, .f32⟩
  | 63 => ⟨S16384, .f32⟩
  | 64 => ⟨S16384, .f32⟩
  | 65 => ⟨S16384, .f32⟩
  | 66 => ⟨S16384, .f32⟩
  | 67 => ⟨S16384, .f32⟩
  | 68 => ⟨S_, .i32⟩
  | 69 => ⟨S1, .i32⟩
  | 70 => ⟨S16384x208, .f32⟩
  | 71 => ⟨S16384x128, .f32⟩
  | 72 => ⟨S1x128, .f32⟩
  | 73 => ⟨S128, .f32⟩
  | 74 => ⟨S1x128, .f32⟩
  | 75 => ⟨S16384x128, .f32⟩
  | 76 => ⟨S16384x128, .f32⟩
  | 77 => ⟨S_, .f32⟩
  | 78 => ⟨S16384, .f32⟩
  | 79 => ⟨S1, .f32⟩
  | 80 => ⟨S_, .f32⟩
  | 81 => ⟨S1, .f32⟩
  | 82 => ⟨S_, .f32⟩
  | 83 => ⟨S16384, .f32⟩
  | 84 => ⟨S16384, .f32⟩
  | 85 => ⟨S16384, .f32⟩
  | 86 => ⟨S16384, .f32⟩
  | 87 => ⟨S16384, .f32⟩
  | 88 => ⟨S_, .i32⟩
  | 89 => ⟨S1, .i32⟩
  | 90 => ⟨S16384x208, .f32⟩
  | 91 => ⟨S16384x128, .f32⟩
  | 92 => ⟨S1x128, .f32⟩
  | 93 => ⟨S128, .f32⟩
  | 94 => ⟨S1x128, .f32⟩
  | 95 => ⟨S16384x128, .f32⟩
  | 96 => ⟨S16384x128, .f32⟩
  | 97 => ⟨S_, .f32⟩
  | 98 => ⟨S16384, .f32⟩
  | 99 => ⟨S1, .f32⟩
  | 100 => ⟨S_, .f32⟩
  | 101 => ⟨S1, .f32⟩
  | 102 => ⟨S_, .f32⟩
  | 103 => ⟨S16384, .f32⟩
  | 104 => ⟨S16384, .f32⟩
  | 105 => ⟨S16384, .f32⟩
  | 106 => ⟨S16384, .f32⟩
  | 107 => ⟨S16384, .f32⟩
  | 108 => ⟨S_, .i32⟩
  | 109 => ⟨S1, .i32⟩
  | 110 => ⟨S16384x208, .f32⟩
  | 111 => ⟨S16384x128, .f32⟩
  | 112 => ⟨S1x128, .f32⟩
  | 113 => ⟨S128, .f32⟩
  | 114 => ⟨S1x128, .f32⟩
  | 115 => ⟨S16384x128, .f32⟩
  | 116 => ⟨S16384x128, .f32⟩
  | 117 => ⟨S_, .f32⟩
  | 118 => ⟨S16384, .f32⟩
  | 119 => ⟨S1, .f32⟩
  | 120 => ⟨S_, .f32⟩
  | 121 => ⟨S1, .f32⟩
  | 122 => ⟨S_, .f32⟩
  | 123 => ⟨S16384, .f32⟩
  | 124 => ⟨S16384, .f32⟩
  | 125 => ⟨S16384, .f32⟩
  | 126 => ⟨S16384, .f32⟩
  | 127 => ⟨S16384, .f32⟩
  | _ => ⟨S16384x64, .f32⟩

abbrev hbmTy0_22 (i : Nat) : BufTy := match i % 128 with
  | 0 => ⟨S_, .i32⟩
  | 1 => ⟨S1, .i32⟩
  | 2 => ⟨S16384x208, .f32⟩
  | 3 => ⟨S16384x128, .f32⟩
  | 4 => ⟨S1x128, .f32⟩
  | 5 => ⟨S128, .f32⟩
  | 6 => ⟨S1x128, .f32⟩
  | 7 => ⟨S16384x128, .f32⟩
  | 8 => ⟨S16384x128, .f32⟩
  | 9 => ⟨S_, .f32⟩
  | 10 => ⟨S16384, .f32⟩
  | 11 => ⟨S1, .f32⟩
  | 12 => ⟨S_, .f32⟩
  | 13 => ⟨S1, .f32⟩
  | 14 => ⟨S_, .f32⟩
  | 15 => ⟨S16384, .f32⟩
  | 16 => ⟨S16384, .f32⟩
  | 17 => ⟨S16384, .f32⟩
  | 18 => ⟨S16384, .f32⟩
  | 19 => ⟨S16384, .f32⟩
  | 20 => ⟨S_, .i32⟩
  | 21 => ⟨S1, .i32⟩
  | 22 => ⟨S16384x208, .f32⟩
  | 23 => ⟨S16384x128, .f32⟩
  | 24 => ⟨S1x128, .f32⟩
  | 25 => ⟨S128, .f32⟩
  | 26 => ⟨S1x128, .f32⟩
  | 27 => ⟨S16384x128, .f32⟩
  | 28 => ⟨S16384x128, .f32⟩
  | 29 => ⟨S_, .f32⟩
  | 30 => ⟨S16384, .f32⟩
  | 31 => ⟨S1, .f32⟩
  | 32 => ⟨S_, .f32⟩
  | 33 => ⟨S1, .f32⟩
  | 34 => ⟨S_, .f32⟩
  | 35 => ⟨S16384, .f32⟩
  | 36 => ⟨S16384, .f32⟩
  | 37 => ⟨S16384, .f32⟩
  | 38 => ⟨S16384, .f32⟩
  | 39 => ⟨S16384, .f32⟩
  | 40 => ⟨S_, .i32⟩
  | 41 => ⟨S1, .i32⟩
  | 42 => ⟨S16384x208, .f32⟩
  | 43 => ⟨S16384x128, .f32⟩
  | 44 => ⟨S1x128, .f32⟩
  | 45 => ⟨S128, .f32⟩
  | 46 => ⟨S1x128, .f32⟩
  | 47 => ⟨S16384x128, .f32⟩
  | 48 => ⟨S16384x128, .f32⟩
  | 49 => ⟨S_, .f32⟩
  | 50 => ⟨S16384, .f32⟩
  | 51 => ⟨S1, .f32⟩
  | 52 => ⟨S_, .f32⟩
  | 53 => ⟨S1, .f32⟩
  | 54 => ⟨S_, .f32⟩
  | 55 => ⟨S16384, .f32⟩
  | 56 => ⟨S16384, .f32⟩
  | 57 => ⟨S16384, .f32⟩
  | 58 => ⟨S16384, .f32⟩
  | 59 => ⟨S16384, .f32⟩
  | 60 => ⟨S_, .i32⟩
  | 61 => ⟨S1, .i32⟩
  | 62 => ⟨S16384x208, .f32⟩
  | 63 => ⟨S16384x128, .f32⟩
  | 64 => ⟨S1x128, .f32⟩
  | 65 => ⟨S128, .f32⟩
  | 66 => ⟨S1x128, .f32⟩
  | 67 => ⟨S16384x128, .f32⟩
  | 68 => ⟨S16384x128, .f32⟩
  | 69 => ⟨S_, .f32⟩
  | 70 => ⟨S16384, .f32⟩
  | 71 => ⟨S1, .f32⟩
  | 72 => ⟨S_, .f32⟩
  | 73 => ⟨S1, .f32⟩
  | 74 => ⟨S_, .f32⟩
  | 75 => ⟨S16384, .f32⟩
  | 76 => ⟨S16384, .f32⟩
  | 77 => ⟨S16384, .f32⟩
  | 78 => ⟨S16384, .f32⟩
  | 79 => ⟨S16384, .f32⟩
  | 80 => ⟨S_, .i32⟩
  | 81 => ⟨S1, .i32⟩
  | 82 => ⟨S16384x208, .f32⟩
  | 83 => ⟨S16384x16, .f32⟩
  | _ => ⟨S16384x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | 15 => hbmTy0_15 i
  | 16 => hbmTy0_16 i
  | 17 => hbmTy0_17 i
  | 18 => hbmTy0_18 i
  | 19 => hbmTy0_19 i
  | 20 => hbmTy0_20 i
  | 21 => hbmTy0_21 i
  | 22 => hbmTy0_22 i
  | _ => ⟨S16384x64, .f32⟩

abbrev bufTy : (tb : Table) → Fin (tcTables nBuf tb) → BufTy
  | .hbm, ⟨i, _⟩ => hbmTy i
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_c_4 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_5 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_c_6 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_cst_7 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_c_8 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_cst_9 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_c_10 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_cst_11 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_c_12 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_cst_13 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_c_14 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_cst_15 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_c_16 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_v158 : Ref sig .tc := ⟨.hbm, 184, rfl⟩
abbrev main_cst_17 : Ref sig .tc := ⟨.hbm, 185, rfl⟩
abbrev main_v159 : Ref sig .tc := ⟨.hbm, 186, rfl⟩
abbrev main_v160 : Ref sig .tc := ⟨.hbm, 187, rfl⟩
abbrev main_v161 : Ref sig .tc := ⟨.hbm, 188, rfl⟩
abbrev main_v162 : Ref sig .tc := ⟨.hbm, 189, rfl⟩
abbrev main_v163 : Ref sig .tc := ⟨.hbm, 190, rfl⟩
abbrev main_v164 : Ref sig .tc := ⟨.hbm, 191, rfl⟩
abbrev main_v165 : Ref sig .tc := ⟨.hbm, 192, rfl⟩
abbrev main_v166 : Ref sig .tc := ⟨.hbm, 193, rfl⟩
abbrev main_v167 : Ref sig .tc := ⟨.hbm, 194, rfl⟩
abbrev main_v168 : Ref sig .tc := ⟨.hbm, 195, rfl⟩
abbrev main_c_18 : Ref sig .tc := ⟨.hbm, 196, rfl⟩
abbrev main_v169 : Ref sig .tc := ⟨.hbm, 197, rfl⟩
abbrev main_v170 : Ref sig .tc := ⟨.hbm, 198, rfl⟩
abbrev main_v171 : Ref sig .tc := ⟨.hbm, 199, rfl⟩
abbrev main_v172 : Ref sig .tc := ⟨.hbm, 200, rfl⟩
abbrev main_v173 : Ref sig .tc := ⟨.hbm, 201, rfl⟩
abbrev main_v174 : Ref sig .tc := ⟨.hbm, 202, rfl⟩
abbrev main_v175 : Ref sig .tc := ⟨.hbm, 203, rfl⟩
abbrev main_v176 : Ref sig .tc := ⟨.hbm, 204, rfl⟩
abbrev main_cst_19 : Ref sig .tc := ⟨.hbm, 205, rfl⟩
abbrev main_v177 : Ref sig .tc := ⟨.hbm, 206, rfl⟩
abbrev main_v178 : Ref sig .tc := ⟨.hbm, 207, rfl⟩
abbrev main_v179 : Ref sig .tc := ⟨.hbm, 208, rfl⟩
abbrev main_v180 : Ref sig .tc := ⟨.hbm, 209, rfl⟩
abbrev main_v181 : Ref sig .tc := ⟨.hbm, 210, rfl⟩
abbrev main_v182 : Ref sig .tc := ⟨.hbm, 211, rfl⟩
abbrev main_v183 : Ref sig .tc := ⟨.hbm, 212, rfl⟩
abbrev main_v184 : Ref sig .tc := ⟨.hbm, 213, rfl⟩
abbrev main_v185 : Ref sig .tc := ⟨.hbm, 214, rfl⟩
abbrev main_v186 : Ref sig .tc := ⟨.hbm, 215, rfl⟩
abbrev main_c_20 : Ref sig .tc := ⟨.hbm, 216, rfl⟩
abbrev main_v187 : Ref sig .tc := ⟨.hbm, 217, rfl⟩
abbrev main_v188 : Ref sig .tc := ⟨.hbm, 218, rfl⟩
abbrev main_v189 : Ref sig .tc := ⟨.hbm, 219, rfl⟩
abbrev main_v190 : Ref sig .tc := ⟨.hbm, 220, rfl⟩
abbrev main_v191 : Ref sig .tc := ⟨.hbm, 221, rfl⟩
abbrev main_v192 : Ref sig .tc := ⟨.hbm, 222, rfl⟩
abbrev main_v193 : Ref sig .tc := ⟨.hbm, 223, rfl⟩
abbrev main_v194 : Ref sig .tc := ⟨.hbm, 224, rfl⟩
abbrev main_cst_21 : Ref sig .tc := ⟨.hbm, 225, rfl⟩
abbrev main_v195 : Ref sig .tc := ⟨.hbm, 226, rfl⟩
abbrev main_v196 : Ref sig .tc := ⟨.hbm, 227, rfl⟩
abbrev main_v197 : Ref sig .tc := ⟨.hbm, 228, rfl⟩
abbrev main_v198 : Ref sig .tc := ⟨.hbm, 229, rfl⟩
abbrev main_v199 : Ref sig .tc := ⟨.hbm, 230, rfl⟩
abbrev main_v200 : Ref sig .tc := ⟨.hbm, 231, rfl⟩
abbrev main_v201 : Ref sig .tc := ⟨.hbm, 232, rfl⟩
abbrev main_v202 : Ref sig .tc := ⟨.hbm, 233, rfl⟩
abbrev main_v203 : Ref sig .tc := ⟨.hbm, 234, rfl⟩
abbrev main_v204 : Ref sig .tc := ⟨.hbm, 235, rfl⟩
abbrev main_c_22 : Ref sig .tc := ⟨.hbm, 236, rfl⟩
abbrev main_v205 : Ref sig .tc := ⟨.hbm, 237, rfl⟩
abbrev main_v206 : Ref sig .tc := ⟨.hbm, 238, rfl⟩
abbrev main_v207 : Ref sig .tc := ⟨.hbm, 239, rfl⟩
abbrev main_v208 : Ref sig .tc := ⟨.hbm, 240, rfl⟩
abbrev main_v209 : Ref sig .tc := ⟨.hbm, 241, rfl⟩
abbrev main_v210 : Ref sig .tc := ⟨.hbm, 242, rfl⟩
abbrev main_v211 : Ref sig .tc := ⟨.hbm, 243, rfl⟩
abbrev main_v212 : Ref sig .tc := ⟨.hbm, 244, rfl⟩
abbrev main_cst_23 : Ref sig .tc := ⟨.hbm, 245, rfl⟩
abbrev main_v213 : Ref sig .tc := ⟨.hbm, 246, rfl⟩
abbrev main_v214 : Ref sig .tc := ⟨.hbm, 247, rfl⟩
abbrev main_v215 : Ref sig .tc := ⟨.hbm, 248, rfl⟩
abbrev main_v216 : Ref sig .tc := ⟨.hbm, 249, rfl⟩
abbrev main_v217 : Ref sig .tc := ⟨.hbm, 250, rfl⟩
abbrev main_v218 : Ref sig .tc := ⟨.hbm, 251, rfl⟩
abbrev main_v219 : Ref sig .tc := ⟨.hbm, 252, rfl⟩
abbrev main_v220 : Ref sig .tc := ⟨.hbm, 253, rfl⟩
abbrev main_v221 : Ref sig .tc := ⟨.hbm, 254, rfl⟩
abbrev main_v222 : Ref sig .tc := ⟨.hbm, 255, rfl⟩
abbrev main_c_24 : Ref sig .tc := ⟨.hbm, 256, rfl⟩
abbrev main_v223 : Ref sig .tc := ⟨.hbm, 257, rfl⟩
abbrev main_v224 : Ref sig .tc := ⟨.hbm, 258, rfl⟩
abbrev main_v225 : Ref sig .tc := ⟨.hbm, 259, rfl⟩
abbrev main_v226 : Ref sig .tc := ⟨.hbm, 260, rfl⟩
abbrev main_v227 : Ref sig .tc := ⟨.hbm, 261, rfl⟩
abbrev main_v228 : Ref sig .tc := ⟨.hbm, 262, rfl⟩
abbrev main_v229 : Ref sig .tc := ⟨.hbm, 263, rfl⟩
abbrev main_v230 : Ref sig .tc := ⟨.hbm, 264, rfl⟩
abbrev main_cst_25 : Ref sig .tc := ⟨.hbm, 265, rfl⟩
abbrev main_v231 : Ref sig .tc := ⟨.hbm, 266, rfl⟩
abbrev main_v232 : Ref sig .tc := ⟨.hbm, 267, rfl⟩
abbrev main_v233 : Ref sig .tc := ⟨.hbm, 268, rfl⟩
abbrev main_v234 : Ref sig .tc := ⟨.hbm, 269, rfl⟩
abbrev main_v235 : Ref sig .tc := ⟨.hbm, 270, rfl⟩
abbrev main_v236 : Ref sig .tc := ⟨.hbm, 271, rfl⟩
abbrev main_v237 : Ref sig .tc := ⟨.hbm, 272, rfl⟩
abbrev main_v238 : Ref sig .tc := ⟨.hbm, 273, rfl⟩
abbrev main_v239 : Ref sig .tc := ⟨.hbm, 274, rfl⟩
abbrev main_v240 : Ref sig .tc := ⟨.hbm, 275, rfl⟩
abbrev main_c_26 : Ref sig .tc := ⟨.hbm, 276, rfl⟩
abbrev main_v241 : Ref sig .tc := ⟨.hbm, 277, rfl⟩
abbrev main_v242 : Ref sig .tc := ⟨.hbm, 278, rfl⟩
abbrev main_v243 : Ref sig .tc := ⟨.hbm, 279, rfl⟩
abbrev main_v244 : Ref sig .tc := ⟨.hbm, 280, rfl⟩
abbrev main_v245 : Ref sig .tc := ⟨.hbm, 281, rfl⟩
abbrev main_v246 : Ref sig .tc := ⟨.hbm, 282, rfl⟩
abbrev main_v247 : Ref sig .tc := ⟨.hbm, 283, rfl⟩
abbrev main_v248 : Ref sig .tc := ⟨.hbm, 284, rfl⟩
abbrev main_cst_27 : Ref sig .tc := ⟨.hbm, 285, rfl⟩
abbrev main_v249 : Ref sig .tc := ⟨.hbm, 286, rfl⟩
abbrev main_v250 : Ref sig .tc := ⟨.hbm, 287, rfl⟩
abbrev main_v251 : Ref sig .tc := ⟨.hbm, 288, rfl⟩
abbrev main_v252 : Ref sig .tc := ⟨.hbm, 289, rfl⟩
abbrev main_v253 : Ref sig .tc := ⟨.hbm, 290, rfl⟩
abbrev main_v254 : Ref sig .tc := ⟨.hbm, 291, rfl⟩
abbrev main_v255 : Ref sig .tc := ⟨.hbm, 292, rfl⟩
abbrev main_v256 : Ref sig .tc := ⟨.hbm, 293, rfl⟩
abbrev main_v257 : Ref sig .tc := ⟨.hbm, 294, rfl⟩
abbrev main_v258 : Ref sig .tc := ⟨.hbm, 295, rfl⟩
abbrev main_c_28 : Ref sig .tc := ⟨.hbm, 296, rfl⟩
abbrev main_v259 : Ref sig .tc := ⟨.hbm, 297, rfl⟩
abbrev main_v260 : Ref sig .tc := ⟨.hbm, 298, rfl⟩
abbrev main_v261 : Ref sig .tc := ⟨.hbm, 299, rfl⟩
abbrev main_v262 : Ref sig .tc := ⟨.hbm, 300, rfl⟩
abbrev main_v263 : Ref sig .tc := ⟨.hbm, 301, rfl⟩
abbrev main_v264 : Ref sig .tc := ⟨.hbm, 302, rfl⟩
abbrev main_v265 : Ref sig .tc := ⟨.hbm, 303, rfl⟩
abbrev main_v266 : Ref sig .tc := ⟨.hbm, 304, rfl⟩
abbrev main_cst_29 : Ref sig .tc := ⟨.hbm, 305, rfl⟩
abbrev main_v267 : Ref sig .tc := ⟨.hbm, 306, rfl⟩
abbrev main_v268 : Ref sig .tc := ⟨.hbm, 307, rfl⟩
abbrev main_v269 : Ref sig .tc := ⟨.hbm, 308, rfl⟩
abbrev main_v270 : Ref sig .tc := ⟨.hbm, 309, rfl⟩
abbrev main_v271 : Ref sig .tc := ⟨.hbm, 310, rfl⟩
abbrev main_v272 : Ref sig .tc := ⟨.hbm, 311, rfl⟩
abbrev main_v273 : Ref sig .tc := ⟨.hbm, 312, rfl⟩
abbrev main_v274 : Ref sig .tc := ⟨.hbm, 313, rfl⟩
abbrev main_v275 : Ref sig .tc := ⟨.hbm, 314, rfl⟩
abbrev main_v276 : Ref sig .tc := ⟨.hbm, 315, rfl⟩
abbrev main_c_30 : Ref sig .tc := ⟨.hbm, 316, rfl⟩
abbrev main_v277 : Ref sig .tc := ⟨.hbm, 317, rfl⟩
abbrev main_v278 : Ref sig .tc := ⟨.hbm, 318, rfl⟩
abbrev main_v279 : Ref sig .tc := ⟨.hbm, 319, rfl⟩
abbrev main_v280 : Ref sig .tc := ⟨.hbm, 320, rfl⟩
abbrev main_v281 : Ref sig .tc := ⟨.hbm, 321, rfl⟩
abbrev main_v282 : Ref sig .tc := ⟨.hbm, 322, rfl⟩
abbrev main_v283 : Ref sig .tc := ⟨.hbm, 323, rfl⟩
abbrev main_v284 : Ref sig .tc := ⟨.hbm, 324, rfl⟩
abbrev main_cst_31 : Ref sig .tc := ⟨.hbm, 325, rfl⟩
abbrev main_v285 : Ref sig .tc := ⟨.hbm, 326, rfl⟩
abbrev main_v286 : Ref sig .tc := ⟨.hbm, 327, rfl⟩
abbrev main_v287 : Ref sig .tc := ⟨.hbm, 328, rfl⟩
abbrev main_v288 : Ref sig .tc := ⟨.hbm, 329, rfl⟩
abbrev main_v289 : Ref sig .tc := ⟨.hbm, 330, rfl⟩
abbrev main_v290 : Ref sig .tc := ⟨.hbm, 331, rfl⟩
abbrev main_v291 : Ref sig .tc := ⟨.hbm, 332, rfl⟩
abbrev main_v292 : Ref sig .tc := ⟨.hbm, 333, rfl⟩
abbrev main_v293 : Ref sig .tc := ⟨.hbm, 334, rfl⟩
abbrev main_v294 : Ref sig .tc := ⟨.hbm, 335, rfl⟩
abbrev main_c_32 : Ref sig .tc := ⟨.hbm, 336, rfl⟩
abbrev main_v295 : Ref sig .tc := ⟨.hbm, 337, rfl⟩
abbrev main_v296 : Ref sig .tc := ⟨.hbm, 338, rfl⟩
abbrev main_v297 : Ref sig .tc := ⟨.hbm, 339, rfl⟩
abbrev main_v298 : Ref sig .tc := ⟨.hbm, 340, rfl⟩
abbrev main_v299 : Ref sig .tc := ⟨.hbm, 341, rfl⟩
abbrev main_v300 : Ref sig .tc := ⟨.hbm, 342, rfl⟩
abbrev main_v301 : Ref sig .tc := ⟨.hbm, 343, rfl⟩
abbrev main_v302 : Ref sig .tc := ⟨.hbm, 344, rfl⟩
abbrev main_cst_33 : Ref sig .tc := ⟨.hbm, 345, rfl⟩
abbrev main_v303 : Ref sig .tc := ⟨.hbm, 346, rfl⟩
abbrev main_v304 : Ref sig .tc := ⟨.hbm, 347, rfl⟩
abbrev main_v305 : Ref sig .tc := ⟨.hbm, 348, rfl⟩
abbrev main_v306 : Ref sig .tc := ⟨.hbm, 349, rfl⟩
abbrev main_v307 : Ref sig .tc := ⟨.hbm, 350, rfl⟩
abbrev main_v308 : Ref sig .tc := ⟨.hbm, 351, rfl⟩
abbrev main_v309 : Ref sig .tc := ⟨.hbm, 352, rfl⟩
abbrev main_v310 : Ref sig .tc := ⟨.hbm, 353, rfl⟩
abbrev main_v311 : Ref sig .tc := ⟨.hbm, 354, rfl⟩
abbrev main_v312 : Ref sig .tc := ⟨.hbm, 355, rfl⟩
abbrev main_c_34 : Ref sig .tc := ⟨.hbm, 356, rfl⟩
abbrev main_v313 : Ref sig .tc := ⟨.hbm, 357, rfl⟩
abbrev main_v314 : Ref sig .tc := ⟨.hbm, 358, rfl⟩
abbrev main_v315 : Ref sig .tc := ⟨.hbm, 359, rfl⟩
abbrev main_v316 : Ref sig .tc := ⟨.hbm, 360, rfl⟩
abbrev main_v317 : Ref sig .tc := ⟨.hbm, 361, rfl⟩
abbrev main_v318 : Ref sig .tc := ⟨.hbm, 362, rfl⟩
abbrev main_v319 : Ref sig .tc := ⟨.hbm, 363, rfl⟩
abbrev main_v320 : Ref sig .tc := ⟨.hbm, 364, rfl⟩
abbrev main_cst_35 : Ref sig .tc := ⟨.hbm, 365, rfl⟩
abbrev main_v321 : Ref sig .tc := ⟨.hbm, 366, rfl⟩
abbrev main_v322 : Ref sig .tc := ⟨.hbm, 367, rfl⟩
abbrev main_v323 : Ref sig .tc := ⟨.hbm, 368, rfl⟩
abbrev main_v324 : Ref sig .tc := ⟨.hbm, 369, rfl⟩
abbrev main_v325 : Ref sig .tc := ⟨.hbm, 370, rfl⟩
abbrev main_v326 : Ref sig .tc := ⟨.hbm, 371, rfl⟩
abbrev main_v327 : Ref sig .tc := ⟨.hbm, 372, rfl⟩
abbrev main_v328 : Ref sig .tc := ⟨.hbm, 373, rfl⟩
abbrev main_v329 : Ref sig .tc := ⟨.hbm, 374, rfl⟩
abbrev main_v330 : Ref sig .tc := ⟨.hbm, 375, rfl⟩
abbrev main_c_36 : Ref sig .tc := ⟨.hbm, 376, rfl⟩
abbrev main_v331 : Ref sig .tc := ⟨.hbm, 377, rfl⟩
abbrev main_v332 : Ref sig .tc := ⟨.hbm, 378, rfl⟩
abbrev main_v333 : Ref sig .tc := ⟨.hbm, 379, rfl⟩
abbrev main_v334 : Ref sig .tc := ⟨.hbm, 380, rfl⟩
abbrev main_v335 : Ref sig .tc := ⟨.hbm, 381, rfl⟩
abbrev main_v336 : Ref sig .tc := ⟨.hbm, 382, rfl⟩
abbrev main_v337 : Ref sig .tc := ⟨.hbm, 383, rfl⟩
abbrev main_v338 : Ref sig .tc := ⟨.hbm, 384, rfl⟩
abbrev main_cst_37 : Ref sig .tc := ⟨.hbm, 385, rfl⟩
abbrev main_v339 : Ref sig .tc := ⟨.hbm, 386, rfl⟩
abbrev main_v340 : Ref sig .tc := ⟨.hbm, 387, rfl⟩
abbrev main_v341 : Ref sig .tc := ⟨.hbm, 388, rfl⟩
abbrev main_v342 : Ref sig .tc := ⟨.hbm, 389, rfl⟩
abbrev main_v343 : Ref sig .tc := ⟨.hbm, 390, rfl⟩
abbrev main_v344 : Ref sig .tc := ⟨.hbm, 391, rfl⟩
abbrev main_v345 : Ref sig .tc := ⟨.hbm, 392, rfl⟩
abbrev main_v346 : Ref sig .tc := ⟨.hbm, 393, rfl⟩
abbrev main_v347 : Ref sig .tc := ⟨.hbm, 394, rfl⟩
abbrev main_v348 : Ref sig .tc := ⟨.hbm, 395, rfl⟩
abbrev main_c_38 : Ref sig .tc := ⟨.hbm, 396, rfl⟩
abbrev main_v349 : Ref sig .tc := ⟨.hbm, 397, rfl⟩
abbrev main_v350 : Ref sig .tc := ⟨.hbm, 398, rfl⟩
abbrev main_v351 : Ref sig .tc := ⟨.hbm, 399, rfl⟩
abbrev main_v352 : Ref sig .tc := ⟨.hbm, 400, rfl⟩
abbrev main_v353 : Ref sig .tc := ⟨.hbm, 401, rfl⟩
abbrev main_v354 : Ref sig .tc := ⟨.hbm, 402, rfl⟩
abbrev main_v355 : Ref sig .tc := ⟨.hbm, 403, rfl⟩
abbrev main_v356 : Ref sig .tc := ⟨.hbm, 404, rfl⟩
abbrev main_cst_39 : Ref sig .tc := ⟨.hbm, 405, rfl⟩
abbrev main_v357 : Ref sig .tc := ⟨.hbm, 406, rfl⟩
abbrev main_v358 : Ref sig .tc := ⟨.hbm, 407, rfl⟩
abbrev main_v359 : Ref sig .tc := ⟨.hbm, 408, rfl⟩
abbrev main_v360 : Ref sig .tc := ⟨.hbm, 409, rfl⟩
abbrev main_v361 : Ref sig .tc := ⟨.hbm, 410, rfl⟩
abbrev main_v362 : Ref sig .tc := ⟨.hbm, 411, rfl⟩
abbrev main_v363 : Ref sig .tc := ⟨.hbm, 412, rfl⟩
abbrev main_v364 : Ref sig .tc := ⟨.hbm, 413, rfl⟩
abbrev main_v365 : Ref sig .tc := ⟨.hbm, 414, rfl⟩
abbrev main_v366 : Ref sig .tc := ⟨.hbm, 415, rfl⟩
abbrev main_c_40 : Ref sig .tc := ⟨.hbm, 416, rfl⟩
abbrev main_v367 : Ref sig .tc := ⟨.hbm, 417, rfl⟩
abbrev main_v368 : Ref sig .tc := ⟨.hbm, 418, rfl⟩
abbrev main_v369 : Ref sig .tc := ⟨.hbm, 419, rfl⟩
abbrev main_v370 : Ref sig .tc := ⟨.hbm, 420, rfl⟩
abbrev main_v371 : Ref sig .tc := ⟨.hbm, 421, rfl⟩
abbrev main_v372 : Ref sig .tc := ⟨.hbm, 422, rfl⟩
abbrev main_v373 : Ref sig .tc := ⟨.hbm, 423, rfl⟩
abbrev main_v374 : Ref sig .tc := ⟨.hbm, 424, rfl⟩
abbrev main_cst_41 : Ref sig .tc := ⟨.hbm, 425, rfl⟩
abbrev main_v375 : Ref sig .tc := ⟨.hbm, 426, rfl⟩
abbrev main_v376 : Ref sig .tc := ⟨.hbm, 427, rfl⟩
abbrev main_v377 : Ref sig .tc := ⟨.hbm, 428, rfl⟩
abbrev main_v378 : Ref sig .tc := ⟨.hbm, 429, rfl⟩
abbrev main_v379 : Ref sig .tc := ⟨.hbm, 430, rfl⟩
abbrev main_v380 : Ref sig .tc := ⟨.hbm, 431, rfl⟩
abbrev main_v381 : Ref sig .tc := ⟨.hbm, 432, rfl⟩
abbrev main_v382 : Ref sig .tc := ⟨.hbm, 433, rfl⟩
abbrev main_v383 : Ref sig .tc := ⟨.hbm, 434, rfl⟩
abbrev main_v384 : Ref sig .tc := ⟨.hbm, 435, rfl⟩
abbrev main_c_42 : Ref sig .tc := ⟨.hbm, 436, rfl⟩
abbrev main_v385 : Ref sig .tc := ⟨.hbm, 437, rfl⟩
abbrev main_v386 : Ref sig .tc := ⟨.hbm, 438, rfl⟩
abbrev main_v387 : Ref sig .tc := ⟨.hbm, 439, rfl⟩
abbrev main_v388 : Ref sig .tc := ⟨.hbm, 440, rfl⟩
abbrev main_v389 : Ref sig .tc := ⟨.hbm, 441, rfl⟩
abbrev main_v390 : Ref sig .tc := ⟨.hbm, 442, rfl⟩
abbrev main_v391 : Ref sig .tc := ⟨.hbm, 443, rfl⟩
abbrev main_v392 : Ref sig .tc := ⟨.hbm, 444, rfl⟩
abbrev main_cst_43 : Ref sig .tc := ⟨.hbm, 445, rfl⟩
abbrev main_v393 : Ref sig .tc := ⟨.hbm, 446, rfl⟩
abbrev main_v394 : Ref sig .tc := ⟨.hbm, 447, rfl⟩
abbrev main_v395 : Ref sig .tc := ⟨.hbm, 448, rfl⟩
abbrev main_v396 : Ref sig .tc := ⟨.hbm, 449, rfl⟩
abbrev main_v397 : Ref sig .tc := ⟨.hbm, 450, rfl⟩
abbrev main_v398 : Ref sig .tc := ⟨.hbm, 451, rfl⟩
abbrev main_v399 : Ref sig .tc := ⟨.hbm, 452, rfl⟩
abbrev main_v400 : Ref sig .tc := ⟨.hbm, 453, rfl⟩
abbrev main_v401 : Ref sig .tc := ⟨.hbm, 454, rfl⟩
abbrev main_v402 : Ref sig .tc := ⟨.hbm, 455, rfl⟩
abbrev main_c_44 : Ref sig .tc := ⟨.hbm, 456, rfl⟩
abbrev main_v403 : Ref sig .tc := ⟨.hbm, 457, rfl⟩
abbrev main_v404 : Ref sig .tc := ⟨.hbm, 458, rfl⟩
abbrev main_v405 : Ref sig .tc := ⟨.hbm, 459, rfl⟩
abbrev main_v406 : Ref sig .tc := ⟨.hbm, 460, rfl⟩
abbrev main_v407 : Ref sig .tc := ⟨.hbm, 461, rfl⟩
abbrev main_v408 : Ref sig .tc := ⟨.hbm, 462, rfl⟩
abbrev main_v409 : Ref sig .tc := ⟨.hbm, 463, rfl⟩
abbrev main_v410 : Ref sig .tc := ⟨.hbm, 464, rfl⟩
abbrev main_cst_45 : Ref sig .tc := ⟨.hbm, 465, rfl⟩
abbrev main_v411 : Ref sig .tc := ⟨.hbm, 466, rfl⟩
abbrev main_v412 : Ref sig .tc := ⟨.hbm, 467, rfl⟩
abbrev main_v413 : Ref sig .tc := ⟨.hbm, 468, rfl⟩
abbrev main_v414 : Ref sig .tc := ⟨.hbm, 469, rfl⟩
abbrev main_v415 : Ref sig .tc := ⟨.hbm, 470, rfl⟩
abbrev main_v416 : Ref sig .tc := ⟨.hbm, 471, rfl⟩
abbrev main_v417 : Ref sig .tc := ⟨.hbm, 472, rfl⟩
abbrev main_v418 : Ref sig .tc := ⟨.hbm, 473, rfl⟩
abbrev main_v419 : Ref sig .tc := ⟨.hbm, 474, rfl⟩
abbrev main_v420 : Ref sig .tc := ⟨.hbm, 475, rfl⟩
abbrev main_c_46 : Ref sig .tc := ⟨.hbm, 476, rfl⟩
abbrev main_v421 : Ref sig .tc := ⟨.hbm, 477, rfl⟩
abbrev main_v422 : Ref sig .tc := ⟨.hbm, 478, rfl⟩
abbrev main_v423 : Ref sig .tc := ⟨.hbm, 479, rfl⟩
abbrev main_v424 : Ref sig .tc := ⟨.hbm, 480, rfl⟩
abbrev main_v425 : Ref sig .tc := ⟨.hbm, 481, rfl⟩
abbrev main_v426 : Ref sig .tc := ⟨.hbm, 482, rfl⟩
abbrev main_v427 : Ref sig .tc := ⟨.hbm, 483, rfl⟩
abbrev main_v428 : Ref sig .tc := ⟨.hbm, 484, rfl⟩
abbrev main_cst_47 : Ref sig .tc := ⟨.hbm, 485, rfl⟩
abbrev main_v429 : Ref sig .tc := ⟨.hbm, 486, rfl⟩
abbrev main_v430 : Ref sig .tc := ⟨.hbm, 487, rfl⟩
abbrev main_v431 : Ref sig .tc := ⟨.hbm, 488, rfl⟩
abbrev main_v432 : Ref sig .tc := ⟨.hbm, 489, rfl⟩
abbrev main_v433 : Ref sig .tc := ⟨.hbm, 490, rfl⟩
abbrev main_v434 : Ref sig .tc := ⟨.hbm, 491, rfl⟩
abbrev main_v435 : Ref sig .tc := ⟨.hbm, 492, rfl⟩
abbrev main_v436 : Ref sig .tc := ⟨.hbm, 493, rfl⟩
abbrev main_v437 : Ref sig .tc := ⟨.hbm, 494, rfl⟩
abbrev main_v438 : Ref sig .tc := ⟨.hbm, 495, rfl⟩
abbrev main_c_48 : Ref sig .tc := ⟨.hbm, 496, rfl⟩
abbrev main_v439 : Ref sig .tc := ⟨.hbm, 497, rfl⟩
abbrev main_v440 : Ref sig .tc := ⟨.hbm, 498, rfl⟩
abbrev main_v441 : Ref sig .tc := ⟨.hbm, 499, rfl⟩
abbrev main_v442 : Ref sig .tc := ⟨.hbm, 500, rfl⟩
abbrev main_v443 : Ref sig .tc := ⟨.hbm, 501, rfl⟩
abbrev main_v444 : Ref sig .tc := ⟨.hbm, 502, rfl⟩
abbrev main_v445 : Ref sig .tc := ⟨.hbm, 503, rfl⟩
abbrev main_v446 : Ref sig .tc := ⟨.hbm, 504, rfl⟩
abbrev main_cst_49 : Ref sig .tc := ⟨.hbm, 505, rfl⟩
abbrev main_v447 : Ref sig .tc := ⟨.hbm, 506, rfl⟩
abbrev main_v448 : Ref sig .tc := ⟨.hbm, 507, rfl⟩
abbrev main_v449 : Ref sig .tc := ⟨.hbm, 508, rfl⟩
abbrev main_v450 : Ref sig .tc := ⟨.hbm, 509, rfl⟩
abbrev main_v451 : Ref sig .tc := ⟨.hbm, 510, rfl⟩
abbrev main_v452 : Ref sig .tc := ⟨.hbm, 511, rfl⟩
abbrev main_v453 : Ref sig .tc := ⟨.hbm, 512, rfl⟩
abbrev main_v454 : Ref sig .tc := ⟨.hbm, 513, rfl⟩
abbrev main_v455 : Ref sig .tc := ⟨.hbm, 514, rfl⟩
abbrev main_v456 : Ref sig .tc := ⟨.hbm, 515, rfl⟩
abbrev main_c_50 : Ref sig .tc := ⟨.hbm, 516, rfl⟩
abbrev main_v457 : Ref sig .tc := ⟨.hbm, 517, rfl⟩
abbrev main_v458 : Ref sig .tc := ⟨.hbm, 518, rfl⟩
abbrev main_v459 : Ref sig .tc := ⟨.hbm, 519, rfl⟩
abbrev main_v460 : Ref sig .tc := ⟨.hbm, 520, rfl⟩
abbrev main_v461 : Ref sig .tc := ⟨.hbm, 521, rfl⟩
abbrev main_v462 : Ref sig .tc := ⟨.hbm, 522, rfl⟩
abbrev main_v463 : Ref sig .tc := ⟨.hbm, 523, rfl⟩
abbrev main_v464 : Ref sig .tc := ⟨.hbm, 524, rfl⟩
abbrev main_cst_51 : Ref sig .tc := ⟨.hbm, 525, rfl⟩
abbrev main_v465 : Ref sig .tc := ⟨.hbm, 526, rfl⟩
abbrev main_v466 : Ref sig .tc := ⟨.hbm, 527, rfl⟩
abbrev main_v467 : Ref sig .tc := ⟨.hbm, 528, rfl⟩
abbrev main_v468 : Ref sig .tc := ⟨.hbm, 529, rfl⟩
abbrev main_v469 : Ref sig .tc := ⟨.hbm, 530, rfl⟩
abbrev main_v470 : Ref sig .tc := ⟨.hbm, 531, rfl⟩
abbrev main_v471 : Ref sig .tc := ⟨.hbm, 532, rfl⟩
abbrev main_v472 : Ref sig .tc := ⟨.hbm, 533, rfl⟩
abbrev main_v473 : Ref sig .tc := ⟨.hbm, 534, rfl⟩
abbrev main_v474 : Ref sig .tc := ⟨.hbm, 535, rfl⟩
abbrev main_c_52 : Ref sig .tc := ⟨.hbm, 536, rfl⟩
abbrev main_v475 : Ref sig .tc := ⟨.hbm, 537, rfl⟩
abbrev main_v476 : Ref sig .tc := ⟨.hbm, 538, rfl⟩
abbrev main_v477 : Ref sig .tc := ⟨.hbm, 539, rfl⟩
abbrev main_v478 : Ref sig .tc := ⟨.hbm, 540, rfl⟩
abbrev main_v479 : Ref sig .tc := ⟨.hbm, 541, rfl⟩
abbrev main_v480 : Ref sig .tc := ⟨.hbm, 542, rfl⟩
abbrev main_v481 : Ref sig .tc := ⟨.hbm, 543, rfl⟩
abbrev main_v482 : Ref sig .tc := ⟨.hbm, 544, rfl⟩
abbrev main_cst_53 : Ref sig .tc := ⟨.hbm, 545, rfl⟩
abbrev main_v483 : Ref sig .tc := ⟨.hbm, 546, rfl⟩
abbrev main_v484 : Ref sig .tc := ⟨.hbm, 547, rfl⟩
abbrev main_v485 : Ref sig .tc := ⟨.hbm, 548, rfl⟩
abbrev main_v486 : Ref sig .tc := ⟨.hbm, 549, rfl⟩
abbrev main_v487 : Ref sig .tc := ⟨.hbm, 550, rfl⟩
abbrev main_v488 : Ref sig .tc := ⟨.hbm, 551, rfl⟩
abbrev main_v489 : Ref sig .tc := ⟨.hbm, 552, rfl⟩
abbrev main_v490 : Ref sig .tc := ⟨.hbm, 553, rfl⟩
abbrev main_v491 : Ref sig .tc := ⟨.hbm, 554, rfl⟩
abbrev main_v492 : Ref sig .tc := ⟨.hbm, 555, rfl⟩
abbrev main_c_54 : Ref sig .tc := ⟨.hbm, 556, rfl⟩
abbrev main_v493 : Ref sig .tc := ⟨.hbm, 557, rfl⟩
abbrev main_v494 : Ref sig .tc := ⟨.hbm, 558, rfl⟩
abbrev main_v495 : Ref sig .tc := ⟨.hbm, 559, rfl⟩
abbrev main_v496 : Ref sig .tc := ⟨.hbm, 560, rfl⟩
abbrev main_v497 : Ref sig .tc := ⟨.hbm, 561, rfl⟩
abbrev main_v498 : Ref sig .tc := ⟨.hbm, 562, rfl⟩
abbrev main_v499 : Ref sig .tc := ⟨.hbm, 563, rfl⟩
abbrev main_v500 : Ref sig .tc := ⟨.hbm, 564, rfl⟩
abbrev main_cst_55 : Ref sig .tc := ⟨.hbm, 565, rfl⟩
abbrev main_v501 : Ref sig .tc := ⟨.hbm, 566, rfl⟩
abbrev main_v502 : Ref sig .tc := ⟨.hbm, 567, rfl⟩
abbrev main_v503 : Ref sig .tc := ⟨.hbm, 568, rfl⟩
abbrev main_v504 : Ref sig .tc := ⟨.hbm, 569, rfl⟩
abbrev main_v505 : Ref sig .tc := ⟨.hbm, 570, rfl⟩
abbrev main_v506 : Ref sig .tc := ⟨.hbm, 571, rfl⟩
abbrev main_v507 : Ref sig .tc := ⟨.hbm, 572, rfl⟩
abbrev main_v508 : Ref sig .tc := ⟨.hbm, 573, rfl⟩
abbrev main_v509 : Ref sig .tc := ⟨.hbm, 574, rfl⟩
abbrev main_v510 : Ref sig .tc := ⟨.hbm, 575, rfl⟩
abbrev main_c_56 : Ref sig .tc := ⟨.hbm, 576, rfl⟩
abbrev main_v511 : Ref sig .tc := ⟨.hbm, 577, rfl⟩
abbrev main_v512 : Ref sig .tc := ⟨.hbm, 578, rfl⟩
abbrev main_v513 : Ref sig .tc := ⟨.hbm, 579, rfl⟩
abbrev main_v514 : Ref sig .tc := ⟨.hbm, 580, rfl⟩
abbrev main_v515 : Ref sig .tc := ⟨.hbm, 581, rfl⟩
abbrev main_v516 : Ref sig .tc := ⟨.hbm, 582, rfl⟩
abbrev main_v517 : Ref sig .tc := ⟨.hbm, 583, rfl⟩
abbrev main_v518 : Ref sig .tc := ⟨.hbm, 584, rfl⟩
abbrev main_cst_57 : Ref sig .tc := ⟨.hbm, 585, rfl⟩
abbrev main_v519 : Ref sig .tc := ⟨.hbm, 586, rfl⟩
abbrev main_v520 : Ref sig .tc := ⟨.hbm, 587, rfl⟩
abbrev main_v521 : Ref sig .tc := ⟨.hbm, 588, rfl⟩
abbrev main_v522 : Ref sig .tc := ⟨.hbm, 589, rfl⟩
abbrev main_v523 : Ref sig .tc := ⟨.hbm, 590, rfl⟩
abbrev main_v524 : Ref sig .tc := ⟨.hbm, 591, rfl⟩
abbrev main_v525 : Ref sig .tc := ⟨.hbm, 592, rfl⟩
abbrev main_v526 : Ref sig .tc := ⟨.hbm, 593, rfl⟩
abbrev main_v527 : Ref sig .tc := ⟨.hbm, 594, rfl⟩
abbrev main_v528 : Ref sig .tc := ⟨.hbm, 595, rfl⟩
abbrev main_c_58 : Ref sig .tc := ⟨.hbm, 596, rfl⟩
abbrev main_v529 : Ref sig .tc := ⟨.hbm, 597, rfl⟩
abbrev main_v530 : Ref sig .tc := ⟨.hbm, 598, rfl⟩
abbrev main_v531 : Ref sig .tc := ⟨.hbm, 599, rfl⟩
abbrev main_v532 : Ref sig .tc := ⟨.hbm, 600, rfl⟩
abbrev main_v533 : Ref sig .tc := ⟨.hbm, 601, rfl⟩
abbrev main_v534 : Ref sig .tc := ⟨.hbm, 602, rfl⟩
abbrev main_v535 : Ref sig .tc := ⟨.hbm, 603, rfl⟩
abbrev main_v536 : Ref sig .tc := ⟨.hbm, 604, rfl⟩
abbrev main_cst_59 : Ref sig .tc := ⟨.hbm, 605, rfl⟩
abbrev main_v537 : Ref sig .tc := ⟨.hbm, 606, rfl⟩
abbrev main_v538 : Ref sig .tc := ⟨.hbm, 607, rfl⟩
abbrev main_v539 : Ref sig .tc := ⟨.hbm, 608, rfl⟩
abbrev main_v540 : Ref sig .tc := ⟨.hbm, 609, rfl⟩
abbrev main_v541 : Ref sig .tc := ⟨.hbm, 610, rfl⟩
abbrev main_v542 : Ref sig .tc := ⟨.hbm, 611, rfl⟩
abbrev main_v543 : Ref sig .tc := ⟨.hbm, 612, rfl⟩
abbrev main_v544 : Ref sig .tc := ⟨.hbm, 613, rfl⟩
abbrev main_v545 : Ref sig .tc := ⟨.hbm, 614, rfl⟩
abbrev main_v546 : Ref sig .tc := ⟨.hbm, 615, rfl⟩
abbrev main_c_60 : Ref sig .tc := ⟨.hbm, 616, rfl⟩
abbrev main_v547 : Ref sig .tc := ⟨.hbm, 617, rfl⟩
abbrev main_v548 : Ref sig .tc := ⟨.hbm, 618, rfl⟩
abbrev main_v549 : Ref sig .tc := ⟨.hbm, 619, rfl⟩
abbrev main_v550 : Ref sig .tc := ⟨.hbm, 620, rfl⟩
abbrev main_v551 : Ref sig .tc := ⟨.hbm, 621, rfl⟩
abbrev main_v552 : Ref sig .tc := ⟨.hbm, 622, rfl⟩
abbrev main_v553 : Ref sig .tc := ⟨.hbm, 623, rfl⟩
abbrev main_v554 : Ref sig .tc := ⟨.hbm, 624, rfl⟩
abbrev main_cst_61 : Ref sig .tc := ⟨.hbm, 625, rfl⟩
abbrev main_v555 : Ref sig .tc := ⟨.hbm, 626, rfl⟩
abbrev main_v556 : Ref sig .tc := ⟨.hbm, 627, rfl⟩
abbrev main_v557 : Ref sig .tc := ⟨.hbm, 628, rfl⟩
abbrev main_v558 : Ref sig .tc := ⟨.hbm, 629, rfl⟩
abbrev main_v559 : Ref sig .tc := ⟨.hbm, 630, rfl⟩
abbrev main_v560 : Ref sig .tc := ⟨.hbm, 631, rfl⟩
abbrev main_v561 : Ref sig .tc := ⟨.hbm, 632, rfl⟩
abbrev main_v562 : Ref sig .tc := ⟨.hbm, 633, rfl⟩
abbrev main_v563 : Ref sig .tc := ⟨.hbm, 634, rfl⟩
abbrev main_v564 : Ref sig .tc := ⟨.hbm, 635, rfl⟩
abbrev main_c_62 : Ref sig .tc := ⟨.hbm, 636, rfl⟩
abbrev main_v565 : Ref sig .tc := ⟨.hbm, 637, rfl⟩
abbrev main_v566 : Ref sig .tc := ⟨.hbm, 638, rfl⟩
abbrev main_v567 : Ref sig .tc := ⟨.hbm, 639, rfl⟩
abbrev main_v568 : Ref sig .tc := ⟨.hbm, 640, rfl⟩
abbrev main_v569 : Ref sig .tc := ⟨.hbm, 641, rfl⟩
abbrev main_v570 : Ref sig .tc := ⟨.hbm, 642, rfl⟩
abbrev main_v571 : Ref sig .tc := ⟨.hbm, 643, rfl⟩
abbrev main_v572 : Ref sig .tc := ⟨.hbm, 644, rfl⟩
abbrev main_cst_63 : Ref sig .tc := ⟨.hbm, 645, rfl⟩
abbrev main_v573 : Ref sig .tc := ⟨.hbm, 646, rfl⟩
abbrev main_v574 : Ref sig .tc := ⟨.hbm, 647, rfl⟩
abbrev main_v575 : Ref sig .tc := ⟨.hbm, 648, rfl⟩
abbrev main_v576 : Ref sig .tc := ⟨.hbm, 649, rfl⟩
abbrev main_v577 : Ref sig .tc := ⟨.hbm, 650, rfl⟩
abbrev main_v578 : Ref sig .tc := ⟨.hbm, 651, rfl⟩
abbrev main_v579 : Ref sig .tc := ⟨.hbm, 652, rfl⟩
abbrev main_v580 : Ref sig .tc := ⟨.hbm, 653, rfl⟩
abbrev main_v581 : Ref sig .tc := ⟨.hbm, 654, rfl⟩
abbrev main_v582 : Ref sig .tc := ⟨.hbm, 655, rfl⟩
abbrev main_c_64 : Ref sig .tc := ⟨.hbm, 656, rfl⟩
abbrev main_v583 : Ref sig .tc := ⟨.hbm, 657, rfl⟩
abbrev main_v584 : Ref sig .tc := ⟨.hbm, 658, rfl⟩
abbrev main_v585 : Ref sig .tc := ⟨.hbm, 659, rfl⟩
abbrev main_v586 : Ref sig .tc := ⟨.hbm, 660, rfl⟩
abbrev main_v587 : Ref sig .tc := ⟨.hbm, 661, rfl⟩
abbrev main_v588 : Ref sig .tc := ⟨.hbm, 662, rfl⟩
abbrev main_v589 : Ref sig .tc := ⟨.hbm, 663, rfl⟩
abbrev main_v590 : Ref sig .tc := ⟨.hbm, 664, rfl⟩
abbrev main_cst_65 : Ref sig .tc := ⟨.hbm, 665, rfl⟩
abbrev main_v591 : Ref sig .tc := ⟨.hbm, 666, rfl⟩
abbrev main_v592 : Ref sig .tc := ⟨.hbm, 667, rfl⟩
abbrev main_v593 : Ref sig .tc := ⟨.hbm, 668, rfl⟩
abbrev main_v594 : Ref sig .tc := ⟨.hbm, 669, rfl⟩
abbrev main_v595 : Ref sig .tc := ⟨.hbm, 670, rfl⟩
abbrev main_v596 : Ref sig .tc := ⟨.hbm, 671, rfl⟩
abbrev main_v597 : Ref sig .tc := ⟨.hbm, 672, rfl⟩
abbrev main_v598 : Ref sig .tc := ⟨.hbm, 673, rfl⟩
abbrev main_v599 : Ref sig .tc := ⟨.hbm, 674, rfl⟩
abbrev main_v600 : Ref sig .tc := ⟨.hbm, 675, rfl⟩
abbrev main_c_66 : Ref sig .tc := ⟨.hbm, 676, rfl⟩
abbrev main_v601 : Ref sig .tc := ⟨.hbm, 677, rfl⟩
abbrev main_v602 : Ref sig .tc := ⟨.hbm, 678, rfl⟩
abbrev main_v603 : Ref sig .tc := ⟨.hbm, 679, rfl⟩
abbrev main_v604 : Ref sig .tc := ⟨.hbm, 680, rfl⟩
abbrev main_v605 : Ref sig .tc := ⟨.hbm, 681, rfl⟩
abbrev main_v606 : Ref sig .tc := ⟨.hbm, 682, rfl⟩
abbrev main_v607 : Ref sig .tc := ⟨.hbm, 683, rfl⟩
abbrev main_v608 : Ref sig .tc := ⟨.hbm, 684, rfl⟩
abbrev main_cst_67 : Ref sig .tc := ⟨.hbm, 685, rfl⟩
abbrev main_v609 : Ref sig .tc := ⟨.hbm, 686, rfl⟩
abbrev main_v610 : Ref sig .tc := ⟨.hbm, 687, rfl⟩
abbrev main_v611 : Ref sig .tc := ⟨.hbm, 688, rfl⟩
abbrev main_v612 : Ref sig .tc := ⟨.hbm, 689, rfl⟩
abbrev main_v613 : Ref sig .tc := ⟨.hbm, 690, rfl⟩
abbrev main_v614 : Ref sig .tc := ⟨.hbm, 691, rfl⟩
abbrev main_v615 : Ref sig .tc := ⟨.hbm, 692, rfl⟩
abbrev main_v616 : Ref sig .tc := ⟨.hbm, 693, rfl⟩
abbrev main_v617 : Ref sig .tc := ⟨.hbm, 694, rfl⟩
abbrev main_v618 : Ref sig .tc := ⟨.hbm, 695, rfl⟩
abbrev main_c_68 : Ref sig .tc := ⟨.hbm, 696, rfl⟩
abbrev main_v619 : Ref sig .tc := ⟨.hbm, 697, rfl⟩
abbrev main_v620 : Ref sig .tc := ⟨.hbm, 698, rfl⟩
abbrev main_v621 : Ref sig .tc := ⟨.hbm, 699, rfl⟩
abbrev main_v622 : Ref sig .tc := ⟨.hbm, 700, rfl⟩
abbrev main_v623 : Ref sig .tc := ⟨.hbm, 701, rfl⟩
abbrev main_v624 : Ref sig .tc := ⟨.hbm, 702, rfl⟩
abbrev main_v625 : Ref sig .tc := ⟨.hbm, 703, rfl⟩
abbrev main_v626 : Ref sig .tc := ⟨.hbm, 704, rfl⟩
abbrev main_cst_69 : Ref sig .tc := ⟨.hbm, 705, rfl⟩
abbrev main_v627 : Ref sig .tc := ⟨.hbm, 706, rfl⟩
abbrev main_v628 : Ref sig .tc := ⟨.hbm, 707, rfl⟩
abbrev main_v629 : Ref sig .tc := ⟨.hbm, 708, rfl⟩
abbrev main_v630 : Ref sig .tc := ⟨.hbm, 709, rfl⟩
abbrev main_v631 : Ref sig .tc := ⟨.hbm, 710, rfl⟩
abbrev main_v632 : Ref sig .tc := ⟨.hbm, 711, rfl⟩
abbrev main_v633 : Ref sig .tc := ⟨.hbm, 712, rfl⟩
abbrev main_v634 : Ref sig .tc := ⟨.hbm, 713, rfl⟩
abbrev main_v635 : Ref sig .tc := ⟨.hbm, 714, rfl⟩
abbrev main_v636 : Ref sig .tc := ⟨.hbm, 715, rfl⟩
abbrev main_c_70 : Ref sig .tc := ⟨.hbm, 716, rfl⟩
abbrev main_v637 : Ref sig .tc := ⟨.hbm, 717, rfl⟩
abbrev main_v638 : Ref sig .tc := ⟨.hbm, 718, rfl⟩
abbrev main_v639 : Ref sig .tc := ⟨.hbm, 719, rfl⟩
abbrev main_v640 : Ref sig .tc := ⟨.hbm, 720, rfl⟩
abbrev main_v641 : Ref sig .tc := ⟨.hbm, 721, rfl⟩
abbrev main_v642 : Ref sig .tc := ⟨.hbm, 722, rfl⟩
abbrev main_v643 : Ref sig .tc := ⟨.hbm, 723, rfl⟩
abbrev main_v644 : Ref sig .tc := ⟨.hbm, 724, rfl⟩
abbrev main_cst_71 : Ref sig .tc := ⟨.hbm, 725, rfl⟩
abbrev main_v645 : Ref sig .tc := ⟨.hbm, 726, rfl⟩
abbrev main_v646 : Ref sig .tc := ⟨.hbm, 727, rfl⟩
abbrev main_v647 : Ref sig .tc := ⟨.hbm, 728, rfl⟩
abbrev main_v648 : Ref sig .tc := ⟨.hbm, 729, rfl⟩
abbrev main_v649 : Ref sig .tc := ⟨.hbm, 730, rfl⟩
abbrev main_v650 : Ref sig .tc := ⟨.hbm, 731, rfl⟩
abbrev main_v651 : Ref sig .tc := ⟨.hbm, 732, rfl⟩
abbrev main_v652 : Ref sig .tc := ⟨.hbm, 733, rfl⟩
abbrev main_v653 : Ref sig .tc := ⟨.hbm, 734, rfl⟩
abbrev main_v654 : Ref sig .tc := ⟨.hbm, 735, rfl⟩
abbrev main_c_72 : Ref sig .tc := ⟨.hbm, 736, rfl⟩
abbrev main_v655 : Ref sig .tc := ⟨.hbm, 737, rfl⟩
abbrev main_v656 : Ref sig .tc := ⟨.hbm, 738, rfl⟩
abbrev main_v657 : Ref sig .tc := ⟨.hbm, 739, rfl⟩
abbrev main_v658 : Ref sig .tc := ⟨.hbm, 740, rfl⟩
abbrev main_v659 : Ref sig .tc := ⟨.hbm, 741, rfl⟩
abbrev main_v660 : Ref sig .tc := ⟨.hbm, 742, rfl⟩
abbrev main_v661 : Ref sig .tc := ⟨.hbm, 743, rfl⟩
abbrev main_v662 : Ref sig .tc := ⟨.hbm, 744, rfl⟩
abbrev main_cst_73 : Ref sig .tc := ⟨.hbm, 745, rfl⟩
abbrev main_v663 : Ref sig .tc := ⟨.hbm, 746, rfl⟩
abbrev main_v664 : Ref sig .tc := ⟨.hbm, 747, rfl⟩
abbrev main_v665 : Ref sig .tc := ⟨.hbm, 748, rfl⟩
abbrev main_v666 : Ref sig .tc := ⟨.hbm, 749, rfl⟩
abbrev main_v667 : Ref sig .tc := ⟨.hbm, 750, rfl⟩
abbrev main_v668 : Ref sig .tc := ⟨.hbm, 751, rfl⟩
abbrev main_v669 : Ref sig .tc := ⟨.hbm, 752, rfl⟩
abbrev main_v670 : Ref sig .tc := ⟨.hbm, 753, rfl⟩
abbrev main_v671 : Ref sig .tc := ⟨.hbm, 754, rfl⟩
abbrev main_v672 : Ref sig .tc := ⟨.hbm, 755, rfl⟩
abbrev main_c_74 : Ref sig .tc := ⟨.hbm, 756, rfl⟩
abbrev main_v673 : Ref sig .tc := ⟨.hbm, 757, rfl⟩
abbrev main_v674 : Ref sig .tc := ⟨.hbm, 758, rfl⟩
abbrev main_v675 : Ref sig .tc := ⟨.hbm, 759, rfl⟩
abbrev main_v676 : Ref sig .tc := ⟨.hbm, 760, rfl⟩
abbrev main_v677 : Ref sig .tc := ⟨.hbm, 761, rfl⟩
abbrev main_v678 : Ref sig .tc := ⟨.hbm, 762, rfl⟩
abbrev main_v679 : Ref sig .tc := ⟨.hbm, 763, rfl⟩
abbrev main_v680 : Ref sig .tc := ⟨.hbm, 764, rfl⟩
abbrev main_cst_75 : Ref sig .tc := ⟨.hbm, 765, rfl⟩
abbrev main_v681 : Ref sig .tc := ⟨.hbm, 766, rfl⟩
abbrev main_v682 : Ref sig .tc := ⟨.hbm, 767, rfl⟩
abbrev main_v683 : Ref sig .tc := ⟨.hbm, 768, rfl⟩
abbrev main_v684 : Ref sig .tc := ⟨.hbm, 769, rfl⟩
abbrev main_v685 : Ref sig .tc := ⟨.hbm, 770, rfl⟩
abbrev main_v686 : Ref sig .tc := ⟨.hbm, 771, rfl⟩
abbrev main_v687 : Ref sig .tc := ⟨.hbm, 772, rfl⟩
abbrev main_v688 : Ref sig .tc := ⟨.hbm, 773, rfl⟩
abbrev main_v689 : Ref sig .tc := ⟨.hbm, 774, rfl⟩
abbrev main_v690 : Ref sig .tc := ⟨.hbm, 775, rfl⟩
abbrev main_c_76 : Ref sig .tc := ⟨.hbm, 776, rfl⟩
abbrev main_v691 : Ref sig .tc := ⟨.hbm, 777, rfl⟩
abbrev main_v692 : Ref sig .tc := ⟨.hbm, 778, rfl⟩
abbrev main_v693 : Ref sig .tc := ⟨.hbm, 779, rfl⟩
abbrev main_v694 : Ref sig .tc := ⟨.hbm, 780, rfl⟩
abbrev main_v695 : Ref sig .tc := ⟨.hbm, 781, rfl⟩
abbrev main_v696 : Ref sig .tc := ⟨.hbm, 782, rfl⟩
abbrev main_v697 : Ref sig .tc := ⟨.hbm, 783, rfl⟩
abbrev main_v698 : Ref sig .tc := ⟨.hbm, 784, rfl⟩
abbrev main_cst_77 : Ref sig .tc := ⟨.hbm, 785, rfl⟩
abbrev main_v699 : Ref sig .tc := ⟨.hbm, 786, rfl⟩
abbrev main_v700 : Ref sig .tc := ⟨.hbm, 787, rfl⟩
abbrev main_v701 : Ref sig .tc := ⟨.hbm, 788, rfl⟩
abbrev main_v702 : Ref sig .tc := ⟨.hbm, 789, rfl⟩
abbrev main_v703 : Ref sig .tc := ⟨.hbm, 790, rfl⟩
abbrev main_v704 : Ref sig .tc := ⟨.hbm, 791, rfl⟩
abbrev main_v705 : Ref sig .tc := ⟨.hbm, 792, rfl⟩
abbrev main_v706 : Ref sig .tc := ⟨.hbm, 793, rfl⟩
abbrev main_v707 : Ref sig .tc := ⟨.hbm, 794, rfl⟩
abbrev main_v708 : Ref sig .tc := ⟨.hbm, 795, rfl⟩
abbrev main_c_78 : Ref sig .tc := ⟨.hbm, 796, rfl⟩
abbrev main_v709 : Ref sig .tc := ⟨.hbm, 797, rfl⟩
abbrev main_v710 : Ref sig .tc := ⟨.hbm, 798, rfl⟩
abbrev main_v711 : Ref sig .tc := ⟨.hbm, 799, rfl⟩
abbrev main_v712 : Ref sig .tc := ⟨.hbm, 800, rfl⟩
abbrev main_v713 : Ref sig .tc := ⟨.hbm, 801, rfl⟩
abbrev main_v714 : Ref sig .tc := ⟨.hbm, 802, rfl⟩
abbrev main_v715 : Ref sig .tc := ⟨.hbm, 803, rfl⟩
abbrev main_v716 : Ref sig .tc := ⟨.hbm, 804, rfl⟩
abbrev main_cst_79 : Ref sig .tc := ⟨.hbm, 805, rfl⟩
abbrev main_v717 : Ref sig .tc := ⟨.hbm, 806, rfl⟩
abbrev main_v718 : Ref sig .tc := ⟨.hbm, 807, rfl⟩
abbrev main_v719 : Ref sig .tc := ⟨.hbm, 808, rfl⟩
abbrev main_v720 : Ref sig .tc := ⟨.hbm, 809, rfl⟩
abbrev main_v721 : Ref sig .tc := ⟨.hbm, 810, rfl⟩
abbrev main_v722 : Ref sig .tc := ⟨.hbm, 811, rfl⟩
abbrev main_v723 : Ref sig .tc := ⟨.hbm, 812, rfl⟩
abbrev main_v724 : Ref sig .tc := ⟨.hbm, 813, rfl⟩
abbrev main_v725 : Ref sig .tc := ⟨.hbm, 814, rfl⟩
abbrev main_v726 : Ref sig .tc := ⟨.hbm, 815, rfl⟩
abbrev main_c_80 : Ref sig .tc := ⟨.hbm, 816, rfl⟩
abbrev main_v727 : Ref sig .tc := ⟨.hbm, 817, rfl⟩
abbrev main_v728 : Ref sig .tc := ⟨.hbm, 818, rfl⟩
abbrev main_v729 : Ref sig .tc := ⟨.hbm, 819, rfl⟩
abbrev main_v730 : Ref sig .tc := ⟨.hbm, 820, rfl⟩
abbrev main_v731 : Ref sig .tc := ⟨.hbm, 821, rfl⟩
abbrev main_v732 : Ref sig .tc := ⟨.hbm, 822, rfl⟩
abbrev main_v733 : Ref sig .tc := ⟨.hbm, 823, rfl⟩
abbrev main_v734 : Ref sig .tc := ⟨.hbm, 824, rfl⟩
abbrev main_cst_81 : Ref sig .tc := ⟨.hbm, 825, rfl⟩
abbrev main_v735 : Ref sig .tc := ⟨.hbm, 826, rfl⟩
abbrev main_v736 : Ref sig .tc := ⟨.hbm, 827, rfl⟩
abbrev main_v737 : Ref sig .tc := ⟨.hbm, 828, rfl⟩
abbrev main_v738 : Ref sig .tc := ⟨.hbm, 829, rfl⟩
abbrev main_v739 : Ref sig .tc := ⟨.hbm, 830, rfl⟩
abbrev main_v740 : Ref sig .tc := ⟨.hbm, 831, rfl⟩
abbrev main_v741 : Ref sig .tc := ⟨.hbm, 832, rfl⟩
abbrev main_v742 : Ref sig .tc := ⟨.hbm, 833, rfl⟩
abbrev main_v743 : Ref sig .tc := ⟨.hbm, 834, rfl⟩
abbrev main_v744 : Ref sig .tc := ⟨.hbm, 835, rfl⟩
abbrev main_c_82 : Ref sig .tc := ⟨.hbm, 836, rfl⟩
abbrev main_v745 : Ref sig .tc := ⟨.hbm, 837, rfl⟩
abbrev main_v746 : Ref sig .tc := ⟨.hbm, 838, rfl⟩
abbrev main_v747 : Ref sig .tc := ⟨.hbm, 839, rfl⟩
abbrev main_v748 : Ref sig .tc := ⟨.hbm, 840, rfl⟩
abbrev main_v749 : Ref sig .tc := ⟨.hbm, 841, rfl⟩
abbrev main_v750 : Ref sig .tc := ⟨.hbm, 842, rfl⟩
abbrev main_v751 : Ref sig .tc := ⟨.hbm, 843, rfl⟩
abbrev main_v752 : Ref sig .tc := ⟨.hbm, 844, rfl⟩
abbrev main_cst_83 : Ref sig .tc := ⟨.hbm, 845, rfl⟩
abbrev main_v753 : Ref sig .tc := ⟨.hbm, 846, rfl⟩
abbrev main_v754 : Ref sig .tc := ⟨.hbm, 847, rfl⟩
abbrev main_v755 : Ref sig .tc := ⟨.hbm, 848, rfl⟩
abbrev main_v756 : Ref sig .tc := ⟨.hbm, 849, rfl⟩
abbrev main_v757 : Ref sig .tc := ⟨.hbm, 850, rfl⟩
abbrev main_v758 : Ref sig .tc := ⟨.hbm, 851, rfl⟩
abbrev main_v759 : Ref sig .tc := ⟨.hbm, 852, rfl⟩
abbrev main_v760 : Ref sig .tc := ⟨.hbm, 853, rfl⟩
abbrev main_v761 : Ref sig .tc := ⟨.hbm, 854, rfl⟩
abbrev main_v762 : Ref sig .tc := ⟨.hbm, 855, rfl⟩
abbrev main_c_84 : Ref sig .tc := ⟨.hbm, 856, rfl⟩
abbrev main_v763 : Ref sig .tc := ⟨.hbm, 857, rfl⟩
abbrev main_v764 : Ref sig .tc := ⟨.hbm, 858, rfl⟩
abbrev main_v765 : Ref sig .tc := ⟨.hbm, 859, rfl⟩
abbrev main_v766 : Ref sig .tc := ⟨.hbm, 860, rfl⟩
abbrev main_v767 : Ref sig .tc := ⟨.hbm, 861, rfl⟩
abbrev main_v768 : Ref sig .tc := ⟨.hbm, 862, rfl⟩
abbrev main_v769 : Ref sig .tc := ⟨.hbm, 863, rfl⟩
abbrev main_v770 : Ref sig .tc := ⟨.hbm, 864, rfl⟩
abbrev main_cst_85 : Ref sig .tc := ⟨.hbm, 865, rfl⟩
abbrev main_v771 : Ref sig .tc := ⟨.hbm, 866, rfl⟩
abbrev main_v772 : Ref sig .tc := ⟨.hbm, 867, rfl⟩
abbrev main_v773 : Ref sig .tc := ⟨.hbm, 868, rfl⟩
abbrev main_v774 : Ref sig .tc := ⟨.hbm, 869, rfl⟩
abbrev main_v775 : Ref sig .tc := ⟨.hbm, 870, rfl⟩
abbrev main_v776 : Ref sig .tc := ⟨.hbm, 871, rfl⟩
abbrev main_v777 : Ref sig .tc := ⟨.hbm, 872, rfl⟩
abbrev main_v778 : Ref sig .tc := ⟨.hbm, 873, rfl⟩
abbrev main_v779 : Ref sig .tc := ⟨.hbm, 874, rfl⟩
abbrev main_v780 : Ref sig .tc := ⟨.hbm, 875, rfl⟩
abbrev main_c_86 : Ref sig .tc := ⟨.hbm, 876, rfl⟩
abbrev main_v781 : Ref sig .tc := ⟨.hbm, 877, rfl⟩
abbrev main_v782 : Ref sig .tc := ⟨.hbm, 878, rfl⟩
abbrev main_v783 : Ref sig .tc := ⟨.hbm, 879, rfl⟩
abbrev main_v784 : Ref sig .tc := ⟨.hbm, 880, rfl⟩
abbrev main_v785 : Ref sig .tc := ⟨.hbm, 881, rfl⟩
abbrev main_v786 : Ref sig .tc := ⟨.hbm, 882, rfl⟩
abbrev main_v787 : Ref sig .tc := ⟨.hbm, 883, rfl⟩
abbrev main_v788 : Ref sig .tc := ⟨.hbm, 884, rfl⟩
abbrev main_cst_87 : Ref sig .tc := ⟨.hbm, 885, rfl⟩
abbrev main_v789 : Ref sig .tc := ⟨.hbm, 886, rfl⟩
abbrev main_v790 : Ref sig .tc := ⟨.hbm, 887, rfl⟩
abbrev main_v791 : Ref sig .tc := ⟨.hbm, 888, rfl⟩
abbrev main_v792 : Ref sig .tc := ⟨.hbm, 889, rfl⟩
abbrev main_v793 : Ref sig .tc := ⟨.hbm, 890, rfl⟩
abbrev main_v794 : Ref sig .tc := ⟨.hbm, 891, rfl⟩
abbrev main_v795 : Ref sig .tc := ⟨.hbm, 892, rfl⟩
abbrev main_v796 : Ref sig .tc := ⟨.hbm, 893, rfl⟩
abbrev main_v797 : Ref sig .tc := ⟨.hbm, 894, rfl⟩
abbrev main_v798 : Ref sig .tc := ⟨.hbm, 895, rfl⟩
abbrev main_c_88 : Ref sig .tc := ⟨.hbm, 896, rfl⟩
abbrev main_v799 : Ref sig .tc := ⟨.hbm, 897, rfl⟩
abbrev main_v800 : Ref sig .tc := ⟨.hbm, 898, rfl⟩
abbrev main_v801 : Ref sig .tc := ⟨.hbm, 899, rfl⟩
abbrev main_v802 : Ref sig .tc := ⟨.hbm, 900, rfl⟩
abbrev main_v803 : Ref sig .tc := ⟨.hbm, 901, rfl⟩
abbrev main_v804 : Ref sig .tc := ⟨.hbm, 902, rfl⟩
abbrev main_v805 : Ref sig .tc := ⟨.hbm, 903, rfl⟩
abbrev main_v806 : Ref sig .tc := ⟨.hbm, 904, rfl⟩
abbrev main_cst_89 : Ref sig .tc := ⟨.hbm, 905, rfl⟩
abbrev main_v807 : Ref sig .tc := ⟨.hbm, 906, rfl⟩
abbrev main_v808 : Ref sig .tc := ⟨.hbm, 907, rfl⟩
abbrev main_v809 : Ref sig .tc := ⟨.hbm, 908, rfl⟩
abbrev main_v810 : Ref sig .tc := ⟨.hbm, 909, rfl⟩
abbrev main_v811 : Ref sig .tc := ⟨.hbm, 910, rfl⟩
abbrev main_v812 : Ref sig .tc := ⟨.hbm, 911, rfl⟩
abbrev main_v813 : Ref sig .tc := ⟨.hbm, 912, rfl⟩
abbrev main_v814 : Ref sig .tc := ⟨.hbm, 913, rfl⟩
abbrev main_v815 : Ref sig .tc := ⟨.hbm, 914, rfl⟩
abbrev main_v816 : Ref sig .tc := ⟨.hbm, 915, rfl⟩
abbrev main_c_90 : Ref sig .tc := ⟨.hbm, 916, rfl⟩
abbrev main_v817 : Ref sig .tc := ⟨.hbm, 917, rfl⟩
abbrev main_v818 : Ref sig .tc := ⟨.hbm, 918, rfl⟩
abbrev main_v819 : Ref sig .tc := ⟨.hbm, 919, rfl⟩
abbrev main_v820 : Ref sig .tc := ⟨.hbm, 920, rfl⟩
abbrev main_v821 : Ref sig .tc := ⟨.hbm, 921, rfl⟩
abbrev main_v822 : Ref sig .tc := ⟨.hbm, 922, rfl⟩
abbrev main_v823 : Ref sig .tc := ⟨.hbm, 923, rfl⟩
abbrev main_v824 : Ref sig .tc := ⟨.hbm, 924, rfl⟩
abbrev main_cst_91 : Ref sig .tc := ⟨.hbm, 925, rfl⟩
abbrev main_v825 : Ref sig .tc := ⟨.hbm, 926, rfl⟩
abbrev main_v826 : Ref sig .tc := ⟨.hbm, 927, rfl⟩
abbrev main_v827 : Ref sig .tc := ⟨.hbm, 928, rfl⟩
abbrev main_v828 : Ref sig .tc := ⟨.hbm, 929, rfl⟩
abbrev main_v829 : Ref sig .tc := ⟨.hbm, 930, rfl⟩
abbrev main_v830 : Ref sig .tc := ⟨.hbm, 931, rfl⟩
abbrev main_v831 : Ref sig .tc := ⟨.hbm, 932, rfl⟩
abbrev main_v832 : Ref sig .tc := ⟨.hbm, 933, rfl⟩
abbrev main_v833 : Ref sig .tc := ⟨.hbm, 934, rfl⟩
abbrev main_v834 : Ref sig .tc := ⟨.hbm, 935, rfl⟩
abbrev main_c_92 : Ref sig .tc := ⟨.hbm, 936, rfl⟩
abbrev main_v835 : Ref sig .tc := ⟨.hbm, 937, rfl⟩
abbrev main_v836 : Ref sig .tc := ⟨.hbm, 938, rfl⟩
abbrev main_v837 : Ref sig .tc := ⟨.hbm, 939, rfl⟩
abbrev main_v838 : Ref sig .tc := ⟨.hbm, 940, rfl⟩
abbrev main_v839 : Ref sig .tc := ⟨.hbm, 941, rfl⟩
abbrev main_v840 : Ref sig .tc := ⟨.hbm, 942, rfl⟩
abbrev main_v841 : Ref sig .tc := ⟨.hbm, 943, rfl⟩
abbrev main_v842 : Ref sig .tc := ⟨.hbm, 944, rfl⟩
abbrev main_cst_93 : Ref sig .tc := ⟨.hbm, 945, rfl⟩
abbrev main_v843 : Ref sig .tc := ⟨.hbm, 946, rfl⟩
abbrev main_v844 : Ref sig .tc := ⟨.hbm, 947, rfl⟩
abbrev main_v845 : Ref sig .tc := ⟨.hbm, 948, rfl⟩
abbrev main_v846 : Ref sig .tc := ⟨.hbm, 949, rfl⟩
abbrev main_v847 : Ref sig .tc := ⟨.hbm, 950, rfl⟩
abbrev main_v848 : Ref sig .tc := ⟨.hbm, 951, rfl⟩
abbrev main_v849 : Ref sig .tc := ⟨.hbm, 952, rfl⟩
abbrev main_v850 : Ref sig .tc := ⟨.hbm, 953, rfl⟩
abbrev main_v851 : Ref sig .tc := ⟨.hbm, 954, rfl⟩
abbrev main_v852 : Ref sig .tc := ⟨.hbm, 955, rfl⟩
abbrev main_c_94 : Ref sig .tc := ⟨.hbm, 956, rfl⟩
abbrev main_v853 : Ref sig .tc := ⟨.hbm, 957, rfl⟩
abbrev main_v854 : Ref sig .tc := ⟨.hbm, 958, rfl⟩
abbrev main_v855 : Ref sig .tc := ⟨.hbm, 959, rfl⟩
abbrev main_v856 : Ref sig .tc := ⟨.hbm, 960, rfl⟩
abbrev main_v857 : Ref sig .tc := ⟨.hbm, 961, rfl⟩
abbrev main_v858 : Ref sig .tc := ⟨.hbm, 962, rfl⟩
abbrev main_v859 : Ref sig .tc := ⟨.hbm, 963, rfl⟩
abbrev main_v860 : Ref sig .tc := ⟨.hbm, 964, rfl⟩
abbrev main_cst_95 : Ref sig .tc := ⟨.hbm, 965, rfl⟩
abbrev main_v861 : Ref sig .tc := ⟨.hbm, 966, rfl⟩
abbrev main_v862 : Ref sig .tc := ⟨.hbm, 967, rfl⟩
abbrev main_v863 : Ref sig .tc := ⟨.hbm, 968, rfl⟩
abbrev main_v864 : Ref sig .tc := ⟨.hbm, 969, rfl⟩
abbrev main_v865 : Ref sig .tc := ⟨.hbm, 970, rfl⟩
abbrev main_v866 : Ref sig .tc := ⟨.hbm, 971, rfl⟩
abbrev main_v867 : Ref sig .tc := ⟨.hbm, 972, rfl⟩
abbrev main_v868 : Ref sig .tc := ⟨.hbm, 973, rfl⟩
abbrev main_v869 : Ref sig .tc := ⟨.hbm, 974, rfl⟩
abbrev main_v870 : Ref sig .tc := ⟨.hbm, 975, rfl⟩
abbrev main_c_96 : Ref sig .tc := ⟨.hbm, 976, rfl⟩
abbrev main_v871 : Ref sig .tc := ⟨.hbm, 977, rfl⟩
abbrev main_v872 : Ref sig .tc := ⟨.hbm, 978, rfl⟩
abbrev main_v873 : Ref sig .tc := ⟨.hbm, 979, rfl⟩
abbrev main_v874 : Ref sig .tc := ⟨.hbm, 980, rfl⟩
abbrev main_v875 : Ref sig .tc := ⟨.hbm, 981, rfl⟩
abbrev main_v876 : Ref sig .tc := ⟨.hbm, 982, rfl⟩
abbrev main_v877 : Ref sig .tc := ⟨.hbm, 983, rfl⟩
abbrev main_v878 : Ref sig .tc := ⟨.hbm, 984, rfl⟩
abbrev main_cst_97 : Ref sig .tc := ⟨.hbm, 985, rfl⟩
abbrev main_v879 : Ref sig .tc := ⟨.hbm, 986, rfl⟩
abbrev main_v880 : Ref sig .tc := ⟨.hbm, 987, rfl⟩
abbrev main_v881 : Ref sig .tc := ⟨.hbm, 988, rfl⟩
abbrev main_v882 : Ref sig .tc := ⟨.hbm, 989, rfl⟩
abbrev main_v883 : Ref sig .tc := ⟨.hbm, 990, rfl⟩
abbrev main_v884 : Ref sig .tc := ⟨.hbm, 991, rfl⟩
abbrev main_v885 : Ref sig .tc := ⟨.hbm, 992, rfl⟩
abbrev main_v886 : Ref sig .tc := ⟨.hbm, 993, rfl⟩
abbrev main_v887 : Ref sig .tc := ⟨.hbm, 994, rfl⟩
abbrev main_v888 : Ref sig .tc := ⟨.hbm, 995, rfl⟩
abbrev main_c_98 : Ref sig .tc := ⟨.hbm, 996, rfl⟩
abbrev main_v889 : Ref sig .tc := ⟨.hbm, 997, rfl⟩
abbrev main_v890 : Ref sig .tc := ⟨.hbm, 998, rfl⟩
abbrev main_v891 : Ref sig .tc := ⟨.hbm, 999, rfl⟩
abbrev main_v892 : Ref sig .tc := ⟨.hbm, 1000, rfl⟩
abbrev main_v893 : Ref sig .tc := ⟨.hbm, 1001, rfl⟩
abbrev main_v894 : Ref sig .tc := ⟨.hbm, 1002, rfl⟩
abbrev main_v895 : Ref sig .tc := ⟨.hbm, 1003, rfl⟩
abbrev main_v896 : Ref sig .tc := ⟨.hbm, 1004, rfl⟩
abbrev main_cst_99 : Ref sig .tc := ⟨.hbm, 1005, rfl⟩
abbrev main_v897 : Ref sig .tc := ⟨.hbm, 1006, rfl⟩
abbrev main_v898 : Ref sig .tc := ⟨.hbm, 1007, rfl⟩
abbrev main_v899 : Ref sig .tc := ⟨.hbm, 1008, rfl⟩
abbrev main_v900 : Ref sig .tc := ⟨.hbm, 1009, rfl⟩
abbrev main_v901 : Ref sig .tc := ⟨.hbm, 1010, rfl⟩
abbrev main_v902 : Ref sig .tc := ⟨.hbm, 1011, rfl⟩
abbrev main_v903 : Ref sig .tc := ⟨.hbm, 1012, rfl⟩
abbrev main_v904 : Ref sig .tc := ⟨.hbm, 1013, rfl⟩
abbrev main_v905 : Ref sig .tc := ⟨.hbm, 1014, rfl⟩
abbrev main_v906 : Ref sig .tc := ⟨.hbm, 1015, rfl⟩
abbrev main_c_100 : Ref sig .tc := ⟨.hbm, 1016, rfl⟩
abbrev main_v907 : Ref sig .tc := ⟨.hbm, 1017, rfl⟩
abbrev main_v908 : Ref sig .tc := ⟨.hbm, 1018, rfl⟩
abbrev main_v909 : Ref sig .tc := ⟨.hbm, 1019, rfl⟩
abbrev main_v910 : Ref sig .tc := ⟨.hbm, 1020, rfl⟩
abbrev main_v911 : Ref sig .tc := ⟨.hbm, 1021, rfl⟩
abbrev main_v912 : Ref sig .tc := ⟨.hbm, 1022, rfl⟩
abbrev main_v913 : Ref sig .tc := ⟨.hbm, 1023, rfl⟩
abbrev main_v914 : Ref sig .tc := ⟨.hbm, 1024, rfl⟩
abbrev main_cst_101 : Ref sig .tc := ⟨.hbm, 1025, rfl⟩
abbrev main_v915 : Ref sig .tc := ⟨.hbm, 1026, rfl⟩
abbrev main_v916 : Ref sig .tc := ⟨.hbm, 1027, rfl⟩
abbrev main_v917 : Ref sig .tc := ⟨.hbm, 1028, rfl⟩
abbrev main_v918 : Ref sig .tc := ⟨.hbm, 1029, rfl⟩
abbrev main_v919 : Ref sig .tc := ⟨.hbm, 1030, rfl⟩
abbrev main_v920 : Ref sig .tc := ⟨.hbm, 1031, rfl⟩
abbrev main_v921 : Ref sig .tc := ⟨.hbm, 1032, rfl⟩
abbrev main_v922 : Ref sig .tc := ⟨.hbm, 1033, rfl⟩
abbrev main_v923 : Ref sig .tc := ⟨.hbm, 1034, rfl⟩
abbrev main_v924 : Ref sig .tc := ⟨.hbm, 1035, rfl⟩
abbrev main_c_102 : Ref sig .tc := ⟨.hbm, 1036, rfl⟩
abbrev main_v925 : Ref sig .tc := ⟨.hbm, 1037, rfl⟩
abbrev main_v926 : Ref sig .tc := ⟨.hbm, 1038, rfl⟩
abbrev main_v927 : Ref sig .tc := ⟨.hbm, 1039, rfl⟩
abbrev main_v928 : Ref sig .tc := ⟨.hbm, 1040, rfl⟩
abbrev main_v929 : Ref sig .tc := ⟨.hbm, 1041, rfl⟩
abbrev main_v930 : Ref sig .tc := ⟨.hbm, 1042, rfl⟩
abbrev main_v931 : Ref sig .tc := ⟨.hbm, 1043, rfl⟩
abbrev main_v932 : Ref sig .tc := ⟨.hbm, 1044, rfl⟩
abbrev main_cst_103 : Ref sig .tc := ⟨.hbm, 1045, rfl⟩
abbrev main_v933 : Ref sig .tc := ⟨.hbm, 1046, rfl⟩
abbrev main_v934 : Ref sig .tc := ⟨.hbm, 1047, rfl⟩
abbrev main_v935 : Ref sig .tc := ⟨.hbm, 1048, rfl⟩
abbrev main_v936 : Ref sig .tc := ⟨.hbm, 1049, rfl⟩
abbrev main_v937 : Ref sig .tc := ⟨.hbm, 1050, rfl⟩
abbrev main_v938 : Ref sig .tc := ⟨.hbm, 1051, rfl⟩
abbrev main_v939 : Ref sig .tc := ⟨.hbm, 1052, rfl⟩
abbrev main_v940 : Ref sig .tc := ⟨.hbm, 1053, rfl⟩
abbrev main_v941 : Ref sig .tc := ⟨.hbm, 1054, rfl⟩
abbrev main_v942 : Ref sig .tc := ⟨.hbm, 1055, rfl⟩
abbrev main_c_104 : Ref sig .tc := ⟨.hbm, 1056, rfl⟩
abbrev main_v943 : Ref sig .tc := ⟨.hbm, 1057, rfl⟩
abbrev main_v944 : Ref sig .tc := ⟨.hbm, 1058, rfl⟩
abbrev main_v945 : Ref sig .tc := ⟨.hbm, 1059, rfl⟩
abbrev main_v946 : Ref sig .tc := ⟨.hbm, 1060, rfl⟩
abbrev main_v947 : Ref sig .tc := ⟨.hbm, 1061, rfl⟩
abbrev main_v948 : Ref sig .tc := ⟨.hbm, 1062, rfl⟩
abbrev main_v949 : Ref sig .tc := ⟨.hbm, 1063, rfl⟩
abbrev main_v950 : Ref sig .tc := ⟨.hbm, 1064, rfl⟩
abbrev main_cst_105 : Ref sig .tc := ⟨.hbm, 1065, rfl⟩
abbrev main_v951 : Ref sig .tc := ⟨.hbm, 1066, rfl⟩
abbrev main_v952 : Ref sig .tc := ⟨.hbm, 1067, rfl⟩
abbrev main_v953 : Ref sig .tc := ⟨.hbm, 1068, rfl⟩
abbrev main_v954 : Ref sig .tc := ⟨.hbm, 1069, rfl⟩
abbrev main_v955 : Ref sig .tc := ⟨.hbm, 1070, rfl⟩
abbrev main_v956 : Ref sig .tc := ⟨.hbm, 1071, rfl⟩
abbrev main_v957 : Ref sig .tc := ⟨.hbm, 1072, rfl⟩
abbrev main_v958 : Ref sig .tc := ⟨.hbm, 1073, rfl⟩
abbrev main_v959 : Ref sig .tc := ⟨.hbm, 1074, rfl⟩
abbrev main_v960 : Ref sig .tc := ⟨.hbm, 1075, rfl⟩
abbrev main_c_106 : Ref sig .tc := ⟨.hbm, 1076, rfl⟩
abbrev main_v961 : Ref sig .tc := ⟨.hbm, 1077, rfl⟩
abbrev main_v962 : Ref sig .tc := ⟨.hbm, 1078, rfl⟩
abbrev main_v963 : Ref sig .tc := ⟨.hbm, 1079, rfl⟩
abbrev main_v964 : Ref sig .tc := ⟨.hbm, 1080, rfl⟩
abbrev main_v965 : Ref sig .tc := ⟨.hbm, 1081, rfl⟩
abbrev main_v966 : Ref sig .tc := ⟨.hbm, 1082, rfl⟩
abbrev main_v967 : Ref sig .tc := ⟨.hbm, 1083, rfl⟩
abbrev main_v968 : Ref sig .tc := ⟨.hbm, 1084, rfl⟩
abbrev main_cst_107 : Ref sig .tc := ⟨.hbm, 1085, rfl⟩
abbrev main_v969 : Ref sig .tc := ⟨.hbm, 1086, rfl⟩
abbrev main_v970 : Ref sig .tc := ⟨.hbm, 1087, rfl⟩
abbrev main_v971 : Ref sig .tc := ⟨.hbm, 1088, rfl⟩
abbrev main_v972 : Ref sig .tc := ⟨.hbm, 1089, rfl⟩
abbrev main_v973 : Ref sig .tc := ⟨.hbm, 1090, rfl⟩
abbrev main_v974 : Ref sig .tc := ⟨.hbm, 1091, rfl⟩
abbrev main_v975 : Ref sig .tc := ⟨.hbm, 1092, rfl⟩
abbrev main_v976 : Ref sig .tc := ⟨.hbm, 1093, rfl⟩
abbrev main_v977 : Ref sig .tc := ⟨.hbm, 1094, rfl⟩
abbrev main_v978 : Ref sig .tc := ⟨.hbm, 1095, rfl⟩
abbrev main_c_108 : Ref sig .tc := ⟨.hbm, 1096, rfl⟩
abbrev main_v979 : Ref sig .tc := ⟨.hbm, 1097, rfl⟩
abbrev main_v980 : Ref sig .tc := ⟨.hbm, 1098, rfl⟩
abbrev main_v981 : Ref sig .tc := ⟨.hbm, 1099, rfl⟩
abbrev main_v982 : Ref sig .tc := ⟨.hbm, 1100, rfl⟩
abbrev main_v983 : Ref sig .tc := ⟨.hbm, 1101, rfl⟩
abbrev main_v984 : Ref sig .tc := ⟨.hbm, 1102, rfl⟩
abbrev main_v985 : Ref sig .tc := ⟨.hbm, 1103, rfl⟩
abbrev main_v986 : Ref sig .tc := ⟨.hbm, 1104, rfl⟩
abbrev main_cst_109 : Ref sig .tc := ⟨.hbm, 1105, rfl⟩
abbrev main_v987 : Ref sig .tc := ⟨.hbm, 1106, rfl⟩
abbrev main_v988 : Ref sig .tc := ⟨.hbm, 1107, rfl⟩
abbrev main_v989 : Ref sig .tc := ⟨.hbm, 1108, rfl⟩
abbrev main_v990 : Ref sig .tc := ⟨.hbm, 1109, rfl⟩
abbrev main_v991 : Ref sig .tc := ⟨.hbm, 1110, rfl⟩
abbrev main_v992 : Ref sig .tc := ⟨.hbm, 1111, rfl⟩
abbrev main_v993 : Ref sig .tc := ⟨.hbm, 1112, rfl⟩
abbrev main_v994 : Ref sig .tc := ⟨.hbm, 1113, rfl⟩
abbrev main_v995 : Ref sig .tc := ⟨.hbm, 1114, rfl⟩
abbrev main_v996 : Ref sig .tc := ⟨.hbm, 1115, rfl⟩
abbrev main_c_110 : Ref sig .tc := ⟨.hbm, 1116, rfl⟩
abbrev main_v997 : Ref sig .tc := ⟨.hbm, 1117, rfl⟩
abbrev main_v998 : Ref sig .tc := ⟨.hbm, 1118, rfl⟩
abbrev main_v999 : Ref sig .tc := ⟨.hbm, 1119, rfl⟩
abbrev main_v1000 : Ref sig .tc := ⟨.hbm, 1120, rfl⟩
abbrev main_v1001 : Ref sig .tc := ⟨.hbm, 1121, rfl⟩
abbrev main_v1002 : Ref sig .tc := ⟨.hbm, 1122, rfl⟩
abbrev main_v1003 : Ref sig .tc := ⟨.hbm, 1123, rfl⟩
abbrev main_v1004 : Ref sig .tc := ⟨.hbm, 1124, rfl⟩
abbrev main_cst_111 : Ref sig .tc := ⟨.hbm, 1125, rfl⟩
abbrev main_v1005 : Ref sig .tc := ⟨.hbm, 1126, rfl⟩
abbrev main_v1006 : Ref sig .tc := ⟨.hbm, 1127, rfl⟩
abbrev main_v1007 : Ref sig .tc := ⟨.hbm, 1128, rfl⟩
abbrev main_v1008 : Ref sig .tc := ⟨.hbm, 1129, rfl⟩
abbrev main_v1009 : Ref sig .tc := ⟨.hbm, 1130, rfl⟩
abbrev main_v1010 : Ref sig .tc := ⟨.hbm, 1131, rfl⟩
abbrev main_v1011 : Ref sig .tc := ⟨.hbm, 1132, rfl⟩
abbrev main_v1012 : Ref sig .tc := ⟨.hbm, 1133, rfl⟩
abbrev main_v1013 : Ref sig .tc := ⟨.hbm, 1134, rfl⟩
abbrev main_v1014 : Ref sig .tc := ⟨.hbm, 1135, rfl⟩
abbrev main_c_112 : Ref sig .tc := ⟨.hbm, 1136, rfl⟩
abbrev main_v1015 : Ref sig .tc := ⟨.hbm, 1137, rfl⟩
abbrev main_v1016 : Ref sig .tc := ⟨.hbm, 1138, rfl⟩
abbrev main_v1017 : Ref sig .tc := ⟨.hbm, 1139, rfl⟩
abbrev main_v1018 : Ref sig .tc := ⟨.hbm, 1140, rfl⟩
abbrev main_v1019 : Ref sig .tc := ⟨.hbm, 1141, rfl⟩
abbrev main_v1020 : Ref sig .tc := ⟨.hbm, 1142, rfl⟩
abbrev main_v1021 : Ref sig .tc := ⟨.hbm, 1143, rfl⟩
abbrev main_v1022 : Ref sig .tc := ⟨.hbm, 1144, rfl⟩
abbrev main_cst_113 : Ref sig .tc := ⟨.hbm, 1145, rfl⟩
abbrev main_v1023 : Ref sig .tc := ⟨.hbm, 1146, rfl⟩
abbrev main_v1024 : Ref sig .tc := ⟨.hbm, 1147, rfl⟩
abbrev main_v1025 : Ref sig .tc := ⟨.hbm, 1148, rfl⟩
abbrev main_v1026 : Ref sig .tc := ⟨.hbm, 1149, rfl⟩
abbrev main_v1027 : Ref sig .tc := ⟨.hbm, 1150, rfl⟩
abbrev main_v1028 : Ref sig .tc := ⟨.hbm, 1151, rfl⟩
abbrev main_v1029 : Ref sig .tc := ⟨.hbm, 1152, rfl⟩
abbrev main_v1030 : Ref sig .tc := ⟨.hbm, 1153, rfl⟩
abbrev main_v1031 : Ref sig .tc := ⟨.hbm, 1154, rfl⟩
abbrev main_v1032 : Ref sig .tc := ⟨.hbm, 1155, rfl⟩
abbrev main_c_114 : Ref sig .tc := ⟨.hbm, 1156, rfl⟩
abbrev main_v1033 : Ref sig .tc := ⟨.hbm, 1157, rfl⟩
abbrev main_v1034 : Ref sig .tc := ⟨.hbm, 1158, rfl⟩
abbrev main_v1035 : Ref sig .tc := ⟨.hbm, 1159, rfl⟩
abbrev main_v1036 : Ref sig .tc := ⟨.hbm, 1160, rfl⟩
abbrev main_v1037 : Ref sig .tc := ⟨.hbm, 1161, rfl⟩
abbrev main_v1038 : Ref sig .tc := ⟨.hbm, 1162, rfl⟩
abbrev main_v1039 : Ref sig .tc := ⟨.hbm, 1163, rfl⟩
abbrev main_v1040 : Ref sig .tc := ⟨.hbm, 1164, rfl⟩
abbrev main_cst_115 : Ref sig .tc := ⟨.hbm, 1165, rfl⟩
abbrev main_v1041 : Ref sig .tc := ⟨.hbm, 1166, rfl⟩
abbrev main_v1042 : Ref sig .tc := ⟨.hbm, 1167, rfl⟩
abbrev main_v1043 : Ref sig .tc := ⟨.hbm, 1168, rfl⟩
abbrev main_v1044 : Ref sig .tc := ⟨.hbm, 1169, rfl⟩
abbrev main_v1045 : Ref sig .tc := ⟨.hbm, 1170, rfl⟩
abbrev main_v1046 : Ref sig .tc := ⟨.hbm, 1171, rfl⟩
abbrev main_v1047 : Ref sig .tc := ⟨.hbm, 1172, rfl⟩
abbrev main_v1048 : Ref sig .tc := ⟨.hbm, 1173, rfl⟩
abbrev main_v1049 : Ref sig .tc := ⟨.hbm, 1174, rfl⟩
abbrev main_v1050 : Ref sig .tc := ⟨.hbm, 1175, rfl⟩
abbrev main_c_116 : Ref sig .tc := ⟨.hbm, 1176, rfl⟩
abbrev main_v1051 : Ref sig .tc := ⟨.hbm, 1177, rfl⟩
abbrev main_v1052 : Ref sig .tc := ⟨.hbm, 1178, rfl⟩
abbrev main_v1053 : Ref sig .tc := ⟨.hbm, 1179, rfl⟩
abbrev main_v1054 : Ref sig .tc := ⟨.hbm, 1180, rfl⟩
abbrev main_v1055 : Ref sig .tc := ⟨.hbm, 1181, rfl⟩
abbrev main_v1056 : Ref sig .tc := ⟨.hbm, 1182, rfl⟩
abbrev main_v1057 : Ref sig .tc := ⟨.hbm, 1183, rfl⟩
abbrev main_v1058 : Ref sig .tc := ⟨.hbm, 1184, rfl⟩
abbrev main_cst_117 : Ref sig .tc := ⟨.hbm, 1185, rfl⟩
abbrev main_v1059 : Ref sig .tc := ⟨.hbm, 1186, rfl⟩
abbrev main_v1060 : Ref sig .tc := ⟨.hbm, 1187, rfl⟩
abbrev main_v1061 : Ref sig .tc := ⟨.hbm, 1188, rfl⟩
abbrev main_v1062 : Ref sig .tc := ⟨.hbm, 1189, rfl⟩
abbrev main_v1063 : Ref sig .tc := ⟨.hbm, 1190, rfl⟩
abbrev main_v1064 : Ref sig .tc := ⟨.hbm, 1191, rfl⟩
abbrev main_v1065 : Ref sig .tc := ⟨.hbm, 1192, rfl⟩
abbrev main_v1066 : Ref sig .tc := ⟨.hbm, 1193, rfl⟩
abbrev main_v1067 : Ref sig .tc := ⟨.hbm, 1194, rfl⟩
abbrev main_v1068 : Ref sig .tc := ⟨.hbm, 1195, rfl⟩
abbrev main_c_118 : Ref sig .tc := ⟨.hbm, 1196, rfl⟩
abbrev main_v1069 : Ref sig .tc := ⟨.hbm, 1197, rfl⟩
abbrev main_v1070 : Ref sig .tc := ⟨.hbm, 1198, rfl⟩
abbrev main_v1071 : Ref sig .tc := ⟨.hbm, 1199, rfl⟩
abbrev main_v1072 : Ref sig .tc := ⟨.hbm, 1200, rfl⟩
abbrev main_v1073 : Ref sig .tc := ⟨.hbm, 1201, rfl⟩
abbrev main_v1074 : Ref sig .tc := ⟨.hbm, 1202, rfl⟩
abbrev main_v1075 : Ref sig .tc := ⟨.hbm, 1203, rfl⟩
abbrev main_v1076 : Ref sig .tc := ⟨.hbm, 1204, rfl⟩
abbrev main_cst_119 : Ref sig .tc := ⟨.hbm, 1205, rfl⟩
abbrev main_v1077 : Ref sig .tc := ⟨.hbm, 1206, rfl⟩
abbrev main_v1078 : Ref sig .tc := ⟨.hbm, 1207, rfl⟩
abbrev main_v1079 : Ref sig .tc := ⟨.hbm, 1208, rfl⟩
abbrev main_v1080 : Ref sig .tc := ⟨.hbm, 1209, rfl⟩
abbrev main_v1081 : Ref sig .tc := ⟨.hbm, 1210, rfl⟩
abbrev main_v1082 : Ref sig .tc := ⟨.hbm, 1211, rfl⟩
abbrev main_v1083 : Ref sig .tc := ⟨.hbm, 1212, rfl⟩
abbrev main_v1084 : Ref sig .tc := ⟨.hbm, 1213, rfl⟩
abbrev main_v1085 : Ref sig .tc := ⟨.hbm, 1214, rfl⟩
abbrev main_v1086 : Ref sig .tc := ⟨.hbm, 1215, rfl⟩
abbrev main_c_120 : Ref sig .tc := ⟨.hbm, 1216, rfl⟩
abbrev main_v1087 : Ref sig .tc := ⟨.hbm, 1217, rfl⟩
abbrev main_v1088 : Ref sig .tc := ⟨.hbm, 1218, rfl⟩
abbrev main_v1089 : Ref sig .tc := ⟨.hbm, 1219, rfl⟩
abbrev main_v1090 : Ref sig .tc := ⟨.hbm, 1220, rfl⟩
abbrev main_v1091 : Ref sig .tc := ⟨.hbm, 1221, rfl⟩
abbrev main_v1092 : Ref sig .tc := ⟨.hbm, 1222, rfl⟩
abbrev main_v1093 : Ref sig .tc := ⟨.hbm, 1223, rfl⟩
abbrev main_v1094 : Ref sig .tc := ⟨.hbm, 1224, rfl⟩
abbrev main_cst_121 : Ref sig .tc := ⟨.hbm, 1225, rfl⟩
abbrev main_v1095 : Ref sig .tc := ⟨.hbm, 1226, rfl⟩
abbrev main_v1096 : Ref sig .tc := ⟨.hbm, 1227, rfl⟩
abbrev main_v1097 : Ref sig .tc := ⟨.hbm, 1228, rfl⟩
abbrev main_v1098 : Ref sig .tc := ⟨.hbm, 1229, rfl⟩
abbrev main_v1099 : Ref sig .tc := ⟨.hbm, 1230, rfl⟩
abbrev main_v1100 : Ref sig .tc := ⟨.hbm, 1231, rfl⟩
abbrev main_v1101 : Ref sig .tc := ⟨.hbm, 1232, rfl⟩
abbrev main_v1102 : Ref sig .tc := ⟨.hbm, 1233, rfl⟩
abbrev main_v1103 : Ref sig .tc := ⟨.hbm, 1234, rfl⟩
abbrev main_v1104 : Ref sig .tc := ⟨.hbm, 1235, rfl⟩
abbrev main_c_122 : Ref sig .tc := ⟨.hbm, 1236, rfl⟩
abbrev main_v1105 : Ref sig .tc := ⟨.hbm, 1237, rfl⟩
abbrev main_v1106 : Ref sig .tc := ⟨.hbm, 1238, rfl⟩
abbrev main_v1107 : Ref sig .tc := ⟨.hbm, 1239, rfl⟩
abbrev main_v1108 : Ref sig .tc := ⟨.hbm, 1240, rfl⟩
abbrev main_v1109 : Ref sig .tc := ⟨.hbm, 1241, rfl⟩
abbrev main_v1110 : Ref sig .tc := ⟨.hbm, 1242, rfl⟩
abbrev main_v1111 : Ref sig .tc := ⟨.hbm, 1243, rfl⟩
abbrev main_v1112 : Ref sig .tc := ⟨.hbm, 1244, rfl⟩
abbrev main_cst_123 : Ref sig .tc := ⟨.hbm, 1245, rfl⟩
abbrev main_v1113 : Ref sig .tc := ⟨.hbm, 1246, rfl⟩
abbrev main_v1114 : Ref sig .tc := ⟨.hbm, 1247, rfl⟩
abbrev main_v1115 : Ref sig .tc := ⟨.hbm, 1248, rfl⟩
abbrev main_v1116 : Ref sig .tc := ⟨.hbm, 1249, rfl⟩
abbrev main_v1117 : Ref sig .tc := ⟨.hbm, 1250, rfl⟩
abbrev main_v1118 : Ref sig .tc := ⟨.hbm, 1251, rfl⟩
abbrev main_v1119 : Ref sig .tc := ⟨.hbm, 1252, rfl⟩
abbrev main_v1120 : Ref sig .tc := ⟨.hbm, 1253, rfl⟩
abbrev main_v1121 : Ref sig .tc := ⟨.hbm, 1254, rfl⟩
abbrev main_v1122 : Ref sig .tc := ⟨.hbm, 1255, rfl⟩
abbrev main_c_124 : Ref sig .tc := ⟨.hbm, 1256, rfl⟩
abbrev main_v1123 : Ref sig .tc := ⟨.hbm, 1257, rfl⟩
abbrev main_v1124 : Ref sig .tc := ⟨.hbm, 1258, rfl⟩
abbrev main_v1125 : Ref sig .tc := ⟨.hbm, 1259, rfl⟩
abbrev main_v1126 : Ref sig .tc := ⟨.hbm, 1260, rfl⟩
abbrev main_v1127 : Ref sig .tc := ⟨.hbm, 1261, rfl⟩
abbrev main_v1128 : Ref sig .tc := ⟨.hbm, 1262, rfl⟩
abbrev main_v1129 : Ref sig .tc := ⟨.hbm, 1263, rfl⟩
abbrev main_v1130 : Ref sig .tc := ⟨.hbm, 1264, rfl⟩
abbrev main_cst_125 : Ref sig .tc := ⟨.hbm, 1265, rfl⟩
abbrev main_v1131 : Ref sig .tc := ⟨.hbm, 1266, rfl⟩
abbrev main_v1132 : Ref sig .tc := ⟨.hbm, 1267, rfl⟩
abbrev main_v1133 : Ref sig .tc := ⟨.hbm, 1268, rfl⟩
abbrev main_v1134 : Ref sig .tc := ⟨.hbm, 1269, rfl⟩
abbrev main_v1135 : Ref sig .tc := ⟨.hbm, 1270, rfl⟩
abbrev main_v1136 : Ref sig .tc := ⟨.hbm, 1271, rfl⟩
abbrev main_v1137 : Ref sig .tc := ⟨.hbm, 1272, rfl⟩
abbrev main_v1138 : Ref sig .tc := ⟨.hbm, 1273, rfl⟩
abbrev main_v1139 : Ref sig .tc := ⟨.hbm, 1274, rfl⟩
abbrev main_v1140 : Ref sig .tc := ⟨.hbm, 1275, rfl⟩
abbrev main_c_126 : Ref sig .tc := ⟨.hbm, 1276, rfl⟩
abbrev main_v1141 : Ref sig .tc := ⟨.hbm, 1277, rfl⟩
abbrev main_v1142 : Ref sig .tc := ⟨.hbm, 1278, rfl⟩
abbrev main_v1143 : Ref sig .tc := ⟨.hbm, 1279, rfl⟩
abbrev main_v1144 : Ref sig .tc := ⟨.hbm, 1280, rfl⟩
abbrev main_v1145 : Ref sig .tc := ⟨.hbm, 1281, rfl⟩
abbrev main_v1146 : Ref sig .tc := ⟨.hbm, 1282, rfl⟩
abbrev main_v1147 : Ref sig .tc := ⟨.hbm, 1283, rfl⟩
abbrev main_v1148 : Ref sig .tc := ⟨.hbm, 1284, rfl⟩
abbrev main_cst_127 : Ref sig .tc := ⟨.hbm, 1285, rfl⟩
abbrev main_v1149 : Ref sig .tc := ⟨.hbm, 1286, rfl⟩
abbrev main_v1150 : Ref sig .tc := ⟨.hbm, 1287, rfl⟩
abbrev main_v1151 : Ref sig .tc := ⟨.hbm, 1288, rfl⟩
abbrev main_v1152 : Ref sig .tc := ⟨.hbm, 1289, rfl⟩
abbrev main_v1153 : Ref sig .tc := ⟨.hbm, 1290, rfl⟩
abbrev main_v1154 : Ref sig .tc := ⟨.hbm, 1291, rfl⟩
abbrev main_v1155 : Ref sig .tc := ⟨.hbm, 1292, rfl⟩
abbrev main_v1156 : Ref sig .tc := ⟨.hbm, 1293, rfl⟩
abbrev main_v1157 : Ref sig .tc := ⟨.hbm, 1294, rfl⟩
abbrev main_v1158 : Ref sig .tc := ⟨.hbm, 1295, rfl⟩
abbrev main_c_128 : Ref sig .tc := ⟨.hbm, 1296, rfl⟩
abbrev main_v1159 : Ref sig .tc := ⟨.hbm, 1297, rfl⟩
abbrev main_v1160 : Ref sig .tc := ⟨.hbm, 1298, rfl⟩
abbrev main_v1161 : Ref sig .tc := ⟨.hbm, 1299, rfl⟩
abbrev main_v1162 : Ref sig .tc := ⟨.hbm, 1300, rfl⟩
abbrev main_v1163 : Ref sig .tc := ⟨.hbm, 1301, rfl⟩
abbrev main_v1164 : Ref sig .tc := ⟨.hbm, 1302, rfl⟩
abbrev main_v1165 : Ref sig .tc := ⟨.hbm, 1303, rfl⟩
abbrev main_v1166 : Ref sig .tc := ⟨.hbm, 1304, rfl⟩
abbrev main_cst_129 : Ref sig .tc := ⟨.hbm, 1305, rfl⟩
abbrev main_v1167 : Ref sig .tc := ⟨.hbm, 1306, rfl⟩
abbrev main_v1168 : Ref sig .tc := ⟨.hbm, 1307, rfl⟩
abbrev main_v1169 : Ref sig .tc := ⟨.hbm, 1308, rfl⟩
abbrev main_v1170 : Ref sig .tc := ⟨.hbm, 1309, rfl⟩
abbrev main_v1171 : Ref sig .tc := ⟨.hbm, 1310, rfl⟩
abbrev main_v1172 : Ref sig .tc := ⟨.hbm, 1311, rfl⟩
abbrev main_v1173 : Ref sig .tc := ⟨.hbm, 1312, rfl⟩
abbrev main_v1174 : Ref sig .tc := ⟨.hbm, 1313, rfl⟩
abbrev main_v1175 : Ref sig .tc := ⟨.hbm, 1314, rfl⟩
abbrev main_v1176 : Ref sig .tc := ⟨.hbm, 1315, rfl⟩
abbrev main_c_130 : Ref sig .tc := ⟨.hbm, 1316, rfl⟩
abbrev main_v1177 : Ref sig .tc := ⟨.hbm, 1317, rfl⟩
abbrev main_v1178 : Ref sig .tc := ⟨.hbm, 1318, rfl⟩
abbrev main_v1179 : Ref sig .tc := ⟨.hbm, 1319, rfl⟩
abbrev main_v1180 : Ref sig .tc := ⟨.hbm, 1320, rfl⟩
abbrev main_v1181 : Ref sig .tc := ⟨.hbm, 1321, rfl⟩
abbrev main_v1182 : Ref sig .tc := ⟨.hbm, 1322, rfl⟩
abbrev main_v1183 : Ref sig .tc := ⟨.hbm, 1323, rfl⟩
abbrev main_v1184 : Ref sig .tc := ⟨.hbm, 1324, rfl⟩
abbrev main_cst_131 : Ref sig .tc := ⟨.hbm, 1325, rfl⟩
abbrev main_v1185 : Ref sig .tc := ⟨.hbm, 1326, rfl⟩
abbrev main_v1186 : Ref sig .tc := ⟨.hbm, 1327, rfl⟩
abbrev main_v1187 : Ref sig .tc := ⟨.hbm, 1328, rfl⟩
abbrev main_v1188 : Ref sig .tc := ⟨.hbm, 1329, rfl⟩
abbrev main_v1189 : Ref sig .tc := ⟨.hbm, 1330, rfl⟩
abbrev main_v1190 : Ref sig .tc := ⟨.hbm, 1331, rfl⟩
abbrev main_v1191 : Ref sig .tc := ⟨.hbm, 1332, rfl⟩
abbrev main_v1192 : Ref sig .tc := ⟨.hbm, 1333, rfl⟩
abbrev main_v1193 : Ref sig .tc := ⟨.hbm, 1334, rfl⟩
abbrev main_v1194 : Ref sig .tc := ⟨.hbm, 1335, rfl⟩
abbrev main_c_132 : Ref sig .tc := ⟨.hbm, 1336, rfl⟩
abbrev main_v1195 : Ref sig .tc := ⟨.hbm, 1337, rfl⟩
abbrev main_v1196 : Ref sig .tc := ⟨.hbm, 1338, rfl⟩
abbrev main_v1197 : Ref sig .tc := ⟨.hbm, 1339, rfl⟩
abbrev main_v1198 : Ref sig .tc := ⟨.hbm, 1340, rfl⟩
abbrev main_v1199 : Ref sig .tc := ⟨.hbm, 1341, rfl⟩
abbrev main_v1200 : Ref sig .tc := ⟨.hbm, 1342, rfl⟩
abbrev main_v1201 : Ref sig .tc := ⟨.hbm, 1343, rfl⟩
abbrev main_v1202 : Ref sig .tc := ⟨.hbm, 1344, rfl⟩
abbrev main_cst_133 : Ref sig .tc := ⟨.hbm, 1345, rfl⟩
abbrev main_v1203 : Ref sig .tc := ⟨.hbm, 1346, rfl⟩
abbrev main_v1204 : Ref sig .tc := ⟨.hbm, 1347, rfl⟩
abbrev main_v1205 : Ref sig .tc := ⟨.hbm, 1348, rfl⟩
abbrev main_v1206 : Ref sig .tc := ⟨.hbm, 1349, rfl⟩
abbrev main_v1207 : Ref sig .tc := ⟨.hbm, 1350, rfl⟩
abbrev main_v1208 : Ref sig .tc := ⟨.hbm, 1351, rfl⟩
abbrev main_v1209 : Ref sig .tc := ⟨.hbm, 1352, rfl⟩
abbrev main_v1210 : Ref sig .tc := ⟨.hbm, 1353, rfl⟩
abbrev main_v1211 : Ref sig .tc := ⟨.hbm, 1354, rfl⟩
abbrev main_v1212 : Ref sig .tc := ⟨.hbm, 1355, rfl⟩
abbrev main_c_134 : Ref sig .tc := ⟨.hbm, 1356, rfl⟩
abbrev main_v1213 : Ref sig .tc := ⟨.hbm, 1357, rfl⟩
abbrev main_v1214 : Ref sig .tc := ⟨.hbm, 1358, rfl⟩
abbrev main_v1215 : Ref sig .tc := ⟨.hbm, 1359, rfl⟩
abbrev main_v1216 : Ref sig .tc := ⟨.hbm, 1360, rfl⟩
abbrev main_v1217 : Ref sig .tc := ⟨.hbm, 1361, rfl⟩
abbrev main_v1218 : Ref sig .tc := ⟨.hbm, 1362, rfl⟩
abbrev main_v1219 : Ref sig .tc := ⟨.hbm, 1363, rfl⟩
abbrev main_v1220 : Ref sig .tc := ⟨.hbm, 1364, rfl⟩
abbrev main_cst_135 : Ref sig .tc := ⟨.hbm, 1365, rfl⟩
abbrev main_v1221 : Ref sig .tc := ⟨.hbm, 1366, rfl⟩
abbrev main_v1222 : Ref sig .tc := ⟨.hbm, 1367, rfl⟩
abbrev main_v1223 : Ref sig .tc := ⟨.hbm, 1368, rfl⟩
abbrev main_v1224 : Ref sig .tc := ⟨.hbm, 1369, rfl⟩
abbrev main_v1225 : Ref sig .tc := ⟨.hbm, 1370, rfl⟩
abbrev main_v1226 : Ref sig .tc := ⟨.hbm, 1371, rfl⟩
abbrev main_v1227 : Ref sig .tc := ⟨.hbm, 1372, rfl⟩
abbrev main_v1228 : Ref sig .tc := ⟨.hbm, 1373, rfl⟩
abbrev main_v1229 : Ref sig .tc := ⟨.hbm, 1374, rfl⟩
abbrev main_v1230 : Ref sig .tc := ⟨.hbm, 1375, rfl⟩
abbrev main_c_136 : Ref sig .tc := ⟨.hbm, 1376, rfl⟩
abbrev main_v1231 : Ref sig .tc := ⟨.hbm, 1377, rfl⟩
abbrev main_v1232 : Ref sig .tc := ⟨.hbm, 1378, rfl⟩
abbrev main_v1233 : Ref sig .tc := ⟨.hbm, 1379, rfl⟩
abbrev main_v1234 : Ref sig .tc := ⟨.hbm, 1380, rfl⟩
abbrev main_v1235 : Ref sig .tc := ⟨.hbm, 1381, rfl⟩
abbrev main_v1236 : Ref sig .tc := ⟨.hbm, 1382, rfl⟩
abbrev main_v1237 : Ref sig .tc := ⟨.hbm, 1383, rfl⟩
abbrev main_v1238 : Ref sig .tc := ⟨.hbm, 1384, rfl⟩
abbrev main_cst_137 : Ref sig .tc := ⟨.hbm, 1385, rfl⟩
abbrev main_v1239 : Ref sig .tc := ⟨.hbm, 1386, rfl⟩
abbrev main_v1240 : Ref sig .tc := ⟨.hbm, 1387, rfl⟩
abbrev main_v1241 : Ref sig .tc := ⟨.hbm, 1388, rfl⟩
abbrev main_v1242 : Ref sig .tc := ⟨.hbm, 1389, rfl⟩
abbrev main_v1243 : Ref sig .tc := ⟨.hbm, 1390, rfl⟩
abbrev main_v1244 : Ref sig .tc := ⟨.hbm, 1391, rfl⟩
abbrev main_v1245 : Ref sig .tc := ⟨.hbm, 1392, rfl⟩
abbrev main_v1246 : Ref sig .tc := ⟨.hbm, 1393, rfl⟩
abbrev main_v1247 : Ref sig .tc := ⟨.hbm, 1394, rfl⟩
abbrev main_v1248 : Ref sig .tc := ⟨.hbm, 1395, rfl⟩
abbrev main_c_138 : Ref sig .tc := ⟨.hbm, 1396, rfl⟩
abbrev main_v1249 : Ref sig .tc := ⟨.hbm, 1397, rfl⟩
abbrev main_v1250 : Ref sig .tc := ⟨.hbm, 1398, rfl⟩
abbrev main_v1251 : Ref sig .tc := ⟨.hbm, 1399, rfl⟩
abbrev main_v1252 : Ref sig .tc := ⟨.hbm, 1400, rfl⟩
abbrev main_v1253 : Ref sig .tc := ⟨.hbm, 1401, rfl⟩
abbrev main_v1254 : Ref sig .tc := ⟨.hbm, 1402, rfl⟩
abbrev main_v1255 : Ref sig .tc := ⟨.hbm, 1403, rfl⟩
abbrev main_v1256 : Ref sig .tc := ⟨.hbm, 1404, rfl⟩
abbrev main_cst_139 : Ref sig .tc := ⟨.hbm, 1405, rfl⟩
abbrev main_v1257 : Ref sig .tc := ⟨.hbm, 1406, rfl⟩
abbrev main_v1258 : Ref sig .tc := ⟨.hbm, 1407, rfl⟩
abbrev main_v1259 : Ref sig .tc := ⟨.hbm, 1408, rfl⟩
abbrev main_v1260 : Ref sig .tc := ⟨.hbm, 1409, rfl⟩
abbrev main_v1261 : Ref sig .tc := ⟨.hbm, 1410, rfl⟩
abbrev main_v1262 : Ref sig .tc := ⟨.hbm, 1411, rfl⟩
abbrev main_v1263 : Ref sig .tc := ⟨.hbm, 1412, rfl⟩
abbrev main_v1264 : Ref sig .tc := ⟨.hbm, 1413, rfl⟩
abbrev main_v1265 : Ref sig .tc := ⟨.hbm, 1414, rfl⟩
abbrev main_v1266 : Ref sig .tc := ⟨.hbm, 1415, rfl⟩
abbrev main_c_140 : Ref sig .tc := ⟨.hbm, 1416, rfl⟩
abbrev main_v1267 : Ref sig .tc := ⟨.hbm, 1417, rfl⟩
abbrev main_v1268 : Ref sig .tc := ⟨.hbm, 1418, rfl⟩
abbrev main_v1269 : Ref sig .tc := ⟨.hbm, 1419, rfl⟩
abbrev main_v1270 : Ref sig .tc := ⟨.hbm, 1420, rfl⟩
abbrev main_v1271 : Ref sig .tc := ⟨.hbm, 1421, rfl⟩
abbrev main_v1272 : Ref sig .tc := ⟨.hbm, 1422, rfl⟩
abbrev main_v1273 : Ref sig .tc := ⟨.hbm, 1423, rfl⟩
abbrev main_v1274 : Ref sig .tc := ⟨.hbm, 1424, rfl⟩
abbrev main_cst_141 : Ref sig .tc := ⟨.hbm, 1425, rfl⟩
abbrev main_v1275 : Ref sig .tc := ⟨.hbm, 1426, rfl⟩
abbrev main_v1276 : Ref sig .tc := ⟨.hbm, 1427, rfl⟩
abbrev main_v1277 : Ref sig .tc := ⟨.hbm, 1428, rfl⟩
abbrev main_v1278 : Ref sig .tc := ⟨.hbm, 1429, rfl⟩
abbrev main_v1279 : Ref sig .tc := ⟨.hbm, 1430, rfl⟩
abbrev main_v1280 : Ref sig .tc := ⟨.hbm, 1431, rfl⟩
abbrev main_v1281 : Ref sig .tc := ⟨.hbm, 1432, rfl⟩
abbrev main_v1282 : Ref sig .tc := ⟨.hbm, 1433, rfl⟩
abbrev main_v1283 : Ref sig .tc := ⟨.hbm, 1434, rfl⟩
abbrev main_v1284 : Ref sig .tc := ⟨.hbm, 1435, rfl⟩
abbrev main_c_142 : Ref sig .tc := ⟨.hbm, 1436, rfl⟩
abbrev main_v1285 : Ref sig .tc := ⟨.hbm, 1437, rfl⟩
abbrev main_v1286 : Ref sig .tc := ⟨.hbm, 1438, rfl⟩
abbrev main_v1287 : Ref sig .tc := ⟨.hbm, 1439, rfl⟩
abbrev main_v1288 : Ref sig .tc := ⟨.hbm, 1440, rfl⟩
abbrev main_v1289 : Ref sig .tc := ⟨.hbm, 1441, rfl⟩
abbrev main_v1290 : Ref sig .tc := ⟨.hbm, 1442, rfl⟩
abbrev main_v1291 : Ref sig .tc := ⟨.hbm, 1443, rfl⟩
abbrev main_v1292 : Ref sig .tc := ⟨.hbm, 1444, rfl⟩
abbrev main_cst_143 : Ref sig .tc := ⟨.hbm, 1445, rfl⟩
abbrev main_v1293 : Ref sig .tc := ⟨.hbm, 1446, rfl⟩
abbrev main_v1294 : Ref sig .tc := ⟨.hbm, 1447, rfl⟩
abbrev main_v1295 : Ref sig .tc := ⟨.hbm, 1448, rfl⟩
abbrev main_v1296 : Ref sig .tc := ⟨.hbm, 1449, rfl⟩
abbrev main_v1297 : Ref sig .tc := ⟨.hbm, 1450, rfl⟩
abbrev main_v1298 : Ref sig .tc := ⟨.hbm, 1451, rfl⟩
abbrev main_v1299 : Ref sig .tc := ⟨.hbm, 1452, rfl⟩
abbrev main_v1300 : Ref sig .tc := ⟨.hbm, 1453, rfl⟩
abbrev main_v1301 : Ref sig .tc := ⟨.hbm, 1454, rfl⟩
abbrev main_v1302 : Ref sig .tc := ⟨.hbm, 1455, rfl⟩
abbrev main_c_144 : Ref sig .tc := ⟨.hbm, 1456, rfl⟩
abbrev main_v1303 : Ref sig .tc := ⟨.hbm, 1457, rfl⟩
abbrev main_v1304 : Ref sig .tc := ⟨.hbm, 1458, rfl⟩
abbrev main_v1305 : Ref sig .tc := ⟨.hbm, 1459, rfl⟩
abbrev main_v1306 : Ref sig .tc := ⟨.hbm, 1460, rfl⟩
abbrev main_v1307 : Ref sig .tc := ⟨.hbm, 1461, rfl⟩
abbrev main_v1308 : Ref sig .tc := ⟨.hbm, 1462, rfl⟩
abbrev main_v1309 : Ref sig .tc := ⟨.hbm, 1463, rfl⟩
abbrev main_v1310 : Ref sig .tc := ⟨.hbm, 1464, rfl⟩
abbrev main_cst_145 : Ref sig .tc := ⟨.hbm, 1465, rfl⟩
abbrev main_v1311 : Ref sig .tc := ⟨.hbm, 1466, rfl⟩
abbrev main_v1312 : Ref sig .tc := ⟨.hbm, 1467, rfl⟩
abbrev main_v1313 : Ref sig .tc := ⟨.hbm, 1468, rfl⟩
abbrev main_v1314 : Ref sig .tc := ⟨.hbm, 1469, rfl⟩
abbrev main_v1315 : Ref sig .tc := ⟨.hbm, 1470, rfl⟩
abbrev main_v1316 : Ref sig .tc := ⟨.hbm, 1471, rfl⟩
abbrev main_v1317 : Ref sig .tc := ⟨.hbm, 1472, rfl⟩
abbrev main_v1318 : Ref sig .tc := ⟨.hbm, 1473, rfl⟩
abbrev main_v1319 : Ref sig .tc := ⟨.hbm, 1474, rfl⟩
abbrev main_v1320 : Ref sig .tc := ⟨.hbm, 1475, rfl⟩
abbrev main_c_146 : Ref sig .tc := ⟨.hbm, 1476, rfl⟩
abbrev main_v1321 : Ref sig .tc := ⟨.hbm, 1477, rfl⟩
abbrev main_v1322 : Ref sig .tc := ⟨.hbm, 1478, rfl⟩
abbrev main_v1323 : Ref sig .tc := ⟨.hbm, 1479, rfl⟩
abbrev main_v1324 : Ref sig .tc := ⟨.hbm, 1480, rfl⟩
abbrev main_v1325 : Ref sig .tc := ⟨.hbm, 1481, rfl⟩
abbrev main_v1326 : Ref sig .tc := ⟨.hbm, 1482, rfl⟩
abbrev main_v1327 : Ref sig .tc := ⟨.hbm, 1483, rfl⟩
abbrev main_v1328 : Ref sig .tc := ⟨.hbm, 1484, rfl⟩
abbrev main_cst_147 : Ref sig .tc := ⟨.hbm, 1485, rfl⟩
abbrev main_v1329 : Ref sig .tc := ⟨.hbm, 1486, rfl⟩
abbrev main_v1330 : Ref sig .tc := ⟨.hbm, 1487, rfl⟩
abbrev main_v1331 : Ref sig .tc := ⟨.hbm, 1488, rfl⟩
abbrev main_v1332 : Ref sig .tc := ⟨.hbm, 1489, rfl⟩
abbrev main_v1333 : Ref sig .tc := ⟨.hbm, 1490, rfl⟩
abbrev main_v1334 : Ref sig .tc := ⟨.hbm, 1491, rfl⟩
abbrev main_v1335 : Ref sig .tc := ⟨.hbm, 1492, rfl⟩
abbrev main_v1336 : Ref sig .tc := ⟨.hbm, 1493, rfl⟩
abbrev main_v1337 : Ref sig .tc := ⟨.hbm, 1494, rfl⟩
abbrev main_v1338 : Ref sig .tc := ⟨.hbm, 1495, rfl⟩
abbrev main_c_148 : Ref sig .tc := ⟨.hbm, 1496, rfl⟩
abbrev main_v1339 : Ref sig .tc := ⟨.hbm, 1497, rfl⟩
abbrev main_v1340 : Ref sig .tc := ⟨.hbm, 1498, rfl⟩
abbrev main_v1341 : Ref sig .tc := ⟨.hbm, 1499, rfl⟩
abbrev main_v1342 : Ref sig .tc := ⟨.hbm, 1500, rfl⟩
abbrev main_v1343 : Ref sig .tc := ⟨.hbm, 1501, rfl⟩
abbrev main_v1344 : Ref sig .tc := ⟨.hbm, 1502, rfl⟩
abbrev main_v1345 : Ref sig .tc := ⟨.hbm, 1503, rfl⟩
abbrev main_v1346 : Ref sig .tc := ⟨.hbm, 1504, rfl⟩
abbrev main_cst_149 : Ref sig .tc := ⟨.hbm, 1505, rfl⟩
abbrev main_v1347 : Ref sig .tc := ⟨.hbm, 1506, rfl⟩
abbrev main_v1348 : Ref sig .tc := ⟨.hbm, 1507, rfl⟩
abbrev main_v1349 : Ref sig .tc := ⟨.hbm, 1508, rfl⟩
abbrev main_v1350 : Ref sig .tc := ⟨.hbm, 1509, rfl⟩
abbrev main_v1351 : Ref sig .tc := ⟨.hbm, 1510, rfl⟩
abbrev main_v1352 : Ref sig .tc := ⟨.hbm, 1511, rfl⟩
abbrev main_v1353 : Ref sig .tc := ⟨.hbm, 1512, rfl⟩
abbrev main_v1354 : Ref sig .tc := ⟨.hbm, 1513, rfl⟩
abbrev main_v1355 : Ref sig .tc := ⟨.hbm, 1514, rfl⟩
abbrev main_v1356 : Ref sig .tc := ⟨.hbm, 1515, rfl⟩
abbrev main_c_150 : Ref sig .tc := ⟨.hbm, 1516, rfl⟩
abbrev main_v1357 : Ref sig .tc := ⟨.hbm, 1517, rfl⟩
abbrev main_v1358 : Ref sig .tc := ⟨.hbm, 1518, rfl⟩
abbrev main_v1359 : Ref sig .tc := ⟨.hbm, 1519, rfl⟩
abbrev main_v1360 : Ref sig .tc := ⟨.hbm, 1520, rfl⟩
abbrev main_v1361 : Ref sig .tc := ⟨.hbm, 1521, rfl⟩
abbrev main_v1362 : Ref sig .tc := ⟨.hbm, 1522, rfl⟩
abbrev main_v1363 : Ref sig .tc := ⟨.hbm, 1523, rfl⟩
abbrev main_v1364 : Ref sig .tc := ⟨.hbm, 1524, rfl⟩
abbrev main_cst_151 : Ref sig .tc := ⟨.hbm, 1525, rfl⟩
abbrev main_v1365 : Ref sig .tc := ⟨.hbm, 1526, rfl⟩
abbrev main_v1366 : Ref sig .tc := ⟨.hbm, 1527, rfl⟩
abbrev main_v1367 : Ref sig .tc := ⟨.hbm, 1528, rfl⟩
abbrev main_v1368 : Ref sig .tc := ⟨.hbm, 1529, rfl⟩
abbrev main_v1369 : Ref sig .tc := ⟨.hbm, 1530, rfl⟩
abbrev main_v1370 : Ref sig .tc := ⟨.hbm, 1531, rfl⟩
abbrev main_v1371 : Ref sig .tc := ⟨.hbm, 1532, rfl⟩
abbrev main_v1372 : Ref sig .tc := ⟨.hbm, 1533, rfl⟩
abbrev main_v1373 : Ref sig .tc := ⟨.hbm, 1534, rfl⟩
abbrev main_v1374 : Ref sig .tc := ⟨.hbm, 1535, rfl⟩
abbrev main_c_152 : Ref sig .tc := ⟨.hbm, 1536, rfl⟩
abbrev main_v1375 : Ref sig .tc := ⟨.hbm, 1537, rfl⟩
abbrev main_v1376 : Ref sig .tc := ⟨.hbm, 1538, rfl⟩
abbrev main_v1377 : Ref sig .tc := ⟨.hbm, 1539, rfl⟩
abbrev main_v1378 : Ref sig .tc := ⟨.hbm, 1540, rfl⟩
abbrev main_v1379 : Ref sig .tc := ⟨.hbm, 1541, rfl⟩
abbrev main_v1380 : Ref sig .tc := ⟨.hbm, 1542, rfl⟩
abbrev main_v1381 : Ref sig .tc := ⟨.hbm, 1543, rfl⟩
abbrev main_v1382 : Ref sig .tc := ⟨.hbm, 1544, rfl⟩
abbrev main_cst_153 : Ref sig .tc := ⟨.hbm, 1545, rfl⟩
abbrev main_v1383 : Ref sig .tc := ⟨.hbm, 1546, rfl⟩
abbrev main_v1384 : Ref sig .tc := ⟨.hbm, 1547, rfl⟩
abbrev main_v1385 : Ref sig .tc := ⟨.hbm, 1548, rfl⟩
abbrev main_v1386 : Ref sig .tc := ⟨.hbm, 1549, rfl⟩
abbrev main_v1387 : Ref sig .tc := ⟨.hbm, 1550, rfl⟩
abbrev main_v1388 : Ref sig .tc := ⟨.hbm, 1551, rfl⟩
abbrev main_v1389 : Ref sig .tc := ⟨.hbm, 1552, rfl⟩
abbrev main_v1390 : Ref sig .tc := ⟨.hbm, 1553, rfl⟩
abbrev main_v1391 : Ref sig .tc := ⟨.hbm, 1554, rfl⟩
abbrev main_v1392 : Ref sig .tc := ⟨.hbm, 1555, rfl⟩
abbrev main_c_154 : Ref sig .tc := ⟨.hbm, 1556, rfl⟩
abbrev main_v1393 : Ref sig .tc := ⟨.hbm, 1557, rfl⟩
abbrev main_v1394 : Ref sig .tc := ⟨.hbm, 1558, rfl⟩
abbrev main_v1395 : Ref sig .tc := ⟨.hbm, 1559, rfl⟩
abbrev main_v1396 : Ref sig .tc := ⟨.hbm, 1560, rfl⟩
abbrev main_v1397 : Ref sig .tc := ⟨.hbm, 1561, rfl⟩
abbrev main_v1398 : Ref sig .tc := ⟨.hbm, 1562, rfl⟩
abbrev main_v1399 : Ref sig .tc := ⟨.hbm, 1563, rfl⟩
abbrev main_v1400 : Ref sig .tc := ⟨.hbm, 1564, rfl⟩
abbrev main_cst_155 : Ref sig .tc := ⟨.hbm, 1565, rfl⟩
abbrev main_v1401 : Ref sig .tc := ⟨.hbm, 1566, rfl⟩
abbrev main_v1402 : Ref sig .tc := ⟨.hbm, 1567, rfl⟩
abbrev main_v1403 : Ref sig .tc := ⟨.hbm, 1568, rfl⟩
abbrev main_v1404 : Ref sig .tc := ⟨.hbm, 1569, rfl⟩
abbrev main_v1405 : Ref sig .tc := ⟨.hbm, 1570, rfl⟩
abbrev main_v1406 : Ref sig .tc := ⟨.hbm, 1571, rfl⟩
abbrev main_v1407 : Ref sig .tc := ⟨.hbm, 1572, rfl⟩
abbrev main_v1408 : Ref sig .tc := ⟨.hbm, 1573, rfl⟩
abbrev main_v1409 : Ref sig .tc := ⟨.hbm, 1574, rfl⟩
abbrev main_v1410 : Ref sig .tc := ⟨.hbm, 1575, rfl⟩
abbrev main_c_156 : Ref sig .tc := ⟨.hbm, 1576, rfl⟩
abbrev main_v1411 : Ref sig .tc := ⟨.hbm, 1577, rfl⟩
abbrev main_v1412 : Ref sig .tc := ⟨.hbm, 1578, rfl⟩
abbrev main_v1413 : Ref sig .tc := ⟨.hbm, 1579, rfl⟩
abbrev main_v1414 : Ref sig .tc := ⟨.hbm, 1580, rfl⟩
abbrev main_v1415 : Ref sig .tc := ⟨.hbm, 1581, rfl⟩
abbrev main_v1416 : Ref sig .tc := ⟨.hbm, 1582, rfl⟩
abbrev main_v1417 : Ref sig .tc := ⟨.hbm, 1583, rfl⟩
abbrev main_v1418 : Ref sig .tc := ⟨.hbm, 1584, rfl⟩
abbrev main_cst_157 : Ref sig .tc := ⟨.hbm, 1585, rfl⟩
abbrev main_v1419 : Ref sig .tc := ⟨.hbm, 1586, rfl⟩
abbrev main_v1420 : Ref sig .tc := ⟨.hbm, 1587, rfl⟩
abbrev main_v1421 : Ref sig .tc := ⟨.hbm, 1588, rfl⟩
abbrev main_v1422 : Ref sig .tc := ⟨.hbm, 1589, rfl⟩
abbrev main_v1423 : Ref sig .tc := ⟨.hbm, 1590, rfl⟩
abbrev main_v1424 : Ref sig .tc := ⟨.hbm, 1591, rfl⟩
abbrev main_v1425 : Ref sig .tc := ⟨.hbm, 1592, rfl⟩
abbrev main_v1426 : Ref sig .tc := ⟨.hbm, 1593, rfl⟩
abbrev main_v1427 : Ref sig .tc := ⟨.hbm, 1594, rfl⟩
abbrev main_v1428 : Ref sig .tc := ⟨.hbm, 1595, rfl⟩
abbrev main_c_158 : Ref sig .tc := ⟨.hbm, 1596, rfl⟩
abbrev main_v1429 : Ref sig .tc := ⟨.hbm, 1597, rfl⟩
abbrev main_v1430 : Ref sig .tc := ⟨.hbm, 1598, rfl⟩
abbrev main_v1431 : Ref sig .tc := ⟨.hbm, 1599, rfl⟩
abbrev main_v1432 : Ref sig .tc := ⟨.hbm, 1600, rfl⟩
abbrev main_v1433 : Ref sig .tc := ⟨.hbm, 1601, rfl⟩
abbrev main_v1434 : Ref sig .tc := ⟨.hbm, 1602, rfl⟩
abbrev main_v1435 : Ref sig .tc := ⟨.hbm, 1603, rfl⟩
abbrev main_v1436 : Ref sig .tc := ⟨.hbm, 1604, rfl⟩
abbrev main_cst_159 : Ref sig .tc := ⟨.hbm, 1605, rfl⟩
abbrev main_v1437 : Ref sig .tc := ⟨.hbm, 1606, rfl⟩
abbrev main_v1438 : Ref sig .tc := ⟨.hbm, 1607, rfl⟩
abbrev main_v1439 : Ref sig .tc := ⟨.hbm, 1608, rfl⟩
abbrev main_v1440 : Ref sig .tc := ⟨.hbm, 1609, rfl⟩
abbrev main_v1441 : Ref sig .tc := ⟨.hbm, 1610, rfl⟩
abbrev main_v1442 : Ref sig .tc := ⟨.hbm, 1611, rfl⟩
abbrev main_v1443 : Ref sig .tc := ⟨.hbm, 1612, rfl⟩
abbrev main_v1444 : Ref sig .tc := ⟨.hbm, 1613, rfl⟩
abbrev main_v1445 : Ref sig .tc := ⟨.hbm, 1614, rfl⟩
abbrev main_v1446 : Ref sig .tc := ⟨.hbm, 1615, rfl⟩
abbrev main_c_160 : Ref sig .tc := ⟨.hbm, 1616, rfl⟩
abbrev main_v1447 : Ref sig .tc := ⟨.hbm, 1617, rfl⟩
abbrev main_v1448 : Ref sig .tc := ⟨.hbm, 1618, rfl⟩
abbrev main_v1449 : Ref sig .tc := ⟨.hbm, 1619, rfl⟩
abbrev main_v1450 : Ref sig .tc := ⟨.hbm, 1620, rfl⟩
abbrev main_v1451 : Ref sig .tc := ⟨.hbm, 1621, rfl⟩
abbrev main_v1452 : Ref sig .tc := ⟨.hbm, 1622, rfl⟩
abbrev main_v1453 : Ref sig .tc := ⟨.hbm, 1623, rfl⟩
abbrev main_v1454 : Ref sig .tc := ⟨.hbm, 1624, rfl⟩
abbrev main_cst_161 : Ref sig .tc := ⟨.hbm, 1625, rfl⟩
abbrev main_v1455 : Ref sig .tc := ⟨.hbm, 1626, rfl⟩
abbrev main_v1456 : Ref sig .tc := ⟨.hbm, 1627, rfl⟩
abbrev main_v1457 : Ref sig .tc := ⟨.hbm, 1628, rfl⟩
abbrev main_v1458 : Ref sig .tc := ⟨.hbm, 1629, rfl⟩
abbrev main_v1459 : Ref sig .tc := ⟨.hbm, 1630, rfl⟩
abbrev main_v1460 : Ref sig .tc := ⟨.hbm, 1631, rfl⟩
abbrev main_v1461 : Ref sig .tc := ⟨.hbm, 1632, rfl⟩
abbrev main_v1462 : Ref sig .tc := ⟨.hbm, 1633, rfl⟩
abbrev main_v1463 : Ref sig .tc := ⟨.hbm, 1634, rfl⟩
abbrev main_v1464 : Ref sig .tc := ⟨.hbm, 1635, rfl⟩
abbrev main_c_162 : Ref sig .tc := ⟨.hbm, 1636, rfl⟩
abbrev main_v1465 : Ref sig .tc := ⟨.hbm, 1637, rfl⟩
abbrev main_v1466 : Ref sig .tc := ⟨.hbm, 1638, rfl⟩
abbrev main_v1467 : Ref sig .tc := ⟨.hbm, 1639, rfl⟩
abbrev main_v1468 : Ref sig .tc := ⟨.hbm, 1640, rfl⟩
abbrev main_v1469 : Ref sig .tc := ⟨.hbm, 1641, rfl⟩
abbrev main_v1470 : Ref sig .tc := ⟨.hbm, 1642, rfl⟩
abbrev main_v1471 : Ref sig .tc := ⟨.hbm, 1643, rfl⟩
abbrev main_v1472 : Ref sig .tc := ⟨.hbm, 1644, rfl⟩
abbrev main_cst_163 : Ref sig .tc := ⟨.hbm, 1645, rfl⟩
abbrev main_v1473 : Ref sig .tc := ⟨.hbm, 1646, rfl⟩
abbrev main_v1474 : Ref sig .tc := ⟨.hbm, 1647, rfl⟩
abbrev main_v1475 : Ref sig .tc := ⟨.hbm, 1648, rfl⟩
abbrev main_v1476 : Ref sig .tc := ⟨.hbm, 1649, rfl⟩
abbrev main_v1477 : Ref sig .tc := ⟨.hbm, 1650, rfl⟩
abbrev main_v1478 : Ref sig .tc := ⟨.hbm, 1651, rfl⟩
abbrev main_v1479 : Ref sig .tc := ⟨.hbm, 1652, rfl⟩
abbrev main_v1480 : Ref sig .tc := ⟨.hbm, 1653, rfl⟩
abbrev main_v1481 : Ref sig .tc := ⟨.hbm, 1654, rfl⟩
abbrev main_v1482 : Ref sig .tc := ⟨.hbm, 1655, rfl⟩
abbrev main_c_164 : Ref sig .tc := ⟨.hbm, 1656, rfl⟩
abbrev main_v1483 : Ref sig .tc := ⟨.hbm, 1657, rfl⟩
abbrev main_v1484 : Ref sig .tc := ⟨.hbm, 1658, rfl⟩
abbrev main_v1485 : Ref sig .tc := ⟨.hbm, 1659, rfl⟩
abbrev main_v1486 : Ref sig .tc := ⟨.hbm, 1660, rfl⟩
abbrev main_v1487 : Ref sig .tc := ⟨.hbm, 1661, rfl⟩
abbrev main_v1488 : Ref sig .tc := ⟨.hbm, 1662, rfl⟩
abbrev main_v1489 : Ref sig .tc := ⟨.hbm, 1663, rfl⟩
abbrev main_v1490 : Ref sig .tc := ⟨.hbm, 1664, rfl⟩
abbrev main_cst_165 : Ref sig .tc := ⟨.hbm, 1665, rfl⟩
abbrev main_v1491 : Ref sig .tc := ⟨.hbm, 1666, rfl⟩
abbrev main_v1492 : Ref sig .tc := ⟨.hbm, 1667, rfl⟩
abbrev main_v1493 : Ref sig .tc := ⟨.hbm, 1668, rfl⟩
abbrev main_v1494 : Ref sig .tc := ⟨.hbm, 1669, rfl⟩
abbrev main_v1495 : Ref sig .tc := ⟨.hbm, 1670, rfl⟩
abbrev main_v1496 : Ref sig .tc := ⟨.hbm, 1671, rfl⟩
abbrev main_v1497 : Ref sig .tc := ⟨.hbm, 1672, rfl⟩
abbrev main_v1498 : Ref sig .tc := ⟨.hbm, 1673, rfl⟩
abbrev main_v1499 : Ref sig .tc := ⟨.hbm, 1674, rfl⟩
abbrev main_v1500 : Ref sig .tc := ⟨.hbm, 1675, rfl⟩
abbrev main_c_166 : Ref sig .tc := ⟨.hbm, 1676, rfl⟩
abbrev main_v1501 : Ref sig .tc := ⟨.hbm, 1677, rfl⟩
abbrev main_v1502 : Ref sig .tc := ⟨.hbm, 1678, rfl⟩
abbrev main_v1503 : Ref sig .tc := ⟨.hbm, 1679, rfl⟩
abbrev main_v1504 : Ref sig .tc := ⟨.hbm, 1680, rfl⟩
abbrev main_v1505 : Ref sig .tc := ⟨.hbm, 1681, rfl⟩
abbrev main_v1506 : Ref sig .tc := ⟨.hbm, 1682, rfl⟩
abbrev main_v1507 : Ref sig .tc := ⟨.hbm, 1683, rfl⟩
abbrev main_v1508 : Ref sig .tc := ⟨.hbm, 1684, rfl⟩
abbrev main_cst_167 : Ref sig .tc := ⟨.hbm, 1685, rfl⟩
abbrev main_v1509 : Ref sig .tc := ⟨.hbm, 1686, rfl⟩
abbrev main_v1510 : Ref sig .tc := ⟨.hbm, 1687, rfl⟩
abbrev main_v1511 : Ref sig .tc := ⟨.hbm, 1688, rfl⟩
abbrev main_v1512 : Ref sig .tc := ⟨.hbm, 1689, rfl⟩
abbrev main_v1513 : Ref sig .tc := ⟨.hbm, 1690, rfl⟩
abbrev main_v1514 : Ref sig .tc := ⟨.hbm, 1691, rfl⟩
abbrev main_v1515 : Ref sig .tc := ⟨.hbm, 1692, rfl⟩
abbrev main_v1516 : Ref sig .tc := ⟨.hbm, 1693, rfl⟩
abbrev main_v1517 : Ref sig .tc := ⟨.hbm, 1694, rfl⟩
abbrev main_v1518 : Ref sig .tc := ⟨.hbm, 1695, rfl⟩
abbrev main_c_168 : Ref sig .tc := ⟨.hbm, 1696, rfl⟩
abbrev main_v1519 : Ref sig .tc := ⟨.hbm, 1697, rfl⟩
abbrev main_v1520 : Ref sig .tc := ⟨.hbm, 1698, rfl⟩
abbrev main_v1521 : Ref sig .tc := ⟨.hbm, 1699, rfl⟩
abbrev main_v1522 : Ref sig .tc := ⟨.hbm, 1700, rfl⟩
abbrev main_v1523 : Ref sig .tc := ⟨.hbm, 1701, rfl⟩
abbrev main_v1524 : Ref sig .tc := ⟨.hbm, 1702, rfl⟩
abbrev main_v1525 : Ref sig .tc := ⟨.hbm, 1703, rfl⟩
abbrev main_v1526 : Ref sig .tc := ⟨.hbm, 1704, rfl⟩
abbrev main_cst_169 : Ref sig .tc := ⟨.hbm, 1705, rfl⟩
abbrev main_v1527 : Ref sig .tc := ⟨.hbm, 1706, rfl⟩
abbrev main_v1528 : Ref sig .tc := ⟨.hbm, 1707, rfl⟩
abbrev main_v1529 : Ref sig .tc := ⟨.hbm, 1708, rfl⟩
abbrev main_v1530 : Ref sig .tc := ⟨.hbm, 1709, rfl⟩
abbrev main_v1531 : Ref sig .tc := ⟨.hbm, 1710, rfl⟩
abbrev main_v1532 : Ref sig .tc := ⟨.hbm, 1711, rfl⟩
abbrev main_v1533 : Ref sig .tc := ⟨.hbm, 1712, rfl⟩
abbrev main_v1534 : Ref sig .tc := ⟨.hbm, 1713, rfl⟩
abbrev main_v1535 : Ref sig .tc := ⟨.hbm, 1714, rfl⟩
abbrev main_v1536 : Ref sig .tc := ⟨.hbm, 1715, rfl⟩
abbrev main_c_170 : Ref sig .tc := ⟨.hbm, 1716, rfl⟩
abbrev main_v1537 : Ref sig .tc := ⟨.hbm, 1717, rfl⟩
abbrev main_v1538 : Ref sig .tc := ⟨.hbm, 1718, rfl⟩
abbrev main_v1539 : Ref sig .tc := ⟨.hbm, 1719, rfl⟩
abbrev main_v1540 : Ref sig .tc := ⟨.hbm, 1720, rfl⟩
abbrev main_v1541 : Ref sig .tc := ⟨.hbm, 1721, rfl⟩
abbrev main_v1542 : Ref sig .tc := ⟨.hbm, 1722, rfl⟩
abbrev main_v1543 : Ref sig .tc := ⟨.hbm, 1723, rfl⟩
abbrev main_v1544 : Ref sig .tc := ⟨.hbm, 1724, rfl⟩
abbrev main_cst_171 : Ref sig .tc := ⟨.hbm, 1725, rfl⟩
abbrev main_v1545 : Ref sig .tc := ⟨.hbm, 1726, rfl⟩
abbrev main_v1546 : Ref sig .tc := ⟨.hbm, 1727, rfl⟩
abbrev main_v1547 : Ref sig .tc := ⟨.hbm, 1728, rfl⟩
abbrev main_v1548 : Ref sig .tc := ⟨.hbm, 1729, rfl⟩
abbrev main_v1549 : Ref sig .tc := ⟨.hbm, 1730, rfl⟩
abbrev main_v1550 : Ref sig .tc := ⟨.hbm, 1731, rfl⟩
abbrev main_v1551 : Ref sig .tc := ⟨.hbm, 1732, rfl⟩
abbrev main_v1552 : Ref sig .tc := ⟨.hbm, 1733, rfl⟩
abbrev main_v1553 : Ref sig .tc := ⟨.hbm, 1734, rfl⟩
abbrev main_v1554 : Ref sig .tc := ⟨.hbm, 1735, rfl⟩
abbrev main_c_172 : Ref sig .tc := ⟨.hbm, 1736, rfl⟩
abbrev main_v1555 : Ref sig .tc := ⟨.hbm, 1737, rfl⟩
abbrev main_v1556 : Ref sig .tc := ⟨.hbm, 1738, rfl⟩
abbrev main_v1557 : Ref sig .tc := ⟨.hbm, 1739, rfl⟩
abbrev main_v1558 : Ref sig .tc := ⟨.hbm, 1740, rfl⟩
abbrev main_v1559 : Ref sig .tc := ⟨.hbm, 1741, rfl⟩
abbrev main_v1560 : Ref sig .tc := ⟨.hbm, 1742, rfl⟩
abbrev main_v1561 : Ref sig .tc := ⟨.hbm, 1743, rfl⟩
abbrev main_v1562 : Ref sig .tc := ⟨.hbm, 1744, rfl⟩
abbrev main_cst_173 : Ref sig .tc := ⟨.hbm, 1745, rfl⟩
abbrev main_v1563 : Ref sig .tc := ⟨.hbm, 1746, rfl⟩
abbrev main_v1564 : Ref sig .tc := ⟨.hbm, 1747, rfl⟩
abbrev main_v1565 : Ref sig .tc := ⟨.hbm, 1748, rfl⟩
abbrev main_v1566 : Ref sig .tc := ⟨.hbm, 1749, rfl⟩
abbrev main_v1567 : Ref sig .tc := ⟨.hbm, 1750, rfl⟩
abbrev main_v1568 : Ref sig .tc := ⟨.hbm, 1751, rfl⟩
abbrev main_v1569 : Ref sig .tc := ⟨.hbm, 1752, rfl⟩
abbrev main_v1570 : Ref sig .tc := ⟨.hbm, 1753, rfl⟩
abbrev main_v1571 : Ref sig .tc := ⟨.hbm, 1754, rfl⟩
abbrev main_v1572 : Ref sig .tc := ⟨.hbm, 1755, rfl⟩
abbrev main_c_174 : Ref sig .tc := ⟨.hbm, 1756, rfl⟩
abbrev main_v1573 : Ref sig .tc := ⟨.hbm, 1757, rfl⟩
abbrev main_v1574 : Ref sig .tc := ⟨.hbm, 1758, rfl⟩
abbrev main_v1575 : Ref sig .tc := ⟨.hbm, 1759, rfl⟩
abbrev main_v1576 : Ref sig .tc := ⟨.hbm, 1760, rfl⟩
abbrev main_v1577 : Ref sig .tc := ⟨.hbm, 1761, rfl⟩
abbrev main_v1578 : Ref sig .tc := ⟨.hbm, 1762, rfl⟩
abbrev main_v1579 : Ref sig .tc := ⟨.hbm, 1763, rfl⟩
abbrev main_v1580 : Ref sig .tc := ⟨.hbm, 1764, rfl⟩
abbrev main_cst_175 : Ref sig .tc := ⟨.hbm, 1765, rfl⟩
abbrev main_v1581 : Ref sig .tc := ⟨.hbm, 1766, rfl⟩
abbrev main_v1582 : Ref sig .tc := ⟨.hbm, 1767, rfl⟩
abbrev main_v1583 : Ref sig .tc := ⟨.hbm, 1768, rfl⟩
abbrev main_v1584 : Ref sig .tc := ⟨.hbm, 1769, rfl⟩
abbrev main_v1585 : Ref sig .tc := ⟨.hbm, 1770, rfl⟩
abbrev main_v1586 : Ref sig .tc := ⟨.hbm, 1771, rfl⟩
abbrev main_v1587 : Ref sig .tc := ⟨.hbm, 1772, rfl⟩
abbrev main_v1588 : Ref sig .tc := ⟨.hbm, 1773, rfl⟩
abbrev main_v1589 : Ref sig .tc := ⟨.hbm, 1774, rfl⟩
abbrev main_v1590 : Ref sig .tc := ⟨.hbm, 1775, rfl⟩
abbrev main_c_176 : Ref sig .tc := ⟨.hbm, 1776, rfl⟩
abbrev main_v1591 : Ref sig .tc := ⟨.hbm, 1777, rfl⟩
abbrev main_v1592 : Ref sig .tc := ⟨.hbm, 1778, rfl⟩
abbrev main_v1593 : Ref sig .tc := ⟨.hbm, 1779, rfl⟩
abbrev main_v1594 : Ref sig .tc := ⟨.hbm, 1780, rfl⟩
abbrev main_v1595 : Ref sig .tc := ⟨.hbm, 1781, rfl⟩
abbrev main_v1596 : Ref sig .tc := ⟨.hbm, 1782, rfl⟩
abbrev main_v1597 : Ref sig .tc := ⟨.hbm, 1783, rfl⟩
abbrev main_v1598 : Ref sig .tc := ⟨.hbm, 1784, rfl⟩
abbrev main_cst_177 : Ref sig .tc := ⟨.hbm, 1785, rfl⟩
abbrev main_v1599 : Ref sig .tc := ⟨.hbm, 1786, rfl⟩
abbrev main_v1600 : Ref sig .tc := ⟨.hbm, 1787, rfl⟩
abbrev main_v1601 : Ref sig .tc := ⟨.hbm, 1788, rfl⟩
abbrev main_v1602 : Ref sig .tc := ⟨.hbm, 1789, rfl⟩
abbrev main_v1603 : Ref sig .tc := ⟨.hbm, 1790, rfl⟩
abbrev main_v1604 : Ref sig .tc := ⟨.hbm, 1791, rfl⟩
abbrev main_v1605 : Ref sig .tc := ⟨.hbm, 1792, rfl⟩
abbrev main_v1606 : Ref sig .tc := ⟨.hbm, 1793, rfl⟩
abbrev main_v1607 : Ref sig .tc := ⟨.hbm, 1794, rfl⟩
abbrev main_v1608 : Ref sig .tc := ⟨.hbm, 1795, rfl⟩
abbrev main_c_178 : Ref sig .tc := ⟨.hbm, 1796, rfl⟩
abbrev main_v1609 : Ref sig .tc := ⟨.hbm, 1797, rfl⟩
abbrev main_v1610 : Ref sig .tc := ⟨.hbm, 1798, rfl⟩
abbrev main_v1611 : Ref sig .tc := ⟨.hbm, 1799, rfl⟩
abbrev main_v1612 : Ref sig .tc := ⟨.hbm, 1800, rfl⟩
abbrev main_v1613 : Ref sig .tc := ⟨.hbm, 1801, rfl⟩
abbrev main_v1614 : Ref sig .tc := ⟨.hbm, 1802, rfl⟩
abbrev main_v1615 : Ref sig .tc := ⟨.hbm, 1803, rfl⟩
abbrev main_v1616 : Ref sig .tc := ⟨.hbm, 1804, rfl⟩
abbrev main_cst_179 : Ref sig .tc := ⟨.hbm, 1805, rfl⟩
abbrev main_v1617 : Ref sig .tc := ⟨.hbm, 1806, rfl⟩
abbrev main_v1618 : Ref sig .tc := ⟨.hbm, 1807, rfl⟩
abbrev main_v1619 : Ref sig .tc := ⟨.hbm, 1808, rfl⟩
abbrev main_v1620 : Ref sig .tc := ⟨.hbm, 1809, rfl⟩
abbrev main_v1621 : Ref sig .tc := ⟨.hbm, 1810, rfl⟩
abbrev main_v1622 : Ref sig .tc := ⟨.hbm, 1811, rfl⟩
abbrev main_v1623 : Ref sig .tc := ⟨.hbm, 1812, rfl⟩
abbrev main_v1624 : Ref sig .tc := ⟨.hbm, 1813, rfl⟩
abbrev main_v1625 : Ref sig .tc := ⟨.hbm, 1814, rfl⟩
abbrev main_v1626 : Ref sig .tc := ⟨.hbm, 1815, rfl⟩
abbrev main_c_180 : Ref sig .tc := ⟨.hbm, 1816, rfl⟩
abbrev main_v1627 : Ref sig .tc := ⟨.hbm, 1817, rfl⟩
abbrev main_v1628 : Ref sig .tc := ⟨.hbm, 1818, rfl⟩
abbrev main_v1629 : Ref sig .tc := ⟨.hbm, 1819, rfl⟩
abbrev main_v1630 : Ref sig .tc := ⟨.hbm, 1820, rfl⟩
abbrev main_v1631 : Ref sig .tc := ⟨.hbm, 1821, rfl⟩
abbrev main_v1632 : Ref sig .tc := ⟨.hbm, 1822, rfl⟩
abbrev main_v1633 : Ref sig .tc := ⟨.hbm, 1823, rfl⟩
abbrev main_v1634 : Ref sig .tc := ⟨.hbm, 1824, rfl⟩
abbrev main_cst_181 : Ref sig .tc := ⟨.hbm, 1825, rfl⟩
abbrev main_v1635 : Ref sig .tc := ⟨.hbm, 1826, rfl⟩
abbrev main_v1636 : Ref sig .tc := ⟨.hbm, 1827, rfl⟩
abbrev main_v1637 : Ref sig .tc := ⟨.hbm, 1828, rfl⟩
abbrev main_v1638 : Ref sig .tc := ⟨.hbm, 1829, rfl⟩
abbrev main_v1639 : Ref sig .tc := ⟨.hbm, 1830, rfl⟩
abbrev main_v1640 : Ref sig .tc := ⟨.hbm, 1831, rfl⟩
abbrev main_v1641 : Ref sig .tc := ⟨.hbm, 1832, rfl⟩
abbrev main_v1642 : Ref sig .tc := ⟨.hbm, 1833, rfl⟩
abbrev main_v1643 : Ref sig .tc := ⟨.hbm, 1834, rfl⟩
abbrev main_v1644 : Ref sig .tc := ⟨.hbm, 1835, rfl⟩
abbrev main_c_182 : Ref sig .tc := ⟨.hbm, 1836, rfl⟩
abbrev main_v1645 : Ref sig .tc := ⟨.hbm, 1837, rfl⟩
abbrev main_v1646 : Ref sig .tc := ⟨.hbm, 1838, rfl⟩
abbrev main_v1647 : Ref sig .tc := ⟨.hbm, 1839, rfl⟩
abbrev main_v1648 : Ref sig .tc := ⟨.hbm, 1840, rfl⟩
abbrev main_v1649 : Ref sig .tc := ⟨.hbm, 1841, rfl⟩
abbrev main_v1650 : Ref sig .tc := ⟨.hbm, 1842, rfl⟩
abbrev main_v1651 : Ref sig .tc := ⟨.hbm, 1843, rfl⟩
abbrev main_v1652 : Ref sig .tc := ⟨.hbm, 1844, rfl⟩
abbrev main_cst_183 : Ref sig .tc := ⟨.hbm, 1845, rfl⟩
abbrev main_v1653 : Ref sig .tc := ⟨.hbm, 1846, rfl⟩
abbrev main_v1654 : Ref sig .tc := ⟨.hbm, 1847, rfl⟩
abbrev main_v1655 : Ref sig .tc := ⟨.hbm, 1848, rfl⟩
abbrev main_v1656 : Ref sig .tc := ⟨.hbm, 1849, rfl⟩
abbrev main_v1657 : Ref sig .tc := ⟨.hbm, 1850, rfl⟩
abbrev main_v1658 : Ref sig .tc := ⟨.hbm, 1851, rfl⟩
abbrev main_v1659 : Ref sig .tc := ⟨.hbm, 1852, rfl⟩
abbrev main_v1660 : Ref sig .tc := ⟨.hbm, 1853, rfl⟩
abbrev main_v1661 : Ref sig .tc := ⟨.hbm, 1854, rfl⟩
abbrev main_v1662 : Ref sig .tc := ⟨.hbm, 1855, rfl⟩
abbrev main_c_184 : Ref sig .tc := ⟨.hbm, 1856, rfl⟩
abbrev main_v1663 : Ref sig .tc := ⟨.hbm, 1857, rfl⟩
abbrev main_v1664 : Ref sig .tc := ⟨.hbm, 1858, rfl⟩
abbrev main_v1665 : Ref sig .tc := ⟨.hbm, 1859, rfl⟩
abbrev main_v1666 : Ref sig .tc := ⟨.hbm, 1860, rfl⟩
abbrev main_v1667 : Ref sig .tc := ⟨.hbm, 1861, rfl⟩
abbrev main_v1668 : Ref sig .tc := ⟨.hbm, 1862, rfl⟩
abbrev main_v1669 : Ref sig .tc := ⟨.hbm, 1863, rfl⟩
abbrev main_v1670 : Ref sig .tc := ⟨.hbm, 1864, rfl⟩
abbrev main_cst_185 : Ref sig .tc := ⟨.hbm, 1865, rfl⟩
abbrev main_v1671 : Ref sig .tc := ⟨.hbm, 1866, rfl⟩
abbrev main_v1672 : Ref sig .tc := ⟨.hbm, 1867, rfl⟩
abbrev main_v1673 : Ref sig .tc := ⟨.hbm, 1868, rfl⟩
abbrev main_v1674 : Ref sig .tc := ⟨.hbm, 1869, rfl⟩
abbrev main_v1675 : Ref sig .tc := ⟨.hbm, 1870, rfl⟩
abbrev main_v1676 : Ref sig .tc := ⟨.hbm, 1871, rfl⟩
abbrev main_v1677 : Ref sig .tc := ⟨.hbm, 1872, rfl⟩
abbrev main_v1678 : Ref sig .tc := ⟨.hbm, 1873, rfl⟩
abbrev main_v1679 : Ref sig .tc := ⟨.hbm, 1874, rfl⟩
abbrev main_v1680 : Ref sig .tc := ⟨.hbm, 1875, rfl⟩
abbrev main_c_186 : Ref sig .tc := ⟨.hbm, 1876, rfl⟩
abbrev main_v1681 : Ref sig .tc := ⟨.hbm, 1877, rfl⟩
abbrev main_v1682 : Ref sig .tc := ⟨.hbm, 1878, rfl⟩
abbrev main_v1683 : Ref sig .tc := ⟨.hbm, 1879, rfl⟩
abbrev main_v1684 : Ref sig .tc := ⟨.hbm, 1880, rfl⟩
abbrev main_v1685 : Ref sig .tc := ⟨.hbm, 1881, rfl⟩
abbrev main_v1686 : Ref sig .tc := ⟨.hbm, 1882, rfl⟩
abbrev main_v1687 : Ref sig .tc := ⟨.hbm, 1883, rfl⟩
abbrev main_v1688 : Ref sig .tc := ⟨.hbm, 1884, rfl⟩
abbrev main_cst_187 : Ref sig .tc := ⟨.hbm, 1885, rfl⟩
abbrev main_v1689 : Ref sig .tc := ⟨.hbm, 1886, rfl⟩
abbrev main_v1690 : Ref sig .tc := ⟨.hbm, 1887, rfl⟩
abbrev main_v1691 : Ref sig .tc := ⟨.hbm, 1888, rfl⟩
abbrev main_v1692 : Ref sig .tc := ⟨.hbm, 1889, rfl⟩
abbrev main_v1693 : Ref sig .tc := ⟨.hbm, 1890, rfl⟩
abbrev main_v1694 : Ref sig .tc := ⟨.hbm, 1891, rfl⟩
abbrev main_v1695 : Ref sig .tc := ⟨.hbm, 1892, rfl⟩
abbrev main_v1696 : Ref sig .tc := ⟨.hbm, 1893, rfl⟩
abbrev main_v1697 : Ref sig .tc := ⟨.hbm, 1894, rfl⟩
abbrev main_v1698 : Ref sig .tc := ⟨.hbm, 1895, rfl⟩
abbrev main_c_188 : Ref sig .tc := ⟨.hbm, 1896, rfl⟩
abbrev main_v1699 : Ref sig .tc := ⟨.hbm, 1897, rfl⟩
abbrev main_v1700 : Ref sig .tc := ⟨.hbm, 1898, rfl⟩
abbrev main_v1701 : Ref sig .tc := ⟨.hbm, 1899, rfl⟩
abbrev main_v1702 : Ref sig .tc := ⟨.hbm, 1900, rfl⟩
abbrev main_v1703 : Ref sig .tc := ⟨.hbm, 1901, rfl⟩
abbrev main_v1704 : Ref sig .tc := ⟨.hbm, 1902, rfl⟩
abbrev main_v1705 : Ref sig .tc := ⟨.hbm, 1903, rfl⟩
abbrev main_v1706 : Ref sig .tc := ⟨.hbm, 1904, rfl⟩
abbrev main_cst_189 : Ref sig .tc := ⟨.hbm, 1905, rfl⟩
abbrev main_v1707 : Ref sig .tc := ⟨.hbm, 1906, rfl⟩
abbrev main_v1708 : Ref sig .tc := ⟨.hbm, 1907, rfl⟩
abbrev main_v1709 : Ref sig .tc := ⟨.hbm, 1908, rfl⟩
abbrev main_v1710 : Ref sig .tc := ⟨.hbm, 1909, rfl⟩
abbrev main_v1711 : Ref sig .tc := ⟨.hbm, 1910, rfl⟩
abbrev main_v1712 : Ref sig .tc := ⟨.hbm, 1911, rfl⟩
abbrev main_v1713 : Ref sig .tc := ⟨.hbm, 1912, rfl⟩
abbrev main_v1714 : Ref sig .tc := ⟨.hbm, 1913, rfl⟩
abbrev main_v1715 : Ref sig .tc := ⟨.hbm, 1914, rfl⟩
abbrev main_v1716 : Ref sig .tc := ⟨.hbm, 1915, rfl⟩
abbrev main_c_190 : Ref sig .tc := ⟨.hbm, 1916, rfl⟩
abbrev main_v1717 : Ref sig .tc := ⟨.hbm, 1917, rfl⟩
abbrev main_v1718 : Ref sig .tc := ⟨.hbm, 1918, rfl⟩
abbrev main_v1719 : Ref sig .tc := ⟨.hbm, 1919, rfl⟩
abbrev main_v1720 : Ref sig .tc := ⟨.hbm, 1920, rfl⟩
abbrev main_v1721 : Ref sig .tc := ⟨.hbm, 1921, rfl⟩
abbrev main_v1722 : Ref sig .tc := ⟨.hbm, 1922, rfl⟩
abbrev main_v1723 : Ref sig .tc := ⟨.hbm, 1923, rfl⟩
abbrev main_v1724 : Ref sig .tc := ⟨.hbm, 1924, rfl⟩
abbrev main_cst_191 : Ref sig .tc := ⟨.hbm, 1925, rfl⟩
abbrev main_v1725 : Ref sig .tc := ⟨.hbm, 1926, rfl⟩
abbrev main_v1726 : Ref sig .tc := ⟨.hbm, 1927, rfl⟩
abbrev main_v1727 : Ref sig .tc := ⟨.hbm, 1928, rfl⟩
abbrev main_v1728 : Ref sig .tc := ⟨.hbm, 1929, rfl⟩
abbrev main_v1729 : Ref sig .tc := ⟨.hbm, 1930, rfl⟩
abbrev main_v1730 : Ref sig .tc := ⟨.hbm, 1931, rfl⟩
abbrev main_v1731 : Ref sig .tc := ⟨.hbm, 1932, rfl⟩
abbrev main_v1732 : Ref sig .tc := ⟨.hbm, 1933, rfl⟩
abbrev main_v1733 : Ref sig .tc := ⟨.hbm, 1934, rfl⟩
abbrev main_v1734 : Ref sig .tc := ⟨.hbm, 1935, rfl⟩
abbrev main_c_192 : Ref sig .tc := ⟨.hbm, 1936, rfl⟩
abbrev main_v1735 : Ref sig .tc := ⟨.hbm, 1937, rfl⟩
abbrev main_v1736 : Ref sig .tc := ⟨.hbm, 1938, rfl⟩
abbrev main_v1737 : Ref sig .tc := ⟨.hbm, 1939, rfl⟩
abbrev main_v1738 : Ref sig .tc := ⟨.hbm, 1940, rfl⟩
abbrev main_v1739 : Ref sig .tc := ⟨.hbm, 1941, rfl⟩
abbrev main_v1740 : Ref sig .tc := ⟨.hbm, 1942, rfl⟩
abbrev main_v1741 : Ref sig .tc := ⟨.hbm, 1943, rfl⟩
abbrev main_v1742 : Ref sig .tc := ⟨.hbm, 1944, rfl⟩
abbrev main_cst_193 : Ref sig .tc := ⟨.hbm, 1945, rfl⟩
abbrev main_v1743 : Ref sig .tc := ⟨.hbm, 1946, rfl⟩
abbrev main_v1744 : Ref sig .tc := ⟨.hbm, 1947, rfl⟩
abbrev main_v1745 : Ref sig .tc := ⟨.hbm, 1948, rfl⟩
abbrev main_v1746 : Ref sig .tc := ⟨.hbm, 1949, rfl⟩
abbrev main_v1747 : Ref sig .tc := ⟨.hbm, 1950, rfl⟩
abbrev main_v1748 : Ref sig .tc := ⟨.hbm, 1951, rfl⟩
abbrev main_v1749 : Ref sig .tc := ⟨.hbm, 1952, rfl⟩
abbrev main_v1750 : Ref sig .tc := ⟨.hbm, 1953, rfl⟩
abbrev main_v1751 : Ref sig .tc := ⟨.hbm, 1954, rfl⟩
abbrev main_v1752 : Ref sig .tc := ⟨.hbm, 1955, rfl⟩
abbrev main_c_194 : Ref sig .tc := ⟨.hbm, 1956, rfl⟩
abbrev main_v1753 : Ref sig .tc := ⟨.hbm, 1957, rfl⟩
abbrev main_v1754 : Ref sig .tc := ⟨.hbm, 1958, rfl⟩
abbrev main_v1755 : Ref sig .tc := ⟨.hbm, 1959, rfl⟩
abbrev main_v1756 : Ref sig .tc := ⟨.hbm, 1960, rfl⟩
abbrev main_v1757 : Ref sig .tc := ⟨.hbm, 1961, rfl⟩
abbrev main_v1758 : Ref sig .tc := ⟨.hbm, 1962, rfl⟩
abbrev main_v1759 : Ref sig .tc := ⟨.hbm, 1963, rfl⟩
abbrev main_v1760 : Ref sig .tc := ⟨.hbm, 1964, rfl⟩
abbrev main_cst_195 : Ref sig .tc := ⟨.hbm, 1965, rfl⟩
abbrev main_v1761 : Ref sig .tc := ⟨.hbm, 1966, rfl⟩
abbrev main_v1762 : Ref sig .tc := ⟨.hbm, 1967, rfl⟩
abbrev main_v1763 : Ref sig .tc := ⟨.hbm, 1968, rfl⟩
abbrev main_v1764 : Ref sig .tc := ⟨.hbm, 1969, rfl⟩
abbrev main_v1765 : Ref sig .tc := ⟨.hbm, 1970, rfl⟩
abbrev main_v1766 : Ref sig .tc := ⟨.hbm, 1971, rfl⟩
abbrev main_v1767 : Ref sig .tc := ⟨.hbm, 1972, rfl⟩
abbrev main_v1768 : Ref sig .tc := ⟨.hbm, 1973, rfl⟩
abbrev main_v1769 : Ref sig .tc := ⟨.hbm, 1974, rfl⟩
abbrev main_v1770 : Ref sig .tc := ⟨.hbm, 1975, rfl⟩
abbrev main_c_196 : Ref sig .tc := ⟨.hbm, 1976, rfl⟩
abbrev main_v1771 : Ref sig .tc := ⟨.hbm, 1977, rfl⟩
abbrev main_v1772 : Ref sig .tc := ⟨.hbm, 1978, rfl⟩
abbrev main_v1773 : Ref sig .tc := ⟨.hbm, 1979, rfl⟩
abbrev main_v1774 : Ref sig .tc := ⟨.hbm, 1980, rfl⟩
abbrev main_v1775 : Ref sig .tc := ⟨.hbm, 1981, rfl⟩
abbrev main_v1776 : Ref sig .tc := ⟨.hbm, 1982, rfl⟩
abbrev main_v1777 : Ref sig .tc := ⟨.hbm, 1983, rfl⟩
abbrev main_v1778 : Ref sig .tc := ⟨.hbm, 1984, rfl⟩
abbrev main_cst_197 : Ref sig .tc := ⟨.hbm, 1985, rfl⟩
abbrev main_v1779 : Ref sig .tc := ⟨.hbm, 1986, rfl⟩
abbrev main_v1780 : Ref sig .tc := ⟨.hbm, 1987, rfl⟩
abbrev main_v1781 : Ref sig .tc := ⟨.hbm, 1988, rfl⟩
abbrev main_v1782 : Ref sig .tc := ⟨.hbm, 1989, rfl⟩
abbrev main_v1783 : Ref sig .tc := ⟨.hbm, 1990, rfl⟩
abbrev main_v1784 : Ref sig .tc := ⟨.hbm, 1991, rfl⟩
abbrev main_v1785 : Ref sig .tc := ⟨.hbm, 1992, rfl⟩
abbrev main_v1786 : Ref sig .tc := ⟨.hbm, 1993, rfl⟩
abbrev main_v1787 : Ref sig .tc := ⟨.hbm, 1994, rfl⟩
abbrev main_v1788 : Ref sig .tc := ⟨.hbm, 1995, rfl⟩
abbrev main_c_198 : Ref sig .tc := ⟨.hbm, 1996, rfl⟩
abbrev main_v1789 : Ref sig .tc := ⟨.hbm, 1997, rfl⟩
abbrev main_v1790 : Ref sig .tc := ⟨.hbm, 1998, rfl⟩
abbrev main_v1791 : Ref sig .tc := ⟨.hbm, 1999, rfl⟩
abbrev main_v1792 : Ref sig .tc := ⟨.hbm, 2000, rfl⟩
abbrev main_v1793 : Ref sig .tc := ⟨.hbm, 2001, rfl⟩
abbrev main_v1794 : Ref sig .tc := ⟨.hbm, 2002, rfl⟩
abbrev main_v1795 : Ref sig .tc := ⟨.hbm, 2003, rfl⟩
abbrev main_v1796 : Ref sig .tc := ⟨.hbm, 2004, rfl⟩
abbrev main_cst_199 : Ref sig .tc := ⟨.hbm, 2005, rfl⟩
abbrev main_v1797 : Ref sig .tc := ⟨.hbm, 2006, rfl⟩
abbrev main_v1798 : Ref sig .tc := ⟨.hbm, 2007, rfl⟩
abbrev main_v1799 : Ref sig .tc := ⟨.hbm, 2008, rfl⟩
abbrev main_v1800 : Ref sig .tc := ⟨.hbm, 2009, rfl⟩
abbrev main_v1801 : Ref sig .tc := ⟨.hbm, 2010, rfl⟩
abbrev main_v1802 : Ref sig .tc := ⟨.hbm, 2011, rfl⟩
abbrev main_v1803 : Ref sig .tc := ⟨.hbm, 2012, rfl⟩
abbrev main_v1804 : Ref sig .tc := ⟨.hbm, 2013, rfl⟩
abbrev main_v1805 : Ref sig .tc := ⟨.hbm, 2014, rfl⟩
abbrev main_v1806 : Ref sig .tc := ⟨.hbm, 2015, rfl⟩
abbrev main_c_200 : Ref sig .tc := ⟨.hbm, 2016, rfl⟩
abbrev main_v1807 : Ref sig .tc := ⟨.hbm, 2017, rfl⟩
abbrev main_v1808 : Ref sig .tc := ⟨.hbm, 2018, rfl⟩
abbrev main_v1809 : Ref sig .tc := ⟨.hbm, 2019, rfl⟩
abbrev main_v1810 : Ref sig .tc := ⟨.hbm, 2020, rfl⟩
abbrev main_v1811 : Ref sig .tc := ⟨.hbm, 2021, rfl⟩
abbrev main_v1812 : Ref sig .tc := ⟨.hbm, 2022, rfl⟩
abbrev main_v1813 : Ref sig .tc := ⟨.hbm, 2023, rfl⟩
abbrev main_v1814 : Ref sig .tc := ⟨.hbm, 2024, rfl⟩
abbrev main_cst_201 : Ref sig .tc := ⟨.hbm, 2025, rfl⟩
abbrev main_v1815 : Ref sig .tc := ⟨.hbm, 2026, rfl⟩
abbrev main_v1816 : Ref sig .tc := ⟨.hbm, 2027, rfl⟩
abbrev main_v1817 : Ref sig .tc := ⟨.hbm, 2028, rfl⟩
abbrev main_v1818 : Ref sig .tc := ⟨.hbm, 2029, rfl⟩
abbrev main_v1819 : Ref sig .tc := ⟨.hbm, 2030, rfl⟩
abbrev main_v1820 : Ref sig .tc := ⟨.hbm, 2031, rfl⟩
abbrev main_v1821 : Ref sig .tc := ⟨.hbm, 2032, rfl⟩
abbrev main_v1822 : Ref sig .tc := ⟨.hbm, 2033, rfl⟩
abbrev main_v1823 : Ref sig .tc := ⟨.hbm, 2034, rfl⟩
abbrev main_v1824 : Ref sig .tc := ⟨.hbm, 2035, rfl⟩
abbrev main_c_202 : Ref sig .tc := ⟨.hbm, 2036, rfl⟩
abbrev main_v1825 : Ref sig .tc := ⟨.hbm, 2037, rfl⟩
abbrev main_v1826 : Ref sig .tc := ⟨.hbm, 2038, rfl⟩
abbrev main_v1827 : Ref sig .tc := ⟨.hbm, 2039, rfl⟩
abbrev main_v1828 : Ref sig .tc := ⟨.hbm, 2040, rfl⟩
abbrev main_v1829 : Ref sig .tc := ⟨.hbm, 2041, rfl⟩
abbrev main_v1830 : Ref sig .tc := ⟨.hbm, 2042, rfl⟩
abbrev main_v1831 : Ref sig .tc := ⟨.hbm, 2043, rfl⟩
abbrev main_v1832 : Ref sig .tc := ⟨.hbm, 2044, rfl⟩
abbrev main_cst_203 : Ref sig .tc := ⟨.hbm, 2045, rfl⟩
abbrev main_v1833 : Ref sig .tc := ⟨.hbm, 2046, rfl⟩
abbrev main_v1834 : Ref sig .tc := ⟨.hbm, 2047, rfl⟩
abbrev main_v1835 : Ref sig .tc := ⟨.hbm, 2048, rfl⟩
abbrev main_v1836 : Ref sig .tc := ⟨.hbm, 2049, rfl⟩
abbrev main_v1837 : Ref sig .tc := ⟨.hbm, 2050, rfl⟩
abbrev main_v1838 : Ref sig .tc := ⟨.hbm, 2051, rfl⟩
abbrev main_v1839 : Ref sig .tc := ⟨.hbm, 2052, rfl⟩
abbrev main_v1840 : Ref sig .tc := ⟨.hbm, 2053, rfl⟩
abbrev main_v1841 : Ref sig .tc := ⟨.hbm, 2054, rfl⟩
abbrev main_v1842 : Ref sig .tc := ⟨.hbm, 2055, rfl⟩
abbrev main_c_204 : Ref sig .tc := ⟨.hbm, 2056, rfl⟩
abbrev main_v1843 : Ref sig .tc := ⟨.hbm, 2057, rfl⟩
abbrev main_v1844 : Ref sig .tc := ⟨.hbm, 2058, rfl⟩
abbrev main_v1845 : Ref sig .tc := ⟨.hbm, 2059, rfl⟩
abbrev main_v1846 : Ref sig .tc := ⟨.hbm, 2060, rfl⟩
abbrev main_v1847 : Ref sig .tc := ⟨.hbm, 2061, rfl⟩
abbrev main_v1848 : Ref sig .tc := ⟨.hbm, 2062, rfl⟩
abbrev main_v1849 : Ref sig .tc := ⟨.hbm, 2063, rfl⟩
abbrev main_v1850 : Ref sig .tc := ⟨.hbm, 2064, rfl⟩
abbrev main_cst_205 : Ref sig .tc := ⟨.hbm, 2065, rfl⟩
abbrev main_v1851 : Ref sig .tc := ⟨.hbm, 2066, rfl⟩
abbrev main_v1852 : Ref sig .tc := ⟨.hbm, 2067, rfl⟩
abbrev main_v1853 : Ref sig .tc := ⟨.hbm, 2068, rfl⟩
abbrev main_v1854 : Ref sig .tc := ⟨.hbm, 2069, rfl⟩
abbrev main_v1855 : Ref sig .tc := ⟨.hbm, 2070, rfl⟩
abbrev main_v1856 : Ref sig .tc := ⟨.hbm, 2071, rfl⟩
abbrev main_v1857 : Ref sig .tc := ⟨.hbm, 2072, rfl⟩
abbrev main_v1858 : Ref sig .tc := ⟨.hbm, 2073, rfl⟩
abbrev main_v1859 : Ref sig .tc := ⟨.hbm, 2074, rfl⟩
abbrev main_v1860 : Ref sig .tc := ⟨.hbm, 2075, rfl⟩
abbrev main_c_206 : Ref sig .tc := ⟨.hbm, 2076, rfl⟩
abbrev main_v1861 : Ref sig .tc := ⟨.hbm, 2077, rfl⟩
abbrev main_v1862 : Ref sig .tc := ⟨.hbm, 2078, rfl⟩
abbrev main_v1863 : Ref sig .tc := ⟨.hbm, 2079, rfl⟩
abbrev main_v1864 : Ref sig .tc := ⟨.hbm, 2080, rfl⟩
abbrev main_v1865 : Ref sig .tc := ⟨.hbm, 2081, rfl⟩
abbrev main_v1866 : Ref sig .tc := ⟨.hbm, 2082, rfl⟩
abbrev main_v1867 : Ref sig .tc := ⟨.hbm, 2083, rfl⟩
abbrev main_v1868 : Ref sig .tc := ⟨.hbm, 2084, rfl⟩
abbrev main_cst_207 : Ref sig .tc := ⟨.hbm, 2085, rfl⟩
abbrev main_v1869 : Ref sig .tc := ⟨.hbm, 2086, rfl⟩
abbrev main_v1870 : Ref sig .tc := ⟨.hbm, 2087, rfl⟩
abbrev main_v1871 : Ref sig .tc := ⟨.hbm, 2088, rfl⟩
abbrev main_v1872 : Ref sig .tc := ⟨.hbm, 2089, rfl⟩
abbrev main_v1873 : Ref sig .tc := ⟨.hbm, 2090, rfl⟩
abbrev main_v1874 : Ref sig .tc := ⟨.hbm, 2091, rfl⟩
abbrev main_v1875 : Ref sig .tc := ⟨.hbm, 2092, rfl⟩
abbrev main_v1876 : Ref sig .tc := ⟨.hbm, 2093, rfl⟩
abbrev main_v1877 : Ref sig .tc := ⟨.hbm, 2094, rfl⟩
abbrev main_v1878 : Ref sig .tc := ⟨.hbm, 2095, rfl⟩
abbrev main_c_208 : Ref sig .tc := ⟨.hbm, 2096, rfl⟩
abbrev main_v1879 : Ref sig .tc := ⟨.hbm, 2097, rfl⟩
abbrev main_v1880 : Ref sig .tc := ⟨.hbm, 2098, rfl⟩
abbrev main_v1881 : Ref sig .tc := ⟨.hbm, 2099, rfl⟩
abbrev main_v1882 : Ref sig .tc := ⟨.hbm, 2100, rfl⟩
abbrev main_v1883 : Ref sig .tc := ⟨.hbm, 2101, rfl⟩
abbrev main_v1884 : Ref sig .tc := ⟨.hbm, 2102, rfl⟩
abbrev main_v1885 : Ref sig .tc := ⟨.hbm, 2103, rfl⟩
abbrev main_v1886 : Ref sig .tc := ⟨.hbm, 2104, rfl⟩
abbrev main_cst_209 : Ref sig .tc := ⟨.hbm, 2105, rfl⟩
abbrev main_v1887 : Ref sig .tc := ⟨.hbm, 2106, rfl⟩
abbrev main_v1888 : Ref sig .tc := ⟨.hbm, 2107, rfl⟩
abbrev main_v1889 : Ref sig .tc := ⟨.hbm, 2108, rfl⟩
abbrev main_v1890 : Ref sig .tc := ⟨.hbm, 2109, rfl⟩
abbrev main_v1891 : Ref sig .tc := ⟨.hbm, 2110, rfl⟩
abbrev main_v1892 : Ref sig .tc := ⟨.hbm, 2111, rfl⟩
abbrev main_v1893 : Ref sig .tc := ⟨.hbm, 2112, rfl⟩
abbrev main_v1894 : Ref sig .tc := ⟨.hbm, 2113, rfl⟩
abbrev main_v1895 : Ref sig .tc := ⟨.hbm, 2114, rfl⟩
abbrev main_v1896 : Ref sig .tc := ⟨.hbm, 2115, rfl⟩
abbrev main_c_210 : Ref sig .tc := ⟨.hbm, 2116, rfl⟩
abbrev main_v1897 : Ref sig .tc := ⟨.hbm, 2117, rfl⟩
abbrev main_v1898 : Ref sig .tc := ⟨.hbm, 2118, rfl⟩
abbrev main_v1899 : Ref sig .tc := ⟨.hbm, 2119, rfl⟩
abbrev main_v1900 : Ref sig .tc := ⟨.hbm, 2120, rfl⟩
abbrev main_v1901 : Ref sig .tc := ⟨.hbm, 2121, rfl⟩
abbrev main_v1902 : Ref sig .tc := ⟨.hbm, 2122, rfl⟩
abbrev main_v1903 : Ref sig .tc := ⟨.hbm, 2123, rfl⟩
abbrev main_v1904 : Ref sig .tc := ⟨.hbm, 2124, rfl⟩
abbrev main_cst_211 : Ref sig .tc := ⟨.hbm, 2125, rfl⟩
abbrev main_v1905 : Ref sig .tc := ⟨.hbm, 2126, rfl⟩
abbrev main_v1906 : Ref sig .tc := ⟨.hbm, 2127, rfl⟩
abbrev main_v1907 : Ref sig .tc := ⟨.hbm, 2128, rfl⟩
abbrev main_v1908 : Ref sig .tc := ⟨.hbm, 2129, rfl⟩
abbrev main_v1909 : Ref sig .tc := ⟨.hbm, 2130, rfl⟩
abbrev main_v1910 : Ref sig .tc := ⟨.hbm, 2131, rfl⟩
abbrev main_v1911 : Ref sig .tc := ⟨.hbm, 2132, rfl⟩
abbrev main_v1912 : Ref sig .tc := ⟨.hbm, 2133, rfl⟩
abbrev main_v1913 : Ref sig .tc := ⟨.hbm, 2134, rfl⟩
abbrev main_v1914 : Ref sig .tc := ⟨.hbm, 2135, rfl⟩
abbrev main_c_212 : Ref sig .tc := ⟨.hbm, 2136, rfl⟩
abbrev main_v1915 : Ref sig .tc := ⟨.hbm, 2137, rfl⟩
abbrev main_v1916 : Ref sig .tc := ⟨.hbm, 2138, rfl⟩
abbrev main_v1917 : Ref sig .tc := ⟨.hbm, 2139, rfl⟩
abbrev main_v1918 : Ref sig .tc := ⟨.hbm, 2140, rfl⟩
abbrev main_v1919 : Ref sig .tc := ⟨.hbm, 2141, rfl⟩
abbrev main_v1920 : Ref sig .tc := ⟨.hbm, 2142, rfl⟩
abbrev main_v1921 : Ref sig .tc := ⟨.hbm, 2143, rfl⟩
abbrev main_v1922 : Ref sig .tc := ⟨.hbm, 2144, rfl⟩
abbrev main_cst_213 : Ref sig .tc := ⟨.hbm, 2145, rfl⟩
abbrev main_v1923 : Ref sig .tc := ⟨.hbm, 2146, rfl⟩
abbrev main_v1924 : Ref sig .tc := ⟨.hbm, 2147, rfl⟩
abbrev main_v1925 : Ref sig .tc := ⟨.hbm, 2148, rfl⟩
abbrev main_v1926 : Ref sig .tc := ⟨.hbm, 2149, rfl⟩
abbrev main_v1927 : Ref sig .tc := ⟨.hbm, 2150, rfl⟩
abbrev main_v1928 : Ref sig .tc := ⟨.hbm, 2151, rfl⟩
abbrev main_v1929 : Ref sig .tc := ⟨.hbm, 2152, rfl⟩
abbrev main_v1930 : Ref sig .tc := ⟨.hbm, 2153, rfl⟩
abbrev main_v1931 : Ref sig .tc := ⟨.hbm, 2154, rfl⟩
abbrev main_v1932 : Ref sig .tc := ⟨.hbm, 2155, rfl⟩
abbrev main_c_214 : Ref sig .tc := ⟨.hbm, 2156, rfl⟩
abbrev main_v1933 : Ref sig .tc := ⟨.hbm, 2157, rfl⟩
abbrev main_v1934 : Ref sig .tc := ⟨.hbm, 2158, rfl⟩
abbrev main_v1935 : Ref sig .tc := ⟨.hbm, 2159, rfl⟩
abbrev main_v1936 : Ref sig .tc := ⟨.hbm, 2160, rfl⟩
abbrev main_v1937 : Ref sig .tc := ⟨.hbm, 2161, rfl⟩
abbrev main_v1938 : Ref sig .tc := ⟨.hbm, 2162, rfl⟩
abbrev main_v1939 : Ref sig .tc := ⟨.hbm, 2163, rfl⟩
abbrev main_v1940 : Ref sig .tc := ⟨.hbm, 2164, rfl⟩
abbrev main_cst_215 : Ref sig .tc := ⟨.hbm, 2165, rfl⟩
abbrev main_v1941 : Ref sig .tc := ⟨.hbm, 2166, rfl⟩
abbrev main_v1942 : Ref sig .tc := ⟨.hbm, 2167, rfl⟩
abbrev main_v1943 : Ref sig .tc := ⟨.hbm, 2168, rfl⟩
abbrev main_v1944 : Ref sig .tc := ⟨.hbm, 2169, rfl⟩
abbrev main_v1945 : Ref sig .tc := ⟨.hbm, 2170, rfl⟩
abbrev main_v1946 : Ref sig .tc := ⟨.hbm, 2171, rfl⟩
abbrev main_v1947 : Ref sig .tc := ⟨.hbm, 2172, rfl⟩
abbrev main_v1948 : Ref sig .tc := ⟨.hbm, 2173, rfl⟩
abbrev main_v1949 : Ref sig .tc := ⟨.hbm, 2174, rfl⟩
abbrev main_v1950 : Ref sig .tc := ⟨.hbm, 2175, rfl⟩
abbrev main_c_216 : Ref sig .tc := ⟨.hbm, 2176, rfl⟩
abbrev main_v1951 : Ref sig .tc := ⟨.hbm, 2177, rfl⟩
abbrev main_v1952 : Ref sig .tc := ⟨.hbm, 2178, rfl⟩
abbrev main_v1953 : Ref sig .tc := ⟨.hbm, 2179, rfl⟩
abbrev main_v1954 : Ref sig .tc := ⟨.hbm, 2180, rfl⟩
abbrev main_v1955 : Ref sig .tc := ⟨.hbm, 2181, rfl⟩
abbrev main_v1956 : Ref sig .tc := ⟨.hbm, 2182, rfl⟩
abbrev main_v1957 : Ref sig .tc := ⟨.hbm, 2183, rfl⟩
abbrev main_v1958 : Ref sig .tc := ⟨.hbm, 2184, rfl⟩
abbrev main_cst_217 : Ref sig .tc := ⟨.hbm, 2185, rfl⟩
abbrev main_v1959 : Ref sig .tc := ⟨.hbm, 2186, rfl⟩
abbrev main_v1960 : Ref sig .tc := ⟨.hbm, 2187, rfl⟩
abbrev main_v1961 : Ref sig .tc := ⟨.hbm, 2188, rfl⟩
abbrev main_v1962 : Ref sig .tc := ⟨.hbm, 2189, rfl⟩
abbrev main_v1963 : Ref sig .tc := ⟨.hbm, 2190, rfl⟩
abbrev main_v1964 : Ref sig .tc := ⟨.hbm, 2191, rfl⟩
abbrev main_v1965 : Ref sig .tc := ⟨.hbm, 2192, rfl⟩
abbrev main_v1966 : Ref sig .tc := ⟨.hbm, 2193, rfl⟩
abbrev main_v1967 : Ref sig .tc := ⟨.hbm, 2194, rfl⟩
abbrev main_v1968 : Ref sig .tc := ⟨.hbm, 2195, rfl⟩
abbrev main_c_218 : Ref sig .tc := ⟨.hbm, 2196, rfl⟩
abbrev main_v1969 : Ref sig .tc := ⟨.hbm, 2197, rfl⟩
abbrev main_v1970 : Ref sig .tc := ⟨.hbm, 2198, rfl⟩
abbrev main_v1971 : Ref sig .tc := ⟨.hbm, 2199, rfl⟩
abbrev main_v1972 : Ref sig .tc := ⟨.hbm, 2200, rfl⟩
abbrev main_v1973 : Ref sig .tc := ⟨.hbm, 2201, rfl⟩
abbrev main_v1974 : Ref sig .tc := ⟨.hbm, 2202, rfl⟩
abbrev main_v1975 : Ref sig .tc := ⟨.hbm, 2203, rfl⟩
abbrev main_v1976 : Ref sig .tc := ⟨.hbm, 2204, rfl⟩
abbrev main_cst_219 : Ref sig .tc := ⟨.hbm, 2205, rfl⟩
abbrev main_v1977 : Ref sig .tc := ⟨.hbm, 2206, rfl⟩
abbrev main_v1978 : Ref sig .tc := ⟨.hbm, 2207, rfl⟩
abbrev main_v1979 : Ref sig .tc := ⟨.hbm, 2208, rfl⟩
abbrev main_v1980 : Ref sig .tc := ⟨.hbm, 2209, rfl⟩
abbrev main_v1981 : Ref sig .tc := ⟨.hbm, 2210, rfl⟩
abbrev main_v1982 : Ref sig .tc := ⟨.hbm, 2211, rfl⟩
abbrev main_v1983 : Ref sig .tc := ⟨.hbm, 2212, rfl⟩
abbrev main_v1984 : Ref sig .tc := ⟨.hbm, 2213, rfl⟩
abbrev main_v1985 : Ref sig .tc := ⟨.hbm, 2214, rfl⟩
abbrev main_v1986 : Ref sig .tc := ⟨.hbm, 2215, rfl⟩
abbrev main_c_220 : Ref sig .tc := ⟨.hbm, 2216, rfl⟩
abbrev main_v1987 : Ref sig .tc := ⟨.hbm, 2217, rfl⟩
abbrev main_v1988 : Ref sig .tc := ⟨.hbm, 2218, rfl⟩
abbrev main_v1989 : Ref sig .tc := ⟨.hbm, 2219, rfl⟩
abbrev main_v1990 : Ref sig .tc := ⟨.hbm, 2220, rfl⟩
abbrev main_v1991 : Ref sig .tc := ⟨.hbm, 2221, rfl⟩
abbrev main_v1992 : Ref sig .tc := ⟨.hbm, 2222, rfl⟩
abbrev main_v1993 : Ref sig .tc := ⟨.hbm, 2223, rfl⟩
abbrev main_v1994 : Ref sig .tc := ⟨.hbm, 2224, rfl⟩
abbrev main_cst_221 : Ref sig .tc := ⟨.hbm, 2225, rfl⟩
abbrev main_v1995 : Ref sig .tc := ⟨.hbm, 2226, rfl⟩
abbrev main_v1996 : Ref sig .tc := ⟨.hbm, 2227, rfl⟩
abbrev main_v1997 : Ref sig .tc := ⟨.hbm, 2228, rfl⟩
abbrev main_v1998 : Ref sig .tc := ⟨.hbm, 2229, rfl⟩
abbrev main_v1999 : Ref sig .tc := ⟨.hbm, 2230, rfl⟩
abbrev main_v2000 : Ref sig .tc := ⟨.hbm, 2231, rfl⟩
abbrev main_v2001 : Ref sig .tc := ⟨.hbm, 2232, rfl⟩
abbrev main_v2002 : Ref sig .tc := ⟨.hbm, 2233, rfl⟩
abbrev main_v2003 : Ref sig .tc := ⟨.hbm, 2234, rfl⟩
abbrev main_v2004 : Ref sig .tc := ⟨.hbm, 2235, rfl⟩
abbrev main_c_222 : Ref sig .tc := ⟨.hbm, 2236, rfl⟩
abbrev main_v2005 : Ref sig .tc := ⟨.hbm, 2237, rfl⟩
abbrev main_v2006 : Ref sig .tc := ⟨.hbm, 2238, rfl⟩
abbrev main_v2007 : Ref sig .tc := ⟨.hbm, 2239, rfl⟩
abbrev main_v2008 : Ref sig .tc := ⟨.hbm, 2240, rfl⟩
abbrev main_v2009 : Ref sig .tc := ⟨.hbm, 2241, rfl⟩
abbrev main_v2010 : Ref sig .tc := ⟨.hbm, 2242, rfl⟩
abbrev main_v2011 : Ref sig .tc := ⟨.hbm, 2243, rfl⟩
abbrev main_v2012 : Ref sig .tc := ⟨.hbm, 2244, rfl⟩
abbrev main_cst_223 : Ref sig .tc := ⟨.hbm, 2245, rfl⟩
abbrev main_v2013 : Ref sig .tc := ⟨.hbm, 2246, rfl⟩
abbrev main_v2014 : Ref sig .tc := ⟨.hbm, 2247, rfl⟩
abbrev main_v2015 : Ref sig .tc := ⟨.hbm, 2248, rfl⟩
abbrev main_v2016 : Ref sig .tc := ⟨.hbm, 2249, rfl⟩
abbrev main_v2017 : Ref sig .tc := ⟨.hbm, 2250, rfl⟩
abbrev main_v2018 : Ref sig .tc := ⟨.hbm, 2251, rfl⟩
abbrev main_v2019 : Ref sig .tc := ⟨.hbm, 2252, rfl⟩
abbrev main_v2020 : Ref sig .tc := ⟨.hbm, 2253, rfl⟩
abbrev main_v2021 : Ref sig .tc := ⟨.hbm, 2254, rfl⟩
abbrev main_v2022 : Ref sig .tc := ⟨.hbm, 2255, rfl⟩
abbrev main_c_224 : Ref sig .tc := ⟨.hbm, 2256, rfl⟩
abbrev main_v2023 : Ref sig .tc := ⟨.hbm, 2257, rfl⟩
abbrev main_v2024 : Ref sig .tc := ⟨.hbm, 2258, rfl⟩
abbrev main_v2025 : Ref sig .tc := ⟨.hbm, 2259, rfl⟩
abbrev main_v2026 : Ref sig .tc := ⟨.hbm, 2260, rfl⟩
abbrev main_v2027 : Ref sig .tc := ⟨.hbm, 2261, rfl⟩
abbrev main_v2028 : Ref sig .tc := ⟨.hbm, 2262, rfl⟩
abbrev main_v2029 : Ref sig .tc := ⟨.hbm, 2263, rfl⟩
abbrev main_v2030 : Ref sig .tc := ⟨.hbm, 2264, rfl⟩
abbrev main_cst_225 : Ref sig .tc := ⟨.hbm, 2265, rfl⟩
abbrev main_v2031 : Ref sig .tc := ⟨.hbm, 2266, rfl⟩
abbrev main_v2032 : Ref sig .tc := ⟨.hbm, 2267, rfl⟩
abbrev main_v2033 : Ref sig .tc := ⟨.hbm, 2268, rfl⟩
abbrev main_v2034 : Ref sig .tc := ⟨.hbm, 2269, rfl⟩
abbrev main_v2035 : Ref sig .tc := ⟨.hbm, 2270, rfl⟩
abbrev main_v2036 : Ref sig .tc := ⟨.hbm, 2271, rfl⟩
abbrev main_v2037 : Ref sig .tc := ⟨.hbm, 2272, rfl⟩
abbrev main_v2038 : Ref sig .tc := ⟨.hbm, 2273, rfl⟩
abbrev main_v2039 : Ref sig .tc := ⟨.hbm, 2274, rfl⟩
abbrev main_v2040 : Ref sig .tc := ⟨.hbm, 2275, rfl⟩
abbrev main_c_226 : Ref sig .tc := ⟨.hbm, 2276, rfl⟩
abbrev main_v2041 : Ref sig .tc := ⟨.hbm, 2277, rfl⟩
abbrev main_v2042 : Ref sig .tc := ⟨.hbm, 2278, rfl⟩
abbrev main_v2043 : Ref sig .tc := ⟨.hbm, 2279, rfl⟩
abbrev main_v2044 : Ref sig .tc := ⟨.hbm, 2280, rfl⟩
abbrev main_v2045 : Ref sig .tc := ⟨.hbm, 2281, rfl⟩
abbrev main_v2046 : Ref sig .tc := ⟨.hbm, 2282, rfl⟩
abbrev main_v2047 : Ref sig .tc := ⟨.hbm, 2283, rfl⟩
abbrev main_v2048 : Ref sig .tc := ⟨.hbm, 2284, rfl⟩
abbrev main_cst_227 : Ref sig .tc := ⟨.hbm, 2285, rfl⟩
abbrev main_v2049 : Ref sig .tc := ⟨.hbm, 2286, rfl⟩
abbrev main_v2050 : Ref sig .tc := ⟨.hbm, 2287, rfl⟩
abbrev main_v2051 : Ref sig .tc := ⟨.hbm, 2288, rfl⟩
abbrev main_v2052 : Ref sig .tc := ⟨.hbm, 2289, rfl⟩
abbrev main_v2053 : Ref sig .tc := ⟨.hbm, 2290, rfl⟩
abbrev main_v2054 : Ref sig .tc := ⟨.hbm, 2291, rfl⟩
abbrev main_v2055 : Ref sig .tc := ⟨.hbm, 2292, rfl⟩
abbrev main_v2056 : Ref sig .tc := ⟨.hbm, 2293, rfl⟩
abbrev main_v2057 : Ref sig .tc := ⟨.hbm, 2294, rfl⟩
abbrev main_v2058 : Ref sig .tc := ⟨.hbm, 2295, rfl⟩
abbrev main_c_228 : Ref sig .tc := ⟨.hbm, 2296, rfl⟩
abbrev main_v2059 : Ref sig .tc := ⟨.hbm, 2297, rfl⟩
abbrev main_v2060 : Ref sig .tc := ⟨.hbm, 2298, rfl⟩
abbrev main_v2061 : Ref sig .tc := ⟨.hbm, 2299, rfl⟩
abbrev main_v2062 : Ref sig .tc := ⟨.hbm, 2300, rfl⟩
abbrev main_v2063 : Ref sig .tc := ⟨.hbm, 2301, rfl⟩
abbrev main_v2064 : Ref sig .tc := ⟨.hbm, 2302, rfl⟩
abbrev main_v2065 : Ref sig .tc := ⟨.hbm, 2303, rfl⟩
abbrev main_v2066 : Ref sig .tc := ⟨.hbm, 2304, rfl⟩
abbrev main_cst_229 : Ref sig .tc := ⟨.hbm, 2305, rfl⟩
abbrev main_v2067 : Ref sig .tc := ⟨.hbm, 2306, rfl⟩
abbrev main_v2068 : Ref sig .tc := ⟨.hbm, 2307, rfl⟩
abbrev main_v2069 : Ref sig .tc := ⟨.hbm, 2308, rfl⟩
abbrev main_v2070 : Ref sig .tc := ⟨.hbm, 2309, rfl⟩
abbrev main_v2071 : Ref sig .tc := ⟨.hbm, 2310, rfl⟩
abbrev main_v2072 : Ref sig .tc := ⟨.hbm, 2311, rfl⟩
abbrev main_v2073 : Ref sig .tc := ⟨.hbm, 2312, rfl⟩
abbrev main_v2074 : Ref sig .tc := ⟨.hbm, 2313, rfl⟩
abbrev main_v2075 : Ref sig .tc := ⟨.hbm, 2314, rfl⟩
abbrev main_v2076 : Ref sig .tc := ⟨.hbm, 2315, rfl⟩
abbrev main_c_230 : Ref sig .tc := ⟨.hbm, 2316, rfl⟩
abbrev main_v2077 : Ref sig .tc := ⟨.hbm, 2317, rfl⟩
abbrev main_v2078 : Ref sig .tc := ⟨.hbm, 2318, rfl⟩
abbrev main_v2079 : Ref sig .tc := ⟨.hbm, 2319, rfl⟩
abbrev main_v2080 : Ref sig .tc := ⟨.hbm, 2320, rfl⟩
abbrev main_v2081 : Ref sig .tc := ⟨.hbm, 2321, rfl⟩
abbrev main_v2082 : Ref sig .tc := ⟨.hbm, 2322, rfl⟩
abbrev main_v2083 : Ref sig .tc := ⟨.hbm, 2323, rfl⟩
abbrev main_v2084 : Ref sig .tc := ⟨.hbm, 2324, rfl⟩
abbrev main_cst_231 : Ref sig .tc := ⟨.hbm, 2325, rfl⟩
abbrev main_v2085 : Ref sig .tc := ⟨.hbm, 2326, rfl⟩
abbrev main_v2086 : Ref sig .tc := ⟨.hbm, 2327, rfl⟩
abbrev main_v2087 : Ref sig .tc := ⟨.hbm, 2328, rfl⟩
abbrev main_v2088 : Ref sig .tc := ⟨.hbm, 2329, rfl⟩
abbrev main_v2089 : Ref sig .tc := ⟨.hbm, 2330, rfl⟩
abbrev main_v2090 : Ref sig .tc := ⟨.hbm, 2331, rfl⟩
abbrev main_v2091 : Ref sig .tc := ⟨.hbm, 2332, rfl⟩
abbrev main_v2092 : Ref sig .tc := ⟨.hbm, 2333, rfl⟩
abbrev main_v2093 : Ref sig .tc := ⟨.hbm, 2334, rfl⟩
abbrev main_v2094 : Ref sig .tc := ⟨.hbm, 2335, rfl⟩
abbrev main_c_232 : Ref sig .tc := ⟨.hbm, 2336, rfl⟩
abbrev main_v2095 : Ref sig .tc := ⟨.hbm, 2337, rfl⟩
abbrev main_v2096 : Ref sig .tc := ⟨.hbm, 2338, rfl⟩
abbrev main_v2097 : Ref sig .tc := ⟨.hbm, 2339, rfl⟩
abbrev main_v2098 : Ref sig .tc := ⟨.hbm, 2340, rfl⟩
abbrev main_v2099 : Ref sig .tc := ⟨.hbm, 2341, rfl⟩
abbrev main_v2100 : Ref sig .tc := ⟨.hbm, 2342, rfl⟩
abbrev main_v2101 : Ref sig .tc := ⟨.hbm, 2343, rfl⟩
abbrev main_v2102 : Ref sig .tc := ⟨.hbm, 2344, rfl⟩
abbrev main_cst_233 : Ref sig .tc := ⟨.hbm, 2345, rfl⟩
abbrev main_v2103 : Ref sig .tc := ⟨.hbm, 2346, rfl⟩
abbrev main_v2104 : Ref sig .tc := ⟨.hbm, 2347, rfl⟩
abbrev main_v2105 : Ref sig .tc := ⟨.hbm, 2348, rfl⟩
abbrev main_v2106 : Ref sig .tc := ⟨.hbm, 2349, rfl⟩
abbrev main_v2107 : Ref sig .tc := ⟨.hbm, 2350, rfl⟩
abbrev main_v2108 : Ref sig .tc := ⟨.hbm, 2351, rfl⟩
abbrev main_v2109 : Ref sig .tc := ⟨.hbm, 2352, rfl⟩
abbrev main_v2110 : Ref sig .tc := ⟨.hbm, 2353, rfl⟩
abbrev main_v2111 : Ref sig .tc := ⟨.hbm, 2354, rfl⟩
abbrev main_v2112 : Ref sig .tc := ⟨.hbm, 2355, rfl⟩
abbrev main_c_234 : Ref sig .tc := ⟨.hbm, 2356, rfl⟩
abbrev main_v2113 : Ref sig .tc := ⟨.hbm, 2357, rfl⟩
abbrev main_v2114 : Ref sig .tc := ⟨.hbm, 2358, rfl⟩
abbrev main_v2115 : Ref sig .tc := ⟨.hbm, 2359, rfl⟩
abbrev main_v2116 : Ref sig .tc := ⟨.hbm, 2360, rfl⟩
abbrev main_v2117 : Ref sig .tc := ⟨.hbm, 2361, rfl⟩
abbrev main_v2118 : Ref sig .tc := ⟨.hbm, 2362, rfl⟩
abbrev main_v2119 : Ref sig .tc := ⟨.hbm, 2363, rfl⟩
abbrev main_v2120 : Ref sig .tc := ⟨.hbm, 2364, rfl⟩
abbrev main_cst_235 : Ref sig .tc := ⟨.hbm, 2365, rfl⟩
abbrev main_v2121 : Ref sig .tc := ⟨.hbm, 2366, rfl⟩
abbrev main_v2122 : Ref sig .tc := ⟨.hbm, 2367, rfl⟩
abbrev main_v2123 : Ref sig .tc := ⟨.hbm, 2368, rfl⟩
abbrev main_v2124 : Ref sig .tc := ⟨.hbm, 2369, rfl⟩
abbrev main_v2125 : Ref sig .tc := ⟨.hbm, 2370, rfl⟩
abbrev main_v2126 : Ref sig .tc := ⟨.hbm, 2371, rfl⟩
abbrev main_v2127 : Ref sig .tc := ⟨.hbm, 2372, rfl⟩
abbrev main_v2128 : Ref sig .tc := ⟨.hbm, 2373, rfl⟩
abbrev main_v2129 : Ref sig .tc := ⟨.hbm, 2374, rfl⟩
abbrev main_v2130 : Ref sig .tc := ⟨.hbm, 2375, rfl⟩
abbrev main_c_236 : Ref sig .tc := ⟨.hbm, 2376, rfl⟩
abbrev main_v2131 : Ref sig .tc := ⟨.hbm, 2377, rfl⟩
abbrev main_v2132 : Ref sig .tc := ⟨.hbm, 2378, rfl⟩
abbrev main_v2133 : Ref sig .tc := ⟨.hbm, 2379, rfl⟩
abbrev main_v2134 : Ref sig .tc := ⟨.hbm, 2380, rfl⟩
abbrev main_v2135 : Ref sig .tc := ⟨.hbm, 2381, rfl⟩
abbrev main_v2136 : Ref sig .tc := ⟨.hbm, 2382, rfl⟩
abbrev main_v2137 : Ref sig .tc := ⟨.hbm, 2383, rfl⟩
abbrev main_v2138 : Ref sig .tc := ⟨.hbm, 2384, rfl⟩
abbrev main_cst_237 : Ref sig .tc := ⟨.hbm, 2385, rfl⟩
abbrev main_v2139 : Ref sig .tc := ⟨.hbm, 2386, rfl⟩
abbrev main_v2140 : Ref sig .tc := ⟨.hbm, 2387, rfl⟩
abbrev main_v2141 : Ref sig .tc := ⟨.hbm, 2388, rfl⟩
abbrev main_v2142 : Ref sig .tc := ⟨.hbm, 2389, rfl⟩
abbrev main_v2143 : Ref sig .tc := ⟨.hbm, 2390, rfl⟩
abbrev main_v2144 : Ref sig .tc := ⟨.hbm, 2391, rfl⟩
abbrev main_v2145 : Ref sig .tc := ⟨.hbm, 2392, rfl⟩
abbrev main_v2146 : Ref sig .tc := ⟨.hbm, 2393, rfl⟩
abbrev main_v2147 : Ref sig .tc := ⟨.hbm, 2394, rfl⟩
abbrev main_v2148 : Ref sig .tc := ⟨.hbm, 2395, rfl⟩
abbrev main_c_238 : Ref sig .tc := ⟨.hbm, 2396, rfl⟩
abbrev main_v2149 : Ref sig .tc := ⟨.hbm, 2397, rfl⟩
abbrev main_v2150 : Ref sig .tc := ⟨.hbm, 2398, rfl⟩
abbrev main_v2151 : Ref sig .tc := ⟨.hbm, 2399, rfl⟩
abbrev main_v2152 : Ref sig .tc := ⟨.hbm, 2400, rfl⟩
abbrev main_v2153 : Ref sig .tc := ⟨.hbm, 2401, rfl⟩
abbrev main_v2154 : Ref sig .tc := ⟨.hbm, 2402, rfl⟩
abbrev main_v2155 : Ref sig .tc := ⟨.hbm, 2403, rfl⟩
abbrev main_v2156 : Ref sig .tc := ⟨.hbm, 2404, rfl⟩
abbrev main_cst_239 : Ref sig .tc := ⟨.hbm, 2405, rfl⟩
abbrev main_v2157 : Ref sig .tc := ⟨.hbm, 2406, rfl⟩
abbrev main_v2158 : Ref sig .tc := ⟨.hbm, 2407, rfl⟩
abbrev main_v2159 : Ref sig .tc := ⟨.hbm, 2408, rfl⟩
abbrev main_v2160 : Ref sig .tc := ⟨.hbm, 2409, rfl⟩
abbrev main_v2161 : Ref sig .tc := ⟨.hbm, 2410, rfl⟩
abbrev main_v2162 : Ref sig .tc := ⟨.hbm, 2411, rfl⟩
abbrev main_v2163 : Ref sig .tc := ⟨.hbm, 2412, rfl⟩
abbrev main_v2164 : Ref sig .tc := ⟨.hbm, 2413, rfl⟩
abbrev main_v2165 : Ref sig .tc := ⟨.hbm, 2414, rfl⟩
abbrev main_v2166 : Ref sig .tc := ⟨.hbm, 2415, rfl⟩
abbrev main_c_240 : Ref sig .tc := ⟨.hbm, 2416, rfl⟩
abbrev main_v2167 : Ref sig .tc := ⟨.hbm, 2417, rfl⟩
abbrev main_v2168 : Ref sig .tc := ⟨.hbm, 2418, rfl⟩
abbrev main_v2169 : Ref sig .tc := ⟨.hbm, 2419, rfl⟩
abbrev main_v2170 : Ref sig .tc := ⟨.hbm, 2420, rfl⟩
abbrev main_v2171 : Ref sig .tc := ⟨.hbm, 2421, rfl⟩
abbrev main_v2172 : Ref sig .tc := ⟨.hbm, 2422, rfl⟩
abbrev main_v2173 : Ref sig .tc := ⟨.hbm, 2423, rfl⟩
abbrev main_v2174 : Ref sig .tc := ⟨.hbm, 2424, rfl⟩
abbrev main_cst_241 : Ref sig .tc := ⟨.hbm, 2425, rfl⟩
abbrev main_v2175 : Ref sig .tc := ⟨.hbm, 2426, rfl⟩
abbrev main_v2176 : Ref sig .tc := ⟨.hbm, 2427, rfl⟩
abbrev main_v2177 : Ref sig .tc := ⟨.hbm, 2428, rfl⟩
abbrev main_v2178 : Ref sig .tc := ⟨.hbm, 2429, rfl⟩
abbrev main_v2179 : Ref sig .tc := ⟨.hbm, 2430, rfl⟩
abbrev main_v2180 : Ref sig .tc := ⟨.hbm, 2431, rfl⟩
abbrev main_v2181 : Ref sig .tc := ⟨.hbm, 2432, rfl⟩
abbrev main_v2182 : Ref sig .tc := ⟨.hbm, 2433, rfl⟩
abbrev main_v2183 : Ref sig .tc := ⟨.hbm, 2434, rfl⟩
abbrev main_v2184 : Ref sig .tc := ⟨.hbm, 2435, rfl⟩
abbrev main_c_242 : Ref sig .tc := ⟨.hbm, 2436, rfl⟩
abbrev main_v2185 : Ref sig .tc := ⟨.hbm, 2437, rfl⟩
abbrev main_v2186 : Ref sig .tc := ⟨.hbm, 2438, rfl⟩
abbrev main_v2187 : Ref sig .tc := ⟨.hbm, 2439, rfl⟩
abbrev main_v2188 : Ref sig .tc := ⟨.hbm, 2440, rfl⟩
abbrev main_v2189 : Ref sig .tc := ⟨.hbm, 2441, rfl⟩
abbrev main_v2190 : Ref sig .tc := ⟨.hbm, 2442, rfl⟩
abbrev main_v2191 : Ref sig .tc := ⟨.hbm, 2443, rfl⟩
abbrev main_v2192 : Ref sig .tc := ⟨.hbm, 2444, rfl⟩
abbrev main_cst_243 : Ref sig .tc := ⟨.hbm, 2445, rfl⟩
abbrev main_v2193 : Ref sig .tc := ⟨.hbm, 2446, rfl⟩
abbrev main_v2194 : Ref sig .tc := ⟨.hbm, 2447, rfl⟩
abbrev main_v2195 : Ref sig .tc := ⟨.hbm, 2448, rfl⟩
abbrev main_v2196 : Ref sig .tc := ⟨.hbm, 2449, rfl⟩
abbrev main_v2197 : Ref sig .tc := ⟨.hbm, 2450, rfl⟩
abbrev main_v2198 : Ref sig .tc := ⟨.hbm, 2451, rfl⟩
abbrev main_v2199 : Ref sig .tc := ⟨.hbm, 2452, rfl⟩
abbrev main_v2200 : Ref sig .tc := ⟨.hbm, 2453, rfl⟩
abbrev main_v2201 : Ref sig .tc := ⟨.hbm, 2454, rfl⟩
abbrev main_v2202 : Ref sig .tc := ⟨.hbm, 2455, rfl⟩
abbrev main_c_244 : Ref sig .tc := ⟨.hbm, 2456, rfl⟩
abbrev main_v2203 : Ref sig .tc := ⟨.hbm, 2457, rfl⟩
abbrev main_v2204 : Ref sig .tc := ⟨.hbm, 2458, rfl⟩
abbrev main_v2205 : Ref sig .tc := ⟨.hbm, 2459, rfl⟩
abbrev main_v2206 : Ref sig .tc := ⟨.hbm, 2460, rfl⟩
abbrev main_v2207 : Ref sig .tc := ⟨.hbm, 2461, rfl⟩
abbrev main_v2208 : Ref sig .tc := ⟨.hbm, 2462, rfl⟩
abbrev main_v2209 : Ref sig .tc := ⟨.hbm, 2463, rfl⟩
abbrev main_v2210 : Ref sig .tc := ⟨.hbm, 2464, rfl⟩
abbrev main_cst_245 : Ref sig .tc := ⟨.hbm, 2465, rfl⟩
abbrev main_v2211 : Ref sig .tc := ⟨.hbm, 2466, rfl⟩
abbrev main_v2212 : Ref sig .tc := ⟨.hbm, 2467, rfl⟩
abbrev main_v2213 : Ref sig .tc := ⟨.hbm, 2468, rfl⟩
abbrev main_v2214 : Ref sig .tc := ⟨.hbm, 2469, rfl⟩
abbrev main_v2215 : Ref sig .tc := ⟨.hbm, 2470, rfl⟩
abbrev main_v2216 : Ref sig .tc := ⟨.hbm, 2471, rfl⟩
abbrev main_v2217 : Ref sig .tc := ⟨.hbm, 2472, rfl⟩
abbrev main_v2218 : Ref sig .tc := ⟨.hbm, 2473, rfl⟩
abbrev main_v2219 : Ref sig .tc := ⟨.hbm, 2474, rfl⟩
abbrev main_v2220 : Ref sig .tc := ⟨.hbm, 2475, rfl⟩
abbrev main_c_246 : Ref sig .tc := ⟨.hbm, 2476, rfl⟩
abbrev main_v2221 : Ref sig .tc := ⟨.hbm, 2477, rfl⟩
abbrev main_v2222 : Ref sig .tc := ⟨.hbm, 2478, rfl⟩
abbrev main_v2223 : Ref sig .tc := ⟨.hbm, 2479, rfl⟩
abbrev main_v2224 : Ref sig .tc := ⟨.hbm, 2480, rfl⟩
abbrev main_v2225 : Ref sig .tc := ⟨.hbm, 2481, rfl⟩
abbrev main_v2226 : Ref sig .tc := ⟨.hbm, 2482, rfl⟩
abbrev main_v2227 : Ref sig .tc := ⟨.hbm, 2483, rfl⟩
abbrev main_v2228 : Ref sig .tc := ⟨.hbm, 2484, rfl⟩
abbrev main_cst_247 : Ref sig .tc := ⟨.hbm, 2485, rfl⟩
abbrev main_v2229 : Ref sig .tc := ⟨.hbm, 2486, rfl⟩
abbrev main_v2230 : Ref sig .tc := ⟨.hbm, 2487, rfl⟩
abbrev main_v2231 : Ref sig .tc := ⟨.hbm, 2488, rfl⟩
abbrev main_v2232 : Ref sig .tc := ⟨.hbm, 2489, rfl⟩
abbrev main_v2233 : Ref sig .tc := ⟨.hbm, 2490, rfl⟩
abbrev main_v2234 : Ref sig .tc := ⟨.hbm, 2491, rfl⟩
abbrev main_v2235 : Ref sig .tc := ⟨.hbm, 2492, rfl⟩
abbrev main_v2236 : Ref sig .tc := ⟨.hbm, 2493, rfl⟩
abbrev main_v2237 : Ref sig .tc := ⟨.hbm, 2494, rfl⟩
abbrev main_v2238 : Ref sig .tc := ⟨.hbm, 2495, rfl⟩
abbrev main_c_248 : Ref sig .tc := ⟨.hbm, 2496, rfl⟩
abbrev main_v2239 : Ref sig .tc := ⟨.hbm, 2497, rfl⟩
abbrev main_v2240 : Ref sig .tc := ⟨.hbm, 2498, rfl⟩
abbrev main_v2241 : Ref sig .tc := ⟨.hbm, 2499, rfl⟩
abbrev main_v2242 : Ref sig .tc := ⟨.hbm, 2500, rfl⟩
abbrev main_v2243 : Ref sig .tc := ⟨.hbm, 2501, rfl⟩
abbrev main_v2244 : Ref sig .tc := ⟨.hbm, 2502, rfl⟩
abbrev main_v2245 : Ref sig .tc := ⟨.hbm, 2503, rfl⟩
abbrev main_v2246 : Ref sig .tc := ⟨.hbm, 2504, rfl⟩
abbrev main_cst_249 : Ref sig .tc := ⟨.hbm, 2505, rfl⟩
abbrev main_v2247 : Ref sig .tc := ⟨.hbm, 2506, rfl⟩
abbrev main_v2248 : Ref sig .tc := ⟨.hbm, 2507, rfl⟩
abbrev main_v2249 : Ref sig .tc := ⟨.hbm, 2508, rfl⟩
abbrev main_v2250 : Ref sig .tc := ⟨.hbm, 2509, rfl⟩
abbrev main_v2251 : Ref sig .tc := ⟨.hbm, 2510, rfl⟩
abbrev main_v2252 : Ref sig .tc := ⟨.hbm, 2511, rfl⟩
abbrev main_v2253 : Ref sig .tc := ⟨.hbm, 2512, rfl⟩
abbrev main_v2254 : Ref sig .tc := ⟨.hbm, 2513, rfl⟩
abbrev main_v2255 : Ref sig .tc := ⟨.hbm, 2514, rfl⟩
abbrev main_v2256 : Ref sig .tc := ⟨.hbm, 2515, rfl⟩
abbrev main_c_250 : Ref sig .tc := ⟨.hbm, 2516, rfl⟩
abbrev main_v2257 : Ref sig .tc := ⟨.hbm, 2517, rfl⟩
abbrev main_v2258 : Ref sig .tc := ⟨.hbm, 2518, rfl⟩
abbrev main_v2259 : Ref sig .tc := ⟨.hbm, 2519, rfl⟩
abbrev main_v2260 : Ref sig .tc := ⟨.hbm, 2520, rfl⟩
abbrev main_v2261 : Ref sig .tc := ⟨.hbm, 2521, rfl⟩
abbrev main_v2262 : Ref sig .tc := ⟨.hbm, 2522, rfl⟩
abbrev main_v2263 : Ref sig .tc := ⟨.hbm, 2523, rfl⟩
abbrev main_v2264 : Ref sig .tc := ⟨.hbm, 2524, rfl⟩
abbrev main_cst_251 : Ref sig .tc := ⟨.hbm, 2525, rfl⟩
abbrev main_v2265 : Ref sig .tc := ⟨.hbm, 2526, rfl⟩
abbrev main_v2266 : Ref sig .tc := ⟨.hbm, 2527, rfl⟩
abbrev main_v2267 : Ref sig .tc := ⟨.hbm, 2528, rfl⟩
abbrev main_v2268 : Ref sig .tc := ⟨.hbm, 2529, rfl⟩
abbrev main_v2269 : Ref sig .tc := ⟨.hbm, 2530, rfl⟩
abbrev main_v2270 : Ref sig .tc := ⟨.hbm, 2531, rfl⟩
abbrev main_v2271 : Ref sig .tc := ⟨.hbm, 2532, rfl⟩
abbrev main_v2272 : Ref sig .tc := ⟨.hbm, 2533, rfl⟩
abbrev main_v2273 : Ref sig .tc := ⟨.hbm, 2534, rfl⟩
abbrev main_v2274 : Ref sig .tc := ⟨.hbm, 2535, rfl⟩
abbrev main_c_252 : Ref sig .tc := ⟨.hbm, 2536, rfl⟩
abbrev main_v2275 : Ref sig .tc := ⟨.hbm, 2537, rfl⟩
abbrev main_v2276 : Ref sig .tc := ⟨.hbm, 2538, rfl⟩
abbrev main_v2277 : Ref sig .tc := ⟨.hbm, 2539, rfl⟩
abbrev main_v2278 : Ref sig .tc := ⟨.hbm, 2540, rfl⟩
abbrev main_v2279 : Ref sig .tc := ⟨.hbm, 2541, rfl⟩
abbrev main_v2280 : Ref sig .tc := ⟨.hbm, 2542, rfl⟩
abbrev main_v2281 : Ref sig .tc := ⟨.hbm, 2543, rfl⟩
abbrev main_v2282 : Ref sig .tc := ⟨.hbm, 2544, rfl⟩
abbrev main_cst_253 : Ref sig .tc := ⟨.hbm, 2545, rfl⟩
abbrev main_v2283 : Ref sig .tc := ⟨.hbm, 2546, rfl⟩
abbrev main_v2284 : Ref sig .tc := ⟨.hbm, 2547, rfl⟩
abbrev main_v2285 : Ref sig .tc := ⟨.hbm, 2548, rfl⟩
abbrev main_v2286 : Ref sig .tc := ⟨.hbm, 2549, rfl⟩
abbrev main_v2287 : Ref sig .tc := ⟨.hbm, 2550, rfl⟩
abbrev main_v2288 : Ref sig .tc := ⟨.hbm, 2551, rfl⟩
abbrev main_v2289 : Ref sig .tc := ⟨.hbm, 2552, rfl⟩
abbrev main_v2290 : Ref sig .tc := ⟨.hbm, 2553, rfl⟩
abbrev main_v2291 : Ref sig .tc := ⟨.hbm, 2554, rfl⟩
abbrev main_v2292 : Ref sig .tc := ⟨.hbm, 2555, rfl⟩
abbrev main_c_254 : Ref sig .tc := ⟨.hbm, 2556, rfl⟩
abbrev main_v2293 : Ref sig .tc := ⟨.hbm, 2557, rfl⟩
abbrev main_v2294 : Ref sig .tc := ⟨.hbm, 2558, rfl⟩
abbrev main_v2295 : Ref sig .tc := ⟨.hbm, 2559, rfl⟩
abbrev main_v2296 : Ref sig .tc := ⟨.hbm, 2560, rfl⟩
abbrev main_v2297 : Ref sig .tc := ⟨.hbm, 2561, rfl⟩
abbrev main_v2298 : Ref sig .tc := ⟨.hbm, 2562, rfl⟩
abbrev main_v2299 : Ref sig .tc := ⟨.hbm, 2563, rfl⟩
abbrev main_v2300 : Ref sig .tc := ⟨.hbm, 2564, rfl⟩
abbrev main_cst_255 : Ref sig .tc := ⟨.hbm, 2565, rfl⟩
abbrev main_v2301 : Ref sig .tc := ⟨.hbm, 2566, rfl⟩
abbrev main_v2302 : Ref sig .tc := ⟨.hbm, 2567, rfl⟩
abbrev main_v2303 : Ref sig .tc := ⟨.hbm, 2568, rfl⟩
abbrev main_v2304 : Ref sig .tc := ⟨.hbm, 2569, rfl⟩
abbrev main_v2305 : Ref sig .tc := ⟨.hbm, 2570, rfl⟩
abbrev main_v2306 : Ref sig .tc := ⟨.hbm, 2571, rfl⟩
abbrev main_v2307 : Ref sig .tc := ⟨.hbm, 2572, rfl⟩
abbrev main_v2308 : Ref sig .tc := ⟨.hbm, 2573, rfl⟩
abbrev main_v2309 : Ref sig .tc := ⟨.hbm, 2574, rfl⟩
abbrev main_v2310 : Ref sig .tc := ⟨.hbm, 2575, rfl⟩
abbrev main_c_256 : Ref sig .tc := ⟨.hbm, 2576, rfl⟩
abbrev main_v2311 : Ref sig .tc := ⟨.hbm, 2577, rfl⟩
abbrev main_v2312 : Ref sig .tc := ⟨.hbm, 2578, rfl⟩
abbrev main_v2313 : Ref sig .tc := ⟨.hbm, 2579, rfl⟩
abbrev main_v2314 : Ref sig .tc := ⟨.hbm, 2580, rfl⟩
abbrev main_v2315 : Ref sig .tc := ⟨.hbm, 2581, rfl⟩
abbrev main_v2316 : Ref sig .tc := ⟨.hbm, 2582, rfl⟩
abbrev main_v2317 : Ref sig .tc := ⟨.hbm, 2583, rfl⟩
abbrev main_v2318 : Ref sig .tc := ⟨.hbm, 2584, rfl⟩
abbrev main_cst_257 : Ref sig .tc := ⟨.hbm, 2585, rfl⟩
abbrev main_v2319 : Ref sig .tc := ⟨.hbm, 2586, rfl⟩
abbrev main_v2320 : Ref sig .tc := ⟨.hbm, 2587, rfl⟩
abbrev main_v2321 : Ref sig .tc := ⟨.hbm, 2588, rfl⟩
abbrev main_v2322 : Ref sig .tc := ⟨.hbm, 2589, rfl⟩
abbrev main_v2323 : Ref sig .tc := ⟨.hbm, 2590, rfl⟩
abbrev main_v2324 : Ref sig .tc := ⟨.hbm, 2591, rfl⟩
abbrev main_v2325 : Ref sig .tc := ⟨.hbm, 2592, rfl⟩
abbrev main_v2326 : Ref sig .tc := ⟨.hbm, 2593, rfl⟩
abbrev main_v2327 : Ref sig .tc := ⟨.hbm, 2594, rfl⟩
abbrev main_v2328 : Ref sig .tc := ⟨.hbm, 2595, rfl⟩
abbrev main_c_258 : Ref sig .tc := ⟨.hbm, 2596, rfl⟩
abbrev main_v2329 : Ref sig .tc := ⟨.hbm, 2597, rfl⟩
abbrev main_v2330 : Ref sig .tc := ⟨.hbm, 2598, rfl⟩
abbrev main_v2331 : Ref sig .tc := ⟨.hbm, 2599, rfl⟩
abbrev main_v2332 : Ref sig .tc := ⟨.hbm, 2600, rfl⟩
abbrev main_v2333 : Ref sig .tc := ⟨.hbm, 2601, rfl⟩
abbrev main_v2334 : Ref sig .tc := ⟨.hbm, 2602, rfl⟩
abbrev main_v2335 : Ref sig .tc := ⟨.hbm, 2603, rfl⟩
abbrev main_v2336 : Ref sig .tc := ⟨.hbm, 2604, rfl⟩
abbrev main_cst_259 : Ref sig .tc := ⟨.hbm, 2605, rfl⟩
abbrev main_v2337 : Ref sig .tc := ⟨.hbm, 2606, rfl⟩
abbrev main_v2338 : Ref sig .tc := ⟨.hbm, 2607, rfl⟩
abbrev main_v2339 : Ref sig .tc := ⟨.hbm, 2608, rfl⟩
abbrev main_v2340 : Ref sig .tc := ⟨.hbm, 2609, rfl⟩
abbrev main_v2341 : Ref sig .tc := ⟨.hbm, 2610, rfl⟩
abbrev main_v2342 : Ref sig .tc := ⟨.hbm, 2611, rfl⟩
abbrev main_v2343 : Ref sig .tc := ⟨.hbm, 2612, rfl⟩
abbrev main_v2344 : Ref sig .tc := ⟨.hbm, 2613, rfl⟩
abbrev main_v2345 : Ref sig .tc := ⟨.hbm, 2614, rfl⟩
abbrev main_v2346 : Ref sig .tc := ⟨.hbm, 2615, rfl⟩
abbrev main_c_260 : Ref sig .tc := ⟨.hbm, 2616, rfl⟩
abbrev main_v2347 : Ref sig .tc := ⟨.hbm, 2617, rfl⟩
abbrev main_v2348 : Ref sig .tc := ⟨.hbm, 2618, rfl⟩
abbrev main_v2349 : Ref sig .tc := ⟨.hbm, 2619, rfl⟩
abbrev main_v2350 : Ref sig .tc := ⟨.hbm, 2620, rfl⟩
abbrev main_v2351 : Ref sig .tc := ⟨.hbm, 2621, rfl⟩
abbrev main_v2352 : Ref sig .tc := ⟨.hbm, 2622, rfl⟩
abbrev main_v2353 : Ref sig .tc := ⟨.hbm, 2623, rfl⟩
abbrev main_v2354 : Ref sig .tc := ⟨.hbm, 2624, rfl⟩
abbrev main_cst_261 : Ref sig .tc := ⟨.hbm, 2625, rfl⟩
abbrev main_v2355 : Ref sig .tc := ⟨.hbm, 2626, rfl⟩
abbrev main_v2356 : Ref sig .tc := ⟨.hbm, 2627, rfl⟩
abbrev main_v2357 : Ref sig .tc := ⟨.hbm, 2628, rfl⟩
abbrev main_v2358 : Ref sig .tc := ⟨.hbm, 2629, rfl⟩
abbrev main_v2359 : Ref sig .tc := ⟨.hbm, 2630, rfl⟩
abbrev main_v2360 : Ref sig .tc := ⟨.hbm, 2631, rfl⟩
abbrev main_v2361 : Ref sig .tc := ⟨.hbm, 2632, rfl⟩
abbrev main_v2362 : Ref sig .tc := ⟨.hbm, 2633, rfl⟩
abbrev main_v2363 : Ref sig .tc := ⟨.hbm, 2634, rfl⟩
abbrev main_v2364 : Ref sig .tc := ⟨.hbm, 2635, rfl⟩
abbrev main_c_262 : Ref sig .tc := ⟨.hbm, 2636, rfl⟩
abbrev main_v2365 : Ref sig .tc := ⟨.hbm, 2637, rfl⟩
abbrev main_v2366 : Ref sig .tc := ⟨.hbm, 2638, rfl⟩
abbrev main_v2367 : Ref sig .tc := ⟨.hbm, 2639, rfl⟩
abbrev main_v2368 : Ref sig .tc := ⟨.hbm, 2640, rfl⟩
abbrev main_v2369 : Ref sig .tc := ⟨.hbm, 2641, rfl⟩
abbrev main_v2370 : Ref sig .tc := ⟨.hbm, 2642, rfl⟩
abbrev main_v2371 : Ref sig .tc := ⟨.hbm, 2643, rfl⟩
abbrev main_v2372 : Ref sig .tc := ⟨.hbm, 2644, rfl⟩
abbrev main_cst_263 : Ref sig .tc := ⟨.hbm, 2645, rfl⟩
abbrev main_v2373 : Ref sig .tc := ⟨.hbm, 2646, rfl⟩
abbrev main_v2374 : Ref sig .tc := ⟨.hbm, 2647, rfl⟩
abbrev main_v2375 : Ref sig .tc := ⟨.hbm, 2648, rfl⟩
abbrev main_v2376 : Ref sig .tc := ⟨.hbm, 2649, rfl⟩
abbrev main_v2377 : Ref sig .tc := ⟨.hbm, 2650, rfl⟩
abbrev main_v2378 : Ref sig .tc := ⟨.hbm, 2651, rfl⟩
abbrev main_v2379 : Ref sig .tc := ⟨.hbm, 2652, rfl⟩
abbrev main_v2380 : Ref sig .tc := ⟨.hbm, 2653, rfl⟩
abbrev main_v2381 : Ref sig .tc := ⟨.hbm, 2654, rfl⟩
abbrev main_v2382 : Ref sig .tc := ⟨.hbm, 2655, rfl⟩
abbrev main_c_264 : Ref sig .tc := ⟨.hbm, 2656, rfl⟩
abbrev main_v2383 : Ref sig .tc := ⟨.hbm, 2657, rfl⟩
abbrev main_v2384 : Ref sig .tc := ⟨.hbm, 2658, rfl⟩
abbrev main_v2385 : Ref sig .tc := ⟨.hbm, 2659, rfl⟩
abbrev main_v2386 : Ref sig .tc := ⟨.hbm, 2660, rfl⟩
abbrev main_v2387 : Ref sig .tc := ⟨.hbm, 2661, rfl⟩
abbrev main_v2388 : Ref sig .tc := ⟨.hbm, 2662, rfl⟩
abbrev main_v2389 : Ref sig .tc := ⟨.hbm, 2663, rfl⟩
abbrev main_v2390 : Ref sig .tc := ⟨.hbm, 2664, rfl⟩
abbrev main_cst_265 : Ref sig .tc := ⟨.hbm, 2665, rfl⟩
abbrev main_v2391 : Ref sig .tc := ⟨.hbm, 2666, rfl⟩
abbrev main_v2392 : Ref sig .tc := ⟨.hbm, 2667, rfl⟩
abbrev main_v2393 : Ref sig .tc := ⟨.hbm, 2668, rfl⟩
abbrev main_v2394 : Ref sig .tc := ⟨.hbm, 2669, rfl⟩
abbrev main_v2395 : Ref sig .tc := ⟨.hbm, 2670, rfl⟩
abbrev main_v2396 : Ref sig .tc := ⟨.hbm, 2671, rfl⟩
abbrev main_v2397 : Ref sig .tc := ⟨.hbm, 2672, rfl⟩
abbrev main_v2398 : Ref sig .tc := ⟨.hbm, 2673, rfl⟩
abbrev main_v2399 : Ref sig .tc := ⟨.hbm, 2674, rfl⟩
abbrev main_v2400 : Ref sig .tc := ⟨.hbm, 2675, rfl⟩
abbrev main_c_266 : Ref sig .tc := ⟨.hbm, 2676, rfl⟩
abbrev main_v2401 : Ref sig .tc := ⟨.hbm, 2677, rfl⟩
abbrev main_v2402 : Ref sig .tc := ⟨.hbm, 2678, rfl⟩
abbrev main_v2403 : Ref sig .tc := ⟨.hbm, 2679, rfl⟩
abbrev main_v2404 : Ref sig .tc := ⟨.hbm, 2680, rfl⟩
abbrev main_v2405 : Ref sig .tc := ⟨.hbm, 2681, rfl⟩
abbrev main_v2406 : Ref sig .tc := ⟨.hbm, 2682, rfl⟩
abbrev main_v2407 : Ref sig .tc := ⟨.hbm, 2683, rfl⟩
abbrev main_v2408 : Ref sig .tc := ⟨.hbm, 2684, rfl⟩
abbrev main_cst_267 : Ref sig .tc := ⟨.hbm, 2685, rfl⟩
abbrev main_v2409 : Ref sig .tc := ⟨.hbm, 2686, rfl⟩
abbrev main_v2410 : Ref sig .tc := ⟨.hbm, 2687, rfl⟩
abbrev main_v2411 : Ref sig .tc := ⟨.hbm, 2688, rfl⟩
abbrev main_v2412 : Ref sig .tc := ⟨.hbm, 2689, rfl⟩
abbrev main_v2413 : Ref sig .tc := ⟨.hbm, 2690, rfl⟩
abbrev main_v2414 : Ref sig .tc := ⟨.hbm, 2691, rfl⟩
abbrev main_v2415 : Ref sig .tc := ⟨.hbm, 2692, rfl⟩
abbrev main_v2416 : Ref sig .tc := ⟨.hbm, 2693, rfl⟩
abbrev main_v2417 : Ref sig .tc := ⟨.hbm, 2694, rfl⟩
abbrev main_v2418 : Ref sig .tc := ⟨.hbm, 2695, rfl⟩
abbrev main_c_268 : Ref sig .tc := ⟨.hbm, 2696, rfl⟩
abbrev main_v2419 : Ref sig .tc := ⟨.hbm, 2697, rfl⟩
abbrev main_v2420 : Ref sig .tc := ⟨.hbm, 2698, rfl⟩
abbrev main_v2421 : Ref sig .tc := ⟨.hbm, 2699, rfl⟩
abbrev main_v2422 : Ref sig .tc := ⟨.hbm, 2700, rfl⟩
abbrev main_v2423 : Ref sig .tc := ⟨.hbm, 2701, rfl⟩
abbrev main_v2424 : Ref sig .tc := ⟨.hbm, 2702, rfl⟩
abbrev main_v2425 : Ref sig .tc := ⟨.hbm, 2703, rfl⟩
abbrev main_v2426 : Ref sig .tc := ⟨.hbm, 2704, rfl⟩
abbrev main_cst_269 : Ref sig .tc := ⟨.hbm, 2705, rfl⟩
abbrev main_v2427 : Ref sig .tc := ⟨.hbm, 2706, rfl⟩
abbrev main_v2428 : Ref sig .tc := ⟨.hbm, 2707, rfl⟩
abbrev main_v2429 : Ref sig .tc := ⟨.hbm, 2708, rfl⟩
abbrev main_v2430 : Ref sig .tc := ⟨.hbm, 2709, rfl⟩
abbrev main_v2431 : Ref sig .tc := ⟨.hbm, 2710, rfl⟩
abbrev main_v2432 : Ref sig .tc := ⟨.hbm, 2711, rfl⟩
abbrev main_v2433 : Ref sig .tc := ⟨.hbm, 2712, rfl⟩
abbrev main_v2434 : Ref sig .tc := ⟨.hbm, 2713, rfl⟩
abbrev main_v2435 : Ref sig .tc := ⟨.hbm, 2714, rfl⟩
abbrev main_v2436 : Ref sig .tc := ⟨.hbm, 2715, rfl⟩
abbrev main_c_270 : Ref sig .tc := ⟨.hbm, 2716, rfl⟩
abbrev main_v2437 : Ref sig .tc := ⟨.hbm, 2717, rfl⟩
abbrev main_v2438 : Ref sig .tc := ⟨.hbm, 2718, rfl⟩
abbrev main_v2439 : Ref sig .tc := ⟨.hbm, 2719, rfl⟩
abbrev main_v2440 : Ref sig .tc := ⟨.hbm, 2720, rfl⟩
abbrev main_v2441 : Ref sig .tc := ⟨.hbm, 2721, rfl⟩
abbrev main_v2442 : Ref sig .tc := ⟨.hbm, 2722, rfl⟩
abbrev main_v2443 : Ref sig .tc := ⟨.hbm, 2723, rfl⟩
abbrev main_v2444 : Ref sig .tc := ⟨.hbm, 2724, rfl⟩
abbrev main_cst_271 : Ref sig .tc := ⟨.hbm, 2725, rfl⟩
abbrev main_v2445 : Ref sig .tc := ⟨.hbm, 2726, rfl⟩
abbrev main_v2446 : Ref sig .tc := ⟨.hbm, 2727, rfl⟩
abbrev main_v2447 : Ref sig .tc := ⟨.hbm, 2728, rfl⟩
abbrev main_v2448 : Ref sig .tc := ⟨.hbm, 2729, rfl⟩
abbrev main_v2449 : Ref sig .tc := ⟨.hbm, 2730, rfl⟩
abbrev main_v2450 : Ref sig .tc := ⟨.hbm, 2731, rfl⟩
abbrev main_v2451 : Ref sig .tc := ⟨.hbm, 2732, rfl⟩
abbrev main_v2452 : Ref sig .tc := ⟨.hbm, 2733, rfl⟩
abbrev main_v2453 : Ref sig .tc := ⟨.hbm, 2734, rfl⟩
abbrev main_v2454 : Ref sig .tc := ⟨.hbm, 2735, rfl⟩
abbrev main_c_272 : Ref sig .tc := ⟨.hbm, 2736, rfl⟩
abbrev main_v2455 : Ref sig .tc := ⟨.hbm, 2737, rfl⟩
abbrev main_v2456 : Ref sig .tc := ⟨.hbm, 2738, rfl⟩
abbrev main_v2457 : Ref sig .tc := ⟨.hbm, 2739, rfl⟩
abbrev main_v2458 : Ref sig .tc := ⟨.hbm, 2740, rfl⟩
abbrev main_v2459 : Ref sig .tc := ⟨.hbm, 2741, rfl⟩
abbrev main_v2460 : Ref sig .tc := ⟨.hbm, 2742, rfl⟩
abbrev main_v2461 : Ref sig .tc := ⟨.hbm, 2743, rfl⟩
abbrev main_v2462 : Ref sig .tc := ⟨.hbm, 2744, rfl⟩
abbrev main_cst_273 : Ref sig .tc := ⟨.hbm, 2745, rfl⟩
abbrev main_v2463 : Ref sig .tc := ⟨.hbm, 2746, rfl⟩
abbrev main_v2464 : Ref sig .tc := ⟨.hbm, 2747, rfl⟩
abbrev main_v2465 : Ref sig .tc := ⟨.hbm, 2748, rfl⟩
abbrev main_v2466 : Ref sig .tc := ⟨.hbm, 2749, rfl⟩
abbrev main_v2467 : Ref sig .tc := ⟨.hbm, 2750, rfl⟩
abbrev main_v2468 : Ref sig .tc := ⟨.hbm, 2751, rfl⟩
abbrev main_v2469 : Ref sig .tc := ⟨.hbm, 2752, rfl⟩
abbrev main_v2470 : Ref sig .tc := ⟨.hbm, 2753, rfl⟩
abbrev main_v2471 : Ref sig .tc := ⟨.hbm, 2754, rfl⟩
abbrev main_v2472 : Ref sig .tc := ⟨.hbm, 2755, rfl⟩
abbrev main_c_274 : Ref sig .tc := ⟨.hbm, 2756, rfl⟩
abbrev main_v2473 : Ref sig .tc := ⟨.hbm, 2757, rfl⟩
abbrev main_v2474 : Ref sig .tc := ⟨.hbm, 2758, rfl⟩
abbrev main_v2475 : Ref sig .tc := ⟨.hbm, 2759, rfl⟩
abbrev main_v2476 : Ref sig .tc := ⟨.hbm, 2760, rfl⟩
abbrev main_v2477 : Ref sig .tc := ⟨.hbm, 2761, rfl⟩
abbrev main_v2478 : Ref sig .tc := ⟨.hbm, 2762, rfl⟩
abbrev main_v2479 : Ref sig .tc := ⟨.hbm, 2763, rfl⟩
abbrev main_v2480 : Ref sig .tc := ⟨.hbm, 2764, rfl⟩
abbrev main_cst_275 : Ref sig .tc := ⟨.hbm, 2765, rfl⟩
abbrev main_v2481 : Ref sig .tc := ⟨.hbm, 2766, rfl⟩
abbrev main_v2482 : Ref sig .tc := ⟨.hbm, 2767, rfl⟩
abbrev main_v2483 : Ref sig .tc := ⟨.hbm, 2768, rfl⟩
abbrev main_v2484 : Ref sig .tc := ⟨.hbm, 2769, rfl⟩
abbrev main_v2485 : Ref sig .tc := ⟨.hbm, 2770, rfl⟩
abbrev main_v2486 : Ref sig .tc := ⟨.hbm, 2771, rfl⟩
abbrev main_v2487 : Ref sig .tc := ⟨.hbm, 2772, rfl⟩
abbrev main_v2488 : Ref sig .tc := ⟨.hbm, 2773, rfl⟩
abbrev main_v2489 : Ref sig .tc := ⟨.hbm, 2774, rfl⟩
abbrev main_v2490 : Ref sig .tc := ⟨.hbm, 2775, rfl⟩
abbrev main_c_276 : Ref sig .tc := ⟨.hbm, 2776, rfl⟩
abbrev main_v2491 : Ref sig .tc := ⟨.hbm, 2777, rfl⟩
abbrev main_v2492 : Ref sig .tc := ⟨.hbm, 2778, rfl⟩
abbrev main_v2493 : Ref sig .tc := ⟨.hbm, 2779, rfl⟩
abbrev main_v2494 : Ref sig .tc := ⟨.hbm, 2780, rfl⟩
abbrev main_v2495 : Ref sig .tc := ⟨.hbm, 2781, rfl⟩
abbrev main_v2496 : Ref sig .tc := ⟨.hbm, 2782, rfl⟩
abbrev main_v2497 : Ref sig .tc := ⟨.hbm, 2783, rfl⟩
abbrev main_v2498 : Ref sig .tc := ⟨.hbm, 2784, rfl⟩
abbrev main_cst_277 : Ref sig .tc := ⟨.hbm, 2785, rfl⟩
abbrev main_v2499 : Ref sig .tc := ⟨.hbm, 2786, rfl⟩
abbrev main_v2500 : Ref sig .tc := ⟨.hbm, 2787, rfl⟩
abbrev main_v2501 : Ref sig .tc := ⟨.hbm, 2788, rfl⟩
abbrev main_v2502 : Ref sig .tc := ⟨.hbm, 2789, rfl⟩
abbrev main_v2503 : Ref sig .tc := ⟨.hbm, 2790, rfl⟩
abbrev main_v2504 : Ref sig .tc := ⟨.hbm, 2791, rfl⟩
abbrev main_v2505 : Ref sig .tc := ⟨.hbm, 2792, rfl⟩
abbrev main_v2506 : Ref sig .tc := ⟨.hbm, 2793, rfl⟩
abbrev main_v2507 : Ref sig .tc := ⟨.hbm, 2794, rfl⟩
abbrev main_v2508 : Ref sig .tc := ⟨.hbm, 2795, rfl⟩
abbrev main_c_278 : Ref sig .tc := ⟨.hbm, 2796, rfl⟩
abbrev main_v2509 : Ref sig .tc := ⟨.hbm, 2797, rfl⟩
abbrev main_v2510 : Ref sig .tc := ⟨.hbm, 2798, rfl⟩
abbrev main_v2511 : Ref sig .tc := ⟨.hbm, 2799, rfl⟩
abbrev main_v2512 : Ref sig .tc := ⟨.hbm, 2800, rfl⟩
abbrev main_v2513 : Ref sig .tc := ⟨.hbm, 2801, rfl⟩
abbrev main_v2514 : Ref sig .tc := ⟨.hbm, 2802, rfl⟩
abbrev main_v2515 : Ref sig .tc := ⟨.hbm, 2803, rfl⟩
abbrev main_v2516 : Ref sig .tc := ⟨.hbm, 2804, rfl⟩
abbrev main_cst_279 : Ref sig .tc := ⟨.hbm, 2805, rfl⟩
abbrev main_v2517 : Ref sig .tc := ⟨.hbm, 2806, rfl⟩
abbrev main_v2518 : Ref sig .tc := ⟨.hbm, 2807, rfl⟩
abbrev main_v2519 : Ref sig .tc := ⟨.hbm, 2808, rfl⟩
abbrev main_v2520 : Ref sig .tc := ⟨.hbm, 2809, rfl⟩
abbrev main_v2521 : Ref sig .tc := ⟨.hbm, 2810, rfl⟩
abbrev main_v2522 : Ref sig .tc := ⟨.hbm, 2811, rfl⟩
abbrev main_v2523 : Ref sig .tc := ⟨.hbm, 2812, rfl⟩
abbrev main_v2524 : Ref sig .tc := ⟨.hbm, 2813, rfl⟩
abbrev main_v2525 : Ref sig .tc := ⟨.hbm, 2814, rfl⟩
abbrev main_v2526 : Ref sig .tc := ⟨.hbm, 2815, rfl⟩
abbrev main_c_280 : Ref sig .tc := ⟨.hbm, 2816, rfl⟩
abbrev main_v2527 : Ref sig .tc := ⟨.hbm, 2817, rfl⟩
abbrev main_v2528 : Ref sig .tc := ⟨.hbm, 2818, rfl⟩
abbrev main_v2529 : Ref sig .tc := ⟨.hbm, 2819, rfl⟩
abbrev main_v2530 : Ref sig .tc := ⟨.hbm, 2820, rfl⟩
abbrev main_v2531 : Ref sig .tc := ⟨.hbm, 2821, rfl⟩
abbrev main_v2532 : Ref sig .tc := ⟨.hbm, 2822, rfl⟩
abbrev main_v2533 : Ref sig .tc := ⟨.hbm, 2823, rfl⟩
abbrev main_v2534 : Ref sig .tc := ⟨.hbm, 2824, rfl⟩
abbrev main_cst_281 : Ref sig .tc := ⟨.hbm, 2825, rfl⟩
abbrev main_v2535 : Ref sig .tc := ⟨.hbm, 2826, rfl⟩
abbrev main_v2536 : Ref sig .tc := ⟨.hbm, 2827, rfl⟩
abbrev main_v2537 : Ref sig .tc := ⟨.hbm, 2828, rfl⟩
abbrev main_v2538 : Ref sig .tc := ⟨.hbm, 2829, rfl⟩
abbrev main_v2539 : Ref sig .tc := ⟨.hbm, 2830, rfl⟩
abbrev main_v2540 : Ref sig .tc := ⟨.hbm, 2831, rfl⟩
abbrev main_v2541 : Ref sig .tc := ⟨.hbm, 2832, rfl⟩
abbrev main_v2542 : Ref sig .tc := ⟨.hbm, 2833, rfl⟩
abbrev main_v2543 : Ref sig .tc := ⟨.hbm, 2834, rfl⟩
abbrev main_v2544 : Ref sig .tc := ⟨.hbm, 2835, rfl⟩
abbrev main_c_282 : Ref sig .tc := ⟨.hbm, 2836, rfl⟩
abbrev main_v2545 : Ref sig .tc := ⟨.hbm, 2837, rfl⟩
abbrev main_v2546 : Ref sig .tc := ⟨.hbm, 2838, rfl⟩
abbrev main_v2547 : Ref sig .tc := ⟨.hbm, 2839, rfl⟩
abbrev main_v2548 : Ref sig .tc := ⟨.hbm, 2840, rfl⟩
abbrev main_v2549 : Ref sig .tc := ⟨.hbm, 2841, rfl⟩
abbrev main_v2550 : Ref sig .tc := ⟨.hbm, 2842, rfl⟩
abbrev main_v2551 : Ref sig .tc := ⟨.hbm, 2843, rfl⟩
abbrev main_v2552 : Ref sig .tc := ⟨.hbm, 2844, rfl⟩
abbrev main_cst_283 : Ref sig .tc := ⟨.hbm, 2845, rfl⟩
abbrev main_v2553 : Ref sig .tc := ⟨.hbm, 2846, rfl⟩
abbrev main_v2554 : Ref sig .tc := ⟨.hbm, 2847, rfl⟩
abbrev main_v2555 : Ref sig .tc := ⟨.hbm, 2848, rfl⟩
abbrev main_v2556 : Ref sig .tc := ⟨.hbm, 2849, rfl⟩
abbrev main_v2557 : Ref sig .tc := ⟨.hbm, 2850, rfl⟩
abbrev main_v2558 : Ref sig .tc := ⟨.hbm, 2851, rfl⟩
abbrev main_v2559 : Ref sig .tc := ⟨.hbm, 2852, rfl⟩
abbrev main_v2560 : Ref sig .tc := ⟨.hbm, 2853, rfl⟩
abbrev main_v2561 : Ref sig .tc := ⟨.hbm, 2854, rfl⟩
abbrev main_v2562 : Ref sig .tc := ⟨.hbm, 2855, rfl⟩
abbrev main_c_284 : Ref sig .tc := ⟨.hbm, 2856, rfl⟩
abbrev main_v2563 : Ref sig .tc := ⟨.hbm, 2857, rfl⟩
abbrev main_v2564 : Ref sig .tc := ⟨.hbm, 2858, rfl⟩
abbrev main_v2565 : Ref sig .tc := ⟨.hbm, 2859, rfl⟩
abbrev main_v2566 : Ref sig .tc := ⟨.hbm, 2860, rfl⟩
abbrev main_v2567 : Ref sig .tc := ⟨.hbm, 2861, rfl⟩
abbrev main_v2568 : Ref sig .tc := ⟨.hbm, 2862, rfl⟩
abbrev main_v2569 : Ref sig .tc := ⟨.hbm, 2863, rfl⟩
abbrev main_v2570 : Ref sig .tc := ⟨.hbm, 2864, rfl⟩
abbrev main_cst_285 : Ref sig .tc := ⟨.hbm, 2865, rfl⟩
abbrev main_v2571 : Ref sig .tc := ⟨.hbm, 2866, rfl⟩
abbrev main_v2572 : Ref sig .tc := ⟨.hbm, 2867, rfl⟩
abbrev main_v2573 : Ref sig .tc := ⟨.hbm, 2868, rfl⟩
abbrev main_v2574 : Ref sig .tc := ⟨.hbm, 2869, rfl⟩
abbrev main_v2575 : Ref sig .tc := ⟨.hbm, 2870, rfl⟩
abbrev main_v2576 : Ref sig .tc := ⟨.hbm, 2871, rfl⟩
abbrev main_v2577 : Ref sig .tc := ⟨.hbm, 2872, rfl⟩
abbrev main_v2578 : Ref sig .tc := ⟨.hbm, 2873, rfl⟩
abbrev main_v2579 : Ref sig .tc := ⟨.hbm, 2874, rfl⟩
abbrev main_v2580 : Ref sig .tc := ⟨.hbm, 2875, rfl⟩
abbrev main_c_286 : Ref sig .tc := ⟨.hbm, 2876, rfl⟩
abbrev main_v2581 : Ref sig .tc := ⟨.hbm, 2877, rfl⟩
abbrev main_v2582 : Ref sig .tc := ⟨.hbm, 2878, rfl⟩
abbrev main_v2583 : Ref sig .tc := ⟨.hbm, 2879, rfl⟩
abbrev main_v2584 : Ref sig .tc := ⟨.hbm, 2880, rfl⟩
abbrev main_v2585 : Ref sig .tc := ⟨.hbm, 2881, rfl⟩
abbrev main_v2586 : Ref sig .tc := ⟨.hbm, 2882, rfl⟩
abbrev main_v2587 : Ref sig .tc := ⟨.hbm, 2883, rfl⟩
abbrev main_v2588 : Ref sig .tc := ⟨.hbm, 2884, rfl⟩
abbrev main_cst_287 : Ref sig .tc := ⟨.hbm, 2885, rfl⟩
abbrev main_v2589 : Ref sig .tc := ⟨.hbm, 2886, rfl⟩
abbrev main_v2590 : Ref sig .tc := ⟨.hbm, 2887, rfl⟩
abbrev main_v2591 : Ref sig .tc := ⟨.hbm, 2888, rfl⟩
abbrev main_v2592 : Ref sig .tc := ⟨.hbm, 2889, rfl⟩
abbrev main_v2593 : Ref sig .tc := ⟨.hbm, 2890, rfl⟩
abbrev main_v2594 : Ref sig .tc := ⟨.hbm, 2891, rfl⟩
abbrev main_v2595 : Ref sig .tc := ⟨.hbm, 2892, rfl⟩
abbrev main_v2596 : Ref sig .tc := ⟨.hbm, 2893, rfl⟩
abbrev main_v2597 : Ref sig .tc := ⟨.hbm, 2894, rfl⟩
abbrev main_v2598 : Ref sig .tc := ⟨.hbm, 2895, rfl⟩
abbrev main_c_288 : Ref sig .tc := ⟨.hbm, 2896, rfl⟩
abbrev main_v2599 : Ref sig .tc := ⟨.hbm, 2897, rfl⟩
abbrev main_v2600 : Ref sig .tc := ⟨.hbm, 2898, rfl⟩
abbrev main_v2601 : Ref sig .tc := ⟨.hbm, 2899, rfl⟩

abbrev nD : Nat := 1
abbrev τ : Topo := Topo.v7x

variable {F : FTy → Type} [FloatOps F]

class Facts₀ : Prop where
  bcast_S_S16384x208 : S_.BroadcastsInDim S16384x208 (![] : Fin 0 → Fin S16384x208.rank)
  bcast_S_S64 : S_.BroadcastsInDim S64 (![] : Fin 0 → Fin S64.rank)
  bcast_S64_S64x1_0 : S64.BroadcastsInDim S64x1 (![0] : Fin 1 → Fin S64x1.rank)
  slices_S16384x208_S16384x64_0_0 : S16384x208.Slices ![0, 0] S16384x64
  slices_S128x64_S1x64_0_0 : S128x64.Slices ![0, 0] S1x64
  shapeCasts_S1x64_S64 : S1x64.ShapeCasts S64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  reducesTo_S16384x64_S16384_d1 : S16384x64.ReducesTo [1] S16384
  h_S_ : 0 < S_.numel
  slices_S128_S1_0 : S128.Slices ![0] S1
  shapeCasts_S1_S_ : S1.ShapeCasts S_
  bcast_S_S16384 : S_.BroadcastsInDim S16384 (![] : Fin 0 → Fin S16384.rank)
  bcast_S_S1 : S_.BroadcastsInDim S1 (![] : Fin 0 → Fin S1.rank)
  slices_S128x64_S1x64_1_0 : S128x64.Slices ![1, 0] S1x64
  slices_S128_S1_1 : S128.Slices ![1] S1
  slices_S128x64_S1x64_2_0 : S128x64.Slices ![2, 0] S1x64
  slices_S128_S1_2 : S128.Slices ![2] S1
  slices_S128x64_S1x64_3_0 : S128x64.Slices ![3, 0] S1x64
  slices_S128_S1_3 : S128.Slices ![3] S1
  slices_S128x64_S1x64_4_0 : S128x64.Slices ![4, 0] S1x64
  slices_S128_S1_4 : S128.Slices ![4] S1
  slices_S128x64_S1x64_5_0 : S128x64.Slices ![5, 0] S1x64
  slices_S128_S1_5 : S128.Slices ![5] S1
  slices_S128x64_S1x64_6_0 : S128x64.Slices ![6, 0] S1x64
  slices_S128_S1_6 : S128.Slices ![6] S1
  slices_S128x64_S1x64_7_0 : S128x64.Slices ![7, 0] S1x64
  slices_S128_S1_7 : S128.Slices ![7] S1
  slices_S128x64_S1x64_8_0 : S128x64.Slices ![8, 0] S1x64
  slices_S128_S1_8 : S128.Slices ![8] S1
  slices_S128x64_S1x64_9_0 : S128x64.Slices ![9, 0] S1x64
  slices_S128_S1_9 : S128.Slices ![9] S1
  slices_S128x64_S1x64_10_0 : S128x64.Slices ![10, 0] S1x64
  slices_S128_S1_10 : S128.Slices ![10] S1
  slices_S128x64_S1x64_11_0 : S128x64.Slices ![11, 0] S1x64
  slices_S128_S1_11 : S128.Slices ![11] S1
  slices_S128x64_S1x64_12_0 : S128x64.Slices ![12, 0] S1x64
  slices_S128_S1_12 : S128.Slices ![12] S1
  slices_S128x64_S1x64_13_0 : S128x64.Slices ![13, 0] S1x64
  slices_S128_S1_13 : S128.Slices ![13] S1
  slices_S128x64_S1x64_14_0 : S128x64.Slices ![14, 0] S1x64
  slices_S128_S1_14 : S128.Slices ![14] S1
  slices_S128x64_S1x64_15_0 : S128x64.Slices ![15, 0] S1x64
  slices_S128_S1_15 : S128.Slices ![15] S1
  slices_S128x64_S1x64_16_0 : S128x64.Slices ![16, 0] S1x64
  slices_S128_S1_16 : S128.Slices ![16] S1
  slices_S128x64_S1x64_17_0 : S128x64.Slices ![17, 0] S1x64
  slices_S128_S1_17 : S128.Slices ![17] S1
  slices_S128x64_S1x64_18_0 : S128x64.Slices ![18, 0] S1x64
  slices_S128_S1_18 : S128.Slices ![18] S1
  slices_S128x64_S1x64_19_0 : S128x64.Slices ![19, 0] S1x64
  slices_S128_S1_19 : S128.Slices ![19] S1
  slices_S128x64_S1x64_20_0 : S128x64.Slices ![20, 0] S1x64
  slices_S128_S1_20 : S128.Slices ![20] S1
  slices_S128x64_S1x64_21_0 : S128x64.Slices ![21, 0] S1x64
  slices_S128_S1_21 : S128.Slices ![21] S1
  slices_S128x64_S1x64_22_0 : S128x64.Slices ![22, 0] S1x64
  slices_S128_S1_22 : S128.Slices ![22] S1
  slices_S128x64_S1x64_23_0 : S128x64.Slices ![23, 0] S1x64
  slices_S128_S1_23 : S128.Slices ![23] S1
  slices_S128x64_S1x64_24_0 : S128x64.Slices ![24, 0] S1x64
  slices_S128_S1_24 : S128.Slices ![24] S1
  slices_S128x64_S1x64_25_0 : S128x64.Slices ![25, 0] S1x64
  slices_S128_S1_25 : S128.Slices ![25] S1
  slices_S128x64_S1x64_26_0 : S128x64.Slices ![26, 0] S1x64
  slices_S128_S1_26 : S128.Slices ![26] S1
  slices_S128x64_S1x64_27_0 : S128x64.Slices ![27, 0] S1x64
  slices_S128_S1_27 : S128.Slices ![27] S1
  slices_S128x64_S1x64_28_0 : S128x64.Slices ![28, 0] S1x64
  slices_S128_S1_28 : S128.Slices ![28] S1
  slices_S128x64_S1x64_29_0 : S128x64.Slices ![29, 0] S1x64
  slices_S128_S1_29 : S128.Slices ![29] S1
  slices_S128x64_S1x64_30_0 : S128x64.Slices ![30, 0] S1x64
  slices_S128_S1_30 : S128.Slices ![30] S1
  slices_S128x64_S1x64_31_0 : S128x64.Slices ![31, 0] S1x64
  slices_S128_S1_31 : S128.Slices ![31] S1
  slices_S128x64_S1x64_32_0 : S128x64.Slices ![32, 0] S1x64
  slices_S128_S1_32 : S128.Slices ![32] S1
  slices_S128x64_S1x64_33_0 : S128x64.Slices ![33, 0] S1x64
  slices_S128_S1_33 : S128.Slices ![33] S1
  slices_S128x64_S1x64_34_0 : S128x64.Slices ![34, 0] S1x64
  slices_S128_S1_34 : S128.Slices ![34] S1
  slices_S128x64_S1x64_35_0 : S128x64.Slices ![35, 0] S1x64
  slices_S128_S1_35 : S128.Slices ![35] S1
  slices_S128x64_S1x64_36_0 : S128x64.Slices ![36, 0] S1x64
  slices_S128_S1_36 : S128.Slices ![36] S1
  slices_S128x64_S1x64_37_0 : S128x64.Slices ![37, 0] S1x64
  slices_S128_S1_37 : S128.Slices ![37] S1
  slices_S128x64_S1x64_38_0 : S128x64.Slices ![38, 0] S1x64
  slices_S128_S1_38 : S128.Slices ![38] S1
  slices_S128x64_S1x64_39_0 : S128x64.Slices ![39, 0] S1x64
  slices_S128_S1_39 : S128.Slices ![39] S1
  slices_S128x64_S1x64_40_0 : S128x64.Slices ![40, 0] S1x64
  slices_S128_S1_40 : S128.Slices ![40] S1
  slices_S128x64_S1x64_41_0 : S128x64.Slices ![41, 0] S1x64
  slices_S128_S1_41 : S128.Slices ![41] S1
  slices_S128x64_S1x64_42_0 : S128x64.Slices ![42, 0] S1x64
  slices_S128_S1_42 : S128.Slices ![42] S1
  slices_S128x64_S1x64_43_0 : S128x64.Slices ![43, 0] S1x64
  slices_S128_S1_43 : S128.Slices ![43] S1
  slices_S128x64_S1x64_44_0 : S128x64.Slices ![44, 0] S1x64
  slices_S128_S1_44 : S128.Slices ![44] S1
  slices_S128x64_S1x64_45_0 : S128x64.Slices ![45, 0] S1x64
  slices_S128_S1_45 : S128.Slices ![45] S1
  slices_S128x64_S1x64_46_0 : S128x64.Slices ![46, 0] S1x64
  slices_S128_S1_46 : S128.Slices ![46] S1
  slices_S128x64_S1x64_47_0 : S128x64.Slices ![47, 0] S1x64
  slices_S128_S1_47 : S128.Slices ![47] S1
  slices_S128x64_S1x64_48_0 : S128x64.Slices ![48, 0] S1x64
  slices_S128_S1_48 : S128.Slices ![48] S1
  slices_S128x64_S1x64_49_0 : S128x64.Slices ![49, 0] S1x64
  slices_S128_S1_49 : S128.Slices ![49] S1
  slices_S128x64_S1x64_50_0 : S128x64.Slices ![50, 0] S1x64
  slices_S128_S1_50 : S128.Slices ![50] S1
  slices_S128x64_S1x64_51_0 : S128x64.Slices ![51, 0] S1x64
  slices_S128_S1_51 : S128.Slices ![51] S1
  slices_S128x64_S1x64_52_0 : S128x64.Slices ![52, 0] S1x64
  slices_S128_S1_52 : S128.Slices ![52] S1
  slices_S128x64_S1x64_53_0 : S128x64.Slices ![53, 0] S1x64
  slices_S128_S1_53 : S128.Slices ![53] S1
  slices_S128x64_S1x64_54_0 : S128x64.Slices ![54, 0] S1x64
  slices_S128_S1_54 : S128.Slices ![54] S1
  slices_S128x64_S1x64_55_0 : S128x64.Slices ![55, 0] S1x64
  slices_S128_S1_55 : S128.Slices ![55] S1
  slices_S128x64_S1x64_56_0 : S128x64.Slices ![56, 0] S1x64
  slices_S128_S1_56 : S128.Slices ![56] S1
  slices_S128x64_S1x64_57_0 : S128x64.Slices ![57, 0] S1x64
  slices_S128_S1_57 : S128.Slices ![57] S1
  slices_S128x64_S1x64_58_0 : S128x64.Slices ![58, 0] S1x64
  slices_S128_S1_58 : S128.Slices ![58] S1
  slices_S128x64_S1x64_59_0 : S128x64.Slices ![59, 0] S1x64
  slices_S128_S1_59 : S128.Slices ![59] S1
  slices_S128x64_S1x64_60_0 : S128x64.Slices ![60, 0] S1x64
  slices_S128_S1_60 : S128.Slices ![60] S1
  slices_S128x64_S1x64_61_0 : S128x64.Slices ![61, 0] S1x64
  slices_S128_S1_61 : S128.Slices ![61] S1
  slices_S128x64_S1x64_62_0 : S128x64.Slices ![62, 0] S1x64
  slices_S128_S1_62 : S128.Slices ![62] S1
  slices_S128x64_S1x64_63_0 : S128x64.Slices ![63, 0] S1x64
  slices_S128_S1_63 : S128.Slices ![63] S1
  slices_S128x64_S1x64_64_0 : S128x64.Slices ![64, 0] S1x64
  slices_S128_S1_64 : S128.Slices ![64] S1
  slices_S128x64_S1x64_65_0 : S128x64.Slices ![65, 0] S1x64
  slices_S128_S1_65 : S128.Slices ![65] S1
  slices_S128x64_S1x64_66_0 : S128x64.Slices ![66, 0] S1x64
  slices_S128_S1_66 : S128.Slices ![66] S1
  slices_S128x64_S1x64_67_0 : S128x64.Slices ![67, 0] S1x64
  slices_S128_S1_67 : S128.Slices ![67] S1
  slices_S128x64_S1x64_68_0 : S128x64.Slices ![68, 0] S1x64
  slices_S128_S1_68 : S128.Slices ![68] S1
  slices_S128x64_S1x64_69_0 : S128x64.Slices ![69, 0] S1x64
  slices_S128_S1_69 : S128.Slices ![69] S1
  slices_S128x64_S1x64_70_0 : S128x64.Slices ![70, 0] S1x64
  slices_S128_S1_70 : S128.Slices ![70] S1
  slices_S128x64_S1x64_71_0 : S128x64.Slices ![71, 0] S1x64
  slices_S128_S1_71 : S128.Slices ![71] S1
  slices_S128x64_S1x64_72_0 : S128x64.Slices ![72, 0] S1x64
  slices_S128_S1_72 : S128.Slices ![72] S1
  slices_S128x64_S1x64_73_0 : S128x64.Slices ![73, 0] S1x64
  slices_S128_S1_73 : S128.Slices ![73] S1
  slices_S128x64_S1x64_74_0 : S128x64.Slices ![74, 0] S1x64
  slices_S128_S1_74 : S128.Slices ![74] S1
  slices_S128x64_S1x64_75_0 : S128x64.Slices ![75, 0] S1x64
  slices_S128_S1_75 : S128.Slices ![75] S1
  slices_S128x64_S1x64_76_0 : S128x64.Slices ![76, 0] S1x64
  slices_S128_S1_76 : S128.Slices ![76] S1
  slices_S128x64_S1x64_77_0 : S128x64.Slices ![77, 0] S1x64
  slices_S128_S1_77 : S128.Slices ![77] S1
  slices_S128x64_S1x64_78_0 : S128x64.Slices ![78, 0] S1x64
  slices_S128_S1_78 : S128.Slices ![78] S1
  slices_S128x64_S1x64_79_0 : S128x64.Slices ![79, 0] S1x64
  slices_S128_S1_79 : S128.Slices ![79] S1
  slices_S128x64_S1x64_80_0 : S128x64.Slices ![80, 0] S1x64
  slices_S128_S1_80 : S128.Slices ![80] S1
  slices_S128x64_S1x64_81_0 : S128x64.Slices ![81, 0] S1x64
  slices_S128_S1_81 : S128.Slices ![81] S1
  slices_S128x64_S1x64_82_0 : S128x64.Slices ![82, 0] S1x64
  slices_S128_S1_82 : S128.Slices ![82] S1
  slices_S128x64_S1x64_83_0 : S128x64.Slices ![83, 0] S1x64
  slices_S128_S1_83 : S128.Slices ![83] S1
  slices_S128x64_S1x64_84_0 : S128x64.Slices ![84, 0] S1x64
  slices_S128_S1_84 : S128.Slices ![84] S1
  slices_S128x64_S1x64_85_0 : S128x64.Slices ![85, 0] S1x64
  slices_S128_S1_85 : S128.Slices ![85] S1
  slices_S128x64_S1x64_86_0 : S128x64.Slices ![86, 0] S1x64
  slices_S128_S1_86 : S128.Slices ![86] S1
  slices_S128x64_S1x64_87_0 : S128x64.Slices ![87, 0] S1x64
  slices_S128_S1_87 : S128.Slices ![87] S1
  slices_S128x64_S1x64_88_0 : S128x64.Slices ![88, 0] S1x64
  slices_S128_S1_88 : S128.Slices ![88] S1
  slices_S128x64_S1x64_89_0 : S128x64.Slices ![89, 0] S1x64
  slices_S128_S1_89 : S128.Slices ![89] S1
  slices_S128x64_S1x64_90_0 : S128x64.Slices ![90, 0] S1x64
  slices_S128_S1_90 : S128.Slices ![90] S1
  slices_S128x64_S1x64_91_0 : S128x64.Slices ![91, 0] S1x64
  slices_S128_S1_91 : S128.Slices ![91] S1
  slices_S128x64_S1x64_92_0 : S128x64.Slices ![92, 0] S1x64
  slices_S128_S1_92 : S128.Slices ![92] S1
  slices_S128x64_S1x64_93_0 : S128x64.Slices ![93, 0] S1x64
  slices_S128_S1_93 : S128.Slices ![93] S1
  slices_S128x64_S1x64_94_0 : S128x64.Slices ![94, 0] S1x64
  slices_S128_S1_94 : S128.Slices ![94] S1
  slices_S128x64_S1x64_95_0 : S128x64.Slices ![95, 0] S1x64
  slices_S128_S1_95 : S128.Slices ![95] S1
  slices_S128x64_S1x64_96_0 : S128x64.Slices ![96, 0] S1x64
  slices_S128_S1_96 : S128.Slices ![96] S1
  slices_S128x64_S1x64_97_0 : S128x64.Slices ![97, 0] S1x64
  slices_S128_S1_97 : S128.Slices ![97] S1
  slices_S128x64_S1x64_98_0 : S128x64.Slices ![98, 0] S1x64
  slices_S128_S1_98 : S128.Slices ![98] S1
  slices_S128x64_S1x64_99_0 : S128x64.Slices ![99, 0] S1x64
  slices_S128_S1_99 : S128.Slices ![99] S1
  slices_S128x64_S1x64_100_0 : S128x64.Slices ![100, 0] S1x64
  slices_S128_S1_100 : S128.Slices ![100] S1
  slices_S128x64_S1x64_101_0 : S128x64.Slices ![101, 0] S1x64
  slices_S128_S1_101 : S128.Slices ![101] S1
  slices_S128x64_S1x64_102_0 : S128x64.Slices ![102, 0] S1x64
  slices_S128_S1_102 : S128.Slices ![102] S1
  slices_S128x64_S1x64_103_0 : S128x64.Slices ![103, 0] S1x64
  slices_S128_S1_103 : S128.Slices ![103] S1
  slices_S128x64_S1x64_104_0 : S128x64.Slices ![104, 0] S1x64
  slices_S128_S1_104 : S128.Slices ![104] S1
  slices_S128x64_S1x64_105_0 : S128x64.Slices ![105, 0] S1x64
  slices_S128_S1_105 : S128.Slices ![105] S1
  slices_S128x64_S1x64_106_0 : S128x64.Slices ![106, 0] S1x64
  slices_S128_S1_106 : S128.Slices ![106] S1
  slices_S128x64_S1x64_107_0 : S128x64.Slices ![107, 0] S1x64
  slices_S128_S1_107 : S128.Slices ![107] S1
  slices_S128x64_S1x64_108_0 : S128x64.Slices ![108, 0] S1x64
  slices_S128_S1_108 : S128.Slices ![108] S1
  slices_S128x64_S1x64_109_0 : S128x64.Slices ![109, 0] S1x64
  slices_S128_S1_109 : S128.Slices ![109] S1
  slices_S128x64_S1x64_110_0 : S128x64.Slices ![110, 0] S1x64
  slices_S128_S1_110 : S128.Slices ![110] S1
  slices_S128x64_S1x64_111_0 : S128x64.Slices ![111, 0] S1x64
  slices_S128_S1_111 : S128.Slices ![111] S1
  slices_S128x64_S1x64_112_0 : S128x64.Slices ![112, 0] S1x64
  slices_S128_S1_112 : S128.Slices ![112] S1
  slices_S128x64_S1x64_113_0 : S128x64.Slices ![113, 0] S1x64
  slices_S128_S1_113 : S128.Slices ![113] S1
  slices_S128x64_S1x64_114_0 : S128x64.Slices ![114, 0] S1x64
  slices_S128_S1_114 : S128.Slices ![114] S1
  slices_S128x64_S1x64_115_0 : S128x64.Slices ![115, 0] S1x64
  slices_S128_S1_115 : S128.Slices ![115] S1
  slices_S128x64_S1x64_116_0 : S128x64.Slices ![116, 0] S1x64
  slices_S128_S1_116 : S128.Slices ![116] S1
  slices_S128x64_S1x64_117_0 : S128x64.Slices ![117, 0] S1x64
  slices_S128_S1_117 : S128.Slices ![117] S1
  slices_S128x64_S1x64_118_0 : S128x64.Slices ![118, 0] S1x64
  slices_S128_S1_118 : S128.Slices ![118] S1
  slices_S128x64_S1x64_119_0 : S128x64.Slices ![119, 0] S1x64
  slices_S128_S1_119 : S128.Slices ![119] S1
  slices_S128x64_S1x64_120_0 : S128x64.Slices ![120, 0] S1x64
  slices_S128_S1_120 : S128.Slices ![120] S1
  slices_S128x64_S1x64_121_0 : S128x64.Slices ![121, 0] S1x64
  slices_S128_S1_121 : S128.Slices ![121] S1
  slices_S128x64_S1x64_122_0 : S128x64.Slices ![122, 0] S1x64
  slices_S128_S1_122 : S128.Slices ![122] S1
  slices_S128x64_S1x64_123_0 : S128x64.Slices ![123, 0] S1x64
  slices_S128_S1_123 : S128.Slices ![123] S1
  slices_S128x64_S1x64_124_0 : S128x64.Slices ![124, 0] S1x64
  slices_S128_S1_124 : S128.Slices ![124] S1
  slices_S128x64_S1x64_125_0 : S128x64.Slices ![125, 0] S1x64
  slices_S128_S1_125 : S128.Slices ![125] S1
  slices_S128x64_S1x64_126_0 : S128x64.Slices ![126, 0] S1x64
  slices_S128_S1_126 : S128.Slices ![126] S1
  slices_S128x64_S1x64_127_0 : S128x64.Slices ![127, 0] S1x64
  slices_S128_S1_127 : S128.Slices ![127] S1
  slices_S16384x208_S16384x128_0_64 : S16384x208.Slices ![0, 64] S16384x128
  slices_S16x128_S1x128_0_0 : S16x128.Slices ![0, 0] S1x128
  shapeCasts_S1x128_S128 : S1x128.ShapeCasts S128
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  reducesTo_S16384x128_S16384_d1 : S16384x128.ReducesTo [1] S16384
  slices_S16_S1_0 : S16.Slices ![0] S1
  slices_S16x128_S1x128_1_0 : S16x128.Slices ![1, 0] S1x128
  slices_S16_S1_1 : S16.Slices ![1] S1
  slices_S16x128_S1x128_2_0 : S16x128.Slices ![2, 0] S1x128
  slices_S16_S1_2 : S16.Slices ![2] S1
  slices_S16x128_S1x128_3_0 : S16x128.Slices ![3, 0] S1x128
  slices_S16_S1_3 : S16.Slices ![3] S1
  slices_S16x128_S1x128_4_0 : S16x128.Slices ![4, 0] S1x128
  slices_S16_S1_4 : S16.Slices ![4] S1
  slices_S16x128_S1x128_5_0 : S16x128.Slices ![5, 0] S1x128
  slices_S16_S1_5 : S16.Slices ![5] S1
  slices_S16x128_S1x128_6_0 : S16x128.Slices ![6, 0] S1x128
  slices_S16_S1_6 : S16.Slices ![6] S1
  slices_S16x128_S1x128_7_0 : S16x128.Slices ![7, 0] S1x128
  slices_S16_S1_7 : S16.Slices ![7] S1
  slices_S16x128_S1x128_8_0 : S16x128.Slices ![8, 0] S1x128
  slices_S16_S1_8 : S16.Slices ![8] S1
  slices_S16x128_S1x128_9_0 : S16x128.Slices ![9, 0] S1x128
  slices_S16_S1_9 : S16.Slices ![9] S1
  slices_S16x128_S1x128_10_0 : S16x128.Slices ![10, 0] S1x128
  slices_S16_S1_10 : S16.Slices ![10] S1
  slices_S16x128_S1x128_11_0 : S16x128.Slices ![11, 0] S1x128
  slices_S16_S1_11 : S16.Slices ![11] S1
  slices_S16x128_S1x128_12_0 : S16x128.Slices ![12, 0] S1x128
  slices_S16_S1_12 : S16.Slices ![12] S1
  slices_S16x128_S1x128_13_0 : S16x128.Slices ![13, 0] S1x128
  slices_S16_S1_13 : S16.Slices ![13] S1
  slices_S16x128_S1x128_14_0 : S16x128.Slices ![14, 0] S1x128
  slices_S16_S1_14 : S16.Slices ![14] S1
  slices_S16x128_S1x128_15_0 : S16x128.Slices ![15, 0] S1x128
  slices_S16_S1_15 : S16.Slices ![15] S1
  slices_S16384x208_S16384x16_0_192 : S16384x208.Slices ![0, 192] S16384x16
  scatter_S16384x208_S64x1_S16384x64_0_1_1_1_wf : ScatterDims.WF S16384x208 S64x1 S16384x64 [0] [1] [1] 1
  scatter_S16384x208_S1_S16384_0_1_1_0_wf : ScatterDims.WF S16384x208 S1 S16384 [0] [1] [1] 0

variable [Facts₀]

def scatter_S16384x208_S64x1_S16384x64_0_1_1_1 : ScatterDims S16384x208 S64x1 S16384x64 where
  updateWindowDims := [0]
  insertedWindowDims := [1]
  scatterDimsToOperandDims := [1]
  indexVectorDim := 1
  wf := scatter_S16384x208_S64x1_S16384x64_0_1_1_1_wf
def scatter_S16384x208_S1_S16384_0_1_1_0 : ScatterDims S16384x208 S1 S16384 where
  updateWindowDims := [0]
  insertedWindowDims := [1]
  scatterDimsToOperandDims := [1]
  indexVectorDim := 0
  wf := scatter_S16384x208_S1_S16384_0_1_1_0_wf

class Facts : Prop extends Facts₀ where

variable [Facts]
-- ==== Proof.FrameBits.lean ====
/- THE FRAME of the program `Kernel`, at any float instance `F`.

   @main is sixteen host operations (transposes, broadcasts, multiplies, three concatenations), ONE pipelined
   region over a grid of two points, and a last host transpose. The region has three windows: window 0 stages the
   [64,8192] block of the transposed input at every point; window 1 stages the whole [160,128] parameter array
   once, at the first point (its index map is constant); window 2 is the output, a [16,8192] block written back
   at every point. The body loads four rectangles of window 1's buffer and the whole of window 0's, also loads
   its output buffer (the value is not used), and overwrites the whole output buffer with one payload.

   What is shown here: the buffers' contents when the region is entered (`V`), @main reduced to the region
   continued by the last transpose (`hmain`), that no host operation writes an argument array (`V_main_argK`,
   `W_main_argK`), what each input window's staging buffer holds when the body runs (its block, fetched at that
   point or not), the body's triple, the proof data of the pipeline (`dats`), the run of @main to the library's
   frame post (`run_main`) and the frame claim itself (`frame`): every argument array ends as launched. -/
import proofs.«129742_g6708738916766_cont_9to1_m_1119_20_alg».proof.Proof.Gen.Kernel.Launch
import proofs.«129742_g6708738916766_cont_9to1_m_1119_20_alg».proof.Proof.Gen.Kernel.Skeleton
import proofs.«129742_g6708738916766_cont_9to1_m_1119_20_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership of an index in a rectangle with an axis of 8192 coordinates is looked at structurally
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around its region -/

/-- What core `c`'s TensorCore buffers hold when the region is entered: the launch contents after the sixteen
    host operations that precede it, as a valuation. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- The operations before the region allocate nothing, -/
theorem hostOps0_fresh : (hostOps0 : List (HloOp τ sig (Elt F))).Forall fun op => op.fresh = ∅ := by
  simp only [List.Forall]; repeat' constructor
/-- nor does the one after it. -/
theorem hostOps1_fresh : (hostOps1 : List (HloOp τ sig (Elt F))).Forall fun op => op.fresh = ∅ := by
  simp only [List.Forall]; repeat' constructor

/-- @main is the host operations before the region, the region, and the host operation after it: holding the
    buffers at the launch contents it reduces to the region, entered at `V` and CONTINUED by the last transpose. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The transpose after the region touches only unscoped TensorCore buffers: the pipeline's arrays and the buffers
    that bypass the region (nothing is prefetched, so these are all of them). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  subst hops
  exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop
/-- And it writes none of the three arrays of the pipeline: its one result buffer is `main_v15`. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  subst hop
  intro w
  fin_cases w <;> simp only [StableHlo.unary_writes, Finset.mem_singleton] <;> exact StableHlo.devRef_ne_of_ne (by decide)

/-! ## No host operation writes an argument array

Each host operation writes its own result buffer only (`main_v0` … `main_v13`, the two constants, `main_v15`), and no
argument array is one of those: told apart as references, operation by operation. -/

/-- The literal list `ops` of host operations holds no operation whose result is the buffer in the goal. -/
local macro "no_result_in " ops:ident : tactic => `(tactic| (
  simp only [$ops:ident, List.flatten_cons, List.flatten_nil, List.append_nil, List.cons_append, List.nil_append, List.Forall,
    StableHlo.nullary_writes, StableHlo.unary_writes, StableHlo.binary_writes, StableHlo.nary_writes, Finset.mem_singleton]
  repeat' apply And.intro
  all_goals exact StableHlo.devRef_ne_of_ne (by decide)))

/-- A buffer none of the sixteen operations before the region writes is found by the region as launched. -/
theorem V_of_unwritten (c : Dev nD) (b : Ref sig .tc)
    (hb : (List.flatten [(hostOps0 : List (HloOp τ sig (Elt F)))]).Forall fun op => Proc.devRef .tc b ∉ op.writes) :
    V m c b = m ((c : Thread nD τ).loc b) :=
  StableHlo.after_of_forall_not_mem (b := Proc.devRef .tc b) _ _ (List.forall_iff_forall_mem.mp hb)

/-- A buffer that is no array of the pipeline and that the transpose after the region does not write ends as the region
    found it. -/
theorem W_of_unwritten (dats : (p : Fin _) → (c : Dev nD) → Dat τ (Elt F) Unit ℕ (UR sig nD τ) ℕ (cfgs p) c) (c : Dev nD) (b : Ref sig .tc)
    (hb : (List.flatten [(hostOps1 : List (HloOp τ sig (Elt F)))]).Forall fun op => Proc.devRef .tc b ∉ op.writes)
    (hne : ∀ w, Pipeline.arrRef spec0 w ≠ b) :
    Pipeline.afterTail₀ cfgs dats 0 (V0 m) [hostOps1] c b = V m c b := by
  unfold Pipeline.afterTail₀
  rw [StableHlo.after_of_forall_not_mem (b := Proc.devRef .tc b) _ _ (List.forall_iff_forall_mem.mp hb),
    Pipeline.withArrays_of_ne _ c (V0 m c) _ b hne]

theorem V_main_arg0 (c : Dev nD) : V m c main_arg0 = m ((c : Thread nD τ).loc main_arg0) :=
  V_of_unwritten m c main_arg0 (by no_result_in hostOps0)
theorem V_main_arg1 (c : Dev nD) : V m c main_arg1 = m ((c : Thread nD τ).loc main_arg1) :=
  V_of_unwritten m c main_arg1 (by no_result_in hostOps0)
theorem V_main_arg2 (c : Dev nD) : V m c main_arg2 = m ((c : Thread nD τ).loc main_arg2) :=
  V_of_unwritten m c main_arg2 (by no_result_in hostOps0)
theorem V_main_arg3 (c : Dev nD) : V m c main_arg3 = m ((c : Thread nD τ).loc main_arg3) :=
  V_of_unwritten m c main_arg3 (by no_result_in hostOps0)
theorem V_main_arg4 (c : Dev nD) : V m c main_arg4 = m ((c : Thread nD τ).loc main_arg4) :=
  V_of_unwritten m c main_arg4 (by no_result_in hostOps0)
theorem V_main_arg5 (c : Dev nD) : V m c main_arg5 = m ((c : Thread nD τ).loc main_arg5) :=
  V_of_unwritten m c main_arg5 (by no_result_in hostOps0)
theorem V_main_arg6 (c : Dev nD) : V m c main_arg6 = m ((c : Thread nD τ).loc main_arg6) :=
  V_of_unwritten m c main_arg6 (by no_result_in hostOps0)

theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) :=
  (W_of_unwritten m dats c main_arg0 (by no_result_in hostOps1) (by decide)).trans (V_main_arg0 m c)
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) :=
  (W_of_unwritten m dats c main_arg1 (by no_result_in hostOps1) (by decide)).trans (V_main_arg1 m c)
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) :=
  (W_of_unwritten m dats c main_arg2 (by no_result_in hostOps1) (by decide)).trans (V_main_arg2 m c)
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) :=
  (W_of_unwritten m dats c main_arg3 (by no_result_in hostOps1) (by decide)).trans (V_main_arg3 m c)
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) :=
  (W_of_unwritten m dats c main_arg4 (by no_result_in hostOps1) (by decide)).trans (V_main_arg4 m c)
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) :=
  (W_of_unwritten m dats c main_arg5 (by no_result_in hostOps1) (by decide)).trans (V_main_arg5 m c)
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) :=
  (W_of_unwritten m dats c main_arg6 (by no_result_in hostOps1) (by decide)).trans (V_main_arg6 m c)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Window 0 (fetched at every point): its current staging buffer holds its block when the body runs, for any proof data
    whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Window 1 (fetched at the first point only: its block index is constant): at the second point the buffer still holds
    what the body left at the first, which is the block — the same block, the index not having moved. So at either point
    it holds its block. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run of @main to the library's frame post — the
    buffers that bypass the region at what the last transpose leaves of their region-entry contents — is the frame
    claim's post: each argument array bypasses the region (it is unscoped and no window's array), is written by no host
    operation after the region (`W_main_argK`) nor before it (`V_main_argK`). -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c),
     ((h c).2 main_arg4 (Pipeline.mem_restRefs_of main_arg4 (by decide) (by decide))).trans (W_main_arg4 m dats c),
     ((h c).2 main_arg5 (Pipeline.mem_restRefs_of main_arg5 (by decide) (by decide))).trans (W_main_arg5 m dats c),
     ((h c).2 main_arg6 (Pipeline.mem_restRefs_of main_arg6 (by decide) (by decide))).trans (W_main_arg6 m dats c)⟩) h

/-! ## The body's accesses -/

/-- The five rectangles the body loads: of the parameter buffer the first-layer weights (rows 0–127, columns 0–63), the
    first-layer bias (rows 0–127, column 64), the second-layer weights (rows 128–143) and the second-layer bias (rows
    144–159, column 0); and the whole input block. -/
abbrev r_w1 : Rect S160x128 := Rect.unit (s := S160x128) ![0, 0] S128x64.size inb_S160x128_S128x64_0_0
abbrev r_b1 : Rect S160x128 := Rect.unit (s := S160x128) ![0, 64] S128x1.size inb_S160x128_S128x1_0_64
abbrev r_w2 : Rect S160x128 := Rect.unit (s := S160x128) ![128, 0] S16x128.size inb_S160x128_S16x128_128_0
abbrev r_b2 : Rect S160x128 := Rect.unit (s := S160x128) ![144, 0] S16x1.size inb_S160x128_S16x1_144_0
abbrev r_x : Rect S64x8192 := Rect.unit (s := S64x8192) ![0, 0] S64x8192.size inb_S64x8192_S64x8192_0_0
/-- The one rectangle it stores through: the whole output block. -/
abbrev r_out : Rect S16x8192 := Rect.unit (s := S16x8192) ![0, 0] S16x8192.size inb_S16x8192_S16x8192_0_0

/-! ## What the body leaves in the output window's buffer -/

/-- The output window's staging buffer after the body, as a function of the two input blocks: its single store, over the
    whole buffer, of the payload of the five loads. -/
def out0_2 (x0 : Vec F S64x8192 .f32) (x1 : Vec F S160x128 .f32) : Vec F S16x8192 .f32 :=
  View.canon [⟨r_out, k0_pay1 (View.ld x1 r_w1) (View.ld x1 r_b1) (View.ld x1 r_w2) (View.ld x1 r_b2) (View.ld x0 r_x)⟩]

/-- That store covers the buffer: it is one block of the buffer's own size. -/
theorem cover0_2 (p0 : Vec F S16x8192 .f32) (y : S16x8192.Idx) :
    ∃ pc ∈ ([⟨r_out, p0⟩] : List (View.Piece (Elt F) S16x8192 .f32)), y ∈ pc.1.set :=
  View.cover_of_tiled [⟨r_out, p0⟩] S16x8192.size (by rfl) y

/-! ## The body's triple -/

set_option maxHeartbeats 1000000 in
/-- The kernel body on whole staging memrefs — the two inputs' at read contents `x0`, `x1`, the output's at anything —
    runs to the continuation holding the inputs' as they were and the output's at `out0_2 x0 x1`. The printed function is
    its skeleton of memory operations: five loads of the inputs, a load of the output buffer (it reads whatever the buffer
    holds, and the value goes nowhere), and the one store. -/
theorem sound_kernel (c : Dev nD) (E : Set ℕ) (i : grid0.Coords) (arg1 : Memref sig .tc .vmem S64x8192 .f32) (harg1 : arg1.IsWhole)
    (arg2 : Memref sig .tc .vmem S160x128 .f32) (harg2 : arg2.IsWhole) (arg3 : Memref sig .tc .vmem S16x8192 .f32) (harg3 : arg3.IsWhole)
    (x0 : Vec F S64x8192 .f32) (x1 : Vec F S160x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__mlp_kernel i arg1 harg1 arg2 harg2 arg3 harg3) K := by
  simp only [cc0__mlp_kernel_eq_skeleton]; unfold cc0__mlp_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the pipeline on core `c`: the arrays as the region finds them; after the body at point `t` each
    input's buffer still at its block and the output's at `out0_2` of the two input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

/-- The proof data's arrays are the region-entry contents (a projection of the definition; `V` is not unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the three windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so the body's triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the library theorem's implicit arguments are found by unifying its conclusion with this one, which takes unfolding plain
-- definitions in a metavariable's type
set_option backward.isDefEq.respectTransparency.types false in
/-- At the compiled mesh, for any values, from any memory with zero counters: every weakly fair execution of @main on the
    TensorCores terminates, and every final state has every array of the pipeline at what the library computes from the
    proof data and every other unscoped buffer as the transpose after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- info: 'Cert.Kernel.Gen.run_main' depends on axioms: [propext, Classical.choice, Quot.sound] -/
#guard_msgs in #print axioms run_main

/-- THE FRAME: the program runs (terminates, nothing faulting) and its seven argument arrays end unchanged — the frame
    claim's statement, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (run_main m ρ)

end Cert.Kernel.Gen

end
-- ==== Proof.FrameIdeal.lean ====
/- THE FRAME of the program `KernelIdeal`, at any float instance `F`.

   @main is sixteen host operations (transposes, broadcasts, multiplies, three concatenations), ONE pipelined
   region over a grid of two points, and a last host transpose. The region has three windows: window 0 stages the
   [64,8192] block of the transposed input at every point; window 1 stages the whole [160,128] parameter array
   once, at the first point (its index map is constant); window 2 is the output, a [16,8192] block written back
   at every point. The body loads four rectangles of window 1's buffer and the whole of window 0's, also loads
   its output buffer (the value is not used), and overwrites the whole output buffer with one payload.

   What is shown here: the buffers' contents when the region is entered (`V`), @main reduced to the region
   continued by the last transpose (`hmain`), that no host operation writes an argument array (`V_main_argK`,
   `W_main_argK`), what each input window's staging buffer holds when the body runs (its block, fetched at that
   point or not), the body's triple, the proof data of the pipeline (`dats`), the run of @main to the library's
   frame post (`run_main`) and the frame claim itself (`frame`): every argument array ends as launched. -/
import proofs.«129742_g6708738916766_cont_9to1_m_1119_20_alg».proof.Proof.Gen.KernelIdeal.Launch
import proofs.«129742_g6708738916766_cont_9to1_m_1119_20_alg».proof.Proof.Gen.KernelIdeal.Skeleton
import proofs.«129742_g6708738916766_cont_9to1_m_1119_20_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership of an index in a rectangle with an axis of 8192 coordinates is looked at structurally
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around its region -/

/-- What core `c`'s TensorCore buffers hold when the region is entered: the launch contents after the sixteen
    host operations that precede it, as a valuation. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- The operations before the region allocate nothing, -/
theorem hostOps0_fresh : (hostOps0 : List (HloOp τ sig (Elt F))).Forall fun op => op.fresh = ∅ := by
  simp only [List.Forall]; repeat' constructor
/-- nor does the one after it. -/
theorem hostOps1_fresh : (hostOps1 : List (HloOp τ sig (Elt F))).Forall fun op => op.fresh = ∅ := by
  simp only [List.Forall]; repeat' constructor

/-- @main is the host operations before the region, the region, and the host operation after it: holding the
    buffers at the launch contents it reduces to the region, entered at `V` and CONTINUED by the last transpose. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The transpose after the region touches only unscoped TensorCore buffers: the pipeline's arrays and the buffers
    that bypass the region (nothing is prefetched, so these are all of them). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  subst hops
  exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop
/-- And it writes none of the three arrays of the pipeline: its one result buffer is `main_v15`. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  subst hop
  intro w
  fin_cases w <;> simp only [StableHlo.unary_writes, Finset.mem_singleton] <;> exact StableHlo.devRef_ne_of_ne (by decide)

/-! ## No host operation writes an argument array

Each host operation writes its own result buffer only (`main_v0` … `main_v13`, the two constants, `main_v15`), and no
argument array is one of those: told apart as references, operation by operation. -/

/-- The literal list `ops` of host operations holds no operation whose result is the buffer in the goal. -/
local macro "no_result_in " ops:ident : tactic => `(tactic| (
  simp only [$ops:ident, List.flatten_cons, List.flatten_nil, List.append_nil, List.cons_append, List.nil_append, List.Forall,
    StableHlo.nullary_writes, StableHlo.unary_writes, StableHlo.binary_writes, StableHlo.nary_writes, Finset.mem_singleton]
  repeat' apply And.intro
  all_goals exact StableHlo.devRef_ne_of_ne (by decide)))

/-- A buffer none of the sixteen operations before the region writes is found by the region as launched. -/
theorem V_of_unwritten (c : Dev nD) (b : Ref sig .tc)
    (hb : (List.flatten [(hostOps0 : List (HloOp τ sig (Elt F)))]).Forall fun op => Proc.devRef .tc b ∉ op.writes) :
    V m c b = m ((c : Thread nD τ).loc b) :=
  StableHlo.after_of_forall_not_mem (b := Proc.devRef .tc b) _ _ (List.forall_iff_forall_mem.mp hb)

/-- A buffer that is no array of the pipeline and that the transpose after the region does not write ends as the region
    found it. -/
theorem W_of_unwritten (dats : (p : Fin _) → (c : Dev nD) → Dat τ (Elt F) Unit ℕ (UR sig nD τ) ℕ (cfgs p) c) (c : Dev nD) (b : Ref sig .tc)
    (hb : (List.flatten [(hostOps1 : List (HloOp τ sig (Elt F)))]).Forall fun op => Proc.devRef .tc b ∉ op.writes)
    (hne : ∀ w, Pipeline.arrRef spec0 w ≠ b) :
    Pipeline.afterTail₀ cfgs dats 0 (V0 m) [hostOps1] c b = V m c b := by
  unfold Pipeline.afterTail₀
  rw [StableHlo.after_of_forall_not_mem (b := Proc.devRef .tc b) _ _ (List.forall_iff_forall_mem.mp hb),
    Pipeline.withArrays_of_ne _ c (V0 m c) _ b hne]

theorem V_main_arg0 (c : Dev nD) : V m c main_arg0 = m ((c : Thread nD τ).loc main_arg0) :=
  V_of_unwritten m c main_arg0 (by no_result_in hostOps0)
theorem V_main_arg1 (c : Dev nD) : V m c main_arg1 = m ((c : Thread nD τ).loc main_arg1) :=
  V_of_unwritten m c main_arg1 (by no_result_in hostOps0)
theorem V_main_arg2 (c : Dev nD) : V m c main_arg2 = m ((c : Thread nD τ).loc main_arg2) :=
  V_of_unwritten m c main_arg2 (by no_result_in hostOps0)
theorem V_main_arg3 (c : Dev nD) : V m c main_arg3 = m ((c : Thread nD τ).loc main_arg3) :=
  V_of_unwritten m c main_arg3 (by no_result_in hostOps0)
theorem V_main_arg4 (c : Dev nD) : V m c main_arg4 = m ((c : Thread nD τ).loc main_arg4) :=
  V_of_unwritten m c main_arg4 (by no_result_in hostOps0)
theorem V_main_arg5 (c : Dev nD) : V m c main_arg5 = m ((c : Thread nD τ).loc main_arg5) :=
  V_of_unwritten m c main_arg5 (by no_result_in hostOps0)
theorem V_main_arg6 (c : Dev nD) : V m c main_arg6 = m ((c : Thread nD τ).loc main_arg6) :=
  V_of_unwritten m c main_arg6 (by no_result_in hostOps0)

theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) :=
  (W_of_unwritten m dats c main_arg0 (by no_result_in hostOps1) (by decide)).trans (V_main_arg0 m c)
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) :=
  (W_of_unwritten m dats c main_arg1 (by no_result_in hostOps1) (by decide)).trans (V_main_arg1 m c)
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) :=
  (W_of_unwritten m dats c main_arg2 (by no_result_in hostOps1) (by decide)).trans (V_main_arg2 m c)
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) :=
  (W_of_unwritten m dats c main_arg3 (by no_result_in hostOps1) (by decide)).trans (V_main_arg3 m c)
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) :=
  (W_of_unwritten m dats c main_arg4 (by no_result_in hostOps1) (by decide)).trans (V_main_arg4 m c)
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) :=
  (W_of_unwritten m dats c main_arg5 (by no_result_in hostOps1) (by decide)).trans (V_main_arg5 m c)
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) :=
  (W_of_unwritten m dats c main_arg6 (by no_result_in hostOps1) (by decide)).trans (V_main_arg6 m c)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Window 0 (fetched at every point): its current staging buffer holds its block when the body runs, for any proof data
    whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Window 1 (fetched at the first point only: its block index is constant): at the second point the buffer still holds
    what the body left at the first, which is the block — the same block, the index not having moved. So at either point
    it holds its block. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run of @main to the library's frame post — the
    buffers that bypass the region at what the last transpose leaves of their region-entry contents — is the frame
    claim's post: each argument array bypasses the region (it is unscoped and no window's array), is written by no host
    operation after the region (`W_main_argK`) nor before it (`V_main_argK`). -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c),
     ((h c).2 main_arg4 (Pipeline.mem_restRefs_of main_arg4 (by decide) (by decide))).trans (W_main_arg4 m dats c),
     ((h c).2 main_arg5 (Pipeline.mem_restRefs_of main_arg5 (by decide) (by decide))).trans (W_main_arg5 m dats c),
     ((h c).2 main_arg6 (Pipeline.mem_restRefs_of main_arg6 (by decide) (by decide))).trans (W_main_arg6 m dats c)⟩) h

/-! ## The body's accesses -/

/-- The five rectangles the body loads: of the parameter buffer the first-layer weights (rows 0–127, columns 0–63), the
    first-layer bias (rows 0–127, column 64), the second-layer weights (rows 128–143) and the second-layer bias (rows
    144–159, column 0); and the whole input block. -/
abbrev r_w1 : Rect S160x128 := Rect.unit (s := S160x128) ![0, 0] S128x64.size inb_S160x128_S128x64_0_0
abbrev r_b1 : Rect S160x128 := Rect.unit (s := S160x128) ![0, 64] S128x1.size inb_S160x128_S128x1_0_64
abbrev r_w2 : Rect S160x128 := Rect.unit (s := S160x128) ![128, 0] S16x128.size inb_S160x128_S16x128_128_0
abbrev r_b2 : Rect S160x128 := Rect.unit (s := S160x128) ![144, 0] S16x1.size inb_S160x128_S16x1_144_0
abbrev r_x : Rect S64x8192 := Rect.unit (s := S64x8192) ![0, 0] S64x8192.size inb_S64x8192_S64x8192_0_0
/-- The one rectangle it stores through: the whole output block. -/
abbrev r_out : Rect S16x8192 := Rect.unit (s := S16x8192) ![0, 0] S16x8192.size inb_S16x8192_S16x8192_0_0

/-! ## What the body leaves in the output window's buffer -/

/-- The output window's staging buffer after the body, as a function of the two input blocks: its single store, over the
    whole buffer, of the payload of the five loads. -/
def out0_2 (x0 : Vec F S64x8192 .f32) (x1 : Vec F S160x128 .f32) : Vec F S16x8192 .f32 :=
  View.canon [⟨r_out, k0_pay1 (View.ld x1 r_w1) (View.ld x1 r_b1) (View.ld x1 r_w2) (View.ld x1 r_b2) (View.ld x0 r_x)⟩]

/-- That store covers the buffer: it is one block of the buffer's own size. -/
theorem cover0_2 (p0 : Vec F S16x8192 .f32) (y : S16x8192.Idx) :
    ∃ pc ∈ ([⟨r_out, p0⟩] : List (View.Piece (Elt F) S16x8192 .f32)), y ∈ pc.1.set :=
  View.cover_of_tiled [⟨r_out, p0⟩] S16x8192.size (by rfl) y

/-! ## The body's triple -/

set_option maxHeartbeats 1000000 in
/-- The kernel body on whole staging memrefs — the two inputs' at read contents `x0`, `x1`, the output's at anything —
    runs to the continuation holding the inputs' as they were and the output's at `out0_2 x0 x1`. The printed function is
    its skeleton of memory operations: five loads of the inputs, a load of the output buffer (it reads whatever the buffer
    holds, and the value goes nowhere), and the one store. -/
theorem sound_kernel (c : Dev nD) (E : Set ℕ) (i : grid0.Coords) (arg1 : Memref sig .tc .vmem S64x8192 .f32) (harg1 : arg1.IsWhole)
    (arg2 : Memref sig .tc .vmem S160x128 .f32) (harg2 : arg2.IsWhole) (arg3 : Memref sig .tc .vmem S16x8192 .f32) (harg3 : arg3.IsWhole)
    (x0 : Vec F S64x8192 .f32) (x1 : Vec F S160x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__mlp_kernel i arg1 harg1 arg2 harg2 arg3 harg3) K := by
  simp only [cc0__mlp_kernel_eq_skeleton]; unfold cc0__mlp_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the pipeline on core `c`: the arrays as the region finds them; after the body at point `t` each
    input's buffer still at its block and the output's at `out0_2` of the two input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

/-- The proof data's arrays are the region-entry contents (a projection of the definition; `V` is not unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the three windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so the body's triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the library theorem's implicit arguments are found by unifying its conclusion with this one, which takes unfolding plain
-- definitions in a metavariable's type
set_option backward.isDefEq.respectTransparency.types false in
/-- At the compiled mesh, for any values, from any memory with zero counters: every weakly fair execution of @main on the
    TensorCores terminates, and every final state has every array of the pipeline at what the library computes from the
    proof data and every other unscoped buffer as the transpose after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- info: 'Cert.KernelIdeal.Gen.run_main' depends on axioms: [propext, Classical.choice, Quot.sound] -/
#guard_msgs in #print axioms run_main

/-- THE FRAME: the program runs (terminates, nothing faulting) and its seven argument arrays end unchanged — the frame
    claim's statement, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (run_main m ρ)

end Cert.KernelIdeal.Gen

end
-- ==== Proof.PayloadAt.lean ====
import proofs.«129742_g6708738916766_cont_9to1_m_1119_20_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

/-!
# The kernel body's stored value, read at one index, at the ideal values

The body stores one `[16, 8192]` value: a two-layer perceptron applied to a block of the transposed input,
`tanh (b₂ + W₂ · tanh (b₁ + W₁ · X))`, the biases being columns broadcast along the lanes. Read at the entry
`(p, q)` it is the textbook double sum.
-/

noncomputable section

open scoped BigOperators

namespace Cert.KernelIdeal.PayloadAt

open Idealize.ShloMosaic Idealize.ShloMosaic.ValueIdx
open Cert.KernelIdeal Cert.KernelIdeal.Gen

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The first layer's matrix product into a zero accumulator, read at `(k, q)`: row `k` of `x` against column `q` of `y`. -/
theorem matmul1_apply (x : FVec Ideal S128x64 .f32) (y : FVec Ideal S64x8192 .f32) (k : Fin 128) (q : Fin 8192) :
    matmul dot_S128x64_S64x8192_S128x8192_1_0_0_1_n_n none x y (constant (F := Ideal) S128x8192 .f32 0x00000000#32) (ix2 k q)
      = ∑ i : Fin 64, x (ix2 k i) * y (ix2 i q) := by
  show FloatOps.matmul _ none x y _ (ix2 k q) = _
  rw [Ideal.matmul_constant_zero_apply,
    ← Equiv.sum_comp (contrEquiv1 dot_S128x64_S64x8192_S128x8192_1_0_0_1_n_n 64 rfl rfl).symm]
  refine Finset.sum_congr rfl fun c _ => ?_
  have c2 := contrEquiv1_symm_val dot_S128x64_S64x8192_S128x8192_1_0_0_1_n_n 64 rfl rfl c
  have l2 : dot_S128x64_S64x8192_S128x8192_1_0_0_1_n_n.lhsIdx (ix2 k q) ((contrEquiv1 _ 64 rfl rfl).symm c) = ix2 k c := by
    funext ax; apply Fin.ext
    match ax with
    | ⟨0, _⟩ => simp [DotDims.lhsIdx, dot_S128x64_S64x8192_S128x8192_1_0_0_1_n_n]; rfl
    | ⟨1, _⟩ => simp [DotDims.lhsIdx, dot_S128x64_S64x8192_S128x8192_1_0_0_1_n_n]; exact c2
  have r2 : dot_S128x64_S64x8192_S128x8192_1_0_0_1_n_n.rhsIdx (ix2 k q) ((contrEquiv1 _ 64 rfl rfl).symm c) = ix2 c q := by
    funext ax; apply Fin.ext
    match ax with
    | ⟨0, _⟩ => simp [DotDims.rhsIdx, dot_S128x64_S64x8192_S128x8192_1_0_0_1_n_n]; exact c2
    | ⟨1, _⟩ => simp [DotDims.rhsIdx, dot_S128x64_S64x8192_S128x8192_1_0_0_1_n_n]; rfl
  rw [l2, r2]

/-- The second layer's matrix product into a zero accumulator, read at `(p, q)`: row `p` of `x` against column `q` of `y`. -/
theorem matmul2_apply (x : FVec Ideal S16x128 .f32) (y : FVec Ideal S128x8192 .f32) (p : Fin 16) (q : Fin 8192) :
    matmul dot_S16x128_S128x8192_S16x8192_1_0_0_1_n_n none x y (constant (F := Ideal) S16x8192 .f32 0x00000000#32) (ix2 p q)
      = ∑ k : Fin 128, x (ix2 p k) * y (ix2 k q) := by
  show FloatOps.matmul _ none x y _ (ix2 p q) = _
  rw [Ideal.matmul_constant_zero_apply,
    ← Equiv.sum_comp (contrEquiv1 dot_S16x128_S128x8192_S16x8192_1_0_0_1_n_n 128 rfl rfl).symm]
  refine Finset.sum_congr rfl fun c _ => ?_
  have c2 := contrEquiv1_symm_val dot_S16x128_S128x8192_S16x8192_1_0_0_1_n_n 128 rfl rfl c
  have l2 : dot_S16x128_S128x8192_S16x8192_1_0_0_1_n_n.lhsIdx (ix2 p q) ((contrEquiv1 _ 128 rfl rfl).symm c) = ix2 p c := by
    funext ax; apply Fin.ext
    match ax with
    | ⟨0, _⟩ => simp [DotDims.lhsIdx, dot_S16x128_S128x8192_S16x8192_1_0_0_1_n_n]; rfl
    | ⟨1, _⟩ => simp [DotDims.lhsIdx, dot_S16x128_S128x8192_S16x8192_1_0_0_1_n_n]; exact c2
  have r2 : dot_S16x128_S128x8192_S16x8192_1_0_0_1_n_n.rhsIdx (ix2 p q) ((contrEquiv1 _ 128 rfl rfl).symm c) = ix2 c q := by
    funext ax; apply Fin.ext
    match ax with
    | ⟨0, _⟩ => simp [DotDims.rhsIdx, dot_S16x128_S128x8192_S16x8192_1_0_0_1_n_n]; exact c2
    | ⟨1, _⟩ => simp [DotDims.rhsIdx, dot_S16x128_S128x8192_S16x8192_1_0_0_1_n_n]; rfl
  rw [l2, r2]

/-- The hidden layer read at `(k, q)`: `tanh` of the bias of row `k` plus row `k` of the first weights against column `q` of the input block. -/
theorem hidden_apply (w1 : FVec Ideal S128x64 .f32) (b1 : FVec Ideal S128x1 .f32) (xt : FVec Ideal S64x8192 .f32)
    (k : Fin 128) (q : Fin 8192) :
    tanh (addf (broadcastTo S128x8192 b1 broadcasts_S128x1_S128x8192)
        (matmul dot_S128x64_S64x8192_S128x8192_1_0_0_1_n_n none w1 xt (constant (F := Ideal) S128x8192 .f32 0x00000000#32))) (ix2 k q)
      = Ideal.tanh (b1 (ix2 k 0) + ∑ i : Fin 64, w1 (ix2 k i) * xt (ix2 i q)) := by
  show Ideal.tanh (broadcastTo S128x8192 b1 broadcasts_S128x1_S128x8192 (ix2 k q)
      + matmul dot_S128x64_S64x8192_S128x8192_1_0_0_1_n_n none w1 xt (constant (F := Ideal) S128x8192 .f32 0x00000000#32) (ix2 k q)) = _
  rw [broadcastTo_a1_ab_apply, matmul1_apply]

/-- The body's stored value at `(p, q)`: the two-layer perceptron's output `p` on column `q` of the input block,
    `tanh (b₂ p + ∑ k, W₂ p k · tanh (b₁ k + ∑ i, W₁ k i · X i q))`. -/
theorem pay_apply (v0 : Vec Ideal S128x64 .f32) (v2 : Vec Ideal S128x1 .f32) (v4 : Vec Ideal S16x128 .f32)
    (v6 : Vec Ideal S16x1 .f32) (v8 : Vec Ideal S64x8192 .f32) (p : Fin 16) (q : Fin 8192) :
    Gen.k0_pay1 (F := Ideal) v0 v2 v4 v6 v8 (ix2 p q)
      = Ideal.tanh (v6 (ix2 p 0) + ∑ k : Fin 128, v4 (ix2 p k)
          * Ideal.tanh (v2 (ix2 k 0) + ∑ i : Fin 64, v0 (ix2 k i) * v8 (ix2 i q))) := by
  unfold Gen.k0_pay1
  simp only [shapeCast_self]
  show Ideal.tanh (broadcastTo S16x8192 v6 broadcasts_S16x1_S16x8192 (ix2 p q)
      + matmul dot_S16x128_S128x8192_S16x8192_1_0_0_1_n_n none v4
          (tanh (addf (broadcastTo S128x8192 v2 broadcasts_S128x1_S128x8192)
            (matmul dot_S128x64_S64x8192_S128x8192_1_0_0_1_n_n none v0 v8 (constant (F := Ideal) S128x8192 .f32 0x00000000#32))))
          (constant (F := Ideal) S16x8192 .f32 0x00000000#32) (ix2 p q)) = _
  rw [broadcastTo_a1_ab_apply, matmul2_apply]
  refine congrArg (fun s => Ideal.tanh (v6 (ix2 p 0) + s)) (Finset.sum_congr rfl fun k _ => ?_)
  rw [hidden_apply]

end Cert.KernelIdeal.PayloadAt

end
-- ==== Proof.PackedAt.lean ====
import proofs.«129742_g6708738916766_cont_9to1_m_1119_20_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout

/-!
# The two window arrays the host line writes, read at an index, at the ideal values

Before the region the host transposes the input (`[16384, 64]` to `[64, 16384]`) and packs the six parameter arrays
into one `[160, 128]` block: the first layer's weights with each row scaled, its bias as column `64`, the second
layer's weights with each row scaled, its bias as a column, zeros elsewhere. This file reads both arrays at the
cells the kernel loads.
-/

noncomputable section

open scoped BigOperators

namespace Cert.KernelIdeal.PackedAt

open Idealize.ShloMosaic Idealize.ShloMosaic.ValueIdx
open Cert.KernelIdeal Cert.KernelIdeal.Gen

section Results
variable {τ' : Topo} {sig' : RefSig} {Val : EltTy → Type} {x a b y : Ref sig' .tc}

/-- An operation over a LITERAL family of three references writes, at its result reference, its function of the three
    operands' contents, each at its own reference. -/
theorem nary3_result
    (f : ((k : Fin 3) → ((![x, a, b] : Fin 3 → Ref sig' .tc) k).ty.Contents Val) → y.ty.Contents Val) (hxs hy)
    (F : Valuation τ' sig' Val) :
    (StableHlo.nary (τ := τ') ![x, a, b] y f hxs hy).result F (Proc.devRef .tc y)
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

end Results

theorem nary3_result' {τ' : Topo} {sig' : RefSig} {Val : EltTy → Type} {x a b y : Ref sig' .tc}
    (f : ((k : Fin 3) → ((![x, a, b] : Fin 3 → Ref sig' .tc) k).ty.Contents Val) → y.ty.Contents Val) (hxs hy)
    (F : Valuation τ' sig' Val) :
    (StableHlo.nary (τ := τ') ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- The contents of one reference after a literal line of host operations, as the operations' composed term: each
    operation's result at its own reference is its function's value, and at any other reference what was there. -/
macro "host_results" : tactic =>
  `(tactic| (simp (disch := decide) only [StableHlo.after_cons, StableHlo.after_nil,
      nary3_result', StableHlo.nullary_result', StableHlo.unary_result', StableHlo.binary_result',
      StableHlo.nullary_result_ne', StableHlo.unary_result_ne', StableHlo.binary_result_ne', StableHlo.nary_result_ne']))

/-! ## The packed parameter block as a term of the parameter arrays -/

section Term
variable (a1 : S128x64.Idx → EReal) (a2 : S16x128.Idx → EReal) (a3 : S128.Idx → EReal) (a4 : S16.Idx → EReal)
  (a5 : S128.Idx → EReal) (a6 : S16.Idx → EReal)

/-- Rows `0..127` of the block: the first layer's weights, each row scaled (columns `0..63`), its bias (column `64`),
    zeros (columns `65..127`). -/
def top : S128x128.Idx → EReal :=
  concatenate S128x128 1
    [⟨S128x64, mulf (F := Ideal) (φ := .f32) a1 (broadcastInDim S128x64 ![0, 1] bcast_S128x1_S128x64_0_1 (broadcastInDim S128x1 ![0] bcast_S128_S128x1_0 a5))⟩,
     ⟨S128x1, broadcastInDim S128x1 ![0] bcast_S128_S128x1_0 a3⟩,
     ⟨S128x63, broadcastInDim S128x63 ![] bcast_S_S128x63 (constant (F := Ideal) S_ .f32 0x00000000#32)⟩]
    concatenates_S128x64_S128x1_S128x63_S128x128_d1

/-- Rows `128..143` of the block: the second layer's weights, each row scaled. -/
def mid : S16x128.Idx → EReal :=
  mulf (F := Ideal) (φ := .f32) a2 (broadcastInDim S16x128 ![0, 1] bcast_S16x1_S16x128_0_1 (broadcastInDim S16x1 ![0] bcast_S16_S16x1_0 a6))

/-- Rows `144..159` of the block: the second layer's bias (column `0`), zeros (columns `1..127`). -/
def bot : S16x128.Idx → EReal :=
  concatenate S16x128 1
    [⟨S16x1, broadcastInDim S16x1 ![0] bcast_S16_S16x1_0 a4⟩,
     ⟨S16x127, broadcastInDim S16x127 ![] bcast_S_S16x127 (constant (F := Ideal) S_ .f32 0x00000000#32)⟩]
    concatenates_S16x1_S16x127_S16x128_d1

/-- The packed parameter block `[160, 128]`: the three groups of rows, one above the other. -/
def packed : S160x128.Idx → EReal :=
  concatenate S160x128 0 [⟨S128x128, top a1 a3 a5⟩, ⟨S16x128, mid a2 a6⟩, ⟨S16x128, bot a4⟩]
    concatenates_S128x128_S16x128_S16x128_S160x128_d0

end Term

/-! ## The broadcasts of the host line, read at an index -/

/-- A vector `[a]` placed as a column `[a, 1]` reads, at `(p, u)`, its entry `p`. -/
theorem broadcastInDim_a_a1_apply {α : Type} {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ (![0] : Fin 1 → Fin 2) h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- A column `[a, 1]` broadcast along its rows to `[a, b]` reads, at `(p, c)`, the column's entry `p`. -/
theorem broadcastInDim_a1_ab_apply {α : Type} {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ (![0, 1] : Fin 2 → Fin 2) h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-! ## The packed block read at the cells the kernel loads -/

section Cells
variable (a1 : S128x64.Idx → EReal) (a2 : S16x128.Idx → EReal) (a3 : S128.Idx → EReal) (a4 : S16.Idx → EReal)
  (a5 : S128.Idx → EReal) (a6 : S16.Idx → EReal)

/-- The top rows at a column below `64`: the first layer's weight times its row's scale, `a1 k i · a5 k`. -/
theorem top_weight (k : Fin 128) (c : Fin 128) (i : Fin 64) (hc : c.val = i.val) :
    top a1 a3 a5 (ix2 k c) = a1 (ix2 k i) * a5 (ix1 k) := by
  unfold top
  refine Eq.trans (concatenate_apply_piece (1 : Fin 2) _ _ (ix2 k c) 0 ?_ S128x64
    (mulf (F := Ideal) (φ := .f32) a1 (broadcastInDim S128x64 ![0, 1] bcast_S128x1_S128x64_0_1 (broadcastInDim S128x1 ![0] bcast_S128_S128x1_0 a5)))
    ?_ ?_ 0 ?_ (ix2 k i) ?_ ?_) ?_
  · exact Nat.succ_pos _
  · rfl
  · rfl
  · rfl
  · intro b hb
    match b, hb with
    | ⟨0, _⟩, _ => rfl
    | ⟨1, _⟩, hb => exact absurd rfl hb
  · show 0 + i.val = c.val
    omega
  rw [mulf_apply, broadcastInDim_a1_ab_apply, broadcastInDim_a_a1_apply]

/-- The top rows at column `64`: the first layer's bias, `a3 k`. -/
theorem top_bias (k : Fin 128) (c : Fin 128) (hc : c.val = 64) :
    top a1 a3 a5 (ix2 k c) = a3 (ix1 k) := by
  unfold top
  refine Eq.trans (concatenate_apply_piece (1 : Fin 2) _ _ (ix2 k c) 1 ?_ S128x1
    (broadcastInDim S128x1 ![0] bcast_S128_S128x1_0 a3) ?_ ?_ 64 ?_ (ix2 k (0 : Fin 1)) ?_ ?_) ?_
  · exact Nat.succ_lt_succ (Nat.succ_pos _)
  · rfl
  · rfl
  · rfl
  · intro b hb
    match b, hb with
    | ⟨0, _⟩, _ => rfl
    | ⟨1, _⟩, hb => exact absurd rfl hb
  · show 64 + 0 = c.val
    omega
  rw [broadcastInDim_a_a1_apply]

/-- The middle rows: the second layer's weight times its row's scale, `a2 o k · a6 o`. -/
theorem mid_weight (o : Fin 16) (k : Fin 128) : mid a2 a6 (ix2 o k) = a2 (ix2 o k) * a6 (ix1 o) := by
  unfold mid
  rw [mulf_apply, broadcastInDim_a1_ab_apply, broadcastInDim_a_a1_apply]

/-- The bottom rows at column `0`: the second layer's bias, `a4 o`. -/
theorem bot_bias (o : Fin 16) (c : Fin 128) (hc : c.val = 0) : bot a4 (ix2 o c) = a4 (ix1 o) := by
  unfold bot
  refine Eq.trans (concatenate_apply_piece (1 : Fin 2) _ _ (ix2 o c) 0 ?_ S16x1
    (broadcastInDim S16x1 ![0] bcast_S16_S16x1_0 a4) ?_ ?_ 0 ?_ (ix2 o (0 : Fin 1)) ?_ ?_) ?_
  · exact Nat.succ_pos _
  · rfl
  · rfl
  · rfl
  · intro b hb
    match b, hb with
    | ⟨0, _⟩, _ => rfl
    | ⟨1, _⟩, hb => exact absurd rfl hb
  · show 0 + 0 = c.val
    omega
  rw [broadcastInDim_a_a1_apply]

/-- A row below `128` of the block is that row of the top group. -/
theorem packed_top (r : Fin 160) (c : Fin 128) (k : Fin 128) (hr : r.val = k.val) :
    packed a1 a2 a3 a4 a5 a6 (ix2 r c) = top a1 a3 a5 (ix2 k c) := by
  unfold packed
  refine concatenate_apply_piece (0 : Fin 2) _ _ (ix2 r c) 0 ?_ S128x128 (top a1 a3 a5) ?_ ?_ 0 ?_ (ix2 k c) ?_ ?_
  · exact Nat.succ_pos _
  · rfl
  · rfl
  · rfl
  · intro b hb
    match b, hb with
    | ⟨0, _⟩, hb => exact absurd rfl hb
    | ⟨1, _⟩, _ => rfl
  · show 0 + k.val = r.val
    omega

/-- Row `128 + o` of the block is row `o` of the middle group. -/
theorem packed_mid (r : Fin 160) (c : Fin 128) (o : Fin 16) (hr : r.val = 128 + o.val) :
    packed a1 a2 a3 a4 a5 a6 (ix2 r c) = mid a2 a6 (ix2 o c) := by
  unfold packed
  refine concatenate_apply_piece (0 : Fin 2) _ _ (ix2 r c) 1 ?_ S16x128 (mid a2 a6) ?_ ?_ 128 ?_ (ix2 o c) ?_ ?_
  · exact Nat.succ_lt_succ (Nat.succ_pos _)
  · rfl
  · rfl
  · rfl
  · intro b hb
    match b, hb with
    | ⟨0, _⟩, hb => exact absurd rfl hb
    | ⟨1, _⟩, _ => rfl
  · show 128 + o.val = r.val
    omega

/-- Row `144 + o` of the block is row `o` of the bottom group. -/
theorem packed_bot (r : Fin 160) (c : Fin 128) (o : Fin 16) (hr : r.val = 144 + o.val) :
    packed a1 a2 a3 a4 a5 a6 (ix2 r c) = bot a4 (ix2 o c) := by
  unfold packed
  refine concatenate_apply_piece (0 : Fin 2) _ _ (ix2 r c) 2 ?_ S16x128 (bot a4) ?_ ?_ 144 ?_ (ix2 o c) ?_ ?_
  · exact Nat.succ_lt_succ (Nat.succ_lt_succ (Nat.succ_pos _))
  · rfl
  · rfl
  · rfl
  · intro b hb
    match b, hb with
    | ⟨0, _⟩, hb => exact absurd rfl hb
    | ⟨1, _⟩, _ => rfl
  · show 144 + o.val = r.val
    omega

end Cells

/-! ## The host line's two window arrays, and the cells read -/

section Line
variable (V0 : Valuation τ sig (Elt Ideal))

/-- The input `[16384, 64]` before the host line, as an array of extended reals. -/
abbrev a0 : S16384x64.Idx → EReal := V0 (Proc.devRef .tc main_arg0)
/-- The first layer's weights `[128, 64]`. -/
abbrev a1 : S128x64.Idx → EReal := V0 (Proc.devRef .tc main_arg1)
/-- The second layer's weights `[16, 128]`. -/
abbrev a2 : S16x128.Idx → EReal := V0 (Proc.devRef .tc main_arg2)
/-- The first layer's bias `[128]`. -/
abbrev a3 : S128.Idx → EReal := V0 (Proc.devRef .tc main_arg3)
/-- The second layer's bias `[16]`. -/
abbrev a4 : S16.Idx → EReal := V0 (Proc.devRef .tc main_arg4)
/-- The first layer's row scales `[128]`. -/
abbrev a5 : S128.Idx → EReal := V0 (Proc.devRef .tc main_arg5)
/-- The second layer's row scales `[16]`. -/
abbrev a6 : S16.Idx → EReal := V0 (Proc.devRef .tc main_arg6)

/-- After the host line the first window's array is the transposed input. -/
theorem v0_eq :
    (StableHlo.after (Gen.hostOps0 (F := Ideal)) V0 (Proc.devRef .tc main_v0) : S64x16384.Idx → EReal)
      = transpose S64x16384 [1, 0] (a0 V0) transposes_S16384x64_S64x16384_1_0 := by
  dsimp only [Gen.hostOps0]
  host_results

/-- After the host line the second window's array is the packed block of the six parameter arrays. -/
theorem v13_eq :
    (StableHlo.after (Gen.hostOps0 (F := Ideal)) V0 (Proc.devRef .tc main_v13) : S160x128.Idx → EReal)
      = packed (a1 V0) (a2 V0) (a3 V0) (a4 V0) (a5 V0) (a6 V0) := by
  dsimp only [Gen.hostOps0]
  host_results
  rfl

/-- The transposed input at `(i, b)` is the input at `(b, i)`. -/
theorem packed_xT (i : Fin 64) (b : Fin 16384) :
    (StableHlo.after (Gen.hostOps0 (F := Ideal)) V0 (Proc.devRef .tc main_v0) : S64x16384.Idx → EReal) (ix2 i b)
      = a0 V0 (ix2 b i) :=
  (congrFun (v0_eq V0) (ix2 i b)).trans (transpose_ix2_apply _ _ i b)

/-- The block at row `k < 128`, column `i < 64`: the first layer's weight times its row's scale, `a1 k i · a5 k`. -/
theorem packed_w1 (r : Fin 160) (c : Fin 128) (k : Fin 128) (i : Fin 64) (hr : r.val = k.val) (hc : c.val = i.val) :
    (StableHlo.after (Gen.hostOps0 (F := Ideal)) V0 (Proc.devRef .tc main_v13) : S160x128.Idx → EReal) (ix2 r c)
      = a1 V0 (ix2 k i) * a5 V0 (ix1 k) :=
  (congrFun (v13_eq V0) (ix2 r c)).trans ((packed_top _ _ _ _ _ _ r c k hr).trans (top_weight _ _ _ k c i hc))

/-- The block at row `k < 128`, column `64`: the first layer's bias, `a3 k`. -/
theorem packed_b1 (r : Fin 160) (c : Fin 128) (k : Fin 128) (hr : r.val = k.val) (hc : c.val = 64) :
    (StableHlo.after (Gen.hostOps0 (F := Ideal)) V0 (Proc.devRef .tc main_v13) : S160x128.Idx → EReal) (ix2 r c)
      = a3 V0 (ix1 k) :=
  (congrFun (v13_eq V0) (ix2 r c)).trans ((packed_top _ _ _ _ _ _ r c k hr).trans (top_bias _ _ _ k c hc))

/-- The block at row `128 + o`, column `k`: the second layer's weight times its row's scale, `a2 o k · a6 o`. -/
theorem packed_w2 (r : Fin 160) (k : Fin 128) (o : Fin 16) (hr : r.val = 128 + o.val) :
    (StableHlo.after (Gen.hostOps0 (F := Ideal)) V0 (Proc.devRef .tc main_v13) : S160x128.Idx → EReal) (ix2 r k)
      = a2 V0 (ix2 o k) * a6 V0 (ix1 o) :=
  (congrFun (v13_eq V0) (ix2 r k)).trans ((packed_mid _ _ _ _ _ _ r k o hr).trans (mid_weight _ _ o k))

/-- The block at row `144 + o`, column `0`: the second layer's bias, `a4 o`. -/
theorem packed_b2 (r : Fin 160) (c : Fin 128) (o : Fin 16) (hr : r.val = 144 + o.val) (hc : c.val = 0) :
    (StableHlo.after (Gen.hostOps0 (F := Ideal)) V0 (Proc.devRef .tc main_v13) : S160x128.Idx → EReal) (ix2 r c)
      = a4 V0 (ix1 o) :=
  (congrFun (v13_eq V0) (ix2 r c)).trans ((packed_bot _ _ _ _ _ _ r c o hr).trans (bot_bias _ o c hc))

end Line

end Cert.KernelIdeal.PackedAt

end
-- ==== Proof.MlpSpec.lean ====
/-
  The two-layer network both programs compute, over the extended reals.

  Hidden unit h on batch row r is tanh of its bias plus its response times the sum over the 64
  inputs of input times weight; output unit o is tanh of its bias plus its response times the sum
  over the 128 hidden units of activation times weight. The reference scales the finished sum by
  the response (and starts the sum from the reduction's initial value); the kernel scales each
  weight by the response first and multiplies weight by activation. Both spellings are stated here;
  that they agree on finite arguments is proved in MlpLaw.
-/
import Idealize.ShloMosaic.PureOps.Ideal.Laws
import Idealize.ShloMosaic.Lib.ValueIdx

noncomputable section

namespace Cert.Mlp

open Idealize.ShloMosaic Idealize.ShloMosaic.ValueIdx

abbrev SX : Shape := ⟨2, ![16384, 64]⟩
abbrev SWih : Shape := ⟨2, ![128, 64]⟩
abbrev SWho : Shape := ⟨2, ![16, 128]⟩
abbrev SH : Shape := ⟨1, ![128]⟩
abbrev SO : Shape := ⟨1, ![16]⟩
abbrev SN : Shape := ⟨2, ![16384, 208]⟩
abbrev SB : Shape := ⟨1, ![16384]⟩

/-- The arguments of both programs as arrays of extended reals: the batch of inputs, the two weight
    matrices, the two bias vectors and the two response vectors. -/
structure Args where
  x : SX.Idx → EReal
  wih : SWih.Idx → EReal
  who : SWho.Idx → EReal
  bh : SH.Idx → EReal
  bo : SO.Idx → EReal
  rh : SH.Idx → EReal
  ro : SO.Idx → EReal

variable (A : Args) (z : EReal)

/-- Hidden unit `h` on batch row `r`, the way the reference computes it: the response scales the
    aggregated sum, which starts from the reduction's initial value `z`. -/
def hidRef (r : Fin 16384) (h : Fin 128) : EReal :=
  Ideal.tanh (A.bh (ix1 h) + A.rh (ix1 h) * (z + ∑ i : Fin 64, A.x (ix2 r i) * A.wih (ix2 h i)))

/-- Output unit `o` on batch row `r`, the way the reference computes it. -/
def outRef (r : Fin 16384) (o : Fin 16) : EReal :=
  Ideal.tanh (A.bo (ix1 o) + A.ro (ix1 o) * (z + ∑ k : Fin 128, hidRef A z r k * A.who (ix2 o k)))

/-- Hidden unit `h` on batch row `r`, the way the kernel computes it: each weight is scaled by the
    response before the sum, and the weight is the left factor. -/
def hidKer (r : Fin 16384) (h : Fin 128) : EReal :=
  Ideal.tanh (A.bh (ix1 h) + ∑ i : Fin 64, (A.wih (ix2 h i) * A.rh (ix1 h)) * A.x (ix2 r i))

/-- Output unit `o` on batch row `r`, the way the kernel computes it. -/
def outKer (r : Fin 16384) (o : Fin 16) : EReal :=
  Ideal.tanh (A.bo (ix1 o) + ∑ k : Fin 128, (A.who (ix2 o k) * A.ro (ix1 o)) * hidKer A r k)

end Cert.Mlp

end
-- ==== Proof.KernelValue.lean ====
/-
  The kernel's result as one function of its arguments, over the extended reals.

  The region's output array is [16, 16384]: row o, column b holds output unit o of the network on
  batch row b. Grid point t writes the block of columns 8192 t .. 8192 t + 8191. Its payload at
  (p, q) is the two-layer network read off the two staged blocks: the input block is columns
  8192 t .. of the transposed input, so its entry (i, q) is input i of batch row 8192 t + q; the
  parameter block is the whole packed array, whose cells are the scaled weights and the biases.
  The two blocks of columns tile the array, so after the region the array is the network's
  output, transposed; the host's last transpose turns it into [16384, 16].
-/
import proofs.«129742_g6708738916766_cont_9to1_m_1119_20_alg».proof.Proof.FrameIdeal
import proofs.«129742_g6708738916766_cont_9to1_m_1119_20_alg».proof.Proof.PayloadAt
import proofs.«129742_g6708738916766_cont_9to1_m_1119_20_alg».proof.Proof.PackedAt
import proofs.«129742_g6708738916766_cont_9to1_m_1119_20_alg».proof.Proof.MlpSpec
import Idealize.ShloMosaic.Lib.Pipeline.Value
import Idealize.ShloMosaic.Lib.ValueLayout
import Idealize.ShloMosaic.Lib.StableHlo.Run

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.Mlp

variable (m : (ℓ : Loc nD τ sig) → Buf (Elt Ideal) ℓ) (ρ : Dev nD → PrngReg)

/-- The network's arguments as core `c`'s launch memory holds them. -/
def argsOf (c : Dev nD) : Args where
  x := m ((c.tc : Thread nD τ).loc main_arg0)
  wih := m ((c.tc : Thread nD τ).loc main_arg1)
  who := m ((c.tc : Thread nD τ).loc main_arg2)
  bh := m ((c.tc : Thread nD τ).loc main_arg3)
  bo := m ((c.tc : Thread nD τ).loc main_arg4)
  rh := m ((c.tc : Thread nD τ).loc main_arg5)
  ro := m ((c.tc : Thread nD τ).loc main_arg6)

/-- The network's output with units down the rows and the batch along the columns: what the region's
    output array holds after the run. -/
def outT (A : Args) : S16x16384.Idx → EReal := fun i => outKer A (i 1) (i 0)

/-! ## The payload at an entry, from what its five loads hold -/

/-- If the five loaded values hold the scaled first weights, the first bias, row `p` of the scaled
    second weights, entry `p` of the second bias and the inputs of batch row `r` down column `q`,
    the payload at `(p, q)` is output unit `p` on batch row `r`. -/
theorem pay_eq_outKer (A : Args) (v0 : Vec Ideal S128x64 .f32) (v2 : Vec Ideal S128x1 .f32) (v4 : Vec Ideal S16x128 .f32)
    (v6 : Vec Ideal S16x1 .f32) (v8 : Vec Ideal S64x8192 .f32) (p : Fin 16) (q : Fin 8192) (r : Fin 16384)
    (h0 : ∀ (k : Fin 128) (i : Fin 64), v0 (ix2 k i) = A.wih (ix2 k i) * A.rh (ix1 k))
    (h2 : ∀ k : Fin 128, v2 (ix2 k 0) = A.bh (ix1 k))
    (h4 : ∀ k : Fin 128, v4 (ix2 p k) = A.who (ix2 p k) * A.ro (ix1 p))
    (h6 : v6 (ix2 p 0) = A.bo (ix1 p))
    (h8 : ∀ i : Fin 64, v8 (ix2 i q) = A.x (ix2 r i)) :
    Gen.k0_pay1 (F := Ideal) v0 v2 v4 v6 v8 (ix2 p q) = outKer A r p := by
  rw [PayloadAt.pay_apply, h6]
  unfold outKer hidKer
  refine congrArg (fun s => Ideal.tanh (A.bo (ix1 p) + s)) (Finset.sum_congr rfl fun k _ => ?_)
  rw [h4 k, h2 k]
  refine congrArg (fun s => A.who (ix2 p k) * A.ro (ix1 p) * Ideal.tanh (A.bh (ix1 k) + s)) (Finset.sum_congr rfl fun i _ => ?_)
  rw [h0 k i, h8 i]

/-! ## The windows' block indices over the grid -/

theorem hz : (![0, 0] : Fin 2 → Nat) = fun _ => 0 := funext fun a => by fin_cases a <;> rfl

/-- The printed index maps, decided over the two grid points: the input and output windows step along the
    batch axis with the point, the parameter window stays at its one block. -/
theorem idx_facts : ∀ t : Fin cfg0.N, t.val < 2
    ∧ win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = t.val :=
  (by decide +kernel : ∀ t : Fin grid0.N, _)

/-! ## What the staged blocks hold -/

/-- The region finds the transposed input in window 0's array: entry `(i, b)` is input `i` of batch row `b`. -/
theorem V_xT (c : Dev nD) (i : Fin 64) (b : Fin 16384) :
    V m c main_v0 (ix2 i b) = (argsOf m c).x (ix2 b i) :=
  PackedAt.packed_xT (launchContents m c) i b

/-- The region finds the packed parameters in window 1's array. -/
theorem V_w1 (c : Dev nD) (r : Fin 160) (cc : Fin 128) (k : Fin 128) (i : Fin 64) (hr : r.val = k.val) (hc : cc.val = i.val) :
    V m c main_v13 (ix2 r cc) = (argsOf m c).wih (ix2 k i) * (argsOf m c).rh (ix1 k) :=
  PackedAt.packed_w1 (launchContents m c) r cc k i hr hc
theorem V_b1 (c : Dev nD) (r : Fin 160) (cc : Fin 128) (k : Fin 128) (hr : r.val = k.val) (hc : cc.val = 64) :
    V m c main_v13 (ix2 r cc) = (argsOf m c).bh (ix1 k) :=
  PackedAt.packed_b1 (launchContents m c) r cc k hr hc
theorem V_w2 (c : Dev nD) (r : Fin 160) (k : Fin 128) (o : Fin 16) (hr : r.val = 128 + o.val) :
    V m c main_v13 (ix2 r k) = (argsOf m c).who (ix2 o k) * (argsOf m c).ro (ix1 o) :=
  PackedAt.packed_w2 (launchContents m c) r k o hr
theorem V_b2 (c : Dev nD) (r : Fin 160) (cc : Fin 128) (o : Fin 16) (hr : r.val = 144 + o.val) (hc : cc.val = 0) :
    V m c main_v13 (ix2 r cc) = (argsOf m c).bo (ix1 o) :=
  PackedAt.packed_b2 (launchContents m c) r cc o hr hc

/-- Window 1's block at any point is the whole parameter array. -/
theorem iblk1_apply (c : Dev nD) (t : Fin cfg0.N) (y : S160x128.Idx) (r : Fin 160) (cc : Fin 128) (hy : y = ix2 r cc) :
    iblk m c 1 t y = V m c main_v13 (ix2 r cc) := by
  subst hy
  obtain ⟨-, -, -, e10, e11, -, -⟩ := idx_facts t
  show V m c main_v13 (((cfg0.win 1).blk t).view.emb (ix2 r cc)) = V m c main_v13 (ix2 r cc)
  refine congrArg (V m c main_v13) (funext fun a => Fin.ext ?_)
  match a with
  | ⟨0, _⟩ => show win0_1.index t (0 : Fin 2) * 160 + 1 * r.val = r.val; omega
  | ⟨1, _⟩ => show win0_1.index t (1 : Fin 2) * 128 + 1 * cc.val = cc.val; omega

/-- Window 0's block at point `t` is columns `8192 t ..` of the transposed input. -/
theorem iblk0_apply (c : Dev nD) (t : Fin cfg0.N) (tv : ℕ) (htv : t.val = tv) (y : S64x8192.Idx) (i : Fin 64) (v : Fin 8192) (b : Fin 16384)
    (hy : y = ix2 i v) (hb : tv * 8192 + v.val = b.val) :
    iblk m c 0 t y = V m c main_v0 (ix2 i b) := by
  subst hy
  obtain ⟨-, e00, e01, -, -, -, -⟩ := idx_facts t
  rw [htv] at e01
  show V m c main_v0 (((cfg0.win 0).blk t).view.emb (ix2 i v)) = V m c main_v0 (ix2 i b)
  refine congrArg (V m c main_v0) (funext fun a => Fin.ext ?_)
  match a with
  | ⟨0, _⟩ => show win0_0.index t (0 : Fin 2) * 64 + 1 * i.val = i.val; omega
  | ⟨1, _⟩ => show win0_0.index t (1 : Fin 2) * 8192 + 1 * v.val = b.val; rw [e01, Nat.one_mul]; exact hb

/-! ## What a point writes back -/

/-- WHAT POINT `t` WRITES BACK is block `t` of the transposed network output. -/
theorem flushed_eq (c : Dev nD) (t : Fin cfg0.N) :
    (dats m 0 c).flushed 2 t = ((cfg0.win 2).blk t).view.read (Elt Ideal) (outT (argsOf m c)) := by
  show (cfg0.win 2).cut (grid0.coords t) ((dats m 0 c).after 2 t) = _
  rw [after0_2]
  unfold out0_2
  rw [View.canon_unit_zero hz]
  obtain ⟨ht, -, -, -, -, e20, e21⟩ := idx_facts t
  obtain ⟨tv, htv⟩ : ∃ tv : ℕ, t.val = tv := ⟨_, rfl⟩
  rw [htv] at ht e21
  funext j
  obtain ⟨p, q, rfl⟩ : ∃ (p : Fin 16) (q : Fin 8192), j = ix2 p q := ⟨j 0, j 1, eq_ix2 j⟩
  have hr : tv * 8192 + q.val < 16384 := by have := q.isLt; omega
  have hemb : ((cfg0.win 2).blk t).view.emb (ix2 p q) = ix2 p (⟨tv * 8192 + q.val, hr⟩ : Fin 16384) := by
    funext a; apply Fin.ext
    match a with
    | ⟨0, _⟩ => show win0_2.index t (0 : Fin 2) * 16 + 1 * p.val = p.val; omega
    | ⟨1, _⟩ => show win0_2.index t (1 : Fin 2) * 8192 + 1 * q.val = tv * 8192 + q.val; omega
  refine Eq.trans ?_ (congrArg (outT (argsOf m c)) hemb).symm
  show Gen.k0_pay1 (F := Ideal) (View.ld (iblk m c 1 t) r_w1) (View.ld (iblk m c 1 t) r_b1) (View.ld (iblk m c 1 t) r_w2)
      (View.ld (iblk m c 1 t) r_b2) (View.ld (iblk m c 0 t) r_x) (ix2 p q)
    = outKer (argsOf m c) (⟨tv * 8192 + q.val, hr⟩ : Fin 16384) p
  refine pay_eq_outKer (argsOf m c) (View.ld (iblk m c 1 t) r_w1) (View.ld (iblk m c 1 t) r_b1) (View.ld (iblk m c 1 t) r_w2)
      (View.ld (iblk m c 1 t) r_b2) (View.ld (iblk m c 0 t) r_x) p q ⟨tv * 8192 + q.val, hr⟩ ?_ ?_ ?_ ?_ ?_
  · intro k i
    refine (iblk1_apply m c t (r_w1.idx (ix2 k i)) ⟨k.val, by have := k.isLt; omega⟩ ⟨i.val, by have := i.isLt; omega⟩
      (funext fun a => Fin.ext ?_)).trans (V_w1 m c _ _ k i rfl rfl)
    match a with
    | ⟨0, _⟩ => show 0 + 1 * k.val = k.val; omega
    | ⟨1, _⟩ => show 0 + 1 * i.val = i.val; omega
  · intro k
    refine (iblk1_apply m c t (r_b1.idx (ix2 k 0)) ⟨k.val, by have := k.isLt; omega⟩ ⟨64, by omega⟩
      (funext fun a => Fin.ext ?_)).trans (V_b1 m c _ _ k rfl rfl)
    match a with
    | ⟨0, _⟩ => show 0 + 1 * k.val = k.val; omega
    | ⟨1, _⟩ => show 64 + 1 * 0 = 64; omega
  · intro k
    refine (iblk1_apply m c t (r_w2.idx (ix2 p k)) ⟨128 + p.val, by have := p.isLt; omega⟩ k
      (funext fun a => Fin.ext ?_)).trans (V_w2 m c _ k p rfl)
    match a with
    | ⟨0, _⟩ => show 128 + 1 * p.val = 128 + p.val; omega
    | ⟨1, _⟩ => show 0 + 1 * k.val = k.val; omega
  · refine (iblk1_apply m c t (r_b2.idx (ix2 p 0)) ⟨144 + p.val, by have := p.isLt; omega⟩ ⟨0, by omega⟩
      (funext fun a => Fin.ext ?_)).trans (V_b2 m c _ _ p rfl rfl)
    match a with
    | ⟨0, _⟩ => show 144 + 1 * p.val = 144 + p.val; omega
    | ⟨1, _⟩ => show 0 + 1 * 0 = 0; omega
  · intro i
    refine (iblk0_apply m c t tv htv (r_x.idx (ix2 i q)) i q ⟨tv * 8192 + q.val, hr⟩
      (funext fun a => Fin.ext ?_) rfl).trans (V_xT m c i _)
    match a with
    | ⟨0, _⟩ => show 0 + 1 * i.val = i.val; omega
    | ⟨1, _⟩ => show 0 + 1 * q.val = q.val; omega

/-! ## The two blocks tile the output array -/

/-- An index of the output array is in point `t`'s block iff each coordinate is in the block's range. -/
theorem mem_blk (t : Fin cfg0.N) (i : S16x16384.Idx) :
    i ∈ ((cfg0.win 2).blk t).view.set ↔ ∀ a : Fin 2, win0_2.index t a * S16x8192.size a ≤ (i a).val ∧ (i a).val < win0_2.index t a * S16x8192.size a + S16x8192.size a := by
  show i ∈ ((View.whole main_v14).slice (win0_2.rect t)).set ↔ _
  rw [View.set_slice_whole, Rect.mem_set_unit]
  exact Iff.rfl

/-- Column `b` of the output array lies in the block of point `b / 8192`. -/
theorem cover (i : S16x16384.Idx) : ∃ t : Fin cfg0.N, (cfg0.win 2).flush t = true ∧ i ∈ ((cfg0.win 2).blk t).view.set := by
  have hi0 : (i 0).val < 16 := (i 0).isLt
  have hi1 : (i 1).val < 16384 := (i 1).isLt
  let t : Fin cfg0.N := ⟨(i 1).val / 8192, by show (i 1).val / 8192 < 2; omega⟩
  have e20 : win0_2.index t (0 : Fin 2) = 0 := (idx_facts t).2.2.2.2.2.1
  have e21' : win0_2.index t (1 : Fin 2) = (i 1).val / 8192 := (idx_facts t).2.2.2.2.2.2
  refine ⟨t, flush0_2 t, ?_⟩
  rw [mem_blk]
  intro a
  match a with
  | ⟨0, _⟩ => show win0_2.index t (0 : Fin 2) * 16 ≤ (i 0).val ∧ (i 0).val < win0_2.index t (0 : Fin 2) * 16 + 16; omega
  | ⟨1, _⟩ => show win0_2.index t (1 : Fin 2) * 8192 ≤ (i 1).val ∧ (i 1).val < win0_2.index t (1 : Fin 2) * 8192 + 8192; omega

/-- THE OUTPUT ARRAY after the region: the network's output, units down the rows. -/
theorem final (c : Dev nD) : (dats m 0 c).arrAt 2 cfg0.N = outT (argsOf m c) :=
  (dats m 0 c).arrAt_eq_of_cover 2 (outT (argsOf m c)) (fun t _ => flushed_eq m c t) cover

/-! ## The host's last transpose, and the run -/

/-- The program's result after the last transpose: entry `(b, o)` is output unit `o` on batch row `b`. -/
theorem result_eq (c : Dev nD) :
    Pipeline.afterTail₀ cfgs (dats m) 0 (V0 m) [hostOps1] c main_v15
      = fun j : S16384x16.Idx => outKer (argsOf m c) (j 0) (j 1) := by
  unfold Pipeline.afterTail₀
  show StableHlo.after hostOps1 _ (Proc.devRef .tc main_v15) = _
  after_results
  rw [(Pipeline.withArrays_arr spec0 launch0.win.arr_inj c _ _ 2).trans (final m c)]
  funext j
  rw [eq_ix2 j]
  exact transpose_ix2_apply _ _ (j 0) (j 1)

/-- THE KERNEL'S RUN: every weakly fair execution terminates with the result at the network's output in
    the kernel's spelling and the seven arguments unchanged. -/
theorem run : θ_run defs (onTc (τ := τ) (main (F := Ideal))) ⟨m, fun _ => 0, ρ⟩ fun r => ∀ c : Dev nD,
      r.2.mem ((c.tc : Thread nD τ).loc main_v15) = (fun j : S16384x16.Idx => outKer (argsOf m c) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c =>
    ⟨((h c).2 main_v15 (Pipeline.mem_restRefs_of main_v15 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c),
     ((h c).2 main_arg6 (Pipeline.mem_restRefs_of main_arg6 (by decide) (by decide))).trans (W_main_arg6 m (dats m) c)⟩)
    (run_main m ρ)

end Cert.KernelIdeal.KernelValue

end
-- ==== Proof.RefNode.lean ====
/-
  One node of the reference's walk over the graph, read at an index over the extended reals.

  The reference keeps one array of node values, a row per batch element and a column per node
  (64 input columns, then 128 hidden, then 16 output). A node's new column is
  tanh (bias + response * (0 + sum over its incoming columns of value * weight)): the incoming
  columns are a band of the array, the weights one row of a weight matrix, the bias and the
  response one entry each of two vectors. The lemmas below read each layout step (an entry of a
  vector made a scalar and spread over the batch; a row of a matrix spread over the batch; a band
  of columns) at an index, and then the whole new column at a batch row.
-/
import proofs.«129742_g6708738916766_cont_9to1_m_1119_20_alg».proof.ReferenceIdeal
import Idealize.ShloMosaic.PureOps.Ideal.Laws
import Idealize.ShloMosaic.Lib.ValueIdx
import Idealize.ShloMosaic.Lib.Pipeline.Value

noncomputable section

namespace Cert.ReferenceIdeal.RefNode

open Idealize.ShloMosaic Idealize.ShloMosaic.ValueIdx Cert.ReferenceIdeal

/-- The scalar shape has one index, at row-major position zero. -/
theorem rowMajor_scalar (j : S_.Idx) : (S_.rowMajor j).val = 0 := by
  have h := (S_.rowMajor j).isLt
  have h1 : S_.numel = 1 := by decide
  omega

/-- Entry `h` of a vector, cut out as a one-element vector, recast as a scalar and spread over the
    batch, is that entry at every batch row. -/
theorem entry_spread_apply {n : ℕ} (a : FVec Ideal (⟨1, ![n]⟩ : Shape) .f32) (h : ℕ) (hh : h < n)
    (hs : (⟨1, ![n]⟩ : Shape).Slices ![h] S1) (hc : S1.ShapeCasts S_)
    (hb : S_.BroadcastsInDim S16384 (![] : Fin 0 → Fin S16384.rank)) (r : S16384.Idx) :
    broadcastInDim S16384 ![] hb (shapeCast S_ (extractStridedSlice S1 ![h] a hs) hc) r = a (ix1 ⟨h, hh⟩) := by
  rw [broadcastInDim_apply _ hb _ r ix0 (fun a => a.elim0)]
  rw [shapeCast_apply _ hc ix0 (ix1 (0 : Fin 1)) (by rw [Shape.rowMajor_val_one, rowMajor_scalar]; rfl)]
  exact extractStridedSlice_apply ![h] a hs (ix1 (0 : Fin 1)) (ix1 ⟨h, hh⟩)
    (fun a => match a with | ⟨0, _⟩ => by show h = h + 0; omega)

/-- Row `h` of a weight matrix with `K` columns, cut out, recast as a vector and spread down the
    batch rows, is entry `(h, i)` of the matrix at every batch row. -/
theorem row_spread_apply {n K : ℕ} (w : FVec Ideal (⟨2, ![n, K]⟩ : Shape) .f32) (h : ℕ) (hh : h < n)
    (hs : (⟨2, ![n, K]⟩ : Shape).Slices ![h, 0] (⟨2, ![1, K]⟩ : Shape))
    (hc : (⟨2, ![1, K]⟩ : Shape).ShapeCasts (⟨1, ![K]⟩ : Shape))
    (hb1 : (⟨1, ![K]⟩ : Shape).BroadcastsInDim (⟨2, ![1, K]⟩ : Shape) (![1] : Fin 1 → Fin 2))
    (hb2 : (⟨2, ![1, K]⟩ : Shape).BroadcastsInDim (⟨2, ![16384, K]⟩ : Shape) (![0, 1] : Fin 2 → Fin 2))
    (hK : K ≠ 1) (r : Fin 16384) (i : Fin K) :
    broadcastInDim (⟨2, ![16384, K]⟩ : Shape) ![0, 1] hb2
      (broadcastInDim (⟨2, ![1, K]⟩ : Shape) ![1] hb1
        (shapeCast (⟨1, ![K]⟩ : Shape) (extractStridedSlice (⟨2, ![1, K]⟩ : Shape) ![h, 0] w hs) hc)) (ix2 r i)
      = w (ix2 ⟨h, hh⟩ i) := by
  rw [broadcastInDim_apply _ hb2 _ (ix2 r i) (ix2 (0 : Fin 1) i) (fun a => match a with
    | ⟨0, _⟩ => by show (0 : ℕ) = if (1 : ℕ) = 1 then 0 else r.val; rw [if_pos rfl]
    | ⟨1, _⟩ => by show i.val = if K = 1 then 0 else i.val; rw [if_neg hK])]
  rw [broadcastInDim_apply _ hb1 _ (ix2 (0 : Fin 1) i) (ix1 i) (fun a => match a with
    | ⟨0, _⟩ => by show i.val = if K = 1 then 0 else i.val; rw [if_neg hK])]
  rw [shapeCast_apply _ hc (ix1 i) (ix2 (0 : Fin 1) i) (by
    rw [Shape.rowMajor_val_two, Shape.rowMajor_val_one]; show 0 * K + i.val = i.val; omega)]
  exact extractStridedSlice_apply ![h, 0] w hs (ix2 (0 : Fin 1) i) (ix2 ⟨h, hh⟩ i)
    (fun a => match a with
      | ⟨0, _⟩ => by show h = h + 0; omega
      | ⟨1, _⟩ => by show i.val = 0 + i.val; omega)

/-- A band of `K` columns of the node-value array starting at column `c0`, at batch row `r` and band
    column `i`, is the array at column `c0 + i`. -/
theorem band_apply {N K : ℕ} (X : FVec Ideal (⟨2, ![16384, N]⟩ : Shape) .f32) (c0 : ℕ)
    (hs : (⟨2, ![16384, N]⟩ : Shape).Slices ![0, c0] (⟨2, ![16384, K]⟩ : Shape)) (hN : c0 + K ≤ N)
    (r : Fin 16384) (i : Fin K) :
    extractStridedSlice (⟨2, ![16384, K]⟩ : Shape) ![0, c0] X hs (ix2 r i)
      = X (ix2 r ⟨c0 + i.val, by have := i.isLt; omega⟩) :=
  extractStridedSlice_apply ![0, c0] X hs (ix2 r i) (ix2 r ⟨c0 + i.val, by have := i.isLt; omega⟩)
    (fun a => match a with
      | ⟨0, _⟩ => by show r.val = 0 + r.val; omega
      | ⟨1, _⟩ => rfl)

/-- The column a HIDDEN node writes, at batch row `r`: the 64 input columns against row `h` of the input-to-hidden weights, scaled by the node's response, plus its bias, through tanh. -/
theorem hidden_column_apply (X : FVec Ideal S16384x208 .f32) (w : FVec Ideal S128x64 .f32) (b s : FVec Ideal S128 .f32)
    (h : ℕ) (hh : h < 128)
    {hsb : S128.Slices ![h] S1} {hss : S128.Slices ![h] S1} {hcb : S1.ShapeCasts S_} {hcs : S1.ShapeCasts S_}
    {hbb : S_.BroadcastsInDim S16384 (![] : Fin 0 → Fin S16384.rank)} {hbs : S_.BroadcastsInDim S16384 (![] : Fin 0 → Fin S16384.rank)}
    {hsX : S16384x208.Slices ![0, 0] S16384x64} {hsw : S128x64.Slices ![h, 0] S1x64} {hcw : S1x64.ShapeCasts S64}
    {hb1 : S64.BroadcastsInDim S1x64 (![1] : Fin 1 → Fin 2)} {hb2 : S1x64.BroadcastsInDim S16384x64 (![0, 1] : Fin 2 → Fin 2)}
    {hred : S16384x64.ReducesTo [1] S16384} {hS : 0 < S_.numel} (zb : BitVec 32) (r : Fin 16384) :
    Host.tanh (addf (broadcastInDim S16384 ![] hbb (shapeCast S_ (extractStridedSlice S1 ![h] b hsb) hcb))
      (mulf (broadcastInDim S16384 ![] hbs (shapeCast S_ (extractStridedSlice S1 ![h] s hss) hcs))
        (Host.reduceAdd (mulf (extractStridedSlice S16384x64 ![0, 0] X hsX)
            (broadcastInDim S16384x64 ![0, 1] hb2 (broadcastInDim S1x64 ![1] hb1
              (shapeCast S64 (extractStridedSlice S1x64 ![h, 0] w hsw) hcw))))
          (constant S_ .f32 zb) hred hS))) (ix1 r)
    = Ideal.tanh (b (ix1 ⟨h, hh⟩) + s (ix1 ⟨h, hh⟩)
        * (Ideal.ofBits .f32 zb + ∑ i : Fin 64, X (ix2 r ⟨0 + i.val, by have := i.isLt; omega⟩) * w (ix2 ⟨h, hh⟩ i))) := by
  show Ideal.tanh (_ + _ * Ideal.hostReduceAdd hred _ (Ideal.ofBits .f32 zb) (ix1 r)) = _
  rw [entry_spread_apply b h hh hsb hcb hbb, entry_spread_apply s h hh hss hcs hbs,
    Ideal.hostReduceAdd_single hred (by decide)]
  refine congrArg (fun t => Ideal.tanh (_ + _ * (_ + t))) (Finset.sum_congr rfl fun (k : Fin 64) _ => ?_)
  have e : (by decide : S16384x64.Reduces [1] S16384).lift (ix1 r) k = ix2 r k :=
    funext fun a => Fin.ext (by match a with | ⟨0, _⟩ => rfl | ⟨1, _⟩ => rfl)
  rw [e]
  refine (mulf_apply _ _ (ix2 r k)).trans ?_
  rw [band_apply X 0 hsX (by decide) r k, row_spread_apply w h hh hsw hcw hb1 hb2 (by decide) r k]

/-- The column an OUTPUT node writes, at batch row `r`: the 128 hidden columns (columns 64 to 191) against row `o` of the hidden-to-output weights, scaled by the node's response, plus its bias, through tanh. -/
theorem output_column_apply (X : FVec Ideal S16384x208 .f32) (w : FVec Ideal S16x128 .f32) (b s : FVec Ideal S16 .f32)
    (h : ℕ) (hh : h < 16)
    {hsb : S16.Slices ![h] S1} {hss : S16.Slices ![h] S1} {hcb : S1.ShapeCasts S_} {hcs : S1.ShapeCasts S_}
    {hbb : S_.BroadcastsInDim S16384 (![] : Fin 0 → Fin S16384.rank)} {hbs : S_.BroadcastsInDim S16384 (![] : Fin 0 → Fin S16384.rank)}
    {hsX : S16384x208.Slices ![0, 64] S16384x128} {hsw : S16x128.Slices ![h, 0] S1x128} {hcw : S1x128.ShapeCasts S128}
    {hb1 : S128.BroadcastsInDim S1x128 (![1] : Fin 1 → Fin 2)} {hb2 : S1x128.BroadcastsInDim S16384x128 (![0, 1] : Fin 2 → Fin 2)}
    {hred : S16384x128.ReducesTo [1] S16384} {hS : 0 < S_.numel} (zb : BitVec 32) (r : Fin 16384) :
    Host.tanh (addf (broadcastInDim S16384 ![] hbb (shapeCast S_ (extractStridedSlice S1 ![h] b hsb) hcb))
      (mulf (broadcastInDim S16384 ![] hbs (shapeCast S_ (extractStridedSlice S1 ![h] s hss) hcs))
        (Host.reduceAdd (mulf (extractStridedSlice S16384x128 ![0, 64] X hsX)
            (broadcastInDim S16384x128 ![0, 1] hb2 (broadcastInDim S1x128 ![1] hb1
              (shapeCast S128 (extractStridedSlice S1x128 ![h, 0] w hsw) hcw))))
          (constant S_ .f32 zb) hred hS))) (ix1 r)
    = Ideal.tanh (b (ix1 ⟨h, hh⟩) + s (ix1 ⟨h, hh⟩)
        * (Ideal.ofBits .f32 zb + ∑ i : Fin 128, X (ix2 r ⟨64 + i.val, by have := i.isLt; omega⟩) * w (ix2 ⟨h, hh⟩ i))) := by
  show Ideal.tanh (_ + _ * Ideal.hostReduceAdd hred _ (Ideal.ofBits .f32 zb) (ix1 r)) = _
  rw [entry_spread_apply b h hh hsb hcb hbb, entry_spread_apply s h hh hss hcs hbs,
    Ideal.hostReduceAdd_single hred (by decide)]
  refine congrArg (fun t => Ideal.tanh (_ + _ * (_ + t))) (Finset.sum_congr rfl fun (k : Fin 128) _ => ?_)
  have e : (by decide : S16384x128.Reduces [1] S16384).lift (ix1 r) k = ix2 r k :=
    funext fun a => Fin.ext (by match a with | ⟨0, _⟩ => rfl | ⟨1, _⟩ => rfl)
  rw [e]
  refine (mulf_apply _ _ (ix2 r k)).trans ?_
  rw [band_apply X 64 hsX (by decide) r k, row_spread_apply w h hh hsw hcw hb1 hb2 (by decide) r k]

end Cert.ReferenceIdeal.RefNode

end
-- ==== Proof.RefInv.lean ====
/-
  The reference's node-value array after each node of the walk.

  Columns 0..63 hold the batch's inputs; after the first `nh` hidden nodes column `64 + h` (h < nh)
  holds hidden unit h's activation; after the first `no` output nodes column `192 + o` (o < no)
  holds output unit o's activation. A node's step overwrites exactly one column with
  tanh (bias + response * (zero + sum over the incoming columns of value * weight)) and keeps every
  other column, so each invariant extends by one unit per step.
-/
import proofs.«129742_g6708738916766_cont_9to1_m_1119_20_alg».proof.Proof.MlpSpec

noncomputable section

namespace Cert.Mlp

open Idealize.ShloMosaic Idealize.ShloMosaic.ValueIdx

variable (A : Args) (z : EReal)

/-- What the node-value array holds after `nh` hidden and `no` output nodes. -/
structure Walked (nh no : ℕ) (X : SN.Idx → EReal) : Prop where
  inp : ∀ (r : Fin 16384) (i : Fin 64), X (ix2 r ⟨i.val, by have := i.isLt; omega⟩) = A.x (ix2 r i)
  hid : ∀ (r : Fin 16384) (h : Fin 128), h.val < nh → X (ix2 r ⟨64 + h.val, by have := h.isLt; omega⟩) = hidRef A z r h
  out : ∀ (r : Fin 16384) (o : Fin 16), o.val < no → X (ix2 r ⟨192 + o.val, by have := o.isLt; omega⟩) = outRef A z r o

variable {A z}

/-- A hidden node's step: column `64 + h` is overwritten with the node's activation computed from the
    input columns, every other column is kept. -/
theorem Walked.hidStep {X Y : SN.Idx → EReal} {upd : SB.Idx → EReal} (h : ℕ) (hh : h < 128)
    (hX : Walked A z h 0 X)
    (hY : ∀ (r : Fin 16384) (c : Fin 208), Y (ix2 r c) = if c.val = 64 + h then upd (ix1 r) else X (ix2 r c))
    (hupd : ∀ r : Fin 16384, upd (ix1 r) = Ideal.tanh (A.bh (ix1 ⟨h, hh⟩) + A.rh (ix1 ⟨h, hh⟩)
      * (z + ∑ i : Fin 64, X (ix2 r ⟨0 + i.val, by have := i.isLt; omega⟩) * A.wih (ix2 ⟨h, hh⟩ i)))) :
    Walked A z (h + 1) 0 Y where
  inp r i := by
    rw [hY, if_neg (by have := i.isLt; show i.val ≠ 64 + h; omega)]; exact hX.inp r i
  hid r h' hlt := by
    rw [hY]
    by_cases e : h'.val = h
    · rw [if_pos (by show 64 + h'.val = 64 + h; omega), hupd]
      have e' : h' = ⟨h, hh⟩ := Fin.ext e
      subst e'
      unfold hidRef
      refine congrArg (fun s => Ideal.tanh (_ + _ * (z + s))) (Finset.sum_congr rfl fun i _ => ?_)
      have hi : X (ix2 r ⟨0 + i.val, by have := i.isLt; omega⟩) = A.x (ix2 r i) := by
        have := hX.inp r i
        rw [← this]; exact congrArg X (congrArg (ix2 r) (Fin.ext (by show 0 + i.val = i.val; omega)))
      rw [hi]
    · rw [if_neg (by show 64 + h'.val ≠ 64 + h; omega)]; exact hX.hid r h' (by omega)
  out r o hlt := absurd hlt (Nat.not_lt_zero _)

/-- An output node's step: column `192 + o` is overwritten with the node's activation computed from
    the 128 hidden columns, every other column is kept. -/
theorem Walked.outStep {X Y : SN.Idx → EReal} {upd : SB.Idx → EReal} (o : ℕ) (ho : o < 16)
    (hX : Walked A z 128 o X)
    (hY : ∀ (r : Fin 16384) (c : Fin 208), Y (ix2 r c) = if c.val = 192 + o then upd (ix1 r) else X (ix2 r c))
    (hupd : ∀ r : Fin 16384, upd (ix1 r) = Ideal.tanh (A.bo (ix1 ⟨o, ho⟩) + A.ro (ix1 ⟨o, ho⟩)
      * (z + ∑ k : Fin 128, X (ix2 r ⟨64 + k.val, by have := k.isLt; omega⟩) * A.who (ix2 ⟨o, ho⟩ k)))) :
    Walked A z 128 (o + 1) Y where
  inp r i := by
    rw [hY, if_neg (by have := i.isLt; show i.val ≠ 192 + o; omega)]; exact hX.inp r i
  hid r h hlt := by
    rw [hY, if_neg (by have := h.isLt; show 64 + h.val ≠ 192 + o; omega)]; exact hX.hid r h hlt
  out r o' hlt := by
    rw [hY]
    by_cases e : o'.val = o
    · rw [if_pos (by show 192 + o'.val = 192 + o; omega), hupd]
      have e' : o' = ⟨o, ho⟩ := Fin.ext e
      subst e'
      unfold outRef
      refine congrArg (fun s => Ideal.tanh (_ + _ * (z + s))) (Finset.sum_congr rfl fun k _ => ?_)
      rw [hX.hid r k k.isLt]
    · rw [if_neg (by show 192 + o'.val ≠ 192 + o; omega)]; exact hX.out r o' (by omega)

end Cert.Mlp

end
-- ==== Proof.LibScatterSet.lean ====
/-
  THE HOST SCATTER WHOSE BODY RETURNS THE UPDATE (`x.at[…].set(v)`), READ AT ONE ELEMENT.

  `Host.scatter d (fun _ b => b) x idx upd` is a left fold over the update positions in row-major order; each
  step overwrites the operand's element at the position's result index, when it has one. Read at a fixed
  element `i'` of the result this is: the operand's element when no update position lands on `i'`
  (`scatter_set_of_no_hit`), and the update's element at a position that does, provided all the positions
  landing on `i'` carry the same value (`scatter_set_of_hit`; in particular when only one position lands there).
  Both follow from the same two statements about the fold over an arbitrary list of update positions
  (`foldl_set_of_no_hit`, `foldl_set_of_hit`), by induction on the list from its last element.
-/
import Idealize.ShloMosaic.PureOps
import Idealize.ShloMosaic.Lib.ValueIdx

namespace Idealize.ShloMosaic.LibScatterSet

open Idealize.ShloMosaic Idealize.ShloMosaic.ValueIdx

section General
variable {s si u : Shape} {α : Type} {w : Nat}

/-- One step of the scatter's fold with the body that returns the update: the running result `r` with the
    element at update position `j`'s result index replaced by the update's element at `j`, and `r` itself when
    `j` has no result index (its window leaves the operand). -/
def setStep (d : ScatterDims s si u) (idx : IVec si w) (upd : u.Idx → α) (r : s.Idx → α) (j : u.Idx) : s.Idx → α :=
  match d.resultIdx? j idx with
  | some i => fun i' => if i' = i then upd j else r i'
  | none => r

/-- A step at a position whose result index is `i'` writes the update's element there. -/
theorem setStep_of_eq (d : ScatterDims s si u) (idx : IVec si w) (upd : u.Idx → α) (r : s.Idx → α) (j : u.Idx)
    (i' : s.Idx) (h : d.resultIdx? j idx = some i') : setStep d idx upd r j i' = upd j := by
  unfold setStep; rw [h]; exact if_pos rfl

/-- A step at a position whose result index is not `i'` leaves the element at `i'` as it was. -/
theorem setStep_of_ne (d : ScatterDims s si u) (idx : IVec si w) (upd : u.Idx → α) (r : s.Idx → α) (j : u.Idx)
    (i' : s.Idx) (h : d.resultIdx? j idx ≠ some i') : setStep d idx upd r j i' = r i' := by
  unfold setStep
  cases hr : d.resultIdx? j idx with
  | none => rfl
  | some i =>
    have hne : i' ≠ i := fun e => h (by rw [hr, e])
    exact if_neg hne

/-- The scatter with the body that returns the update is the fold of `setStep` over the update positions in
    row-major order. -/
theorem scatter_set_eq_foldl (d : ScatterDims s si u) (x : s.Idx → α) (idx : IVec si w) (upd : u.Idx → α) :
    Host.scatter d (fun _ b => b) x idx upd
      = (List.finRange u.numel).foldl (fun r n => setStep d idx upd r (u.rowMajor.symm n)) x := rfl

/-- The fold of the steps over any list of update positions, read at an element that none of the list's
    positions lands on: the starting value's element. -/
theorem foldl_set_of_no_hit {β : Type} (d : ScatterDims s si u) (idx : IVec si w) (upd : u.Idx → α) (g : β → u.Idx)
    (i' : s.Idx) (l : List β) (x : s.Idx → α) (h : ∀ n ∈ l, d.resultIdx? (g n) idx ≠ some i') :
    l.foldl (fun r n => setStep d idx upd r (g n)) x i' = x i' := by
  induction l using List.reverseRecOn with
  | nil => rfl
  | append_singleton l n ih =>
    rw [List.foldl_append, List.foldl_cons, List.foldl_nil,
      setStep_of_ne d idx upd _ (g n) i' (h n (by simp))]
    exact ih fun m hm => h m (by simp [hm])

/-- The fold of the steps over any list of update positions, read at an element `i'` that a position of the
    list lands on, when every position of the list that lands on `i'` carries the value `v`: it is `v`. -/
theorem foldl_set_of_hit {β : Type} (d : ScatterDims s si u) (idx : IVec si w) (upd : u.Idx → α) (g : β → u.Idx)
    (i' : s.Idx) (v : α) (l : List β) (x : s.Idx → α) (hex : ∃ n ∈ l, d.resultIdx? (g n) idx = some i')
    (hv : ∀ n ∈ l, d.resultIdx? (g n) idx = some i' → upd (g n) = v) :
    l.foldl (fun r n => setStep d idx upd r (g n)) x i' = v := by
  induction l using List.reverseRecOn with
  | nil => obtain ⟨n, hn, _⟩ := hex; exact absurd hn (List.not_mem_nil)
  | append_singleton l n ih =>
    rw [List.foldl_append, List.foldl_cons, List.foldl_nil]
    by_cases hn : d.resultIdx? (g n) idx = some i'
    · rw [setStep_of_eq d idx upd _ (g n) i' hn]
      exact hv n (by simp) hn
    · rw [setStep_of_ne d idx upd _ (g n) i' hn]
      refine ih ?_ fun m hm => hv m (by simp [hm])
      obtain ⟨m, hm, hmi⟩ := hex
      rcases List.mem_append.1 hm with hml | hmn
      · exact ⟨m, hml, hmi⟩
      · obtain rfl : m = n := by simpa using hmn
        exact absurd hmi hn

/-- THE SET-SCATTER AT AN ELEMENT NO UPDATE LANDS ON: the operand's element. -/
theorem scatter_set_of_no_hit (d : ScatterDims s si u) (x : s.Idx → α) (idx : IVec si w) (upd : u.Idx → α)
    (i' : s.Idx) (h : ∀ j : u.Idx, d.resultIdx? j idx ≠ some i') :
    Host.scatter d (fun _ b => b) x idx upd i' = x i' := by
  rw [scatter_set_eq_foldl]
  exact foldl_set_of_no_hit d idx upd (fun n => u.rowMajor.symm n) i' _ x fun n _ => h _

/-- THE SET-SCATTER AT AN ELEMENT AN UPDATE LANDS ON: the update's element at a position `j` that lands there,
    when every position landing there carries the same value as `j` (so the order of the writes is immaterial). -/
theorem scatter_set_of_hit (d : ScatterDims s si u) (x : s.Idx → α) (idx : IVec si w) (upd : u.Idx → α)
    (i' : s.Idx) (j : u.Idx) (hj : d.resultIdx? j idx = some i')
    (huniq : ∀ j', d.resultIdx? j' idx = some i' → upd j' = upd j) :
    Host.scatter d (fun _ b => b) x idx upd i' = upd j := by
  rw [scatter_set_eq_foldl]
  refine foldl_set_of_hit d idx upd (fun n => u.rowMajor.symm n) i' (upd j) _ x ?_ fun n _ hn => huniq _ hn
  exact ⟨u.rowMajor j, List.mem_finRange _, by rw [Equiv.symm_apply_apply]; exact hj⟩

/-- The set-scatter at an element that exactly the update position `j` lands on: the update's element at `j`. -/
theorem scatter_set_of_unique_hit (d : ScatterDims s si u) (x : s.Idx → α) (idx : IVec si w) (upd : u.Idx → α)
    (i' : s.Idx) (j : u.Idx) (hj : d.resultIdx? j idx = some i')
    (huniq : ∀ j', d.resultIdx? j' idx = some i' → j' = j) :
    Host.scatter d (fun _ b => b) x idx upd i' = upd j :=
  scatter_set_of_hit d x idx upd i' j hj fun j' hj' => by rw [huniq j' hj']

end General

/-! ## Words: a small natural number read back signed -/

/-- A natural number below `2 ^ 31`, as a 32-bit word read signed, is itself. -/
theorem toInt_ofNat_of_lt (n : Nat) (h : n < 2 ^ 31) : (BitVec.ofNat 32 n).toInt = (n : Int) := by
  have hn : (BitVec.ofNat 32 n).toNat = n := by rw [BitVec.toNat_ofNat]; exact Nat.mod_eq_of_lt (by omega)
  rw [BitVec.toInt_eq_toNat_of_lt (by rw [hn]; omega), hn]

/-! ## A column write: `x.at[:, col].set(v)`

The operand is `[B, N]`, the updates `[B]`, the scatter indices the one-entry vector `[col]`: update window axis `0`
of the updates goes to operand axis `0`, operand axis `1` is inserted and takes its start from the index vector
(`update_window_dims = [0]`, `inserted_window_dims = [1]`, `scatter_dims_to_operand_dims = [1]`,
`index_vector_dim = 0`). Update position `r` lands on `(r, col)`. -/

section Column
variable {α : Type} {B N : Nat}

/-- A rank-1 index's coordinate is below the extent, written as `n` itself so that `omega` can use it. -/
theorem idx1_lt {n : Nat} (j : (⟨1, ![n]⟩ : Shape).Idx) : (j 0).val < n := (j 0).isLt

/-- The result index of update position `j` of a column write at column `col` (inside the operand, and small enough
    to be read back signed from its word): row `j 0`, column `col`. The dimension numbers are given by their fields,
    so that the statement applies to any record with these fields, whatever the proof of its conditions. -/
theorem column_resultIdx (d : ScatterDims ⟨2, ![B, N]⟩ ⟨1, ![1]⟩ ⟨1, ![B]⟩)
    (huw : d.updateWindowDims = [0]) (hiw : d.insertedWindowDims = [1]) (hsd : d.scatterDimsToOperandDims = [1])
    (hiv : d.indexVectorDim = 0) (idx : IVec ⟨1, ![1]⟩ 32) (col : Nat) (hidx : ∀ k, idx k = BitVec.ofNat 32 col)
    (hcol : col < N) (h31 : col < 2 ^ 31) (j : (⟨1, ![B]⟩ : Shape).Idx) :
    d.resultIdx? j idx = some (ix2 ⟨(j 0).val, idx1_lt j⟩ ⟨col, hcol⟩) := by
  obtain ⟨uw, iw, sd, iv, wf⟩ := d
  dsimp only at huw hiw hsd hiv
  subst huw hiw hsd hiv
  have hs0 : ScatterDims.start ⟨[0], [1], [1], 0, wf⟩ j idx 0 = 0 := rfl
  have hs1 : ScatterDims.start ⟨[0], [1], [1], 0, wf⟩ j idx 1 = (col : Int) := by
    unfold ScatterDims.start
    rw [dif_pos (List.mem_singleton.mpr rfl), hidx, toInt_ofNat_of_lt col h31]
  have hw0 : ScatterDims.window ⟨[0], [1], [1], 0, wf⟩ j 0 = (j 0).val := rfl
  have hw1 : ScatterDims.window ⟨[0], [1], [1], 0, wf⟩ j 1 = 0 := rfl
  have hj : (j 0).val < B := (j 0).isLt
  have hall : ∀ a, 0 ≤ ScatterDims.start ⟨[0], [1], [1], 0, wf⟩ j idx a + ScatterDims.window ⟨[0], [1], [1], 0, wf⟩ j a
      ∧ ScatterDims.start ⟨[0], [1], [1], 0, wf⟩ j idx a + ScatterDims.window ⟨[0], [1], [1], 0, wf⟩ j a
        < (⟨2, ![B, N]⟩ : Shape).size a := by
    intro a
    match a with
    | ⟨0, _⟩ =>
      show 0 ≤ ScatterDims.start ⟨[0], [1], [1], 0, wf⟩ j idx 0 + ScatterDims.window ⟨[0], [1], [1], 0, wf⟩ j 0
        ∧ ScatterDims.start ⟨[0], [1], [1], 0, wf⟩ j idx 0 + ScatterDims.window ⟨[0], [1], [1], 0, wf⟩ j 0 < (B : Int)
      rw [hs0, hw0]; omega
    | ⟨1, _⟩ =>
      show 0 ≤ ScatterDims.start ⟨[0], [1], [1], 0, wf⟩ j idx 1 + ScatterDims.window ⟨[0], [1], [1], 0, wf⟩ j 1
        ∧ ScatterDims.start ⟨[0], [1], [1], 0, wf⟩ j idx 1 + ScatterDims.window ⟨[0], [1], [1], 0, wf⟩ j 1 < (N : Int)
      rw [hs1, hw1]; omega
  unfold ScatterDims.resultIdx?
  rw [dif_pos hall]
  congr 1
  funext a
  match a with
  | ⟨0, _⟩ =>
    refine Fin.ext ?_
    show (ScatterDims.start ⟨[0], [1], [1], 0, wf⟩ j idx 0 + ScatterDims.window ⟨[0], [1], [1], 0, wf⟩ j 0).toNat = (j 0).val
    rw [hs0, hw0]; omega
  | ⟨1, _⟩ =>
    refine Fin.ext ?_
    show (ScatterDims.start ⟨[0], [1], [1], 0, wf⟩ j idx 1 + ScatterDims.window ⟨[0], [1], [1], 0, wf⟩ j 1).toNat = col
    rw [hs1, hw1]; omega

/-- THE COLUMN WRITE AT AN ELEMENT: row `r`, column `c'` of the result is the update's element `r` when `c'` is the
    written column, and the operand's element otherwise. -/
theorem scatter_set_column (d : ScatterDims ⟨2, ![B, N]⟩ ⟨1, ![1]⟩ ⟨1, ![B]⟩)
    (huw : d.updateWindowDims = [0]) (hiw : d.insertedWindowDims = [1]) (hsd : d.scatterDimsToOperandDims = [1])
    (hiv : d.indexVectorDim = 0) (x : (⟨2, ![B, N]⟩ : Shape).Idx → α) (idx : IVec ⟨1, ![1]⟩ 32) (col : Nat)
    (hidx : ∀ k, idx k = BitVec.ofNat 32 col) (hcol : col < N) (h31 : col < 2 ^ 31)
    (upd : (⟨1, ![B]⟩ : Shape).Idx → α) (r : Fin B) (c' : Fin N) :
    Host.scatter d (fun _ b => b) x idx upd (ix2 r c') = if c'.val = col then upd (ix1 r) else x (ix2 r c') := by
  have hres := column_resultIdx d huw hiw hsd hiv idx col hidx hcol h31
  by_cases hc : c'.val = col
  · rw [if_pos hc]
    refine scatter_set_of_unique_hit d x idx upd _ (ix1 r) ?_ ?_
    · rw [hres]; congr 2; exact Fin.ext hc.symm
    · intro j' hj'
      rw [hres] at hj'
      have h0 := congrArg Fin.val (congrFun (Option.some.inj hj') 0)
      rw [eq_ix1 j']; congr 1
      exact Fin.ext h0
  · rw [if_neg hc]
    refine scatter_set_of_no_hit d x idx upd _ fun j hj => hc ?_
    rw [hres] at hj
    exact (congrArg Fin.val (congrFun (Option.some.inj hj) 1)).symm

end Column

/-! ## A row-block write: `x.at[:, arange(K)].set(v)`

The operand is `[B, N]`, the updates `[B, K]`, the scatter indices the `[K, 1]` array whose entry `(k, 0)` is the
column `k` written by update column `k`: update axis `0` is the window axis and goes to operand axis `0`, update axis `1`
is the scatter axis and reads the scatter indices' axis `0`, operand axis `1` is inserted and takes its start from the
index vector (`update_window_dims = [0]`, `inserted_window_dims = [1]`, `scatter_dims_to_operand_dims = [1]`,
`index_vector_dim = 1`). Update position `(r, k)` lands on `(r, k)`. -/

section RowBlock
variable {α : Type} {B N K : Nat}

/-- A rank-2 index's first coordinate is below the first extent, written as `m` itself so that `omega` can use it. -/
theorem idx2_lt0 {m n : Nat} (j : (⟨2, ![m, n]⟩ : Shape).Idx) : (j 0).val < m := (j 0).isLt

/-- A rank-2 index's second coordinate is below the second extent, written as `n` itself. -/
theorem idx2_lt1 {m n : Nat} (j : (⟨2, ![m, n]⟩ : Shape).Idx) : (j 1).val < n := (j 1).isLt

/-- The result index of update position `j` of a row-block write whose scatter indices hold, at `(k, 0)`, the number
    `k` as a word (the block fits in the operand, and its columns are small enough to be read back signed from
    their words): row `j 0`, column `j 1`. The dimension numbers are given by their fields, so that the statement
    applies to any record with these fields, whatever the proof of its conditions. -/
theorem rowblock_resultIdx (d : ScatterDims ⟨2, ![B, N]⟩ ⟨2, ![K, 1]⟩ ⟨2, ![B, K]⟩)
    (huw : d.updateWindowDims = [0]) (hiw : d.insertedWindowDims = [1]) (hsd : d.scatterDimsToOperandDims = [1])
    (hiv : d.indexVectorDim = 1) (idx : IVec ⟨2, ![K, 1]⟩ 32) (hidx : ∀ q, idx q = BitVec.ofNat 32 (q 0).val)
    (hKN : K ≤ N) (h31 : K ≤ 2 ^ 31) (j : (⟨2, ![B, K]⟩ : Shape).Idx) :
    d.resultIdx? j idx
      = some (ix2 ⟨(j 0).val, idx2_lt0 j⟩ ⟨(j 1).val, Nat.lt_of_lt_of_le (idx2_lt1 j) hKN⟩) := by
  obtain ⟨uw, iw, sd, iv, wf⟩ := d
  dsimp only at huw hiw hsd hiv
  subst huw hiw hsd hiv
  have hj0 : (j 0).val < B := (j 0).isLt
  have hj1 : (j 1).val < K := (j 1).isLt
  have hs0 : ScatterDims.start ⟨[0], [1], [1], 1, wf⟩ j idx 0 = 0 := rfl
  have hq : ∀ c, ((ScatterDims.siIdx ⟨[0], [1], [1], 1, wf⟩ j c) 0).val = (j 1).val := fun _ => rfl
  have hs1 : ScatterDims.start ⟨[0], [1], [1], 1, wf⟩ j idx 1 = ((j 1).val : Int) := by
    unfold ScatterDims.start
    rw [dif_pos (List.mem_singleton.mpr rfl), hidx, toInt_ofNat_of_lt _ (by rw [hq]; omega), hq]
  have hw0 : ScatterDims.window ⟨[0], [1], [1], 1, wf⟩ j 0 = (j 0).val := rfl
  have hw1 : ScatterDims.window ⟨[0], [1], [1], 1, wf⟩ j 1 = 0 := rfl
  have hall : ∀ a, 0 ≤ ScatterDims.start ⟨[0], [1], [1], 1, wf⟩ j idx a + ScatterDims.window ⟨[0], [1], [1], 1, wf⟩ j a
      ∧ ScatterDims.start ⟨[0], [1], [1], 1, wf⟩ j idx a + ScatterDims.window ⟨[0], [1], [1], 1, wf⟩ j a
        < (⟨2, ![B, N]⟩ : Shape).size a := by
    intro a
    match a with
    | ⟨0, _⟩ =>
      show 0 ≤ ScatterDims.start ⟨[0], [1], [1], 1, wf⟩ j idx 0 + ScatterDims.window ⟨[0], [1], [1], 1, wf⟩ j 0
        ∧ ScatterDims.start ⟨[0], [1], [1], 1, wf⟩ j idx 0 + ScatterDims.window ⟨[0], [1], [1], 1, wf⟩ j 0 < (B : Int)
      rw [hs0, hw0]; omega
    | ⟨1, _⟩ =>
      show 0 ≤ ScatterDims.start ⟨[0], [1], [1], 1, wf⟩ j idx 1 + ScatterDims.window ⟨[0], [1], [1], 1, wf⟩ j 1
        ∧ ScatterDims.start ⟨[0], [1], [1], 1, wf⟩ j idx 1 + ScatterDims.window ⟨[0], [1], [1], 1, wf⟩ j 1 < (N : Int)
      rw [hs1, hw1]; omega
  unfold ScatterDims.resultIdx?
  rw [dif_pos hall]
  congr 1
  funext a
  match a with
  | ⟨0, _⟩ =>
    refine Fin.ext ?_
    show (ScatterDims.start ⟨[0], [1], [1], 1, wf⟩ j idx 0 + ScatterDims.window ⟨[0], [1], [1], 1, wf⟩ j 0).toNat = (j 0).val
    rw [hs0, hw0]; omega
  | ⟨1, _⟩ =>
    refine Fin.ext ?_
    show (ScatterDims.start ⟨[0], [1], [1], 1, wf⟩ j idx 1 + ScatterDims.window ⟨[0], [1], [1], 1, wf⟩ j 1).toNat = (j 1).val
    rw [hs1, hw1]; omega

/-- THE ROW-BLOCK WRITE AT AN ELEMENT OF THE BLOCK: row `r`, column `i` (below `K`) of the result is the update's
    element `(r, i)`; the update position `(r, i)` is the only one that lands there. -/
theorem scatter_set_rowblock (d : ScatterDims ⟨2, ![B, N]⟩ ⟨2, ![K, 1]⟩ ⟨2, ![B, K]⟩)
    (huw : d.updateWindowDims = [0]) (hiw : d.insertedWindowDims = [1]) (hsd : d.scatterDimsToOperandDims = [1])
    (hiv : d.indexVectorDim = 1) (x : (⟨2, ![B, N]⟩ : Shape).Idx → α) (idx : IVec ⟨2, ![K, 1]⟩ 32)
    (hidx : ∀ q, idx q = BitVec.ofNat 32 (q 0).val) (hKN : K ≤ N) (h31 : K ≤ 2 ^ 31)
    (upd : (⟨2, ![B, K]⟩ : Shape).Idx → α) (r : Fin B) (i : Fin K) :
    Host.scatter d (fun _ b => b) x idx upd (ix2 r ⟨i.val, Nat.lt_of_lt_of_le i.isLt hKN⟩) = upd (ix2 r i) := by
  have hres := rowblock_resultIdx d huw hiw hsd hiv idx hidx hKN h31
  refine scatter_set_of_unique_hit d x idx upd _ (ix2 r i) ?_ ?_
  · rw [hres]; rfl
  · intro j' hj'
    rw [hres] at hj'
    have h0 := congrArg Fin.val (congrFun (Option.some.inj hj') 0)
    have h1 := congrArg Fin.val (congrFun (Option.some.inj hj') 1)
    rw [eq_ix2 j']; congr 1
    · exact Fin.ext h0
    · exact Fin.ext h1

/-- The row-block write at an element to the right of the block (column `c'` at or beyond `K`): the operand's element. -/
theorem scatter_set_rowblock_right (d : ScatterDims ⟨2, ![B, N]⟩ ⟨2, ![K, 1]⟩ ⟨2, ![B, K]⟩)
    (huw : d.updateWindowDims = [0]) (hiw : d.insertedWindowDims = [1]) (hsd : d.scatterDimsToOperandDims = [1])
    (hiv : d.indexVectorDim = 1) (x : (⟨2, ![B, N]⟩ : Shape).Idx → α) (idx : IVec ⟨2, ![K, 1]⟩ 32)
    (hidx : ∀ q, idx q = BitVec.ofNat 32 (q 0).val) (hKN : K ≤ N) (h31 : K ≤ 2 ^ 31)
    (upd : (⟨2, ![B, K]⟩ : Shape).Idx → α) (r : Fin B) (c' : Fin N) (hc : K ≤ c'.val) :
    Host.scatter d (fun _ b => b) x idx upd (ix2 r c') = x (ix2 r c') := by
  have hres := rowblock_resultIdx d huw hiw hsd hiv idx hidx hKN h31
  refine scatter_set_of_no_hit d x idx upd _ fun j hj => ?_
  rw [hres] at hj
  have h1 := congrArg Fin.val (congrFun (Option.some.inj hj) 1)
  have hj1 : (j 1).val < K := (j 1).isLt
  have h1' : (j 1).val = c'.val := h1
  omega

end RowBlock

end Idealize.ShloMosaic.LibScatterSet
-- ==== Proof.RefStart.lean ====
/-
  The start of the reference's walk: the node-value array before the first hidden node.

  The reference begins with an array of zeros, a row per batch element and a column per node, and
  writes the batch of inputs into its first 64 columns in one step: update column k goes to the
  column named by entry k of an index vector. That vector is 0, 1, …, 63 with 208 added to every
  negative entry (the wrap-around of a negative column number); none of the entries is negative,
  so entry k is k, and update element (r, k) lands on element (r, k) of the array. Hence the
  array holds the inputs in columns 0..63, which is all the walk's invariant asks before any hidden
  or output node has run.
-/
import proofs.«129742_g6708738916766_cont_9to1_m_1119_20_alg».proof.Proof.RunPatched
import proofs.«129742_g6708738916766_cont_9to1_m_1119_20_alg».proof.Proof.RefInv
import proofs.«129742_g6708738916766_cont_9to1_m_1119_20_alg».proof.Proof.LibScatterSet
import Idealize.ShloMosaic.Lib.IdealHost
import Idealize.ShloMosaic.Lib.Pipeline.Value
import Idealize.ShloMosaic.Lib.ValueIdx

noncomputable section

namespace Cert.ReferenceIdeal.RefStart

open Cert.ReferenceIdeal Cert.ReferenceIdeal.Gen Cert.ReferenceIdeal.ValueP Idealize.ShloMosaic Idealize.ShloMosaic.TcCoe
  Idealize.SL.Sem Idealize.ShloMosaic.StableHlo Idealize.ShloMosaic.ValueIdx Cert.Mlp

/-- The reference's seven arguments at launch, as the network's arguments: the batch of inputs, the
    input-to-hidden and hidden-to-output weights, the hidden and output biases, the hidden and
    output responses. -/
def args (V0 : Valuation τ sig (Elt Ideal)) : Cert.Mlp.Args where
  x := V0 (Proc.devRef .tc main_arg0)
  wih := V0 (Proc.devRef .tc main_arg1)
  who := V0 (Proc.devRef .tc main_arg2)
  bh := V0 (Proc.devRef .tc main_arg3)
  bo := V0 (Proc.devRef .tc main_arg4)
  rh := V0 (Proc.devRef .tc main_arg5)
  ro := V0 (Proc.devRef .tc main_arg6)

/-- The value every reduction of the reference starts from: the number whose 32-bit pattern is all zeros. -/
abbrev z : EReal := Ideal.ofBits .f32 0x00000000#32

/-- A natural number below `2 ^ 31`, as a 32-bit word, is not below zero in the signed order:
    read signed it is itself, and it is not negative. -/
theorem not_slt_zero (n : ℕ) (h : n < 2 ^ 31) : (BitVec.ofNat 32 n).slt 0#32 = false := by
  unfold BitVec.slt
  rw [LibScatterSet.toInt_ofNat_of_lt n h]
  have h0 : (0#32 : BitVec 32).toInt = 0 := by decide
  rw [h0]
  exact decide_eq_false (by omega)

variable (V0 : Valuation τ sig (Elt Ideal))

/-- The index vector of the first write, read at `q`: the word of `q`'s first coordinate. Entry `k` of the
    running count 0, 1, …, 63 is the word of `k`; it is not negative, so the choice between it and it plus
    208 keeps it; the spread to a `[64, 1]` array reads entry `q 0`. -/
theorem start_index_apply (q : S64x1.Idx) :
    broadcastInDim S64x1 ![0] bcast_S64_S64x1_0
      (select (cmpi .slt (res_main_v1 V0) (broadcastInDim S64 ![] bcast_S_S64 (constantI S_ 32 0#32)))
        (addi (res_main_v1 V0) (broadcastInDim S64 ![] bcast_S_S64 (constantI S_ 32 208#32))) (res_main_v1 V0)) q
      = BitVec.ofNat 32 (q 0).val := by
  rw [broadcastInDim_apply _ bcast_S64_S64x1_0 _ q (ix1 (q 0)) (fun a => match a with
    | ⟨0, _⟩ => by show (q 0).val = if (64 : ℕ) = 1 then 0 else (q 0).val; rw [if_neg (by decide)])]
  rw [select_apply]
  have hi : res_main_v1 V0 (ix1 (q 0)) = BitVec.ofNat 32 (q 0).val := rfl
  have hq : (q 0).val < 2 ^ 31 := by
    have := LibScatterSet.idx2_lt0 q
    omega
  have hc : cmpi .slt (res_main_v1 V0) (broadcastInDim S64 ![] bcast_S_S64 (constantI S_ 32 0#32)) (ix1 (q 0)) = 0#1 := by
    show BitVec.ofBool ((BitVec.ofNat 32 (q 0).val).slt 0#32) = 0#1
    rw [not_slt_zero _ hq]
    rfl
  rw [hc, hi]
  rfl

/-- BEFORE THE FIRST HIDDEN NODE the node-value array holds the inputs in columns 0..63: the first
    write puts update element `(r, i)` on element `(r, i)`. Nothing is asked of the hidden and output
    columns yet. -/
theorem w8 : Walked (args V0) z 0 0 (res_main_v8 V0) where
  inp r i :=
    LibScatterSet.scatter_set_rowblock scatter_S16384x208_S64x1_S16384x64_0_1_1_1 rfl rfl rfl rfl _ _
      (start_index_apply V0) (by decide) (by decide) (V0 (Proc.devRef .tc main_arg0)) r i
  hid r h hlt := absurd hlt (Nat.not_lt_zero _)
  out r o hlt := absurd hlt (Nat.not_lt_zero _)

end Cert.ReferenceIdeal.RefStart

end
-- ==== Proof.RefWalk.lean ====
/-
  The reference's walk, node by node: after the k-th node the node-value array is the k-th named
  intermediate of the reference's run, and it holds the inputs, the first hidden activations and
  the first output activations in their columns. The last band of 16 columns is the result.
-/
import proofs.«129742_g6708738916766_cont_9to1_m_1119_20_alg».proof.Proof.RunPatched
import proofs.«129742_g6708738916766_cont_9to1_m_1119_20_alg».proof.Proof.RefNode
import proofs.«129742_g6708738916766_cont_9to1_m_1119_20_alg».proof.Proof.RefInv
import proofs.«129742_g6708738916766_cont_9to1_m_1119_20_alg».proof.Proof.RefStart

noncomputable section

namespace Cert.ReferenceIdeal.RefWalk

open Cert.ReferenceIdeal Cert.ReferenceIdeal.Gen Cert.ReferenceIdeal.ValueP Idealize.ShloMosaic Idealize.ShloMosaic.TcCoe
  Idealize.SL.Sem Idealize.ShloMosaic.StableHlo Idealize.ShloMosaic.ValueIdx Cert.Mlp Cert.ReferenceIdeal.RefStart

variable (V0 : Valuation τ sig (Elt Ideal))

/-- A hidden node of the walk: the array `X` after `h` hidden nodes, with column `col = 64 + h`
    overwritten by the node's activation, is the array after `h + 1` hidden nodes. -/
theorem hidden_node (X : FVec Ideal S16384x208 .f32) (h col : ℕ) (hh : h < 128) (hcol : col = 64 + h)
    (hX : Walked (args V0) z h 0 X)
    {hbi : S_.BroadcastsInDim S1 (![] : Fin 0 → Fin S1.rank)}
    {hsb : S128.Slices ![h] S1} {hss : S128.Slices ![h] S1} {hcb : S1.ShapeCasts S_} {hcs : S1.ShapeCasts S_}
    {hbb : S_.BroadcastsInDim S16384 (![] : Fin 0 → Fin S16384.rank)} {hbs : S_.BroadcastsInDim S16384 (![] : Fin 0 → Fin S16384.rank)}
    {hsX : S16384x208.Slices ![0, 0] S16384x64} {hsw : S128x64.Slices ![h, 0] S1x64} {hcw : S1x64.ShapeCasts S64}
    {hb1 : S64.BroadcastsInDim S1x64 (![1] : Fin 1 → Fin 2)} {hb2 : S1x64.BroadcastsInDim S16384x64 (![0, 1] : Fin 2 → Fin 2)}
    {hred : S16384x64.ReducesTo [1] S16384} {hS : 0 < S_.numel} :
    Walked (args V0) z (h + 1) 0
      (Host.scatter scatter_S16384x208_S1_S16384_0_1_1_0 (fun _ b => b) X
        (broadcastInDim S1 ![] hbi (constantI S_ 32 (BitVec.ofNat 32 col)))
        (Host.tanh (addf (broadcastInDim S16384 ![] hbb (shapeCast S_ (extractStridedSlice S1 ![h] (V0 (Proc.devRef .tc main_arg3)) hsb) hcb))
          (mulf (broadcastInDim S16384 ![] hbs (shapeCast S_ (extractStridedSlice S1 ![h] (V0 (Proc.devRef .tc main_arg5)) hss) hcs))
            (Host.reduceAdd (mulf (extractStridedSlice S16384x64 ![0, 0] X hsX)
                (broadcastInDim S16384x64 ![0, 1] hb2 (broadcastInDim S1x64 ![1] hb1
                  (shapeCast S64 (extractStridedSlice S1x64 ![h, 0] (V0 (Proc.devRef .tc main_arg1)) hsw) hcw))))
              (constant S_ .f32 0x00000000#32) hred hS))))) := by
  subst hcol
  refine Walked.hidStep (upd := ?upd) h hh hX ?hY ?hupd
  case hY =>
    intro r c
    exact LibScatterSet.scatter_set_column scatter_S16384x208_S1_S16384_0_1_1_0 rfl rfl rfl rfl X _ (64 + h) (fun _ => rfl) (by omega) (by omega) _ r c
  case hupd =>
    intro r
    exact RefNode.hidden_column_apply X _ _ _ h hh _ r

/-- An output node of the walk: the array `X` after all hidden and `o` output nodes, with column
    `col = 192 + o` overwritten by the node's activation, is the array after `o + 1` output nodes. -/
theorem output_node (X : FVec Ideal S16384x208 .f32) (o col : ℕ) (ho : o < 16) (hcol : col = 192 + o)
    (hX : Walked (args V0) z 128 o X)
    {hbi : S_.BroadcastsInDim S1 (![] : Fin 0 → Fin S1.rank)}
    {hsb : S16.Slices ![o] S1} {hss : S16.Slices ![o] S1} {hcb : S1.ShapeCasts S_} {hcs : S1.ShapeCasts S_}
    {hbb : S_.BroadcastsInDim S16384 (![] : Fin 0 → Fin S16384.rank)} {hbs : S_.BroadcastsInDim S16384 (![] : Fin 0 → Fin S16384.rank)}
    {hsX : S16384x208.Slices ![0, 64] S16384x128} {hsw : S16x128.Slices ![o, 0] S1x128} {hcw : S1x128.ShapeCasts S128}
    {hb1 : S128.BroadcastsInDim S1x128 (![1] : Fin 1 → Fin 2)} {hb2 : S1x128.BroadcastsInDim S16384x128 (![0, 1] : Fin 2 → Fin 2)}
    {hred : S16384x128.ReducesTo [1] S16384} {hS : 0 < S_.numel} :
    Walked (args V0) z 128 (o + 1)
      (Host.scatter scatter_S16384x208_S1_S16384_0_1_1_0 (fun _ b => b) X
        (broadcastInDim S1 ![] hbi (constantI S_ 32 (BitVec.ofNat 32 col)))
        (Host.tanh (addf (broadcastInDim S16384 ![] hbb (shapeCast S_ (extractStridedSlice S1 ![o] (V0 (Proc.devRef .tc main_arg4)) hsb) hcb))
          (mulf (broadcastInDim S16384 ![] hbs (shapeCast S_ (extractStridedSlice S1 ![o] (V0 (Proc.devRef .tc main_arg6)) hss) hcs))
            (Host.reduceAdd (mulf (extractStridedSlice S16384x128 ![0, 64] X hsX)
                (broadcastInDim S16384x128 ![0, 1] hb2 (broadcastInDim S1x128 ![1] hb1
                  (shapeCast S128 (extractStridedSlice S1x128 ![o, 0] (V0 (Proc.devRef .tc main_arg2)) hsw) hcw))))
              (constant S_ .f32 0x00000000#32) hred hS))))) := by
  subst hcol
  refine Walked.outStep (upd := ?upd) o ho hX ?hY ?hupd
  case hY =>
    intro r c
    exact LibScatterSet.scatter_set_column scatter_S16384x208_S1_S16384_0_1_1_0 rfl rfl rfl rfl X _ (192 + o) (fun _ => rfl) (by omega) (by omega) _ r c
  case hupd =>
    intro r
    exact RefNode.output_column_apply X _ _ _ o ho _ r

/-! ## The 128 hidden nodes, in the walk's order -/

theorem w26 : Walked (args V0) z 1 0 (res_main_v26 V0) := hidden_node V0 _ 0 64 (by decide) rfl (w8 V0)
theorem w44 : Walked (args V0) z 2 0 (res_main_v44 V0) := hidden_node V0 _ 1 65 (by decide) rfl (w26 V0)
theorem w62 : Walked (args V0) z 3 0 (res_main_v62 V0) := hidden_node V0 _ 2 66 (by decide) rfl (w44 V0)
theorem w80 : Walked (args V0) z 4 0 (res_main_v80 V0) := hidden_node V0 _ 3 67 (by decide) rfl (w62 V0)
theorem w98 : Walked (args V0) z 5 0 (res_main_v98 V0) := hidden_node V0 _ 4 68 (by decide) rfl (w80 V0)
theorem w116 : Walked (args V0) z 6 0 (res_main_v116 V0) := hidden_node V0 _ 5 69 (by decide) rfl (w98 V0)
theorem w134 : Walked (args V0) z 7 0 (res_main_v134 V0) := hidden_node V0 _ 6 70 (by decide) rfl (w116 V0)
theorem w152 : Walked (args V0) z 8 0 (res_main_v152 V0) := hidden_node V0 _ 7 71 (by decide) rfl (w134 V0)
theorem w170 : Walked (args V0) z 9 0 (res_main_v170 V0) := hidden_node V0 _ 8 72 (by decide) rfl (w152 V0)
theorem w188 : Walked (args V0) z 10 0 (res_main_v188 V0) := hidden_node V0 _ 9 73 (by decide) rfl (w170 V0)
theorem w206 : Walked (args V0) z 11 0 (res_main_v206 V0) := hidden_node V0 _ 10 74 (by decide) rfl (w188 V0)
theorem w224 : Walked (args V0) z 12 0 (res_main_v224 V0) := hidden_node V0 _ 11 75 (by decide) rfl (w206 V0)
theorem w242 : Walked (args V0) z 13 0 (res_main_v242 V0) := hidden_node V0 _ 12 76 (by decide) rfl (w224 V0)
theorem w260 : Walked (args V0) z 14 0 (res_main_v260 V0) := hidden_node V0 _ 13 77 (by decide) rfl (w242 V0)
theorem w278 : Walked (args V0) z 15 0 (res_main_v278 V0) := hidden_node V0 _ 14 78 (by decide) rfl (w260 V0)
theorem w296 : Walked (args V0) z 16 0 (res_main_v296 V0) := hidden_node V0 _ 15 79 (by decide) rfl (w278 V0)
theorem w314 : Walked (args V0) z 17 0 (res_main_v314 V0) := hidden_node V0 _ 16 80 (by decide) rfl (w296 V0)
theorem w332 : Walked (args V0) z 18 0 (res_main_v332 V0) := hidden_node V0 _ 17 81 (by decide) rfl (w314 V0)
theorem w350 : Walked (args V0) z 19 0 (res_main_v350 V0) := hidden_node V0 _ 18 82 (by decide) rfl (w332 V0)
theorem w368 : Walked (args V0) z 20 0 (res_main_v368 V0) := hidden_node V0 _ 19 83 (by decide) rfl (w350 V0)
theorem w386 : Walked (args V0) z 21 0 (res_main_v386 V0) := hidden_node V0 _ 20 84 (by decide) rfl (w368 V0)
theorem w404 : Walked (args V0) z 22 0 (res_main_v404 V0) := hidden_node V0 _ 21 85 (by decide) rfl (w386 V0)
theorem w422 : Walked (args V0) z 23 0 (res_main_v422 V0) := hidden_node V0 _ 22 86 (by decide) rfl (w404 V0)
theorem w440 : Walked (args V0) z 24 0 (res_main_v440 V0) := hidden_node V0 _ 23 87 (by decide) rfl (w422 V0)
theorem w458 : Walked (args V0) z 25 0 (res_main_v458 V0) := hidden_node V0 _ 24 88 (by decide) rfl (w440 V0)
theorem w476 : Walked (args V0) z 26 0 (res_main_v476 V0) := hidden_node V0 _ 25 89 (by decide) rfl (w458 V0)
theorem w494 : Walked (args V0) z 27 0 (res_main_v494 V0) := hidden_node V0 _ 26 90 (by decide) rfl (w476 V0)
theorem w512 : Walked (args V0) z 28 0 (res_main_v512 V0) := hidden_node V0 _ 27 91 (by decide) rfl (w494 V0)
theorem w530 : Walked (args V0) z 29 0 (res_main_v530 V0) := hidden_node V0 _ 28 92 (by decide) rfl (w512 V0)
theorem w548 : Walked (args V0) z 30 0 (res_main_v548 V0) := hidden_node V0 _ 29 93 (by decide) rfl (w530 V0)
theorem w566 : Walked (args V0) z 31 0 (res_main_v566 V0) := hidden_node V0 _ 30 94 (by decide) rfl (w548 V0)
theorem w584 : Walked (args V0) z 32 0 (res_main_v584 V0) := hidden_node V0 _ 31 95 (by decide) rfl (w566 V0)
theorem w602 : Walked (args V0) z 33 0 (res_main_v602 V0) := hidden_node V0 _ 32 96 (by decide) rfl (w584 V0)
theorem w620 : Walked (args V0) z 34 0 (res_main_v620 V0) := hidden_node V0 _ 33 97 (by decide) rfl (w602 V0)
theorem w638 : Walked (args V0) z 35 0 (res_main_v638 V0) := hidden_node V0 _ 34 98 (by decide) rfl (w620 V0)
theorem w656 : Walked (args V0) z 36 0 (res_main_v656 V0) := hidden_node V0 _ 35 99 (by decide) rfl (w638 V0)
theorem w674 : Walked (args V0) z 37 0 (res_main_v674 V0) := hidden_node V0 _ 36 100 (by decide) rfl (w656 V0)
theorem w692 : Walked (args V0) z 38 0 (res_main_v692 V0) := hidden_node V0 _ 37 101 (by decide) rfl (w674 V0)
theorem w710 : Walked (args V0) z 39 0 (res_main_v710 V0) := hidden_node V0 _ 38 102 (by decide) rfl (w692 V0)
theorem w728 : Walked (args V0) z 40 0 (res_main_v728 V0) := hidden_node V0 _ 39 103 (by decide) rfl (w710 V0)
theorem w746 : Walked (args V0) z 41 0 (res_main_v746 V0) := hidden_node V0 _ 40 104 (by decide) rfl (w728 V0)
theorem w764 : Walked (args V0) z 42 0 (res_main_v764 V0) := hidden_node V0 _ 41 105 (by decide) rfl (w746 V0)
theorem w782 : Walked (args V0) z 43 0 (res_main_v782 V0) := hidden_node V0 _ 42 106 (by decide) rfl (w764 V0)
theorem w800 : Walked (args V0) z 44 0 (res_main_v800 V0) := hidden_node V0 _ 43 107 (by decide) rfl (w782 V0)
theorem w818 : Walked (args V0) z 45 0 (res_main_v818 V0) := hidden_node V0 _ 44 108 (by decide) rfl (w800 V0)
theorem w836 : Walked (args V0) z 46 0 (res_main_v836 V0) := hidden_node V0 _ 45 109 (by decide) rfl (w818 V0)
theorem w854 : Walked (args V0) z 47 0 (res_main_v854 V0) := hidden_node V0 _ 46 110 (by decide) rfl (w836 V0)
theorem w872 : Walked (args V0) z 48 0 (res_main_v872 V0) := hidden_node V0 _ 47 111 (by decide) rfl (w854 V0)
theorem w890 : Walked (args V0) z 49 0 (res_main_v890 V0) := hidden_node V0 _ 48 112 (by decide) rfl (w872 V0)
theorem w908 : Walked (args V0) z 50 0 (res_main_v908 V0) := hidden_node V0 _ 49 113 (by decide) rfl (w890 V0)
theorem w926 : Walked (args V0) z 51 0 (res_main_v926 V0) := hidden_node V0 _ 50 114 (by decide) rfl (w908 V0)
theorem w944 : Walked (args V0) z 52 0 (res_main_v944 V0) := hidden_node V0 _ 51 115 (by decide) rfl (w926 V0)
theorem w962 : Walked (args V0) z 53 0 (res_main_v962 V0) := hidden_node V0 _ 52 116 (by decide) rfl (w944 V0)
theorem w980 : Walked (args V0) z 54 0 (res_main_v980 V0) := hidden_node V0 _ 53 117 (by decide) rfl (w962 V0)
theorem w998 : Walked (args V0) z 55 0 (res_main_v998 V0) := hidden_node V0 _ 54 118 (by decide) rfl (w980 V0)
theorem w1016 : Walked (args V0) z 56 0 (res_main_v1016 V0) := hidden_node V0 _ 55 119 (by decide) rfl (w998 V0)
theorem w1034 : Walked (args V0) z 57 0 (res_main_v1034 V0) := hidden_node V0 _ 56 120 (by decide) rfl (w1016 V0)
theorem w1052 : Walked (args V0) z 58 0 (res_main_v1052 V0) := hidden_node V0 _ 57 121 (by decide) rfl (w1034 V0)
theorem w1070 : Walked (args V0) z 59 0 (res_main_v1070 V0) := hidden_node V0 _ 58 122 (by decide) rfl (w1052 V0)
theorem w1088 : Walked (args V0) z 60 0 (res_main_v1088 V0) := hidden_node V0 _ 59 123 (by decide) rfl (w1070 V0)
theorem w1106 : Walked (args V0) z 61 0 (res_main_v1106 V0) := hidden_node V0 _ 60 124 (by decide) rfl (w1088 V0)
theorem w1124 : Walked (args V0) z 62 0 (res_main_v1124 V0) := hidden_node V0 _ 61 125 (by decide) rfl (w1106 V0)
theorem w1142 : Walked (args V0) z 63 0 (res_main_v1142 V0) := hidden_node V0 _ 62 126 (by decide) rfl (w1124 V0)
theorem w1160 : Walked (args V0) z 64 0 (res_main_v1160 V0) := hidden_node V0 _ 63 127 (by decide) rfl (w1142 V0)
theorem w1178 : Walked (args V0) z 65 0 (res_main_v1178 V0) := hidden_node V0 _ 64 128 (by decide) rfl (w1160 V0)
theorem w1196 : Walked (args V0) z 66 0 (res_main_v1196 V0) := hidden_node V0 _ 65 129 (by decide) rfl (w1178 V0)
theorem w1214 : Walked (args V0) z 67 0 (res_main_v1214 V0) := hidden_node V0 _ 66 130 (by decide) rfl (w1196 V0)
theorem w1232 : Walked (args V0) z 68 0 (res_main_v1232 V0) := hidden_node V0 _ 67 131 (by decide) rfl (w1214 V0)
theorem w1250 : Walked (args V0) z 69 0 (res_main_v1250 V0) := hidden_node V0 _ 68 132 (by decide) rfl (w1232 V0)
theorem w1268 : Walked (args V0) z 70 0 (res_main_v1268 V0) := hidden_node V0 _ 69 133 (by decide) rfl (w1250 V0)
theorem w1286 : Walked (args V0) z 71 0 (res_main_v1286 V0) := hidden_node V0 _ 70 134 (by decide) rfl (w1268 V0)
theorem w1304 : Walked (args V0) z 72 0 (res_main_v1304 V0) := hidden_node V0 _ 71 135 (by decide) rfl (w1286 V0)
theorem w1322 : Walked (args V0) z 73 0 (res_main_v1322 V0) := hidden_node V0 _ 72 136 (by decide) rfl (w1304 V0)
theorem w1340 : Walked (args V0) z 74 0 (res_main_v1340 V0) := hidden_node V0 _ 73 137 (by decide) rfl (w1322 V0)
theorem w1358 : Walked (args V0) z 75 0 (res_main_v1358 V0) := hidden_node V0 _ 74 138 (by decide) rfl (w1340 V0)
theorem w1376 : Walked (args V0) z 76 0 (res_main_v1376 V0) := hidden_node V0 _ 75 139 (by decide) rfl (w1358 V0)
theorem w1394 : Walked (args V0) z 77 0 (res_main_v1394 V0) := hidden_node V0 _ 76 140 (by decide) rfl (w1376 V0)
theorem w1412 : Walked (args V0) z 78 0 (res_main_v1412 V0) := hidden_node V0 _ 77 141 (by decide) rfl (w1394 V0)
theorem w1430 : Walked (args V0) z 79 0 (res_main_v1430 V0) := hidden_node V0 _ 78 142 (by decide) rfl (w1412 V0)
theorem w1448 : Walked (args V0) z 80 0 (res_main_v1448 V0) := hidden_node V0 _ 79 143 (by decide) rfl (w1430 V0)
theorem w1466 : Walked (args V0) z 81 0 (res_main_v1466 V0) := hidden_node V0 _ 80 144 (by decide) rfl (w1448 V0)
theorem w1484 : Walked (args V0) z 82 0 (res_main_v1484 V0) := hidden_node V0 _ 81 145 (by decide) rfl (w1466 V0)
theorem w1502 : Walked (args V0) z 83 0 (res_main_v1502 V0) := hidden_node V0 _ 82 146 (by decide) rfl (w1484 V0)
theorem w1520 : Walked (args V0) z 84 0 (res_main_v1520 V0) := hidden_node V0 _ 83 147 (by decide) rfl (w1502 V0)
theorem w1538 : Walked (args V0) z 85 0 (res_main_v1538 V0) := hidden_node V0 _ 84 148 (by decide) rfl (w1520 V0)
theorem w1556 : Walked (args V0) z 86 0 (res_main_v1556 V0) := hidden_node V0 _ 85 149 (by decide) rfl (w1538 V0)
theorem w1574 : Walked (args V0) z 87 0 (res_main_v1574 V0) := hidden_node V0 _ 86 150 (by decide) rfl (w1556 V0)
theorem w1592 : Walked (args V0) z 88 0 (res_main_v1592 V0) := hidden_node V0 _ 87 151 (by decide) rfl (w1574 V0)
theorem w1610 : Walked (args V0) z 89 0 (res_main_v1610 V0) := hidden_node V0 _ 88 152 (by decide) rfl (w1592 V0)
theorem w1628 : Walked (args V0) z 90 0 (res_main_v1628 V0) := hidden_node V0 _ 89 153 (by decide) rfl (w1610 V0)
theorem w1646 : Walked (args V0) z 91 0 (res_main_v1646 V0) := hidden_node V0 _ 90 154 (by decide) rfl (w1628 V0)
theorem w1664 : Walked (args V0) z 92 0 (res_main_v1664 V0) := hidden_node V0 _ 91 155 (by decide) rfl (w1646 V0)
theorem w1682 : Walked (args V0) z 93 0 (res_main_v1682 V0) := hidden_node V0 _ 92 156 (by decide) rfl (w1664 V0)
theorem w1700 : Walked (args V0) z 94 0 (res_main_v1700 V0) := hidden_node V0 _ 93 157 (by decide) rfl (w1682 V0)
theorem w1718 : Walked (args V0) z 95 0 (res_main_v1718 V0) := hidden_node V0 _ 94 158 (by decide) rfl (w1700 V0)
theorem w1736 : Walked (args V0) z 96 0 (res_main_v1736 V0) := hidden_node V0 _ 95 159 (by decide) rfl (w1718 V0)
theorem w1754 : Walked (args V0) z 97 0 (res_main_v1754 V0) := hidden_node V0 _ 96 160 (by decide) rfl (w1736 V0)
theorem w1772 : Walked (args V0) z 98 0 (res_main_v1772 V0) := hidden_node V0 _ 97 161 (by decide) rfl (w1754 V0)
theorem w1790 : Walked (args V0) z 99 0 (res_main_v1790 V0) := hidden_node V0 _ 98 162 (by decide) rfl (w1772 V0)
theorem w1808 : Walked (args V0) z 100 0 (res_main_v1808 V0) := hidden_node V0 _ 99 163 (by decide) rfl (w1790 V0)
theorem w1826 : Walked (args V0) z 101 0 (res_main_v1826 V0) := hidden_node V0 _ 100 164 (by decide) rfl (w1808 V0)
theorem w1844 : Walked (args V0) z 102 0 (res_main_v1844 V0) := hidden_node V0 _ 101 165 (by decide) rfl (w1826 V0)
theorem w1862 : Walked (args V0) z 103 0 (res_main_v1862 V0) := hidden_node V0 _ 102 166 (by decide) rfl (w1844 V0)
theorem w1880 : Walked (args V0) z 104 0 (res_main_v1880 V0) := hidden_node V0 _ 103 167 (by decide) rfl (w1862 V0)
theorem w1898 : Walked (args V0) z 105 0 (res_main_v1898 V0) := hidden_node V0 _ 104 168 (by decide) rfl (w1880 V0)
theorem w1916 : Walked (args V0) z 106 0 (res_main_v1916 V0) := hidden_node V0 _ 105 169 (by decide) rfl (w1898 V0)
theorem w1934 : Walked (args V0) z 107 0 (res_main_v1934 V0) := hidden_node V0 _ 106 170 (by decide) rfl (w1916 V0)
theorem w1952 : Walked (args V0) z 108 0 (res_main_v1952 V0) := hidden_node V0 _ 107 171 (by decide) rfl (w1934 V0)
theorem w1970 : Walked (args V0) z 109 0 (res_main_v1970 V0) := hidden_node V0 _ 108 172 (by decide) rfl (w1952 V0)
theorem w1988 : Walked (args V0) z 110 0 (res_main_v1988 V0) := hidden_node V0 _ 109 173 (by decide) rfl (w1970 V0)
theorem w2006 : Walked (args V0) z 111 0 (res_main_v2006 V0) := hidden_node V0 _ 110 174 (by decide) rfl (w1988 V0)
theorem w2024 : Walked (args V0) z 112 0 (res_main_v2024 V0) := hidden_node V0 _ 111 175 (by decide) rfl (w2006 V0)
theorem w2042 : Walked (args V0) z 113 0 (res_main_v2042 V0) := hidden_node V0 _ 112 176 (by decide) rfl (w2024 V0)
theorem w2060 : Walked (args V0) z 114 0 (res_main_v2060 V0) := hidden_node V0 _ 113 177 (by decide) rfl (w2042 V0)
theorem w2078 : Walked (args V0) z 115 0 (res_main_v2078 V0) := hidden_node V0 _ 114 178 (by decide) rfl (w2060 V0)
theorem w2096 : Walked (args V0) z 116 0 (res_main_v2096 V0) := hidden_node V0 _ 115 179 (by decide) rfl (w2078 V0)
theorem w2114 : Walked (args V0) z 117 0 (res_main_v2114 V0) := hidden_node V0 _ 116 180 (by decide) rfl (w2096 V0)
theorem w2132 : Walked (args V0) z 118 0 (res_main_v2132 V0) := hidden_node V0 _ 117 181 (by decide) rfl (w2114 V0)
theorem w2150 : Walked (args V0) z 119 0 (res_main_v2150 V0) := hidden_node V0 _ 118 182 (by decide) rfl (w2132 V0)
theorem w2168 : Walked (args V0) z 120 0 (res_main_v2168 V0) := hidden_node V0 _ 119 183 (by decide) rfl (w2150 V0)
theorem w2186 : Walked (args V0) z 121 0 (res_main_v2186 V0) := hidden_node V0 _ 120 184 (by decide) rfl (w2168 V0)
theorem w2204 : Walked (args V0) z 122 0 (res_main_v2204 V0) := hidden_node V0 _ 121 185 (by decide) rfl (w2186 V0)
theorem w2222 : Walked (args V0) z 123 0 (res_main_v2222 V0) := hidden_node V0 _ 122 186 (by decide) rfl (w2204 V0)
theorem w2240 : Walked (args V0) z 124 0 (res_main_v2240 V0) := hidden_node V0 _ 123 187 (by decide) rfl (w2222 V0)
theorem w2258 : Walked (args V0) z 125 0 (res_main_v2258 V0) := hidden_node V0 _ 124 188 (by decide) rfl (w2240 V0)
theorem w2276 : Walked (args V0) z 126 0 (res_main_v2276 V0) := hidden_node V0 _ 125 189 (by decide) rfl (w2258 V0)
theorem w2294 : Walked (args V0) z 127 0 (res_main_v2294 V0) := hidden_node V0 _ 126 190 (by decide) rfl (w2276 V0)
theorem w2312 : Walked (args V0) z 128 0 (res_main_v2312 V0) := hidden_node V0 _ 127 191 (by decide) rfl (w2294 V0)

/-! ## The first 15 output nodes -/

theorem w2330 : Walked (args V0) z 128 1 (res_main_v2330 V0) := output_node V0 _ 0 192 (by decide) rfl (w2312 V0)
theorem w2348 : Walked (args V0) z 128 2 (res_main_v2348 V0) := output_node V0 _ 1 193 (by decide) rfl (w2330 V0)
theorem w2366 : Walked (args V0) z 128 3 (res_main_v2366 V0) := output_node V0 _ 2 194 (by decide) rfl (w2348 V0)
theorem w2384 : Walked (args V0) z 128 4 (res_main_v2384 V0) := output_node V0 _ 3 195 (by decide) rfl (w2366 V0)
theorem w2402 : Walked (args V0) z 128 5 (res_main_v2402 V0) := output_node V0 _ 4 196 (by decide) rfl (w2384 V0)
theorem w2420 : Walked (args V0) z 128 6 (res_main_v2420 V0) := output_node V0 _ 5 197 (by decide) rfl (w2402 V0)
theorem w2438 : Walked (args V0) z 128 7 (res_main_v2438 V0) := output_node V0 _ 6 198 (by decide) rfl (w2420 V0)
theorem w2456 : Walked (args V0) z 128 8 (res_main_v2456 V0) := output_node V0 _ 7 199 (by decide) rfl (w2438 V0)
theorem w2474 : Walked (args V0) z 128 9 (res_main_v2474 V0) := output_node V0 _ 8 200 (by decide) rfl (w2456 V0)
theorem w2492 : Walked (args V0) z 128 10 (res_main_v2492 V0) := output_node V0 _ 9 201 (by decide) rfl (w2474 V0)
theorem w2510 : Walked (args V0) z 128 11 (res_main_v2510 V0) := output_node V0 _ 10 202 (by decide) rfl (w2492 V0)
theorem w2528 : Walked (args V0) z 128 12 (res_main_v2528 V0) := output_node V0 _ 11 203 (by decide) rfl (w2510 V0)
theorem w2546 : Walked (args V0) z 128 13 (res_main_v2546 V0) := output_node V0 _ 12 204 (by decide) rfl (w2528 V0)
theorem w2564 : Walked (args V0) z 128 14 (res_main_v2564 V0) := output_node V0 _ 13 205 (by decide) rfl (w2546 V0)
theorem w2582 : Walked (args V0) z 128 15 (res_main_v2582 V0) := output_node V0 _ 14 206 (by decide) rfl (w2564 V0)

/-- THE REFERENCE'S RESULT: the last band of 16 columns after the sixteenth output node, entry by
    entry the output activation in the reference's spelling. -/
theorem result_eq {hbi : S_.BroadcastsInDim S1 (![] : Fin 0 → Fin S1.rank)}
    {hsb : S16.Slices ![15] S1} {hss : S16.Slices ![15] S1} {hcb : S1.ShapeCasts S_} {hcs : S1.ShapeCasts S_}
    {hbb : S_.BroadcastsInDim S16384 (![] : Fin 0 → Fin S16384.rank)} {hbs : S_.BroadcastsInDim S16384 (![] : Fin 0 → Fin S16384.rank)}
    {hsX : S16384x208.Slices ![0, 64] S16384x128} {hsw : S16x128.Slices ![15, 0] S1x128} {hcw : S1x128.ShapeCasts S128}
    {hb1 : S128.BroadcastsInDim S1x128 (![1] : Fin 1 → Fin 2)} {hb2 : S1x128.BroadcastsInDim S16384x128 (![0, 1] : Fin 2 → Fin 2)}
    {hred : S16384x128.ReducesTo [1] S16384} {hS : 0 < S_.numel} {hsl : S16384x208.Slices ![0, 192] S16384x16} :
    extractStridedSlice S16384x16 ![0, 192]
      (Host.scatter scatter_S16384x208_S1_S16384_0_1_1_0 (fun _ b => b) (res_main_v2582 V0)
        (broadcastInDim S1 ![] hbi (constantI S_ 32 207#32))
        (Host.tanh (addf (broadcastInDim S16384 ![] hbb (shapeCast S_ (extractStridedSlice S1 ![15] (V0 (Proc.devRef .tc main_arg4)) hsb) hcb))
          (mulf (broadcastInDim S16384 ![] hbs (shapeCast S_ (extractStridedSlice S1 ![15] (V0 (Proc.devRef .tc main_arg6)) hss) hcs))
            (Host.reduceAdd (mulf (extractStridedSlice S16384x128 ![0, 64] (res_main_v2582 V0) hsX)
                (broadcastInDim S16384x128 ![0, 1] hb2 (broadcastInDim S1x128 ![1] hb1
                  (shapeCast S128 (extractStridedSlice S1x128 ![15, 0] (V0 (Proc.devRef .tc main_arg2)) hsw) hcw))))
              (constant S_ .f32 0x00000000#32) hred hS))))) hsl
      = fun j => outRef (args V0) z (j 0) (j 1) := by
  funext j
  have hw := output_node V0 _ 15 207 (by decide) rfl (w2582 V0) (hbi := hbi) (hsb := hsb) (hss := hss) (hcb := hcb)
    (hcs := hcs) (hbb := hbb) (hbs := hbs) (hsX := hsX) (hsw := hsw) (hcw := hcw) (hb1 := hb1) (hb2 := hb2) (hred := hred) (hS := hS)
  obtain ⟨a, b, rfl⟩ : ∃ a b, j = ix2 a b := ⟨j 0, j 1, eq_ix2 j⟩
  refine (RefNode.band_apply _ 192 hsl (by decide) a b).trans ?_
  exact hw.out a b b.isLt

end Cert.ReferenceIdeal.RefWalk

end
-- ==== Proof.MlpLaw.lean ====
/-
  On finite arguments the reference's and the kernel's spellings of the network agree.

  Both are sums and products of extended reals. Scaling a finished sum by the response against
  scaling every weight first is distributivity, which fails at infinities; with every argument a
  real number each hidden activation is tanh of a real, hence a real, and the extended-real sums and
  products are the coercions of the real ones, where the ring laws hold.
-/
import proofs.«129742_g6708738916766_cont_9to1_m_1119_20_alg».proof.Proof.MlpSpec
import Mathlib.Data.EReal.Basic
import Mathlib.Tactic.Ring

noncomputable section

namespace Cert.Mlp

open Idealize.ShloMosaic Idealize.ShloMosaic.ValueIdx

/-- The coercion from the reals to the extended reals commutes with a finite sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Every entry of every argument is a real number. -/
structure Args.Finite (A : Args) : Prop where
  x : ∀ i, ∃ v : ℝ, A.x i = (v : EReal)
  wih : ∀ i, ∃ v : ℝ, A.wih i = (v : EReal)
  who : ∀ i, ∃ v : ℝ, A.who i = (v : EReal)
  bh : ∀ i, ∃ v : ℝ, A.bh i = (v : EReal)
  bo : ∀ i, ∃ v : ℝ, A.bo i = (v : EReal)
  rh : ∀ i, ∃ v : ℝ, A.rh i = (v : EReal)
  ro : ∀ i, ∃ v : ℝ, A.ro i = (v : EReal)

/-- Over the reals: the response times the sum of input times weight is the sum of (weight times
    response) times input. -/
theorem real_scale_sum {n : ℕ} (s : ℝ) (v w : Fin n → ℝ) : s * ∑ i, v i * w i = ∑ i, (w i * s) * v i := by
  rw [Finset.mul_sum]; exact Finset.sum_congr rfl fun i _ => by ring

variable {A : Args}

/-- A hidden activation of the reference is the coercion of a real number, and the kernel's is the same. -/
theorem hid_agree (hA : A.Finite) (r : Fin 16384) (h : Fin 128) :
    ∃ v : ℝ, hidRef A 0 r h = (v : EReal) ∧ hidKer A r h = (v : EReal) := by
  obtain ⟨x', hx⟩ := Classical.axiomOfChoice hA.x
  obtain ⟨w', hw⟩ := Classical.axiomOfChoice hA.wih
  obtain ⟨b', hb⟩ := Classical.axiomOfChoice hA.bh
  obtain ⟨s', hs⟩ := Classical.axiomOfChoice hA.rh
  refine ⟨Real.tanh (b' (ix1 h) + s' (ix1 h) * ∑ i : Fin 64, x' (ix2 r i) * w' (ix2 h i)), ?_, ?_⟩
  · unfold hidRef
    simp only [hx, hw, hb, hs, zero_add, ← EReal.coe_mul, ← coe_sum, ← EReal.coe_add, Ideal.tanh_coe]
  · unfold hidKer
    simp only [hx, hw, hb, hs, ← EReal.coe_mul, ← coe_sum, ← EReal.coe_add, Ideal.tanh_coe]
    rw [real_scale_sum]

/-- On finite arguments the two spellings of an output activation agree. -/
theorem out_agree (hA : A.Finite) (r : Fin 16384) (o : Fin 16) : outRef A 0 r o = outKer A r o := by
  obtain ⟨hv, hhv⟩ := Classical.axiomOfChoice (fun h => hid_agree hA r h)
  obtain ⟨w', hw⟩ := Classical.axiomOfChoice hA.who
  obtain ⟨b', hb⟩ := Classical.axiomOfChoice hA.bo
  obtain ⟨s', hs⟩ := Classical.axiomOfChoice hA.ro
  unfold outRef outKer
  simp only [fun h => (hhv h).1, fun h => (hhv h).2, hw, hb, hs, zero_add, ← EReal.coe_mul, ← coe_sum, ← EReal.coe_add]
  rw [real_scale_sum]

end Cert.Mlp

end
-- ==== Proof.FiniteArgs.lean ====
/-
  From the precondition to finiteness: every entry of every argument is a real number.

  The precondition is the conjunction of seven tests, one per argument: "every entry's absolute value is
  below plus infinity". The conjunction is 1 exactly when each test is 1; a test over all entries is 1 only
  when it is 1 at every entry; and an extended real whose absolute value max(x, -x) is below plus infinity is
  neither plus nor minus infinity, so it is (the coercion of) a real number.
-/
import proofs.«129742_g6708738916766_cont_9to1_m_1119_20_alg».proof.Pre_finite_inputs
import Idealize.ShloMosaic.Lib.ReduceAll
import Idealize.ShloMosaic.Lib.ValueIdx
import Idealize.ShloMosaic.PureOps.Ideal.Laws

noncomputable section

namespace Cert.FiniteArgs

open Idealize.ShloMosaic Idealize.ShloMosaic.ValueIdx Cert.Pre_finite_inputs

/-- The scalar shape has exactly one index. -/
instance : Subsingleton S_.Idx := ⟨fun a b => funext fun d => d.elim0⟩

/-- The 32-bit pattern with all exponent bits set and no significand bit is plus infinity. -/
theorem ofBits_inf : Ideal.ofBits .f32 0x7F800000#32 = (⊤ : EReal) := by
  simp [Ideal.ofBits, Ideal.ieee]

/-- An extended real whose absolute value `max x (-x)` tests below plus infinity is a real number: it is not
    plus infinity (then `x` itself would not be below), and not minus infinity (then `-x` would not be). -/
theorem real_of_abs_lt_inf (x : EReal)
    (h : Ideal.cmp .olt (max x (-x)) (Ideal.ofBits .f32 0x7F800000#32) = 1#1) : ∃ v : ℝ, x = (v : EReal) := by
  rw [ofBits_inf] at h
  have hlt : max x (-x) < (⊤ : EReal) := by
    by_contra hn
    have : Ideal.cmp .olt (max x (-x)) (⊤ : EReal) = 0#1 := by
      unfold Ideal.cmp
      simp only [decide_eq_false hn]
      rfl
    rw [this] at h
    exact absurd h (by decide)
  induction x using EReal.rec with
  | bot => exact absurd hlt (by simp)
  | coe r => exact ⟨r, rfl⟩
  | top => exact absurd hlt (by simp)

/-- One argument's test read back: when "all entries have absolute value below plus infinity" is 1, every
    entry is a real number. -/
theorem finite_of_all {s : Shape} {axes : List (Fin s.rank)} (a : FVec Ideal s .f32)
    (hb : S_.BroadcastsInDim s (![] : Fin 0 → Fin s.rank)) (hr : s.ReducesTo axes S_) (hu : 0 < S_.numel)
    (init : IVec S_ 1)
    (h : Host.reduce IntOp.andi
      (cmpf .olt (Host.absf a) (broadcastInDim s ![] hb (constant S_ .f32 0x7F800000#32))) init hr hu ix0 = 1#1) :
    ∀ i, ∃ v : ℝ, a i = (v : EReal) := by
  intro i
  have e := Host.reduce_andi_all _ init hr hu ix0 h i
  exact real_of_abs_lt_inf (a i) e

/-- THE PRECONDITION GIVES FINITENESS: when the seven tests' conjunction is 1, every entry of each of the seven
    arguments is a real number. -/
theorem finite_of_fn [Facts] (a0 : FVec Ideal S16384x64 .f32) (a1 : FVec Ideal S128x64 .f32)
    (a2 : FVec Ideal S16x128 .f32) (a3 : FVec Ideal S128 .f32) (a4 : FVec Ideal S16 .f32)
    (a5 : FVec Ideal S128 .f32) (a6 : FVec Ideal S16 .f32)
    (h : fn (F := Ideal) a0 a1 a2 a3 a4 a5 a6 = fun _ => 1#1) :
    (∀ i, ∃ v : ℝ, a0 i = (v : EReal)) ∧ (∀ i, ∃ v : ℝ, a1 i = (v : EReal)) ∧ (∀ i, ∃ v : ℝ, a2 i = (v : EReal))
      ∧ (∀ i, ∃ v : ℝ, a3 i = (v : EReal)) ∧ (∀ i, ∃ v : ℝ, a4 i = (v : EReal))
      ∧ (∀ i, ∃ v : ℝ, a5 i = (v : EReal)) ∧ (∀ i, ∃ v : ℝ, a6 i = (v : EReal)) := by
  have h0 := congrFun h ix0
  dsimp only [fn, fn_part1] at h0
  obtain ⟨h28, h32⟩ := IntOp.andi_eq_one.1 h0
  obtain ⟨h23, h27⟩ := IntOp.andi_eq_one.1 h28
  obtain ⟨h18, h22⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  exact ⟨finite_of_all a0 _ _ _ _ h3, finite_of_all a1 _ _ _ _ h7, finite_of_all a2 _ _ _ _ h12,
    finite_of_all a3 _ _ _ _ h17, finite_of_all a4 _ _ _ _ h22, finite_of_all a5 _ _ _ _ h27,
    finite_of_all a6 _ _ _ _ h32⟩

end Cert.FiniteArgs

end
-- ==== Proof.lean ====
/-
  The certificate of the two-layer network kernel against the node-by-node reference.

  Both programs compute, for every batch row and every output unit, tanh of a bias plus a weighted sum of
  hidden activations, each of which is tanh of a bias plus a weighted sum of inputs. The reference scales each
  finished sum by the unit's response; the kernel scales every weight by the response before the sum. On
  finite arguments every activation is a real number and the two spellings agree by distributivity.

  The three frames: the kernel's two (word-level and idealized) are the pipelined region's frame run carried
  to the argument arrays; the reference's is its run with the result dropped. The idealization rewrote
  nothing, so there is nothing to preserve. The value claim sets the kernel's run (its result as the network
  in the kernel's spelling) beside the reference's run (its result as the network in the reference's
  spelling, by the walk's invariant) and joins them by the agreement on finite arguments.
-/
import proofs.«129742_g6708738916766_cont_9to1_m_1119_20_alg».proof.Defs
import proofs.«129742_g6708738916766_cont_9to1_m_1119_20_alg».proof.Proof.Gen.Kernel
import proofs.«129742_g6708738916766_cont_9to1_m_1119_20_alg».proof.Proof.Gen.KernelIdeal
import proofs.«129742_g6708738916766_cont_9to1_m_1119_20_alg».proof.Proof.Gen.ReferenceIdeal
import proofs.«129742_g6708738916766_cont_9to1_m_1119_20_alg».proof.Proof.Gen.Pre_finite_inputs
import proofs.«129742_g6708738916766_cont_9to1_m_1119_20_alg».proof.Proof.FrameBits
import proofs.«129742_g6708738916766_cont_9to1_m_1119_20_alg».proof.Proof.FrameIdeal
import proofs.«129742_g6708738916766_cont_9to1_m_1119_20_alg».proof.Proof.KernelValue
import proofs.«129742_g6708738916766_cont_9to1_m_1119_20_alg».proof.Proof.RefWalk
import proofs.«129742_g6708738916766_cont_9to1_m_1119_20_alg».proof.Proof.MlpLaw
import proofs.«129742_g6708738916766_cont_9to1_m_1119_20_alg».proof.Proof.FiniteArgs
import Idealize.ShloMosaic.Adequacy
import Idealize.ShloMosaic.Init

noncomputable section

namespace Cert.Proof

open Idealize.ShloMosaic Idealize.SL.Sem Idealize.ShloMosaic.StableHlo

/-- The reference's arguments, read off a memory that agrees with the kernel's on the seven argument arrays,
    are the kernel's. -/
theorem args_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.RefStart.args (launchContents m' c) = Cert.KernelIdeal.KernelValue.argsOf m c := by
  obtain ⟨h0, h1, h2, h3, h4, h5, h6⟩ := h
  exact congr (congr (congr (congr (congr (congr (congrArg Cert.Mlp.Args.mk h0) h1) h2) h3) h4) h5) h6

/-- Under the precondition every entry of the kernel's seven arguments is a real number. -/
theorem finite_args (m : (ℓ : Loc Cert.KernelIdeal.nD Cert.KernelIdeal.τ Cert.KernelIdeal.sig) → Buf (Elt Ideal) ℓ)
    (hpre : Cert.Pre_KernelIdeal m) (c : Dev Cert.KernelIdeal.nD) : (Cert.KernelIdeal.KernelValue.argsOf m c).Finite := by
  obtain ⟨f0, f1, f2, f3, f4, f5, f6⟩ := Cert.FiniteArgs.finite_of_fn _ _ _ _ _ _ _ (hpre c)
  exact ⟨f0, f1, f2, f3, f4, f5, f6⟩

/-- THE VALUE CLAIM: from memories agreeing on the arguments both programs run to the end with the same
    result, the network's output on every batch row, and leave their arguments unchanged. -/
theorem algebraic : Cert.algebraic_KernelIdeal_ReferenceIdeal := fun m ρ m' ρ' hpre hagree =>
  ⟨fun c => (fun j => Cert.Mlp.outKer (Cert.KernelIdeal.KernelValue.argsOf m c) (j 0) (j 1)),
    Cert.KernelIdeal.KernelValue.run m ρ,
    (θ_run Cert.ReferenceIdeal.defs _ _).mono (fun _ h c => ⟨by
        rw [(h c).1, Cert.ReferenceIdeal.RefWalk.result_eq (launchContents m' c), args_agree m m' c (hagree c)]
        funext j
        show Cert.Mlp.outRef _ (Ideal.ofBits .f32 0x00000000#32) (j 0) (j 1) = _
        rw [Ideal.ofBits_zero_f32]
        exact Cert.Mlp.out_agree (finite_args m hpre c) (j 0) (j 1), (h c).2⟩)
      (Cert.ReferenceIdeal.ValueP.run (F := Ideal) m' ρ')⟩

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.ValueP.run (F := Ideal) m ρ),
  trivial,
  algebraic⟩

end Cert.Proof

end
